-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v41)) (v1 : (c : Dev Cert.KernelIdeal.nD) → Buf (Elt Ideal) ((c.tc : Thread Cert.KernelIdeal.nD Cert.KernelIdeal.τ).loc Cert.KernelIdeal.main_v42)) (v2 : (c : Dev Cert.KernelIdeal.nD) → Buf (Elt Ideal) ((c.tc : Thread Cert.KernelIdeal.nD Cert.KernelIdeal.τ).loc Cert.KernelIdeal.main_v43)) (v3 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_v42) = v1 c
          ∧ r.2.mem ((c.tc : Thread Cert.KernelIdeal.nD Cert.KernelIdeal.τ).loc Cert.KernelIdeal.main_v43) = v2 c
          ∧ r.2.mem ((c.tc : Thread Cert.KernelIdeal.nD Cert.KernelIdeal.τ).loc Cert.KernelIdeal.main_v45) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_v137) = v1 c
          ∧ r.2.mem ((c.tc : Thread Cert.ReferenceIdeal.nD Cert.ReferenceIdeal.τ).loc Cert.ReferenceIdeal.main_v138) = v2 c
          ∧ r.2.mem ((c.tc : Thread Cert.ReferenceIdeal.nD Cert.ReferenceIdeal.τ).loc Cert.ReferenceIdeal.main_v140) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x7x7x30 : Shape := ⟨4, ![8192, 7, 7, 30]⟩
abbrev S8192x7x7 : Shape := ⟨3, ![8192, 7, 7]⟩
abbrev S_ : Shape := ⟨0, ![]⟩

class Facts : Prop where
  bcast_S_S8192x7x7x30 : S_.BroadcastsInDim S8192x7x7x30 (![] : Fin 0 → Fin S8192x7x7x30.rank)
  reducesTo_S8192x7x7x30_S_d0_1_2_3 : S8192x7x7x30.ReducesTo [0, 1, 2, 3] S_
  h_S_ : 0 < S_.numel

variable [Facts]

def fn {F : FTy → Type} [FloatOps F] (main_arg0 : FVec F S8192x7x7x30 .f32) (main_arg1 : FVec F S8192x7x7x30 .f32) (main_arg2 : IVec S8192x7x7 32) : IVec S_ 1 :=
  let main_v0 : FVec F S8192x7x7x30 .f32 := Host.absf main_arg0
  let main_cst : FVec F S_ .f32 := constant S_ .f32 0x7F800000#32
  let main_v1 : FVec F S8192x7x7x30 .f32 := broadcastInDim S8192x7x7x30 ![] bcast_S_S8192x7x7x30 main_cst
  let main_v2 : IVec S8192x7x7x30 1 := cmpf .olt main_v0 main_v1
  let main_c : IVec S_ 1 := constantI S_ 1 1#1
  let main_v3 : IVec S_ 1 := (fun x v => Host.reduce IntOp.andi x v reducesTo_S8192x7x7x30_S_d0_1_2_3 h_S_) main_v2 main_c
  let main_v4 : FVec F S8192x7x7x30 .f32 := Host.absf main_arg1
  let main_cst_0 : FVec F S_ .f32 := constant S_ .f32 0x7F800000#32
  let main_v5 : FVec F S8192x7x7x30 .f32 := broadcastInDim S8192x7x7x30 ![] bcast_S_S8192x7x7x30 main_cst_0
  let main_v6 : IVec S8192x7x7x30 1 := cmpf .olt main_v4 main_v5
  let main_c_1 : IVec S_ 1 := constantI S_ 1 1#1
  let main_v7 : IVec S_ 1 := (fun x v => Host.reduce IntOp.andi x v reducesTo_S8192x7x7x30_S_d0_1_2_3 h_S_) main_v6 main_c_1
  let main_v8 : IVec S_ 1 := andi main_v3 main_v7
  main_v8
-- ==== Kernel.lean ====
abbrev S8192x7x7x30 : Shape := ⟨4, ![8192, 7, 7, 30]⟩
abbrev S8192x7x7 : Shape := ⟨3, ![8192, 7, 7]⟩
abbrev S2x1x1 : Shape := ⟨3, ![2, 1, 1]⟩
abbrev S128x7x7x30 : Shape := ⟨4, ![128, 7, 7, 30]⟩
abbrev S128x7x7 : Shape := ⟨3, ![128, 7, 7]⟩
abbrev S1x1x1 : Shape := ⟨3, ![1, 1, 1]⟩
abbrev S128x7x7x1 : Shape := ⟨4, ![128, 7, 7, 1]⟩
abbrev S128x7x7x4 : Shape := ⟨4, ![128, 7, 7, 4]⟩
abbrev S128x7x7x20 : Shape := ⟨4, ![128, 7, 7, 20]⟩
abbrev S128x49 : Shape := ⟨2, ![128, 49]⟩
abbrev S128 : Shape := ⟨1, ![128]⟩
abbrev S128x1 : Shape := ⟨2, ![128, 1]⟩
abbrev S1 : Shape := ⟨1, ![1]⟩
abbrev S1x1 : Shape := ⟨2, ![1, 1]⟩
abbrev S_ : Shape := ⟨0, ![]⟩

abbrev nBuf : Space → Nat
  | .hbm => 92
  | .vmem => 28
  | .smem => 0
  | _ => 0

abbrev bufTy : (tb : Table) → Fin (tcTables nBuf tb) → BufTy
  | .hbm, ⟨0, _⟩ => ⟨S8192x7x7x30, .f32⟩
  | .hbm, ⟨1, _⟩ => ⟨S8192x7x7x30, .f32⟩
  | .hbm, ⟨2, _⟩ => ⟨S8192x7x7, .i32⟩
  | .hbm, ⟨3, _⟩ => ⟨S2x1x1, .f32⟩
  | .hbm, ⟨4, _⟩ => ⟨S2x1x1, .f32⟩
  | .hbm, ⟨5, _⟩ => ⟨S2x1x1, .f32⟩
  | .hbm, ⟨6, _⟩ => ⟨S2x1x1, .f32⟩
  | .hbm, ⟨7, _⟩ => ⟨S2x1x1, .f32⟩
  | .hbm, ⟨8, _⟩ => ⟨S2x1x1, .f32⟩
  | .hbm, ⟨9, _⟩ => ⟨S2x1x1, .f32⟩
  | .hbm, ⟨10, _⟩ => ⟨S2x1x1, .f32⟩
  | .hbm, ⟨11, _⟩ => ⟨S2x1x1, .f32⟩
  | .hbm, ⟨12, _⟩ => ⟨S2x1x1, .f32⟩
  | .hbm, ⟨13, _⟩ => ⟨S2x1x1, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .local _ .vmem, ⟨0, _⟩ => ⟨S128x7x7x30, .f32⟩
  | .local _ .vmem, ⟨1, _⟩ => ⟨S128x7x7x30, .f32⟩
  | .local _ .vmem, ⟨2, _⟩ => ⟨S128x7x7x30, .f32⟩
  | .local _ .vmem, ⟨3, _⟩ => ⟨S128x7x7x30, .f32⟩
  | .local _ .vmem, ⟨4, _⟩ => ⟨S128x7x7, .i32⟩
  | .local _ .vmem, ⟨5, _⟩ => ⟨S128x7x7, .i32⟩
  | .local _ .vmem, ⟨6, _⟩ => ⟨S1x1x1, .f32⟩
  | .local _ .vmem, ⟨7, _⟩ => ⟨S1x1x1, .f32⟩
  | .local _ .vmem, ⟨8, _⟩ => ⟨S1x1x1, .f32⟩
  | .local _ .vmem, ⟨9, _⟩ => ⟨S1x1x1, .f32⟩
  | .local _ .vmem, ⟨10, _⟩ => ⟨S1x1x1, .f32⟩
  | .local _ .vmem, ⟨11, _⟩ => ⟨S1x1x1, .f32⟩
  | .local _ .vmem, ⟨12, _⟩ => ⟨S1x1x1, .f32⟩
  | .local _ .vmem, ⟨13, _⟩ => ⟨S1x1x1, .f32⟩
  | .local _ .vmem, ⟨14, _⟩ => ⟨S1x1x1, .f32⟩
  | .local _ .vmem, ⟨15, _⟩ => ⟨S1x1x1, .f32⟩
  | .local _ .vmem, ⟨16, _⟩ => ⟨S1x1x1, .f32⟩
  | .local _ .vmem, ⟨17, _⟩ => ⟨S1x1x1, .f32⟩
  | .local _ .vmem, ⟨18, _⟩ => ⟨S1x1x1, .f32⟩
  | .local _ .vmem, ⟨19, _⟩ => ⟨S1x1x1, .f32⟩
  | .local _ .vmem, ⟨20, _⟩ => ⟨S1x1x1, .f32⟩
  | .local _ .vmem, ⟨21, _⟩ => ⟨S1x1x1, .f32⟩
  | .local _ .vmem, ⟨22, _⟩ => ⟨S1x1x1, .f32⟩
  | .local _ .vmem, ⟨23, _⟩ => ⟨S1x1x1, .f32⟩
  | .local _ .vmem, ⟨24, _⟩ => ⟨S1x1x1, .f32⟩
  | .local _ .vmem, ⟨25, _⟩ => ⟨S1x1x1, .f32⟩
  | .local _ .vmem, ⟨26, _⟩ => ⟨S1x1x1, .f32⟩
  | .local _ .vmem, ⟨27, _⟩ => ⟨S1x1x1, .f32⟩
  | _, _ => ⟨S8192x7x7x30, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev main_v0_4 : Ref sig .tc := ⟨.hbm, 7, rfl⟩
abbrev main_v0_5 : Ref sig .tc := ⟨.hbm, 8, rfl⟩
abbrev main_v0_6 : Ref sig .tc := ⟨.hbm, 9, rfl⟩
abbrev main_v0_7 : Ref sig .tc := ⟨.hbm, 10, rfl⟩
abbrev main_v0_8 : Ref sig .tc := ⟨.hbm, 11, rfl⟩
abbrev main_v0_9 : Ref sig .tc := ⟨.hbm, 12, rfl⟩
abbrev main_v0_10 : Ref sig .tc := ⟨.hbm, 13, rfl⟩
abbrev main_cst : Ref sig .tc := ⟨.hbm, 14, rfl⟩
abbrev main_v1 : Ref sig .tc := ⟨.hbm, 15, rfl⟩
abbrev main_cst_0 : Ref sig .tc := ⟨.hbm, 16, rfl⟩
abbrev main_v2 : Ref sig .tc := ⟨.hbm, 17, rfl⟩
abbrev main_cst_1 : Ref sig .tc := ⟨.hbm, 18, rfl⟩
abbrev main_v3 : Ref sig .tc := ⟨.hbm, 19, rfl⟩
abbrev main_cst_2 : Ref sig .tc := ⟨.hbm, 20, rfl⟩
abbrev main_v4 : Ref sig .tc := ⟨.hbm, 21, rfl⟩
abbrev main_cst_3 : Ref sig .tc := ⟨.hbm, 22, rfl⟩
abbrev main_v5 : Ref sig .tc := ⟨.hbm, 23, rfl⟩
abbrev main_cst_4 : Ref sig .tc := ⟨.hbm, 24, rfl⟩
abbrev main_v6 : Ref sig .tc := ⟨.hbm, 25, rfl⟩
abbrev main_cst_5 : Ref sig .tc := ⟨.hbm, 26, rfl⟩
abbrev main_v7 : Ref sig .tc := ⟨.hbm, 27, rfl⟩
abbrev main_cst_6 : Ref sig .tc := ⟨.hbm, 28, rfl⟩
abbrev main_v8 : Ref sig .tc := ⟨.hbm, 29, rfl⟩
abbrev main_cst_7 : Ref sig .tc := ⟨.hbm, 30, rfl⟩
abbrev main_v9 : Ref sig .tc := ⟨.hbm, 31, rfl⟩
abbrev main_cst_8 : Ref sig .tc := ⟨.hbm, 32, rfl⟩
abbrev main_v10 : Ref sig .tc := ⟨.hbm, 33, rfl⟩
abbrev main_cst_9 : Ref sig .tc := ⟨.hbm, 34, rfl⟩
abbrev main_v11 : Ref sig .tc := ⟨.hbm, 35, rfl⟩
abbrev main_cst_10 : Ref sig .tc := ⟨.hbm, 36, rfl⟩
abbrev main_v12 : Ref sig .tc := ⟨.hbm, 37, rfl⟩
abbrev main_cst_11 : Ref sig .tc := ⟨.hbm, 38, rfl⟩
abbrev main_v13 : Ref sig .tc := ⟨.hbm, 39, rfl⟩
abbrev main_cst_12 : Ref sig .tc := ⟨.hbm, 40, rfl⟩
abbrev main_v14 : Ref sig .tc := ⟨.hbm, 41, rfl⟩
abbrev main_cst_13 : Ref sig .tc := ⟨.hbm, 42, rfl⟩
abbrev main_v15 : Ref sig .tc := ⟨.hbm, 43, rfl⟩
abbrev main_cst_14 : Ref sig .tc := ⟨.hbm, 44, rfl⟩
abbrev main_v16 : Ref sig .tc := ⟨.hbm, 45, rfl⟩
abbrev main_cst_15 : Ref sig .tc := ⟨.hbm, 46, rfl⟩
abbrev main_v17 : Ref sig .tc := ⟨.hbm, 47, rfl⟩
abbrev main_cst_16 : Ref sig .tc := ⟨.hbm, 48, rfl⟩
abbrev main_v18 : Ref sig .tc := ⟨.hbm, 49, rfl⟩
abbrev main_cst_17 : Ref sig .tc := ⟨.hbm, 50, rfl⟩
abbrev main_v19 : Ref sig .tc := ⟨.hbm, 51, rfl⟩
abbrev main_cst_18 : Ref sig .tc := ⟨.hbm, 52, rfl⟩
abbrev main_v20 : Ref sig .tc := ⟨.hbm, 53, rfl⟩
abbrev main_cst_19 : Ref sig .tc := ⟨.hbm, 54, rfl⟩
abbrev main_v21 : Ref sig .tc := ⟨.hbm, 55, rfl⟩
abbrev main_cst_20 : Ref sig .tc := ⟨.hbm, 56, rfl⟩
abbrev main_v22 : Ref sig .tc := ⟨.hbm, 57, rfl⟩
abbrev main_cst_21 : Ref sig .tc := ⟨.hbm, 58, rfl⟩
abbrev main_v23 : Ref sig .tc := ⟨.hbm, 59, rfl⟩
abbrev main_cst_22 : Ref sig .tc := ⟨.hbm, 60, rfl⟩
abbrev main_v24 : Ref sig .tc := ⟨.hbm, 61, rfl⟩
abbrev main_cst_23 : Ref sig .tc := ⟨.hbm, 62, rfl⟩
abbrev main_v25 : Ref sig .tc := ⟨.hbm, 63, rfl⟩
abbrev main_cst_24 : Ref sig .tc := ⟨.hbm, 64, rfl⟩
abbrev main_v26 : Ref sig .tc := ⟨.hbm, 65, rfl⟩
abbrev main_cst_25 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_v31 : Ref sig .tc := ⟨.hbm, 71, rfl⟩
abbrev main_v32 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_cst_26 : Ref sig .tc := ⟨.hbm, 80, rfl⟩
abbrev main_v40 : Ref sig .tc := ⟨.hbm, 81, rfl⟩
abbrev main_cst_27 : Ref sig .tc := ⟨.hbm, 82, rfl⟩
abbrev main_v41 : Ref sig .tc := ⟨.hbm, 83, rfl⟩
abbrev main_cst_28 : Ref sig .tc := ⟨.hbm, 84, rfl⟩
abbrev main_v42 : Ref sig .tc := ⟨.hbm, 85, rfl⟩
abbrev main_cst_29 : Ref sig .tc := ⟨.hbm, 86, rfl⟩
abbrev main_v43 : Ref sig .tc := ⟨.hbm, 87, rfl⟩
abbrev main_cst_30 : Ref sig .tc := ⟨.hbm, 88, rfl⟩
abbrev main_v44 : Ref sig .tc := ⟨.hbm, 89, rfl⟩
abbrev main_cst_31 : Ref sig .tc := ⟨.hbm, 90, rfl⟩
abbrev main_v45 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![2, 32], ![false, false]⟩

def cc0_transform_0 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  let c0_i32_2 : BitVec 32 := 0#32
  ![v1.toNat, c0_i32.toNat, c0_i32_0.toNat, c0_i32_1.toNat]

def cc0_transform_2 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x7x7x30 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x7x7x30 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x7x7 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x1x1 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x1x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x1x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x1x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S1x1x1 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]

class Facts₀ : Prop where
  inb_S1x1x1_S1x1x1_0_0_0 : ∀ a, (![0, 0, 0] : Fin 3 → Nat) a + S1x1x1.size a ≤ S1x1x1.size a
  h_S1x1x1 : 0 < S1x1x1.numel
  inb_S128x7x7x30_S128x7x7x30_0_0_0_0 : ∀ a, (![0, 0, 0, 0] : Fin 4 → Nat) a + S128x7x7x30.size a ≤ S128x7x7x30.size a
  h_S128x7x7x30 : 0 < S128x7x7x30.numel
  inb_S128x7x7_S128x7x7_0_0_0 : ∀ a, (![0, 0, 0] : Fin 3 → Nat) a + S128x7x7.size a ≤ S128x7x7.size a
  h_S128x7x7 : 0 < S128x7x7.numel
  slices_S128x7x7x30_o0_0_0_4_S128x7x7x1 : S128x7x7x30.Slices ![0, 0, 0, 4] S128x7x7x1
  shapeCasts_S128x7x7x1_S128x7x7 : S128x7x7x1.ShapeCasts S128x7x7
  slices_S128x7x7x30_o0_0_0_9_S128x7x7x1 : S128x7x7x30.Slices ![0, 0, 0, 9] S128x7x7x1
  natLt_1_32 : 1 < 32
  slices_S128x7x7x30_o0_0_0_0_S128x7x7x4 : S128x7x7x30.Slices ![0, 0, 0, 0] S128x7x7x4
  reduces_S128x7x7x4_S128x7x7 : S128x7x7x4.Reduces [3] S128x7x7
  slices_S128x7x7x30_o0_0_0_5_S128x7x7x4 : S128x7x7x30.Slices ![0, 0, 0, 5] S128x7x7x4
  slices_S128x7x7x30_o0_0_0_10_S128x7x7x20 : S128x7x7x30.Slices ![0, 0, 0, 10] S128x7x7x20
  reduces_S128x7x7x20_S128x7x7 : S128x7x7x20.Reduces [3] S128x7x7
  shapeCasts_S128x7x7_S128x49 : S128x7x7.ShapeCasts S128x49
  reduces_S128x49_S128 : S128x49.Reduces [1] S128
  shapeCasts_S128_S128x1 : S128.ShapeCasts S128x1
  reduces_S128x1_S1 : S128x1.Reduces [0] S1
  shapeCasts_S1_S1x1 : S1.ShapeCasts S1x1
  shapeCasts_S1x1_S1x1x1 : S1x1.ShapeCasts S1x1x1
  shapeCasts_S1x1x1_S1x1x1 : S1x1x1.ShapeCasts S1x1x1
  reducesTo_S2x1x1_S_d0_1_2 : S2x1x1.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x7x7x30.size a ≤ S8192x7x7x30.size a
  hwx0_0 : ∀ i : grid0.Coords, EltTy.bits .f32 = 32 ∨ (Rect.block (s := S8192x7x7x30) S128x7x7x30.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x7x7x30.size a ≤ S8192x7x7x30.size a
  hwx0_1 : ∀ i : grid0.Coords, EltTy.bits .f32 = 32 ∨ (Rect.block (s := S8192x7x7x30) S128x7x7x30.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x7x7.size a ≤ S8192x7x7.size a
  hwx0_2 : ∀ i : grid0.Coords, EltTy.bits .i32 = 32 ∨ (Rect.block (s := S8192x7x7) S128x7x7.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x1.size a ≤ S2x1x1.size a
  hwx0_3 : ∀ i : grid0.Coords, EltTy.bits .f32 = 32 ∨ (Rect.block (s := S2x1x1) S1x1x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x1.size a ≤ S2x1x1.size a
  hwx0_4 : ∀ i : grid0.Coords, EltTy.bits .f32 = 32 ∨ (Rect.block (s := S2x1x1) S1x1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x1.size a ≤ S2x1x1.size a
  hwx0_5 : ∀ i : grid0.Coords, EltTy.bits .f32 = 32 ∨ (Rect.block (s := S2x1x1) S1x1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1.size a ≤ S2x1x1.size a
  hwx0_6 : ∀ i : grid0.Coords, EltTy.bits .f32 = 32 ∨ (Rect.block (s := S2x1x1) S1x1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x1.size a ≤ S2x1x1.size a
  hwx0_7 : ∀ i : grid0.Coords, EltTy.bits .f32 = 32 ∨ (Rect.block (s := S2x1x1) S1x1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x1.size a ≤ S2x1x1.size a
  hwx0_8 : ∀ i : grid0.Coords, EltTy.bits .f32 = 32 ∨ (Rect.block (s := S2x1x1) S1x1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x1x1.size a ≤ S2x1x1.size a
  hwx0_9 : ∀ i : grid0.Coords, EltTy.bits .f32 = 32 ∨ (Rect.block (s := S2x1x1) S1x1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x1x1.size a ≤ S2x1x1.size a
  hwx0_10 : ∀ i : grid0.Coords, EltTy.bits .f32 = 32 ∨ (Rect.block (s := S2x1x1) S1x1x1.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x1x1.size a ≤ S2x1x1.size a
  hwx0_11 : ∀ i : grid0.Coords, EltTy.bits .f32 = 32 ∨ (Rect.block (s := S2x1x1) S1x1x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x1x1.size a ≤ S2x1x1.size a
  hwx0_12 : ∀ i : grid0.Coords, EltTy.bits .f32 = 32 ∨ (Rect.block (s := S2x1x1) S1x1x1.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x1x1.size a ≤ S2x1x1.size a
  hwx0_13 : ∀ i : grid0.Coords, EltTy.bits .f32 = 32 ∨ (Rect.block (s := S2x1x1) S1x1x1.size (cc0_transform_13 i) (hinb0_13 i)).WholeWords (EltTy.packing .f32)

variable [Facts₀]

abbrev win0_0 : Pipeline.Window sig grid0 :=
  Pipeline.Window.ofSpec (Memref.whole main_arg0) S128x7x7x30.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x7x7x30.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x7x7.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1x1x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_3) S1x1x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v0_4) S1x1x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_5) S1x1x1.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v0_6) S1x1x1.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v0_7) S1x1x1.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v0_8) S1x1x1.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v0_9) S1x1x1.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v0_10) S1x1x1.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S8192x7x7x30 : Shape := ⟨4, ![8192, 7, 7, 30]⟩
abbrev S8192x7x7 : Shape := ⟨3, ![8192, 7, 7]⟩
abbrev S8192x7x7x1 : Shape := ⟨4, ![8192, 7, 7, 1]⟩
abbrev S_ : Shape := ⟨0, ![]⟩
abbrev S1 : Shape := ⟨1, ![1]⟩
abbrev S8192x7x7x4 : Shape := ⟨4, ![8192, 7, 7, 4]⟩
abbrev S8192x7x7x20 : Shape := ⟨4, ![8192, 7, 7, 20]⟩

abbrev nBuf : Space → Nat
  | .hbm => 196
  | .vmem => 0
  | .smem => 0
  | _ => 0

abbrev hbmTy0_0 (i : Nat) : BufTy := match i % 128 with
  | 0 => ⟨S8192x7x7x30, .f32⟩
  | 1 => ⟨S8192x7x7x30, .f32⟩
  | 2 => ⟨S8192x7x7, .i32⟩
  | 3 => ⟨S8192x7x7x1, .f32⟩
  | 4 => ⟨S8192x7x7, .f32⟩
  | 5 => ⟨S_, .f32⟩
  | 6 => ⟨S8192x7x7, .f32⟩
  | 7 => ⟨S8192x7x7, .i1⟩
  | 8 => ⟨S_, .i32⟩
  | 9 => ⟨S8192x7x7, .i32⟩
  | 10 => ⟨S8192x7x7, .i1⟩
  | 11 => ⟨S8192x7x7, .i1⟩
  | 12 => ⟨S8192x7x7, .i1⟩
  | 13 => ⟨S8192x7x7x1, .f32⟩
  | 14 => ⟨S8192x7x7, .f32⟩
  | 15 => ⟨S_, .f32⟩
  | 16 => ⟨S_, .f32⟩
  | 17 => ⟨S8192x7x7, .f32⟩
  | 18 => ⟨S8192x7x7, .f32⟩
  | 19 => ⟨S8192x7x7, .i1⟩
  | 20 => ⟨S8192x7x7x1, .f32⟩
  | 21 => ⟨S8192x7x7, .f32⟩
  | 22 => ⟨S_, .f32⟩
  | 23 => ⟨S_, .f32⟩
  | 24 => ⟨S8192x7x7, .f32⟩
  | 25 => ⟨S8192x7x7, .f32⟩
  | 26 => ⟨S_, .i32⟩
  | 27 => ⟨S1, .i32⟩
  | 28 => ⟨S8192x7x7x30, .f32⟩
  | 29 => ⟨S_, .i32⟩
  | 30 => ⟨S1, .i32⟩
  | 31 => ⟨S8192x7x7x30, .f32⟩
  | 32 => ⟨S8192x7x7x1, .f32⟩
  | 33 => ⟨S8192x7x7, .f32⟩
  | 34 => ⟨S_, .f32⟩
  | 35 => ⟨S8192x7x7, .f32⟩
  | 36 => ⟨S8192x7x7, .i1⟩
  | 37 => ⟨S8192x7x7, .f32⟩
  | 38 => ⟨S8192x7x7x1, .f32⟩
  | 39 => ⟨S8192x7x7, .f32⟩
  | 40 => ⟨S_, .f32⟩
  | 41 => ⟨S8192x7x7, .f32⟩
  | 42 => ⟨S8192x7x7, .i1⟩
  | 43 => ⟨S8192x7x7, .f32⟩
  | 44 => ⟨S8192x7x7x1, .f32⟩
  | 45 => ⟨S8192x7x7, .f32⟩
  | 46 => ⟨S_, .f32⟩
  | 47 => ⟨S8192x7x7, .f32⟩
  | 48 => ⟨S8192x7x7, .i1⟩
  | 49 => ⟨S8192x7x7x1, .f32⟩
  | 50 => ⟨S8192x7x7, .f32⟩
  | 51 => ⟨S_, .f32⟩
  | 52 => ⟨S8192x7x7, .f32⟩
  | 53 => ⟨S8192x7x7, .i1⟩
  | 54 => ⟨S8192x7x7, .i1⟩
  | 55 => ⟨S8192x7x7, .f32⟩
  | 56 => ⟨S8192x7x7x4, .f32⟩
  | 57 => ⟨S8192x7x7x4, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S8192x7x7x4, .f32⟩
  | 65 => ⟨S8192x7x7x4, .f32⟩
  | 66 => ⟨S8192x7x7x1, .f32⟩
  | 67 => ⟨S8192x7x7x4, .f32⟩
  | 68 => ⟨S8192x7x7x4, .f32⟩
  | 69 => ⟨S_, .f32⟩
  | 70 => ⟨S_, .f32⟩
  | 71 => ⟨S_, .f32⟩
  | 72 => ⟨S8192x7x7x4, .f32⟩
  | 73 => ⟨S8192x7x7x4, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S8192x7x7x4, .f32⟩
  | 81 => ⟨S8192x7x7x4, .f32⟩
  | 82 => ⟨S8192x7x7x1, .f32⟩
  | 83 => ⟨S8192x7x7x4, .f32⟩
  | 84 => ⟨S8192x7x7x4, .f32⟩
  | 85 => ⟨S_, .f32⟩
  | 86 => ⟨S_, .f32⟩
  | 87 => ⟨S_, .f32⟩
  | 88 => ⟨S_, .f32⟩
  | 89 => ⟨S8192x7x7x1, .f32⟩
  | 90 => ⟨S8192x7x7x1, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S8192x7x7x1, .f32⟩
  | 98 => ⟨S8192x7x7x1, .f32⟩
  | 99 => ⟨S8192x7x7x1, .f32⟩
  | 100 => ⟨S8192x7x7x1, .f32⟩
  | 101 => ⟨S_, .f32⟩
  | 102 => ⟨S_, .f32⟩
  | 103 => ⟨S_, .f32⟩
  | 104 => ⟨S8192x7x7x1, .f32⟩
  | 105 => ⟨S8192x7x7x1, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S8192x7x7x1, .f32⟩
  | 113 => ⟨S8192x7x7x1, .f32⟩
  | 114 => ⟨S8192x7x7x1, .f32⟩
  | 115 => ⟨S8192x7x7x1, .f32⟩
  | 116 => ⟨S_, .f32⟩
  | 117 => ⟨S_, .f32⟩
  | 118 => ⟨S_, .f32⟩
  | 119 => ⟨S_, .f32⟩
  | 120 => ⟨S8192x7x7x20, .f32⟩
  | 121 => ⟨S8192x7x7x20, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S8192x7x7x30, .f32⟩

abbrev hbmTy0_1 (i : Nat) : BufTy := match i % 128 with
  | 0 => ⟨S8192x7x7x20, .f32⟩
  | 1 => ⟨S8192x7x7x20, .f32⟩
  | 2 => ⟨S8192x7x7x1, .f32⟩
  | 3 => ⟨S8192x7x7x20, .f32⟩
  | 4 => ⟨S8192x7x7x20, .f32⟩
  | 5 => ⟨S_, .f32⟩
  | 6 => ⟨S_, .f32⟩
  | 7 => ⟨S_, .f32⟩
  | 8 => ⟨S8192x7x7x20, .f32⟩
  | 9 => ⟨S8192x7x7x20, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S8192x7x7x20, .f32⟩
  | 17 => ⟨S8192x7x7x20, .f32⟩
  | 18 => ⟨S8192x7x7x1, .f32⟩
  | 19 => ⟨S8192x7x7x20, .f32⟩
  | 20 => ⟨S8192x7x7x20, .f32⟩
  | 21 => ⟨S_, .f32⟩
  | 22 => ⟨S_, .f32⟩
  | 23 => ⟨S_, .f32⟩
  | 24 => ⟨S_, .f32⟩
  | 25 => ⟨S8192x7x7x1, .f32⟩
  | 26 => ⟨S8192x7x7x1, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S8192x7x7x1, .f32⟩
  | 34 => ⟨S8192x7x7x1, .f32⟩
  | 35 => ⟨S8192x7x7x1, .f32⟩
  | 36 => ⟨S8192x7x7x1, .f32⟩
  | 37 => ⟨S_, .f32⟩
  | 38 => ⟨S_, .f32⟩
  | 39 => ⟨S_, .f32⟩
  | 40 => ⟨S8192x7x7x1, .f32⟩
  | 41 => ⟨S8192x7x7x1, .f32⟩
  | 42 => ⟨S_, .f32⟩
  | 43 => ⟨S_, .f32⟩
  | 44 => ⟨S_, .f32⟩
  | 45 => ⟨S_, .f32⟩
  | 46 => ⟨S_, .f32⟩
  | 47 => ⟨S_, .f32⟩
  | 48 => ⟨S8192x7x7x1, .f32⟩
  | 49 => ⟨S8192x7x7x1, .f32⟩
  | 50 => ⟨S8192x7x7x1, .f32⟩
  | 51 => ⟨S8192x7x7x1, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | _ => ⟨S8192x7x7x30, .f32⟩

abbrev hbmTy (i : Nat) : BufTy := match i / 128 with
  | 0 => hbmTy0_0 i
  | 1 => hbmTy0_1 i
  | _ => ⟨S8192x7x7x30, .f32⟩

abbrev bufTy : (tb : Table) → Fin (tcTables nBuf tb) → BufTy
  | .hbm, ⟨i, _⟩ => hbmTy i
  | _, _ => ⟨S8192x7x7x30, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_call0_v0 : Ref sig .tc := ⟨.hbm, 16, rfl⟩
abbrev main_call0_v1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_call1_v0 : Ref sig .tc := ⟨.hbm, 23, rfl⟩
abbrev main_call1_v1 : Ref sig .tc := ⟨.hbm, 24, rfl⟩
abbrev main_v14 : Ref sig .tc := ⟨.hbm, 25, rfl⟩
abbrev main_c_2 : Ref sig .tc := ⟨.hbm, 26, rfl⟩
abbrev main_v15 : Ref sig .tc := ⟨.hbm, 27, rfl⟩
abbrev main_v16 : Ref sig .tc := ⟨.hbm, 28, rfl⟩
abbrev main_c_3 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_cst_9 : Ref sig .tc := ⟨.hbm, 60, rfl⟩
abbrev main_v42 : Ref sig .tc := ⟨.hbm, 61, rfl⟩
abbrev main_cst_10 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_11 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_12 : Ref sig .tc := ⟨.hbm, 74, rfl⟩
abbrev main_v53 : Ref sig .tc := ⟨.hbm, 75, rfl⟩
abbrev main_cst_13 : Ref sig .tc := ⟨.hbm, 76, rfl⟩
abbrev main_v54 : Ref sig .tc := ⟨.hbm, 77, rfl⟩
abbrev main_cst_14 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_15 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_16 : Ref sig .tc := ⟨.hbm, 91, rfl⟩
abbrev main_v66 : Ref sig .tc := ⟨.hbm, 92, rfl⟩
abbrev main_cst_17 : Ref sig .tc := ⟨.hbm, 93, rfl⟩
abbrev main_v67 : Ref sig .tc := ⟨.hbm, 94, rfl⟩
abbrev main_cst_18 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_cst_19 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_cst_20 : Ref sig .tc := ⟨.hbm, 106, rfl⟩
abbrev main_v77 : Ref sig .tc := ⟨.hbm, 107, rfl⟩
abbrev main_cst_21 : Ref sig .tc := ⟨.hbm, 108, rfl⟩
abbrev main_v78 : Ref sig .tc := ⟨.hbm, 109, rfl⟩
abbrev main_cst_22 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_cst_23 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_cst_24 : Ref sig .tc := ⟨.hbm, 122, rfl⟩
abbrev main_v89 : Ref sig .tc := ⟨.hbm, 123, rfl⟩
abbrev main_cst_25 : Ref sig .tc := ⟨.hbm, 124, rfl⟩
abbrev main_v90 : Ref sig .tc := ⟨.hbm, 125, rfl⟩
abbrev main_cst_26 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_cst_27 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_cst_28 : Ref sig .tc := ⟨.hbm, 138, rfl⟩
abbrev main_v101 : Ref sig .tc := ⟨.hbm, 139, rfl⟩
abbrev main_cst_29 : Ref sig .tc := ⟨.hbm, 140, rfl⟩
abbrev main_v102 : Ref sig .tc := ⟨.hbm, 141, rfl⟩
abbrev main_cst_30 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_cst_31 : Ref sig .tc := ⟨.hbm, 149, rfl⟩
abbrev main_v109 : Ref sig .tc := ⟨.hbm, 150, rfl⟩
abbrev main_v110 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_cst_32 : Ref sig .tc := ⟨.hbm, 155, rfl⟩
abbrev main_v114 : Ref sig .tc := ⟨.hbm, 156, rfl⟩
abbrev main_cst_33 : Ref sig .tc := ⟨.hbm, 157, rfl⟩
abbrev main_v115 : Ref sig .tc := ⟨.hbm, 158, rfl⟩
abbrev main_cst_34 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_cst_35 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_cst_36 : Ref sig .tc := ⟨.hbm, 170, rfl⟩
abbrev main_v125 : Ref sig .tc := ⟨.hbm, 171, rfl⟩
abbrev main_cst_37 : Ref sig .tc := ⟨.hbm, 172, rfl⟩
abbrev main_v126 : Ref sig .tc := ⟨.hbm, 173, rfl⟩
abbrev main_cst_38 : Ref sig .tc := ⟨.hbm, 174, rfl⟩
abbrev main_v127 : Ref sig .tc := ⟨.hbm, 175, rfl⟩
abbrev main_v128 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_cst_39 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_cst_40 : Ref sig .tc := ⟨.hbm, 184, rfl⟩
abbrev main_v135 : Ref sig .tc := ⟨.hbm, 185, rfl⟩
abbrev main_cst_41 : Ref sig .tc := ⟨.hbm, 186, rfl⟩
abbrev main_v136 : Ref sig .tc := ⟨.hbm, 187, rfl⟩
abbrev main_cst_42 : Ref sig .tc := ⟨.hbm, 188, rfl⟩
abbrev main_v137 : Ref sig .tc := ⟨.hbm, 189, rfl⟩
abbrev main_cst_43 : Ref sig .tc := ⟨.hbm, 190, rfl⟩
abbrev main_v138 : Ref sig .tc := ⟨.hbm, 191, rfl⟩
abbrev main_cst_44 : Ref sig .tc := ⟨.hbm, 192, rfl⟩
abbrev main_v139 : Ref sig .tc := ⟨.hbm, 193, rfl⟩
abbrev main_cst_45 : Ref sig .tc := ⟨.hbm, 194, rfl⟩
abbrev main_v140 : Ref sig .tc := ⟨.hbm, 195, rfl⟩

abbrev nD : Nat := 1
abbrev τ : Topo := Topo.v7x

variable {F : FTy → Type} [FloatOps F]

class Facts₀ : Prop where
  slices_S8192x7x7x30_S8192x7x7x1_0_0_0_4 : S8192x7x7x30.Slices ![0, 0, 0, 4] S8192x7x7x1
  shapeCasts_S8192x7x7x1_S8192x7x7 : S8192x7x7x1.ShapeCasts S8192x7x7
  bcast_S_S8192x7x7 : S_.BroadcastsInDim S8192x7x7 (![] : Fin 0 → Fin S8192x7x7.rank)
  slices_S8192x7x7x30_S8192x7x7x1_0_0_0_9 : S8192x7x7x30.Slices ![0, 0, 0, 9] S8192x7x7x1
  bcast_S_S1 : S_.BroadcastsInDim S1 (![] : Fin 0 → Fin S1.rank)
  slices_S8192x7x7x30_S8192x7x7x4_0_0_0_0 : S8192x7x7x30.Slices ![0, 0, 0, 0] S8192x7x7x4
  reducesTo_S8192x7x7_S_d0_1_2 : S8192x7x7.ReducesTo [0, 1, 2] S_
  h_S_ : 0 < S_.numel
  bcast_S8192x7x7_S8192x7x7x1_0_1_2 : S8192x7x7.BroadcastsInDim S8192x7x7x1 (![0, 1, 2] : Fin 3 → Fin S8192x7x7x1.rank)
  bcast_S8192x7x7x1_S8192x7x7x4_0_1_2_3 : S8192x7x7x1.BroadcastsInDim S8192x7x7x4 (![0, 1, 2, 3] : Fin 4 → Fin S8192x7x7x4.rank)
  reducesTo_S8192x7x7x4_S_d0_1_2_3 : S8192x7x7x4.ReducesTo [0, 1, 2, 3] S_
  slices_S8192x7x7x30_S8192x7x7x4_0_0_0_5 : S8192x7x7x30.Slices ![0, 0, 0, 5] S8192x7x7x4
  reducesTo_S8192x7x7x1_S_d0_1_2_3 : S8192x7x7x1.ReducesTo [0, 1, 2, 3] S_
  slices_S8192x7x7x30_S8192x7x7x20_0_0_0_10 : S8192x7x7x30.Slices ![0, 0, 0, 10] S8192x7x7x20
  bcast_S8192x7x7x1_S8192x7x7x20_0_1_2_3 : S8192x7x7x1.BroadcastsInDim S8192x7x7x20 (![0, 1, 2, 3] : Fin 4 → Fin S8192x7x7x20.rank)
  reducesTo_S8192x7x7x20_S_d0_1_2_3 : S8192x7x7x20.ReducesTo [0, 1, 2, 3] S_
  scatter_S8192x7x7x30_S1_S8192x7x7_012_3_3_0_wf : ScatterDims.WF S8192x7x7x30 S1 S8192x7x7 [0, 1, 2] [3] [3] 0

variable [Facts₀]

def scatter_S8192x7x7x30_S1_S8192x7x7_012_3_3_0 : ScatterDims S8192x7x7x30 S1 S8192x7x7 where
  updateWindowDims := [0, 1, 2]
  insertedWindowDims := [3]
  scatterDimsToOperandDims := [3]
  indexVectorDim := 0
  wf := scatter_S8192x7x7x30_S1_S8192x7x7_012_3_3_0_wf

class Facts : Prop extends Facts₀ where

variable [Facts]
-- ==== Proof.FrameBaseB.lean ====
/-
  The one pallas_call of this program runs on a 2 x 32 grid: point (c, b) stages block 32c + b (128 batch rows)
  of the three argument arrays and adds eleven partial sums into eleven one-entry accumulators, which are
  cleared at b = 0 and written back to entry c of eleven [2,1,1] arrays after b = 31.  This module fixes what the
  frame of that program is stated over: the buffer contents when the region is entered (nothing runs before it),
  the 78 scalar host lines that follow it (they allocate nothing and write none of the fourteen arrays), the
  blocks of the windows, the one branch condition of the body (b = 0) decided over the grid, and the staging
  memrefs the body is called with at a point.
-/
import proofs.«100404_j84018150244766_2_alg».proof.Proof.Gen.Kernel.Launch
import proofs.«100404_j84018150244766_2_alg».proof.Proof.Gen.Kernel.Skeleton
import proofs.«100404_j84018150244766_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384
set_option maxHeartbeats 40000000

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: as launched (no host line comes before the region). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The host lines after the region allocate nothing. -/
theorem hostOps1_fresh : (hostOps1 : List (HloOp τ sig (Elt F))).Forall fun op => op.fresh = ∅ := by
  simp only [List.Forall]; repeat' constructor

/-- @main is the region continued by the 78 host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- The later lines touch unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- Each later line writes its own result buffer, which is none of the fourteen arrays of the pipeline. -/
theorem hostOps1_keeps : (hostOps1 : List (HloOp τ sig (Elt F))).Forall fun op =>
    ∀ w, Proc.devRef .tc (Pipeline.arrRef spec0 w) ∉ op.writes := by
  simp only [List.Forall, StableHlo.nullary_writes, StableHlo.binary_writes, Finset.mem_singleton]
  repeat' apply And.intro
  all_goals intro w; fin_cases w <;> exact StableHlo.devRef_ne_of_ne (by decide)
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact (List.forall_iff_forall_mem.mp hostOps1_keeps) op hop

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, for any proof data whose array is the
    region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, for any proof data whose array is the
    region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the frame post read at the three
    argument arrays (each a staged input: it ends at its entry contents) is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
    ((h c).1 1).trans (((dats 0 c).arrAt_in 1 rfl _).trans ((hA c 1).trans (V_main_arg1 m c))),
    ((h c).1 2).trans (((dats 0 c).arrAt_in 2 rfl _).trans ((hA c 2).trans (V_main_arg2 m c)))⟩) h

/-! ## The body's branch condition -/

/-- The body clears its accumulators when the second grid coordinate is zero. -/
abbrev cond0_0 (i : grid0.Coords) : Prop := (Scalar.cmpi .ne (Scalar.extui (Scalar.cmpi .eq (BitVec.ofNat 32 (i 1).val) 0#32)) 0#32) = 1#1
/-- That is at the points 0 and 32 — decided over the grid. -/
theorem hcond0_0 : ∀ t : Fin cfg0.N, cond0_0 (grid0.coords t) ↔ t.val % 32 = 0 :=
  (by decide +kernel : ∀ t : Fin grid0.N, cond0_0 (grid0.coords t) ↔ t.val % 32 = 0)

/-- No window is ever idle. -/
theorem live0 : ∀ (w : Fin cfg0.W) (i : grid0.Coords), cfg0.idle w i = false := fun _ _ => rfl

/-! ## The staging memrefs -/
abbrev VO0_3 : View sig .tc .vmem S1x1x1 .f32 := (Memref.whole cc0_stg3_0 : Memref sig .tc .vmem S1x1x1 .f32).view
abbrev VO0_4 : View sig .tc .vmem S1x1x1 .f32 := (Memref.whole cc0_stg4_0 : Memref sig .tc .vmem S1x1x1 .f32).view
abbrev VO0_5 : View sig .tc .vmem S1x1x1 .f32 := (Memref.whole cc0_stg5_0 : Memref sig .tc .vmem S1x1x1 .f32).view
abbrev VO0_6 : View sig .tc .vmem S1x1x1 .f32 := (Memref.whole cc0_stg6_0 : Memref sig .tc .vmem S1x1x1 .f32).view
abbrev VO0_7 : View sig .tc .vmem S1x1x1 .f32 := (Memref.whole cc0_stg7_0 : Memref sig .tc .vmem S1x1x1 .f32).view
abbrev VO0_8 : View sig .tc .vmem S1x1x1 .f32 := (Memref.whole cc0_stg8_0 : Memref sig .tc .vmem S1x1x1 .f32).view
abbrev VO0_9 : View sig .tc .vmem S1x1x1 .f32 := (Memref.whole cc0_stg9_0 : Memref sig .tc .vmem S1x1x1 .f32).view
abbrev VO0_10 : View sig .tc .vmem S1x1x1 .f32 := (Memref.whole cc0_stg10_0 : Memref sig .tc .vmem S1x1x1 .f32).view
abbrev VO0_11 : View sig .tc .vmem S1x1x1 .f32 := (Memref.whole cc0_stg11_0 : Memref sig .tc .vmem S1x1x1 .f32).view
abbrev VO0_12 : View sig .tc .vmem S1x1x1 .f32 := (Memref.whole cc0_stg12_0 : Memref sig .tc .vmem S1x1x1 .f32).view
abbrev VO0_13 : View sig .tc .vmem S1x1x1 .f32 := (Memref.whole cc0_stg13_0 : Memref sig .tc .vmem S1x1x1 .f32).view
abbrev ms0_0 (t : Fin cfg0.N) : Memref sig .tc .vmem S128x7x7x30 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x7x7x30 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x7x7 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x1 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1x1 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1x1 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1x1 .f32 := win0_13.stage (cfg0.slots t 13)
abbrev hs0_13 (t : Fin cfg0.N) : (ms0_13 t).IsWhole := hstage0_13 ((cfg0.slots t 13).cast nbuf0_13)

end Cert.Kernel.Frame

end
-- ==== Proof.FrameRunAB.lean ====
/-
  The kernel body run once at a grid point where the second coordinate is zero: the eleven accumulators are first cleared,
  the three input blocks are loaded, and each accumulator is stored back with its partial sum added.  The run is a
  triple over any whole staging memrefs; what each accumulator's buffer ends with is recorded as the list of its
  stores (last first), which the symbolic execution finds.
-/
import proofs.«100404_j84018150244766_2_alg».proof.Proof.FrameBaseB

set_option maxRecDepth 16384
set_option maxHeartbeats 40000000

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : cond0_0 i)
    (x0 : Vec F S128x7x7x30 .f32) (x1 : Vec F S128x7x7x30 .f32) (x2 : Vec F S128x7x7 .i32) :
    Σ' (L3 : List (View.Piece (Elt F) S1x1x1 .f32)) (L4 : List (View.Piece (Elt F) S1x1x1 .f32)) (L5 : List (View.Piece (Elt F) S1x1x1 .f32)) (L6 : List (View.Piece (Elt F) S1x1x1 .f32)) (L7 : List (View.Piece (Elt F) S1x1x1 .f32)) (L8 : List (View.Piece (Elt F) S1x1x1 .f32)) (L9 : List (View.Piece (Elt F) S1x1x1 .f32)) (L10 : List (View.Piece (Elt F) S1x1x1 .f32)) (L11 : List (View.Piece (Elt F) S1x1x1 .f32)) (L12 : List (View.Piece (Elt F) S1x1x1 .f32)), { L13 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13)) -∗ K ⟨⟩))
          ⊢ wp frame (wpE (defs₀ (F := F)) Variants.none c none) E (cc0__yolo_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, ?_, ?_, ?_, ?_, fun E K => ?run⟩
  case run =>
    simp only [cc0__yolo_kernel_eq_skeleton]; unfold cc0__yolo_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13

end Cert.Kernel.Frame

end
-- ==== Proof.FrameRunBB.lean ====
/-
  The kernel body run once at a grid point where the second coordinate is not zero: the eleven accumulators are read at what the point before left,
  the three input blocks are loaded, and each accumulator is stored back with its partial sum added.  The run is a
  triple over any whole staging memrefs; what each accumulator's buffer ends with is recorded as the list of its
  stores (last first), which the symbolic execution finds.
-/
import proofs.«100404_j84018150244766_2_alg».proof.Proof.FrameRunAB

set_option maxRecDepth 16384
set_option maxHeartbeats 40000000

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : ¬cond0_0 i)
    (x0 : Vec F S128x7x7x30 .f32) (x1 : Vec F S128x7x7x30 .f32) (x2 : Vec F S128x7x7 .i32) (xo3 : Vec F S1x1x1 .f32) (xo4 : Vec F S1x1x1 .f32) (xo5 : Vec F S1x1x1 .f32) (xo6 : Vec F S1x1x1 .f32) (xo7 : Vec F S1x1x1 .f32) (xo8 : Vec F S1x1x1 .f32) (xo9 : Vec F S1x1x1 .f32) (xo10 : Vec F S1x1x1 .f32) (xo11 : Vec F S1x1x1 .f32) (xo12 : Vec F S1x1x1 .f32) (xo13 : Vec F S1x1x1 .f32) :
    Σ' (L3 : List (View.Piece (Elt F) S1x1x1 .f32)) (L4 : List (View.Piece (Elt F) S1x1x1 .f32)) (L5 : List (View.Piece (Elt F) S1x1x1 .f32)) (L6 : List (View.Piece (Elt F) S1x1x1 .f32)) (L7 : List (View.Piece (Elt F) S1x1x1 .f32)) (L8 : List (View.Piece (Elt F) S1x1x1 .f32)) (L9 : List (View.Piece (Elt F) S1x1x1 .f32)) (L10 : List (View.Piece (Elt F) S1x1x1 .f32)) (L11 : List (View.Piece (Elt F) S1x1x1 .f32)) (L12 : List (View.Piece (Elt F) S1x1x1 .f32)), { L13 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4 ∗ owns (c : Thread nD τ) arg7 fullShare xo5 ∗ owns (c : Thread nD τ) arg8 fullShare xo6 ∗ owns (c : Thread nD τ) arg9 fullShare xo7 ∗ owns (c : Thread nD τ) arg10 fullShare xo8 ∗ owns (c : Thread nD τ) arg11 fullShare xo9 ∗ owns (c : Thread nD τ) arg12 fullShare xo10 ∗ owns (c : Thread nD τ) arg13 fullShare xo11 ∗ owns (c : Thread nD τ) arg14 fullShare xo12 ∗ owns (c : Thread nD τ) arg15 fullShare xo13
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13)) -∗ K ⟨⟩))
          ⊢ wp frame (wpE (defs₀ (F := F)) Variants.none c none) E (cc0__yolo_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, ?_, ?_, ?_, ?_, fun E K => ?run⟩
  case run =>
    simp only [cc0__yolo_kernel_eq_skeleton]; unfold cc0__yolo_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13

end Cert.Kernel.Frame

end
-- ==== Proof.FrameB.lean ====
/-
  The frame of the program: what the eleven accumulators hold after each grid point (by recursion on the point:
  cleared and restarted where the second coordinate is zero, otherwise the point before's contents with this
  point's partial sums added), the proof data of the pipeline built from that, the body's obligation at every
  point from the two runs of the body, and the run of @main: the region, then the 78 scalar host lines.
-/
import proofs.«100404_j84018150244766_2_alg».proof.Proof.FrameRunBB

set_option maxRecDepth 16384
set_option maxHeartbeats 40000000

noncomputable section

namespace Cert.Kernel.Frame

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each run leaves in the accumulators -/

theorem cover0_A_3 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : cond0_0 i)
    (x0 : Vec F S128x7x7x30 .f32) (x1 : Vec F S128x7x7x30 .f32) (x2 : Vec F S128x7x7 .i32) (y : S1x1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).1 S1x1x1.size (by sl_kernel_rfl) y
def out0_A_3 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : cond0_0 i)
    (x0 : Vec F S128x7x7x30 .f32) (x1 : Vec F S128x7x7x30 .f32) (x2 : Vec F S128x7x7 .i32) : Vec F S1x1x1 .f32 :=
  VO0_3.read (Elt F) (VO0_3.writes (Elt F) VO0_3.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).1)
theorem cover0_B_3 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : ¬cond0_0 i)
    (x0 : Vec F S128x7x7x30 .f32) (x1 : Vec F S128x7x7x30 .f32) (x2 : Vec F S128x7x7 .i32) (xo3 : Vec F S1x1x1 .f32) (xo4 : Vec F S1x1x1 .f32) (xo5 : Vec F S1x1x1 .f32) (xo6 : Vec F S1x1x1 .f32) (xo7 : Vec F S1x1x1 .f32) (xo8 : Vec F S1x1x1 .f32) (xo9 : Vec F S1x1x1 .f32) (xo10 : Vec F S1x1x1 .f32) (xo11 : Vec F S1x1x1 .f32) (xo12 : Vec F S1x1x1 .f32) (xo13 : Vec F S1x1x1 .f32) (y : S1x1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).1 S1x1x1.size (by sl_kernel_rfl) y
def out0_B_3 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : ¬cond0_0 i)
    (x0 : Vec F S128x7x7x30 .f32) (x1 : Vec F S128x7x7x30 .f32) (x2 : Vec F S128x7x7 .i32) (xo3 : Vec F S1x1x1 .f32) (xo4 : Vec F S1x1x1 .f32) (xo5 : Vec F S1x1x1 .f32) (xo6 : Vec F S1x1x1 .f32) (xo7 : Vec F S1x1x1 .f32) (xo8 : Vec F S1x1x1 .f32) (xo9 : Vec F S1x1x1 .f32) (xo10 : Vec F S1x1x1 .f32) (xo11 : Vec F S1x1x1 .f32) (xo12 : Vec F S1x1x1 .f32) (xo13 : Vec F S1x1x1 .f32) : Vec F S1x1x1 .f32 :=
  VO0_3.read (Elt F) (VO0_3.writes (Elt F) VO0_3.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).1)

theorem cover0_A_4 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : cond0_0 i)
    (x0 : Vec F S128x7x7x30 .f32) (x1 : Vec F S128x7x7x30 .f32) (x2 : Vec F S128x7x7 .i32) (y : S1x1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.1 S1x1x1.size (by sl_kernel_rfl) y
def out0_A_4 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : cond0_0 i)
    (x0 : Vec F S128x7x7x30 .f32) (x1 : Vec F S128x7x7x30 .f32) (x2 : Vec F S128x7x7 .i32) : Vec F S1x1x1 .f32 :=
  VO0_4.read (Elt F) (VO0_4.writes (Elt F) VO0_4.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.1)
theorem cover0_B_4 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : ¬cond0_0 i)
    (x0 : Vec F S128x7x7x30 .f32) (x1 : Vec F S128x7x7x30 .f32) (x2 : Vec F S128x7x7 .i32) (xo3 : Vec F S1x1x1 .f32) (xo4 : Vec F S1x1x1 .f32) (xo5 : Vec F S1x1x1 .f32) (xo6 : Vec F S1x1x1 .f32) (xo7 : Vec F S1x1x1 .f32) (xo8 : Vec F S1x1x1 .f32) (xo9 : Vec F S1x1x1 .f32) (xo10 : Vec F S1x1x1 .f32) (xo11 : Vec F S1x1x1 .f32) (xo12 : Vec F S1x1x1 .f32) (xo13 : Vec F S1x1x1 .f32) (y : S1x1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.1 S1x1x1.size (by sl_kernel_rfl) y
def out0_B_4 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : ¬cond0_0 i)
    (x0 : Vec F S128x7x7x30 .f32) (x1 : Vec F S128x7x7x30 .f32) (x2 : Vec F S128x7x7 .i32) (xo3 : Vec F S1x1x1 .f32) (xo4 : Vec F S1x1x1 .f32) (xo5 : Vec F S1x1x1 .f32) (xo6 : Vec F S1x1x1 .f32) (xo7 : Vec F S1x1x1 .f32) (xo8 : Vec F S1x1x1 .f32) (xo9 : Vec F S1x1x1 .f32) (xo10 : Vec F S1x1x1 .f32) (xo11 : Vec F S1x1x1 .f32) (xo12 : Vec F S1x1x1 .f32) (xo13 : Vec F S1x1x1 .f32) : Vec F S1x1x1 .f32 :=
  VO0_4.read (Elt F) (VO0_4.writes (Elt F) VO0_4.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.1)

theorem cover0_A_5 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : cond0_0 i)
    (x0 : Vec F S128x7x7x30 .f32) (x1 : Vec F S128x7x7x30 .f32) (x2 : Vec F S128x7x7 .i32) (y : S1x1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.2.1 S1x1x1.size (by sl_kernel_rfl) y
def out0_A_5 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : cond0_0 i)
    (x0 : Vec F S128x7x7x30 .f32) (x1 : Vec F S128x7x7x30 .f32) (x2 : Vec F S128x7x7 .i32) : Vec F S1x1x1 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.2.1)
theorem cover0_B_5 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : ¬cond0_0 i)
    (x0 : Vec F S128x7x7x30 .f32) (x1 : Vec F S128x7x7x30 .f32) (x2 : Vec F S128x7x7 .i32) (xo3 : Vec F S1x1x1 .f32) (xo4 : Vec F S1x1x1 .f32) (xo5 : Vec F S1x1x1 .f32) (xo6 : Vec F S1x1x1 .f32) (xo7 : Vec F S1x1x1 .f32) (xo8 : Vec F S1x1x1 .f32) (xo9 : Vec F S1x1x1 .f32) (xo10 : Vec F S1x1x1 .f32) (xo11 : Vec F S1x1x1 .f32) (xo12 : Vec F S1x1x1 .f32) (xo13 : Vec F S1x1x1 .f32) (y : S1x1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.2.1 S1x1x1.size (by sl_kernel_rfl) y
def out0_B_5 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : ¬cond0_0 i)
    (x0 : Vec F S128x7x7x30 .f32) (x1 : Vec F S128x7x7x30 .f32) (x2 : Vec F S128x7x7 .i32) (xo3 : Vec F S1x1x1 .f32) (xo4 : Vec F S1x1x1 .f32) (xo5 : Vec F S1x1x1 .f32) (xo6 : Vec F S1x1x1 .f32) (xo7 : Vec F S1x1x1 .f32) (xo8 : Vec F S1x1x1 .f32) (xo9 : Vec F S1x1x1 .f32) (xo10 : Vec F S1x1x1 .f32) (xo11 : Vec F S1x1x1 .f32) (xo12 : Vec F S1x1x1 .f32) (xo13 : Vec F S1x1x1 .f32) : Vec F S1x1x1 .f32 :=
  VO0_5.read (Elt F) (VO0_5.writes (Elt F) VO0_5.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.2.1)

theorem cover0_A_6 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : cond0_0 i)
    (x0 : Vec F S128x7x7x30 .f32) (x1 : Vec F S128x7x7x30 .f32) (x2 : Vec F S128x7x7 .i32) (y : S1x1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.2.2.1 S1x1x1.size (by sl_kernel_rfl) y
def out0_A_6 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : cond0_0 i)
    (x0 : Vec F S128x7x7x30 .f32) (x1 : Vec F S128x7x7x30 .f32) (x2 : Vec F S128x7x7 .i32) : Vec F S1x1x1 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.2.2.1)
theorem cover0_B_6 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : ¬cond0_0 i)
    (x0 : Vec F S128x7x7x30 .f32) (x1 : Vec F S128x7x7x30 .f32) (x2 : Vec F S128x7x7 .i32) (xo3 : Vec F S1x1x1 .f32) (xo4 : Vec F S1x1x1 .f32) (xo5 : Vec F S1x1x1 .f32) (xo6 : Vec F S1x1x1 .f32) (xo7 : Vec F S1x1x1 .f32) (xo8 : Vec F S1x1x1 .f32) (xo9 : Vec F S1x1x1 .f32) (xo10 : Vec F S1x1x1 .f32) (xo11 : Vec F S1x1x1 .f32) (xo12 : Vec F S1x1x1 .f32) (xo13 : Vec F S1x1x1 .f32) (y : S1x1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.2.2.1 S1x1x1.size (by sl_kernel_rfl) y
def out0_B_6 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : ¬cond0_0 i)
    (x0 : Vec F S128x7x7x30 .f32) (x1 : Vec F S128x7x7x30 .f32) (x2 : Vec F S128x7x7 .i32) (xo3 : Vec F S1x1x1 .f32) (xo4 : Vec F S1x1x1 .f32) (xo5 : Vec F S1x1x1 .f32) (xo6 : Vec F S1x1x1 .f32) (xo7 : Vec F S1x1x1 .f32) (xo8 : Vec F S1x1x1 .f32) (xo9 : Vec F S1x1x1 .f32) (xo10 : Vec F S1x1x1 .f32) (xo11 : Vec F S1x1x1 .f32) (xo12 : Vec F S1x1x1 .f32) (xo13 : Vec F S1x1x1 .f32) : Vec F S1x1x1 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.2.2.1)

theorem cover0_A_7 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : cond0_0 i)
    (x0 : Vec F S128x7x7x30 .f32) (x1 : Vec F S128x7x7x30 .f32) (x2 : Vec F S128x7x7 .i32) (y : S1x1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.2.2.2.1 S1x1x1.size (by sl_kernel_rfl) y
def out0_A_7 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : cond0_0 i)
    (x0 : Vec F S128x7x7x30 .f32) (x1 : Vec F S128x7x7x30 .f32) (x2 : Vec F S128x7x7 .i32) : Vec F S1x1x1 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.2.2.2.1)
theorem cover0_B_7 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : ¬cond0_0 i)
    (x0 : Vec F S128x7x7x30 .f32) (x1 : Vec F S128x7x7x30 .f32) (x2 : Vec F S128x7x7 .i32) (xo3 : Vec F S1x1x1 .f32) (xo4 : Vec F S1x1x1 .f32) (xo5 : Vec F S1x1x1 .f32) (xo6 : Vec F S1x1x1 .f32) (xo7 : Vec F S1x1x1 .f32) (xo8 : Vec F S1x1x1 .f32) (xo9 : Vec F S1x1x1 .f32) (xo10 : Vec F S1x1x1 .f32) (xo11 : Vec F S1x1x1 .f32) (xo12 : Vec F S1x1x1 .f32) (xo13 : Vec F S1x1x1 .f32) (y : S1x1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.2.2.2.1 S1x1x1.size (by sl_kernel_rfl) y
def out0_B_7 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : ¬cond0_0 i)
    (x0 : Vec F S128x7x7x30 .f32) (x1 : Vec F S128x7x7x30 .f32) (x2 : Vec F S128x7x7 .i32) (xo3 : Vec F S1x1x1 .f32) (xo4 : Vec F S1x1x1 .f32) (xo5 : Vec F S1x1x1 .f32) (xo6 : Vec F S1x1x1 .f32) (xo7 : Vec F S1x1x1 .f32) (xo8 : Vec F S1x1x1 .f32) (xo9 : Vec F S1x1x1 .f32) (xo10 : Vec F S1x1x1 .f32) (xo11 : Vec F S1x1x1 .f32) (xo12 : Vec F S1x1x1 .f32) (xo13 : Vec F S1x1x1 .f32) : Vec F S1x1x1 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.2.2.2.1)

theorem cover0_A_8 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : cond0_0 i)
    (x0 : Vec F S128x7x7x30 .f32) (x1 : Vec F S128x7x7x30 .f32) (x2 : Vec F S128x7x7 .i32) (y : S1x1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.2.2.2.2.1 S1x1x1.size (by sl_kernel_rfl) y
def out0_A_8 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : cond0_0 i)
    (x0 : Vec F S128x7x7x30 .f32) (x1 : Vec F S128x7x7x30 .f32) (x2 : Vec F S128x7x7 .i32) : Vec F S1x1x1 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.2.2.2.2.1)
theorem cover0_B_8 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : ¬cond0_0 i)
    (x0 : Vec F S128x7x7x30 .f32) (x1 : Vec F S128x7x7x30 .f32) (x2 : Vec F S128x7x7 .i32) (xo3 : Vec F S1x1x1 .f32) (xo4 : Vec F S1x1x1 .f32) (xo5 : Vec F S1x1x1 .f32) (xo6 : Vec F S1x1x1 .f32) (xo7 : Vec F S1x1x1 .f32) (xo8 : Vec F S1x1x1 .f32) (xo9 : Vec F S1x1x1 .f32) (xo10 : Vec F S1x1x1 .f32) (xo11 : Vec F S1x1x1 .f32) (xo12 : Vec F S1x1x1 .f32) (xo13 : Vec F S1x1x1 .f32) (y : S1x1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.2.2.2.2.1 S1x1x1.size (by sl_kernel_rfl) y
def out0_B_8 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : ¬cond0_0 i)
    (x0 : Vec F S128x7x7x30 .f32) (x1 : Vec F S128x7x7x30 .f32) (x2 : Vec F S128x7x7 .i32) (xo3 : Vec F S1x1x1 .f32) (xo4 : Vec F S1x1x1 .f32) (xo5 : Vec F S1x1x1 .f32) (xo6 : Vec F S1x1x1 .f32) (xo7 : Vec F S1x1x1 .f32) (xo8 : Vec F S1x1x1 .f32) (xo9 : Vec F S1x1x1 .f32) (xo10 : Vec F S1x1x1 .f32) (xo11 : Vec F S1x1x1 .f32) (xo12 : Vec F S1x1x1 .f32) (xo13 : Vec F S1x1x1 .f32) : Vec F S1x1x1 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.2.2.2.2.1)

theorem cover0_A_9 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : cond0_0 i)
    (x0 : Vec F S128x7x7x30 .f32) (x1 : Vec F S128x7x7x30 .f32) (x2 : Vec F S128x7x7 .i32) (y : S1x1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.2.2.2.2.2.1 S1x1x1.size (by sl_kernel_rfl) y
def out0_A_9 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : cond0_0 i)
    (x0 : Vec F S128x7x7x30 .f32) (x1 : Vec F S128x7x7x30 .f32) (x2 : Vec F S128x7x7 .i32) : Vec F S1x1x1 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.2.2.2.2.2.1)
theorem cover0_B_9 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : ¬cond0_0 i)
    (x0 : Vec F S128x7x7x30 .f32) (x1 : Vec F S128x7x7x30 .f32) (x2 : Vec F S128x7x7 .i32) (xo3 : Vec F S1x1x1 .f32) (xo4 : Vec F S1x1x1 .f32) (xo5 : Vec F S1x1x1 .f32) (xo6 : Vec F S1x1x1 .f32) (xo7 : Vec F S1x1x1 .f32) (xo8 : Vec F S1x1x1 .f32) (xo9 : Vec F S1x1x1 .f32) (xo10 : Vec F S1x1x1 .f32) (xo11 : Vec F S1x1x1 .f32) (xo12 : Vec F S1x1x1 .f32) (xo13 : Vec F S1x1x1 .f32) (y : S1x1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.2.2.2.2.2.1 S1x1x1.size (by sl_kernel_rfl) y
def out0_B_9 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : ¬cond0_0 i)
    (x0 : Vec F S128x7x7x30 .f32) (x1 : Vec F S128x7x7x30 .f32) (x2 : Vec F S128x7x7 .i32) (xo3 : Vec F S1x1x1 .f32) (xo4 : Vec F S1x1x1 .f32) (xo5 : Vec F S1x1x1 .f32) (xo6 : Vec F S1x1x1 .f32) (xo7 : Vec F S1x1x1 .f32) (xo8 : Vec F S1x1x1 .f32) (xo9 : Vec F S1x1x1 .f32) (xo10 : Vec F S1x1x1 .f32) (xo11 : Vec F S1x1x1 .f32) (xo12 : Vec F S1x1x1 .f32) (xo13 : Vec F S1x1x1 .f32) : Vec F S1x1x1 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.2.2.2.2.2.1)

theorem cover0_A_10 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : cond0_0 i)
    (x0 : Vec F S128x7x7x30 .f32) (x1 : Vec F S128x7x7x30 .f32) (x2 : Vec F S128x7x7 .i32) (y : S1x1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.2.2.2.2.2.2.1 S1x1x1.size (by sl_kernel_rfl) y
def out0_A_10 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : cond0_0 i)
    (x0 : Vec F S128x7x7x30 .f32) (x1 : Vec F S128x7x7x30 .f32) (x2 : Vec F S128x7x7 .i32) : Vec F S1x1x1 .f32 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.2.2.2.2.2.2.1)
theorem cover0_B_10 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : ¬cond0_0 i)
    (x0 : Vec F S128x7x7x30 .f32) (x1 : Vec F S128x7x7x30 .f32) (x2 : Vec F S128x7x7 .i32) (xo3 : Vec F S1x1x1 .f32) (xo4 : Vec F S1x1x1 .f32) (xo5 : Vec F S1x1x1 .f32) (xo6 : Vec F S1x1x1 .f32) (xo7 : Vec F S1x1x1 .f32) (xo8 : Vec F S1x1x1 .f32) (xo9 : Vec F S1x1x1 .f32) (xo10 : Vec F S1x1x1 .f32) (xo11 : Vec F S1x1x1 .f32) (xo12 : Vec F S1x1x1 .f32) (xo13 : Vec F S1x1x1 .f32) (y : S1x1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.2.2.2.2.2.2.1 S1x1x1.size (by sl_kernel_rfl) y
def out0_B_10 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : ¬cond0_0 i)
    (x0 : Vec F S128x7x7x30 .f32) (x1 : Vec F S128x7x7x30 .f32) (x2 : Vec F S128x7x7 .i32) (xo3 : Vec F S1x1x1 .f32) (xo4 : Vec F S1x1x1 .f32) (xo5 : Vec F S1x1x1 .f32) (xo6 : Vec F S1x1x1 .f32) (xo7 : Vec F S1x1x1 .f32) (xo8 : Vec F S1x1x1 .f32) (xo9 : Vec F S1x1x1 .f32) (xo10 : Vec F S1x1x1 .f32) (xo11 : Vec F S1x1x1 .f32) (xo12 : Vec F S1x1x1 .f32) (xo13 : Vec F S1x1x1 .f32) : Vec F S1x1x1 .f32 :=
  VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.2.2.2.2.2.2.1)

theorem cover0_A_11 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : cond0_0 i)
    (x0 : Vec F S128x7x7x30 .f32) (x1 : Vec F S128x7x7x30 .f32) (x2 : Vec F S128x7x7 .i32) (y : S1x1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.2.2.2.2.2.2.2.1 S1x1x1.size (by sl_kernel_rfl) y
def out0_A_11 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : cond0_0 i)
    (x0 : Vec F S128x7x7x30 .f32) (x1 : Vec F S128x7x7x30 .f32) (x2 : Vec F S128x7x7 .i32) : Vec F S1x1x1 .f32 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.2.2.2.2.2.2.2.1)
theorem cover0_B_11 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : ¬cond0_0 i)
    (x0 : Vec F S128x7x7x30 .f32) (x1 : Vec F S128x7x7x30 .f32) (x2 : Vec F S128x7x7 .i32) (xo3 : Vec F S1x1x1 .f32) (xo4 : Vec F S1x1x1 .f32) (xo5 : Vec F S1x1x1 .f32) (xo6 : Vec F S1x1x1 .f32) (xo7 : Vec F S1x1x1 .f32) (xo8 : Vec F S1x1x1 .f32) (xo9 : Vec F S1x1x1 .f32) (xo10 : Vec F S1x1x1 .f32) (xo11 : Vec F S1x1x1 .f32) (xo12 : Vec F S1x1x1 .f32) (xo13 : Vec F S1x1x1 .f32) (y : S1x1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.2.2.2.2.2.2.2.1 S1x1x1.size (by sl_kernel_rfl) y
def out0_B_11 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : ¬cond0_0 i)
    (x0 : Vec F S128x7x7x30 .f32) (x1 : Vec F S128x7x7x30 .f32) (x2 : Vec F S128x7x7 .i32) (xo3 : Vec F S1x1x1 .f32) (xo4 : Vec F S1x1x1 .f32) (xo5 : Vec F S1x1x1 .f32) (xo6 : Vec F S1x1x1 .f32) (xo7 : Vec F S1x1x1 .f32) (xo8 : Vec F S1x1x1 .f32) (xo9 : Vec F S1x1x1 .f32) (xo10 : Vec F S1x1x1 .f32) (xo11 : Vec F S1x1x1 .f32) (xo12 : Vec F S1x1x1 .f32) (xo13 : Vec F S1x1x1 .f32) : Vec F S1x1x1 .f32 :=
  VO0_11.read (Elt F) (VO0_11.writes (Elt F) VO0_11.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.2.2.2.2.2.2.2.1)

theorem cover0_A_12 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : cond0_0 i)
    (x0 : Vec F S128x7x7x30 .f32) (x1 : Vec F S128x7x7x30 .f32) (x2 : Vec F S128x7x7 .i32) (y : S1x1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.2.2.2.2.2.2.2.2.1 S1x1x1.size (by sl_kernel_rfl) y
def out0_A_12 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : cond0_0 i)
    (x0 : Vec F S128x7x7x30 .f32) (x1 : Vec F S128x7x7x30 .f32) (x2 : Vec F S128x7x7 .i32) : Vec F S1x1x1 .f32 :=
  VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.2.2.2.2.2.2.2.2.1)
theorem cover0_B_12 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : ¬cond0_0 i)
    (x0 : Vec F S128x7x7x30 .f32) (x1 : Vec F S128x7x7x30 .f32) (x2 : Vec F S128x7x7 .i32) (xo3 : Vec F S1x1x1 .f32) (xo4 : Vec F S1x1x1 .f32) (xo5 : Vec F S1x1x1 .f32) (xo6 : Vec F S1x1x1 .f32) (xo7 : Vec F S1x1x1 .f32) (xo8 : Vec F S1x1x1 .f32) (xo9 : Vec F S1x1x1 .f32) (xo10 : Vec F S1x1x1 .f32) (xo11 : Vec F S1x1x1 .f32) (xo12 : Vec F S1x1x1 .f32) (xo13 : Vec F S1x1x1 .f32) (y : S1x1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.2.2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.2.2.2.2.2.2.2.2.1 S1x1x1.size (by sl_kernel_rfl) y
def out0_B_12 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : ¬cond0_0 i)
    (x0 : Vec F S128x7x7x30 .f32) (x1 : Vec F S128x7x7x30 .f32) (x2 : Vec F S128x7x7 .i32) (xo3 : Vec F S1x1x1 .f32) (xo4 : Vec F S1x1x1 .f32) (xo5 : Vec F S1x1x1 .f32) (xo6 : Vec F S1x1x1 .f32) (xo7 : Vec F S1x1x1 .f32) (xo8 : Vec F S1x1x1 .f32) (xo9 : Vec F S1x1x1 .f32) (xo10 : Vec F S1x1x1 .f32) (xo11 : Vec F S1x1x1 .f32) (xo12 : Vec F S1x1x1 .f32) (xo13 : Vec F S1x1x1 .f32) : Vec F S1x1x1 .f32 :=
  VO0_12.read (Elt F) (VO0_12.writes (Elt F) VO0_12.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.2.2.2.2.2.2.2.2.1)

theorem cover0_A_13 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : cond0_0 i)
    (x0 : Vec F S128x7x7x30 .f32) (x1 : Vec F S128x7x7x30 .f32) (x2 : Vec F S128x7x7 .i32) (y : S1x1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.2.2.2.2.2.2.2.2.2.1 S1x1x1.size (by sl_kernel_rfl) y
def out0_A_13 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : cond0_0 i)
    (x0 : Vec F S128x7x7x30 .f32) (x1 : Vec F S128x7x7x30 .f32) (x2 : Vec F S128x7x7 .i32) : Vec F S1x1x1 .f32 :=
  VO0_13.read (Elt F) (VO0_13.writes (Elt F) VO0_13.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.2.2.2.2.2.2.2.2.2.1)
theorem cover0_B_13 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : ¬cond0_0 i)
    (x0 : Vec F S128x7x7x30 .f32) (x1 : Vec F S128x7x7x30 .f32) (x2 : Vec F S128x7x7 .i32) (xo3 : Vec F S1x1x1 .f32) (xo4 : Vec F S1x1x1 .f32) (xo5 : Vec F S1x1x1 .f32) (xo6 : Vec F S1x1x1 .f32) (xo7 : Vec F S1x1x1 .f32) (xo8 : Vec F S1x1x1 .f32) (xo9 : Vec F S1x1x1 .f32) (xo10 : Vec F S1x1x1 .f32) (xo11 : Vec F S1x1x1 .f32) (xo12 : Vec F S1x1x1 .f32) (xo13 : Vec F S1x1x1 .f32) (y : S1x1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.2.2.2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.2.2.2.2.2.2.2.2.2.1 S1x1x1.size (by sl_kernel_rfl) y
def out0_B_13 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : ¬cond0_0 i)
    (x0 : Vec F S128x7x7x30 .f32) (x1 : Vec F S128x7x7x30 .f32) (x2 : Vec F S128x7x7 .i32) (xo3 : Vec F S1x1x1 .f32) (xo4 : Vec F S1x1x1 .f32) (xo5 : Vec F S1x1x1 .f32) (xo6 : Vec F S1x1x1 .f32) (xo7 : Vec F S1x1x1 .f32) (xo8 : Vec F S1x1x1 .f32) (xo9 : Vec F S1x1x1 .f32) (xo10 : Vec F S1x1x1 .f32) (xo11 : Vec F S1x1x1 .f32) (xo12 : Vec F S1x1x1 .f32) (xo13 : Vec F S1x1x1 .f32) : Vec F S1x1x1 .f32 :=
  VO0_13.read (Elt F) (VO0_13.writes (Elt F) VO0_13.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.2.2.2.2.2.2.2.2.2.1)

/-! ## The accumulators after each point -/

/-- The eleven accumulators' contents. -/
structure Acc (F : FTy → Type) [FloatOps F] where
  a3 : Vec F S1x1x1 .f32
  a4 : Vec F S1x1x1 .f32
  a5 : Vec F S1x1x1 .f32
  a6 : Vec F S1x1x1 .f32
  a7 : Vec F S1x1x1 .f32
  a8 : Vec F S1x1x1 .f32
  a9 : Vec F S1x1x1 .f32
  a10 : Vec F S1x1x1 .f32
  a11 : Vec F S1x1x1 .f32
  a12 : Vec F S1x1x1 .f32
  a13 : Vec F S1x1x1 .f32

/-- What the accumulators hold after the body at position `n`: restarted where `n` is a multiple of 32, otherwise
    the run over what position `n - 1` left (the buffers are not written back in between). -/
def outsAt0 (c : Dev nD) : (n : ℕ) → n < cfg0.N → Acc F
  | 0, hn => ⟨out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) ((hcond0_0 ⟨0, hn⟩).mpr (Nat.zero_mod _)) (iblk m c 0 ⟨0, hn⟩) (iblk m c 1 ⟨0, hn⟩) (iblk m c 2 ⟨0, hn⟩),
      out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) ((hcond0_0 ⟨0, hn⟩).mpr (Nat.zero_mod _)) (iblk m c 0 ⟨0, hn⟩) (iblk m c 1 ⟨0, hn⟩) (iblk m c 2 ⟨0, hn⟩),
      out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) ((hcond0_0 ⟨0, hn⟩).mpr (Nat.zero_mod _)) (iblk m c 0 ⟨0, hn⟩) (iblk m c 1 ⟨0, hn⟩) (iblk m c 2 ⟨0, hn⟩),
      out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) ((hcond0_0 ⟨0, hn⟩).mpr (Nat.zero_mod _)) (iblk m c 0 ⟨0, hn⟩) (iblk m c 1 ⟨0, hn⟩) (iblk m c 2 ⟨0, hn⟩),
      out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) ((hcond0_0 ⟨0, hn⟩).mpr (Nat.zero_mod _)) (iblk m c 0 ⟨0, hn⟩) (iblk m c 1 ⟨0, hn⟩) (iblk m c 2 ⟨0, hn⟩),
      out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) ((hcond0_0 ⟨0, hn⟩).mpr (Nat.zero_mod _)) (iblk m c 0 ⟨0, hn⟩) (iblk m c 1 ⟨0, hn⟩) (iblk m c 2 ⟨0, hn⟩),
      out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) ((hcond0_0 ⟨0, hn⟩).mpr (Nat.zero_mod _)) (iblk m c 0 ⟨0, hn⟩) (iblk m c 1 ⟨0, hn⟩) (iblk m c 2 ⟨0, hn⟩),
      out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) ((hcond0_0 ⟨0, hn⟩).mpr (Nat.zero_mod _)) (iblk m c 0 ⟨0, hn⟩) (iblk m c 1 ⟨0, hn⟩) (iblk m c 2 ⟨0, hn⟩),
      out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) ((hcond0_0 ⟨0, hn⟩).mpr (Nat.zero_mod _)) (iblk m c 0 ⟨0, hn⟩) (iblk m c 1 ⟨0, hn⟩) (iblk m c 2 ⟨0, hn⟩),
      out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) ((hcond0_0 ⟨0, hn⟩).mpr (Nat.zero_mod _)) (iblk m c 0 ⟨0, hn⟩) (iblk m c 1 ⟨0, hn⟩) (iblk m c 2 ⟨0, hn⟩),
      out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) ((hcond0_0 ⟨0, hn⟩).mpr (Nat.zero_mod _)) (iblk m c 0 ⟨0, hn⟩) (iblk m c 1 ⟨0, hn⟩) (iblk m c 2 ⟨0, hn⟩)⟩
  | n + 1, hn =>
    if h0 : (n + 1) % 32 = 0 then
      ⟨out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) ((hcond0_0 ⟨n + 1, hn⟩).mpr h0) (iblk m c 0 ⟨n + 1, hn⟩) (iblk m c 1 ⟨n + 1, hn⟩) (iblk m c 2 ⟨n + 1, hn⟩),
      out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) ((hcond0_0 ⟨n + 1, hn⟩).mpr h0) (iblk m c 0 ⟨n + 1, hn⟩) (iblk m c 1 ⟨n + 1, hn⟩) (iblk m c 2 ⟨n + 1, hn⟩),
      out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) ((hcond0_0 ⟨n + 1, hn⟩).mpr h0) (iblk m c 0 ⟨n + 1, hn⟩) (iblk m c 1 ⟨n + 1, hn⟩) (iblk m c 2 ⟨n + 1, hn⟩),
      out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) ((hcond0_0 ⟨n + 1, hn⟩).mpr h0) (iblk m c 0 ⟨n + 1, hn⟩) (iblk m c 1 ⟨n + 1, hn⟩) (iblk m c 2 ⟨n + 1, hn⟩),
      out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) ((hcond0_0 ⟨n + 1, hn⟩).mpr h0) (iblk m c 0 ⟨n + 1, hn⟩) (iblk m c 1 ⟨n + 1, hn⟩) (iblk m c 2 ⟨n + 1, hn⟩),
      out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) ((hcond0_0 ⟨n + 1, hn⟩).mpr h0) (iblk m c 0 ⟨n + 1, hn⟩) (iblk m c 1 ⟨n + 1, hn⟩) (iblk m c 2 ⟨n + 1, hn⟩),
      out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) ((hcond0_0 ⟨n + 1, hn⟩).mpr h0) (iblk m c 0 ⟨n + 1, hn⟩) (iblk m c 1 ⟨n + 1, hn⟩) (iblk m c 2 ⟨n + 1, hn⟩),
      out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) ((hcond0_0 ⟨n + 1, hn⟩).mpr h0) (iblk m c 0 ⟨n + 1, hn⟩) (iblk m c 1 ⟨n + 1, hn⟩) (iblk m c 2 ⟨n + 1, hn⟩),
      out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) ((hcond0_0 ⟨n + 1, hn⟩).mpr h0) (iblk m c 0 ⟨n + 1, hn⟩) (iblk m c 1 ⟨n + 1, hn⟩) (iblk m c 2 ⟨n + 1, hn⟩),
      out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) ((hcond0_0 ⟨n + 1, hn⟩).mpr h0) (iblk m c 0 ⟨n + 1, hn⟩) (iblk m c 1 ⟨n + 1, hn⟩) (iblk m c 2 ⟨n + 1, hn⟩),
      out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) ((hcond0_0 ⟨n + 1, hn⟩).mpr h0) (iblk m c 0 ⟨n + 1, hn⟩) (iblk m c 1 ⟨n + 1, hn⟩) (iblk m c 2 ⟨n + 1, hn⟩)⟩
    else
      ⟨out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).a3 (outsAt0 c n (Nat.lt_of_succ_lt hn)).a4 (outsAt0 c n (Nat.lt_of_succ_lt hn)).a5 (outsAt0 c n (Nat.lt_of_succ_lt hn)).a6 (outsAt0 c n (Nat.lt_of_succ_lt hn)).a7 (outsAt0 c n (Nat.lt_of_succ_lt hn)).a8 (outsAt0 c n (Nat.lt_of_succ_lt hn)).a9 (outsAt0 c n (Nat.lt_of_succ_lt hn)).a10 (outsAt0 c n (Nat.lt_of_succ_lt hn)).a11 (outsAt0 c n (Nat.lt_of_succ_lt hn)).a12 (outsAt0 c n (Nat.lt_of_succ_lt hn)).a13,
      out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).a3 (outsAt0 c n (Nat.lt_of_succ_lt hn)).a4 (outsAt0 c n (Nat.lt_of_succ_lt hn)).a5 (outsAt0 c n (Nat.lt_of_succ_lt hn)).a6 (outsAt0 c n (Nat.lt_of_succ_lt hn)).a7 (outsAt0 c n (Nat.lt_of_succ_lt hn)).a8 (outsAt0 c n (Nat.lt_of_succ_lt hn)).a9 (outsAt0 c n (Nat.lt_of_succ_lt hn)).a10 (outsAt0 c n (Nat.lt_of_succ_lt hn)).a11 (outsAt0 c n (Nat.lt_of_succ_lt hn)).a12 (outsAt0 c n (Nat.lt_of_succ_lt hn)).a13,
      out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).a3 (outsAt0 c n (Nat.lt_of_succ_lt hn)).a4 (outsAt0 c n (Nat.lt_of_succ_lt hn)).a5 (outsAt0 c n (Nat.lt_of_succ_lt hn)).a6 (outsAt0 c n (Nat.lt_of_succ_lt hn)).a7 (outsAt0 c n (Nat.lt_of_succ_lt hn)).a8 (outsAt0 c n (Nat.lt_of_succ_lt hn)).a9 (outsAt0 c n (Nat.lt_of_succ_lt hn)).a10 (outsAt0 c n (Nat.lt_of_succ_lt hn)).a11 (outsAt0 c n (Nat.lt_of_succ_lt hn)).a12 (outsAt0 c n (Nat.lt_of_succ_lt hn)).a13,
      out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).a3 (outsAt0 c n (Nat.lt_of_succ_lt hn)).a4 (outsAt0 c n (Nat.lt_of_succ_lt hn)).a5 (outsAt0 c n (Nat.lt_of_succ_lt hn)).a6 (outsAt0 c n (Nat.lt_of_succ_lt hn)).a7 (outsAt0 c n (Nat.lt_of_succ_lt hn)).a8 (outsAt0 c n (Nat.lt_of_succ_lt hn)).a9 (outsAt0 c n (Nat.lt_of_succ_lt hn)).a10 (outsAt0 c n (Nat.lt_of_succ_lt hn)).a11 (outsAt0 c n (Nat.lt_of_succ_lt hn)).a12 (outsAt0 c n (Nat.lt_of_succ_lt hn)).a13,
      out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).a3 (outsAt0 c n (Nat.lt_of_succ_lt hn)).a4 (outsAt0 c n (Nat.lt_of_succ_lt hn)).a5 (outsAt0 c n (Nat.lt_of_succ_lt hn)).a6 (outsAt0 c n (Nat.lt_of_succ_lt hn)).a7 (outsAt0 c n (Nat.lt_of_succ_lt hn)).a8 (outsAt0 c n (Nat.lt_of_succ_lt hn)).a9 (outsAt0 c n (Nat.lt_of_succ_lt hn)).a10 (outsAt0 c n (Nat.lt_of_succ_lt hn)).a11 (outsAt0 c n (Nat.lt_of_succ_lt hn)).a12 (outsAt0 c n (Nat.lt_of_succ_lt hn)).a13,
      out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).a3 (outsAt0 c n (Nat.lt_of_succ_lt hn)).a4 (outsAt0 c n (Nat.lt_of_succ_lt hn)).a5 (outsAt0 c n (Nat.lt_of_succ_lt hn)).a6 (outsAt0 c n (Nat.lt_of_succ_lt hn)).a7 (outsAt0 c n (Nat.lt_of_succ_lt hn)).a8 (outsAt0 c n (Nat.lt_of_succ_lt hn)).a9 (outsAt0 c n (Nat.lt_of_succ_lt hn)).a10 (outsAt0 c n (Nat.lt_of_succ_lt hn)).a11 (outsAt0 c n (Nat.lt_of_succ_lt hn)).a12 (outsAt0 c n (Nat.lt_of_succ_lt hn)).a13,
      out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).a3 (outsAt0 c n (Nat.lt_of_succ_lt hn)).a4 (outsAt0 c n (Nat.lt_of_succ_lt hn)).a5 (outsAt0 c n (Nat.lt_of_succ_lt hn)).a6 (outsAt0 c n (Nat.lt_of_succ_lt hn)).a7 (outsAt0 c n (Nat.lt_of_succ_lt hn)).a8 (outsAt0 c n (Nat.lt_of_succ_lt hn)).a9 (outsAt0 c n (Nat.lt_of_succ_lt hn)).a10 (outsAt0 c n (Nat.lt_of_succ_lt hn)).a11 (outsAt0 c n (Nat.lt_of_succ_lt hn)).a12 (outsAt0 c n (Nat.lt_of_succ_lt hn)).a13,
      out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).a3 (outsAt0 c n (Nat.lt_of_succ_lt hn)).a4 (outsAt0 c n (Nat.lt_of_succ_lt hn)).a5 (outsAt0 c n (Nat.lt_of_succ_lt hn)).a6 (outsAt0 c n (Nat.lt_of_succ_lt hn)).a7 (outsAt0 c n (Nat.lt_of_succ_lt hn)).a8 (outsAt0 c n (Nat.lt_of_succ_lt hn)).a9 (outsAt0 c n (Nat.lt_of_succ_lt hn)).a10 (outsAt0 c n (Nat.lt_of_succ_lt hn)).a11 (outsAt0 c n (Nat.lt_of_succ_lt hn)).a12 (outsAt0 c n (Nat.lt_of_succ_lt hn)).a13,
      out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).a3 (outsAt0 c n (Nat.lt_of_succ_lt hn)).a4 (outsAt0 c n (Nat.lt_of_succ_lt hn)).a5 (outsAt0 c n (Nat.lt_of_succ_lt hn)).a6 (outsAt0 c n (Nat.lt_of_succ_lt hn)).a7 (outsAt0 c n (Nat.lt_of_succ_lt hn)).a8 (outsAt0 c n (Nat.lt_of_succ_lt hn)).a9 (outsAt0 c n (Nat.lt_of_succ_lt hn)).a10 (outsAt0 c n (Nat.lt_of_succ_lt hn)).a11 (outsAt0 c n (Nat.lt_of_succ_lt hn)).a12 (outsAt0 c n (Nat.lt_of_succ_lt hn)).a13,
      out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).a3 (outsAt0 c n (Nat.lt_of_succ_lt hn)).a4 (outsAt0 c n (Nat.lt_of_succ_lt hn)).a5 (outsAt0 c n (Nat.lt_of_succ_lt hn)).a6 (outsAt0 c n (Nat.lt_of_succ_lt hn)).a7 (outsAt0 c n (Nat.lt_of_succ_lt hn)).a8 (outsAt0 c n (Nat.lt_of_succ_lt hn)).a9 (outsAt0 c n (Nat.lt_of_succ_lt hn)).a10 (outsAt0 c n (Nat.lt_of_succ_lt hn)).a11 (outsAt0 c n (Nat.lt_of_succ_lt hn)).a12 (outsAt0 c n (Nat.lt_of_succ_lt hn)).a13,
      out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).a3 (outsAt0 c n (Nat.lt_of_succ_lt hn)).a4 (outsAt0 c n (Nat.lt_of_succ_lt hn)).a5 (outsAt0 c n (Nat.lt_of_succ_lt hn)).a6 (outsAt0 c n (Nat.lt_of_succ_lt hn)).a7 (outsAt0 c n (Nat.lt_of_succ_lt hn)).a8 (outsAt0 c n (Nat.lt_of_succ_lt hn)).a9 (outsAt0 c n (Nat.lt_of_succ_lt hn)).a10 (outsAt0 c n (Nat.lt_of_succ_lt hn)).a11 (outsAt0 c n (Nat.lt_of_succ_lt hn)).a12 (outsAt0 c n (Nat.lt_of_succ_lt hn)).a13⟩

theorem outsAt0_A (c : Dev nD) (t : Fin cfg0.N) (h0 : t.val % 32 = 0) :
    outsAt0 m c t.val t.isLt = ⟨out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) (iblk m c 0 t) (iblk m c 1 t) (iblk m c 2 t),
      out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) (iblk m c 0 t) (iblk m c 1 t) (iblk m c 2 t),
      out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) (iblk m c 0 t) (iblk m c 1 t) (iblk m c 2 t),
      out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) (iblk m c 0 t) (iblk m c 1 t) (iblk m c 2 t),
      out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) (iblk m c 0 t) (iblk m c 1 t) (iblk m c 2 t),
      out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) (iblk m c 0 t) (iblk m c 1 t) (iblk m c 2 t),
      out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) (iblk m c 0 t) (iblk m c 1 t) (iblk m c 2 t),
      out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) (iblk m c 0 t) (iblk m c 1 t) (iblk m c 2 t),
      out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) (iblk m c 0 t) (iblk m c 1 t) (iblk m c 2 t),
      out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) (iblk m c 0 t) (iblk m c 1 t) (iblk m c 2 t),
      out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) (iblk m c 0 t) (iblk m c 1 t) (iblk m c 2 t)⟩ := by
  obtain ⟨n, hn⟩ := t
  cases n with
  | zero => exact rfl
  | succ n => exact (dif_pos h0).trans rfl

theorem outsAt0_B (c : Dev nD) (t : Fin cfg0.N) (h0 : ¬t.val % 32 = 0) :
    outsAt0 m c t.val t.isLt = ⟨out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) (iblk m c 0 t) (iblk m c 1 t) (iblk m c 2 t) (outsAt0 m c (t.val - 1) (Nat.lt_of_le_of_lt (Nat.sub_le _ _) t.isLt)).a3 (outsAt0 m c (t.val - 1) (Nat.lt_of_le_of_lt (Nat.sub_le _ _) t.isLt)).a4 (outsAt0 m c (t.val - 1) (Nat.lt_of_le_of_lt (Nat.sub_le _ _) t.isLt)).a5 (outsAt0 m c (t.val - 1) (Nat.lt_of_le_of_lt (Nat.sub_le _ _) t.isLt)).a6 (outsAt0 m c (t.val - 1) (Nat.lt_of_le_of_lt (Nat.sub_le _ _) t.isLt)).a7 (outsAt0 m c (t.val - 1) (Nat.lt_of_le_of_lt (Nat.sub_le _ _) t.isLt)).a8 (outsAt0 m c (t.val - 1) (Nat.lt_of_le_of_lt (Nat.sub_le _ _) t.isLt)).a9 (outsAt0 m c (t.val - 1) (Nat.lt_of_le_of_lt (Nat.sub_le _ _) t.isLt)).a10 (outsAt0 m c (t.val - 1) (Nat.lt_of_le_of_lt (Nat.sub_le _ _) t.isLt)).a11 (outsAt0 m c (t.val - 1) (Nat.lt_of_le_of_lt (Nat.sub_le _ _) t.isLt)).a12 (outsAt0 m c (t.val - 1) (Nat.lt_of_le_of_lt (Nat.sub_le _ _) t.isLt)).a13,
      out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) (iblk m c 0 t) (iblk m c 1 t) (iblk m c 2 t) (outsAt0 m c (t.val - 1) (Nat.lt_of_le_of_lt (Nat.sub_le _ _) t.isLt)).a3 (outsAt0 m c (t.val - 1) (Nat.lt_of_le_of_lt (Nat.sub_le _ _) t.isLt)).a4 (outsAt0 m c (t.val - 1) (Nat.lt_of_le_of_lt (Nat.sub_le _ _) t.isLt)).a5 (outsAt0 m c (t.val - 1) (Nat.lt_of_le_of_lt (Nat.sub_le _ _) t.isLt)).a6 (outsAt0 m c (t.val - 1) (Nat.lt_of_le_of_lt (Nat.sub_le _ _) t.isLt)).a7 (outsAt0 m c (t.val - 1) (Nat.lt_of_le_of_lt (Nat.sub_le _ _) t.isLt)).a8 (outsAt0 m c (t.val - 1) (Nat.lt_of_le_of_lt (Nat.sub_le _ _) t.isLt)).a9 (outsAt0 m c (t.val - 1) (Nat.lt_of_le_of_lt (Nat.sub_le _ _) t.isLt)).a10 (outsAt0 m c (t.val - 1) (Nat.lt_of_le_of_lt (Nat.sub_le _ _) t.isLt)).a11 (outsAt0 m c (t.val - 1) (Nat.lt_of_le_of_lt (Nat.sub_le _ _) t.isLt)).a12 (outsAt0 m c (t.val - 1) (Nat.lt_of_le_of_lt (Nat.sub_le _ _) t.isLt)).a13,
      out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) (iblk m c 0 t) (iblk m c 1 t) (iblk m c 2 t) (outsAt0 m c (t.val - 1) (Nat.lt_of_le_of_lt (Nat.sub_le _ _) t.isLt)).a3 (outsAt0 m c (t.val - 1) (Nat.lt_of_le_of_lt (Nat.sub_le _ _) t.isLt)).a4 (outsAt0 m c (t.val - 1) (Nat.lt_of_le_of_lt (Nat.sub_le _ _) t.isLt)).a5 (outsAt0 m c (t.val - 1) (Nat.lt_of_le_of_lt (Nat.sub_le _ _) t.isLt)).a6 (outsAt0 m c (t.val - 1) (Nat.lt_of_le_of_lt (Nat.sub_le _ _) t.isLt)).a7 (outsAt0 m c (t.val - 1) (Nat.lt_of_le_of_lt (Nat.sub_le _ _) t.isLt)).a8 (outsAt0 m c (t.val - 1) (Nat.lt_of_le_of_lt (Nat.sub_le _ _) t.isLt)).a9 (outsAt0 m c (t.val - 1) (Nat.lt_of_le_of_lt (Nat.sub_le _ _) t.isLt)).a10 (outsAt0 m c (t.val - 1) (Nat.lt_of_le_of_lt (Nat.sub_le _ _) t.isLt)).a11 (outsAt0 m c (t.val - 1) (Nat.lt_of_le_of_lt (Nat.sub_le _ _) t.isLt)).a12 (outsAt0 m c (t.val - 1) (Nat.lt_of_le_of_lt (Nat.sub_le _ _) t.isLt)).a13,
      out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) (iblk m c 0 t) (iblk m c 1 t) (iblk m c 2 t) (outsAt0 m c (t.val - 1) (Nat.lt_of_le_of_lt (Nat.sub_le _ _) t.isLt)).a3 (outsAt0 m c (t.val - 1) (Nat.lt_of_le_of_lt (Nat.sub_le _ _) t.isLt)).a4 (outsAt0 m c (t.val - 1) (Nat.lt_of_le_of_lt (Nat.sub_le _ _) t.isLt)).a5 (outsAt0 m c (t.val - 1) (Nat.lt_of_le_of_lt (Nat.sub_le _ _) t.isLt)).a6 (outsAt0 m c (t.val - 1) (Nat.lt_of_le_of_lt (Nat.sub_le _ _) t.isLt)).a7 (outsAt0 m c (t.val - 1) (Nat.lt_of_le_of_lt (Nat.sub_le _ _) t.isLt)).a8 (outsAt0 m c (t.val - 1) (Nat.lt_of_le_of_lt (Nat.sub_le _ _) t.isLt)).a9 (outsAt0 m c (t.val - 1) (Nat.lt_of_le_of_lt (Nat.sub_le _ _) t.isLt)).a10 (outsAt0 m c (t.val - 1) (Nat.lt_of_le_of_lt (Nat.sub_le _ _) t.isLt)).a11 (outsAt0 m c (t.val - 1) (Nat.lt_of_le_of_lt (Nat.sub_le _ _) t.isLt)).a12 (outsAt0 m c (t.val - 1) (Nat.lt_of_le_of_lt (Nat.sub_le _ _) t.isLt)).a13,
      out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) (iblk m c 0 t) (iblk m c 1 t) (iblk m c 2 t) (outsAt0 m c (t.val - 1) (Nat.lt_of_le_of_lt (Nat.sub_le _ _) t.isLt)).a3 (outsAt0 m c (t.val - 1) (Nat.lt_of_le_of_lt (Nat.sub_le _ _) t.isLt)).a4 (outsAt0 m c (t.val - 1) (Nat.lt_of_le_of_lt (Nat.sub_le _ _) t.isLt)).a5 (outsAt0 m c (t.val - 1) (Nat.lt_of_le_of_lt (Nat.sub_le _ _) t.isLt)).a6 (outsAt0 m c (t.val - 1) (Nat.lt_of_le_of_lt (Nat.sub_le _ _) t.isLt)).a7 (outsAt0 m c (t.val - 1) (Nat.lt_of_le_of_lt (Nat.sub_le _ _) t.isLt)).a8 (outsAt0 m c (t.val - 1) (Nat.lt_of_le_of_lt (Nat.sub_le _ _) t.isLt)).a9 (outsAt0 m c (t.val - 1) (Nat.lt_of_le_of_lt (Nat.sub_le _ _) t.isLt)).a10 (outsAt0 m c (t.val - 1) (Nat.lt_of_le_of_lt (Nat.sub_le _ _) t.isLt)).a11 (outsAt0 m c (t.val - 1) (Nat.lt_of_le_of_lt (Nat.sub_le _ _) t.isLt)).a12 (outsAt0 m c (t.val - 1) (Nat.lt_of_le_of_lt (Nat.sub_le _ _) t.isLt)).a13,
      out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) (iblk m c 0 t) (iblk m c 1 t) (iblk m c 2 t) (outsAt0 m c (t.val - 1) (Nat.lt_of_le_of_lt (Nat.sub_le _ _) t.isLt)).a3 (outsAt0 m c (t.val - 1) (Nat.lt_of_le_of_lt (Nat.sub_le _ _) t.isLt)).a4 (outsAt0 m c (t.val - 1) (Nat.lt_of_le_of_lt (Nat.sub_le _ _) t.isLt)).a5 (outsAt0 m c (t.val - 1) (Nat.lt_of_le_of_lt (Nat.sub_le _ _) t.isLt)).a6 (outsAt0 m c (t.val - 1) (Nat.lt_of_le_of_lt (Nat.sub_le _ _) t.isLt)).a7 (outsAt0 m c (t.val - 1) (Nat.lt_of_le_of_lt (Nat.sub_le _ _) t.isLt)).a8 (outsAt0 m c (t.val - 1) (Nat.lt_of_le_of_lt (Nat.sub_le _ _) t.isLt)).a9 (outsAt0 m c (t.val - 1) (Nat.lt_of_le_of_lt (Nat.sub_le _ _) t.isLt)).a10 (outsAt0 m c (t.val - 1) (Nat.lt_of_le_of_lt (Nat.sub_le _ _) t.isLt)).a11 (outsAt0 m c (t.val - 1) (Nat.lt_of_le_of_lt (Nat.sub_le _ _) t.isLt)).a12 (outsAt0 m c (t.val - 1) (Nat.lt_of_le_of_lt (Nat.sub_le _ _) t.isLt)).a13,
      out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) (iblk m c 0 t) (iblk m c 1 t) (iblk m c 2 t) (outsAt0 m c (t.val - 1) (Nat.lt_of_le_of_lt (Nat.sub_le _ _) t.isLt)).a3 (outsAt0 m c (t.val - 1) (Nat.lt_of_le_of_lt (Nat.sub_le _ _) t.isLt)).a4 (outsAt0 m c (t.val - 1) (Nat.lt_of_le_of_lt (Nat.sub_le _ _) t.isLt)).a5 (outsAt0 m c (t.val - 1) (Nat.lt_of_le_of_lt (Nat.sub_le _ _) t.isLt)).a6 (outsAt0 m c (t.val - 1) (Nat.lt_of_le_of_lt (Nat.sub_le _ _) t.isLt)).a7 (outsAt0 m c (t.val - 1) (Nat.lt_of_le_of_lt (Nat.sub_le _ _) t.isLt)).a8 (outsAt0 m c (t.val - 1) (Nat.lt_of_le_of_lt (Nat.sub_le _ _) t.isLt)).a9 (outsAt0 m c (t.val - 1) (Nat.lt_of_le_of_lt (Nat.sub_le _ _) t.isLt)).a10 (outsAt0 m c (t.val - 1) (Nat.lt_of_le_of_lt (Nat.sub_le _ _) t.isLt)).a11 (outsAt0 m c (t.val - 1) (Nat.lt_of_le_of_lt (Nat.sub_le _ _) t.isLt)).a12 (outsAt0 m c (t.val - 1) (Nat.lt_of_le_of_lt (Nat.sub_le _ _) t.isLt)).a13,
      out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) (iblk m c 0 t) (iblk m c 1 t) (iblk m c 2 t) (outsAt0 m c (t.val - 1) (Nat.lt_of_le_of_lt (Nat.sub_le _ _) t.isLt)).a3 (outsAt0 m c (t.val - 1) (Nat.lt_of_le_of_lt (Nat.sub_le _ _) t.isLt)).a4 (outsAt0 m c (t.val - 1) (Nat.lt_of_le_of_lt (Nat.sub_le _ _) t.isLt)).a5 (outsAt0 m c (t.val - 1) (Nat.lt_of_le_of_lt (Nat.sub_le _ _) t.isLt)).a6 (outsAt0 m c (t.val - 1) (Nat.lt_of_le_of_lt (Nat.sub_le _ _) t.isLt)).a7 (outsAt0 m c (t.val - 1) (Nat.lt_of_le_of_lt (Nat.sub_le _ _) t.isLt)).a8 (outsAt0 m c (t.val - 1) (Nat.lt_of_le_of_lt (Nat.sub_le _ _) t.isLt)).a9 (outsAt0 m c (t.val - 1) (Nat.lt_of_le_of_lt (Nat.sub_le _ _) t.isLt)).a10 (outsAt0 m c (t.val - 1) (Nat.lt_of_le_of_lt (Nat.sub_le _ _) t.isLt)).a11 (outsAt0 m c (t.val - 1) (Nat.lt_of_le_of_lt (Nat.sub_le _ _) t.isLt)).a12 (outsAt0 m c (t.val - 1) (Nat.lt_of_le_of_lt (Nat.sub_le _ _) t.isLt)).a13,
      out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) (iblk m c 0 t) (iblk m c 1 t) (iblk m c 2 t) (outsAt0 m c (t.val - 1) (Nat.lt_of_le_of_lt (Nat.sub_le _ _) t.isLt)).a3 (outsAt0 m c (t.val - 1) (Nat.lt_of_le_of_lt (Nat.sub_le _ _) t.isLt)).a4 (outsAt0 m c (t.val - 1) (Nat.lt_of_le_of_lt (Nat.sub_le _ _) t.isLt)).a5 (outsAt0 m c (t.val - 1) (Nat.lt_of_le_of_lt (Nat.sub_le _ _) t.isLt)).a6 (outsAt0 m c (t.val - 1) (Nat.lt_of_le_of_lt (Nat.sub_le _ _) t.isLt)).a7 (outsAt0 m c (t.val - 1) (Nat.lt_of_le_of_lt (Nat.sub_le _ _) t.isLt)).a8 (outsAt0 m c (t.val - 1) (Nat.lt_of_le_of_lt (Nat.sub_le _ _) t.isLt)).a9 (outsAt0 m c (t.val - 1) (Nat.lt_of_le_of_lt (Nat.sub_le _ _) t.isLt)).a10 (outsAt0 m c (t.val - 1) (Nat.lt_of_le_of_lt (Nat.sub_le _ _) t.isLt)).a11 (outsAt0 m c (t.val - 1) (Nat.lt_of_le_of_lt (Nat.sub_le _ _) t.isLt)).a12 (outsAt0 m c (t.val - 1) (Nat.lt_of_le_of_lt (Nat.sub_le _ _) t.isLt)).a13,
      out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) (iblk m c 0 t) (iblk m c 1 t) (iblk m c 2 t) (outsAt0 m c (t.val - 1) (Nat.lt_of_le_of_lt (Nat.sub_le _ _) t.isLt)).a3 (outsAt0 m c (t.val - 1) (Nat.lt_of_le_of_lt (Nat.sub_le _ _) t.isLt)).a4 (outsAt0 m c (t.val - 1) (Nat.lt_of_le_of_lt (Nat.sub_le _ _) t.isLt)).a5 (outsAt0 m c (t.val - 1) (Nat.lt_of_le_of_lt (Nat.sub_le _ _) t.isLt)).a6 (outsAt0 m c (t.val - 1) (Nat.lt_of_le_of_lt (Nat.sub_le _ _) t.isLt)).a7 (outsAt0 m c (t.val - 1) (Nat.lt_of_le_of_lt (Nat.sub_le _ _) t.isLt)).a8 (outsAt0 m c (t.val - 1) (Nat.lt_of_le_of_lt (Nat.sub_le _ _) t.isLt)).a9 (outsAt0 m c (t.val - 1) (Nat.lt_of_le_of_lt (Nat.sub_le _ _) t.isLt)).a10 (outsAt0 m c (t.val - 1) (Nat.lt_of_le_of_lt (Nat.sub_le _ _) t.isLt)).a11 (outsAt0 m c (t.val - 1) (Nat.lt_of_le_of_lt (Nat.sub_le _ _) t.isLt)).a12 (outsAt0 m c (t.val - 1) (Nat.lt_of_le_of_lt (Nat.sub_le _ _) t.isLt)).a13,
      out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) (iblk m c 0 t) (iblk m c 1 t) (iblk m c 2 t) (outsAt0 m c (t.val - 1) (Nat.lt_of_le_of_lt (Nat.sub_le _ _) t.isLt)).a3 (outsAt0 m c (t.val - 1) (Nat.lt_of_le_of_lt (Nat.sub_le _ _) t.isLt)).a4 (outsAt0 m c (t.val - 1) (Nat.lt_of_le_of_lt (Nat.sub_le _ _) t.isLt)).a5 (outsAt0 m c (t.val - 1) (Nat.lt_of_le_of_lt (Nat.sub_le _ _) t.isLt)).a6 (outsAt0 m c (t.val - 1) (Nat.lt_of_le_of_lt (Nat.sub_le _ _) t.isLt)).a7 (outsAt0 m c (t.val - 1) (Nat.lt_of_le_of_lt (Nat.sub_le _ _) t.isLt)).a8 (outsAt0 m c (t.val - 1) (Nat.lt_of_le_of_lt (Nat.sub_le _ _) t.isLt)).a9 (outsAt0 m c (t.val - 1) (Nat.lt_of_le_of_lt (Nat.sub_le _ _) t.isLt)).a10 (outsAt0 m c (t.val - 1) (Nat.lt_of_le_of_lt (Nat.sub_le _ _) t.isLt)).a11 (outsAt0 m c (t.val - 1) (Nat.lt_of_le_of_lt (Nat.sub_le _ _) t.isLt)).a12 (outsAt0 m c (t.val - 1) (Nat.lt_of_le_of_lt (Nat.sub_le _ _) t.isLt)).a13⟩ := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body each input's buffer at its block and each accumulator's at
    `outsAt0`; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).a3
    | ⟨4, _⟩ => (outsAt0 m c t.val t.isLt).a4
    | ⟨5, _⟩ => (outsAt0 m c t.val t.isLt).a5
    | ⟨6, _⟩ => (outsAt0 m c t.val t.isLt).a6
    | ⟨7, _⟩ => (outsAt0 m c t.val t.isLt).a7
    | ⟨8, _⟩ => (outsAt0 m c t.val t.isLt).a8
    | ⟨9, _⟩ => (outsAt0 m c t.val t.isLt).a9
    | ⟨10, _⟩ => (outsAt0 m c t.val t.isLt).a10
    | ⟨11, _⟩ => (outsAt0 m c t.val t.isLt).a11
    | ⟨12, _⟩ => (outsAt0 m c t.val t.isLt).a12
    | ⟨13, _⟩ => (outsAt0 m c t.val t.isLt).a13
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).a3 := by dsimp only [dats]
theorem after0_4 (c : Dev nD) (t : Fin cfg0.N) : (dats m 0 c).after 4 t = (outsAt0 m c t.val t.isLt).a4 := by dsimp only [dats]
theorem after0_5 (c : Dev nD) (t : Fin cfg0.N) : (dats m 0 c).after 5 t = (outsAt0 m c t.val t.isLt).a5 := by dsimp only [dats]
theorem after0_6 (c : Dev nD) (t : Fin cfg0.N) : (dats m 0 c).after 6 t = (outsAt0 m c t.val t.isLt).a6 := by dsimp only [dats]
theorem after0_7 (c : Dev nD) (t : Fin cfg0.N) : (dats m 0 c).after 7 t = (outsAt0 m c t.val t.isLt).a7 := by dsimp only [dats]
theorem after0_8 (c : Dev nD) (t : Fin cfg0.N) : (dats m 0 c).after 8 t = (outsAt0 m c t.val t.isLt).a8 := by dsimp only [dats]
theorem after0_9 (c : Dev nD) (t : Fin cfg0.N) : (dats m 0 c).after 9 t = (outsAt0 m c t.val t.isLt).a9 := by dsimp only [dats]
theorem after0_10 (c : Dev nD) (t : Fin cfg0.N) : (dats m 0 c).after 10 t = (outsAt0 m c t.val t.isLt).a10 := by dsimp only [dats]
theorem after0_11 (c : Dev nD) (t : Fin cfg0.N) : (dats m 0 c).after 11 t = (outsAt0 m c t.val t.isLt).a11 := by dsimp only [dats]
theorem after0_12 (c : Dev nD) (t : Fin cfg0.N) : (dats m 0 c).after 12 t = (outsAt0 m c t.val t.isLt).a12 := by dsimp only [dats]
theorem after0_13 (c : Dev nD) (t : Fin cfg0.N) : (dats m 0 c).after 13 t = (outsAt0 m c t.val t.isLt).a13 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- Away from a restart, accumulator 0's current buffer holds what the body left at the point before. -/
theorem before0_3_B (c : Dev nD) (t : Fin cfg0.N) (h0 : ¬t.val % 32 = 0) (d) :
    (dats m 0 c).before 3 t d = (outsAt0 m c (t.val - 1) (Nat.lt_of_le_of_lt (Nat.sub_le _ _) t.isLt)).a3 := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    (fun _ => rfl) (fun _ _ => rfl)]
  dsimp only [dats]

/-- Away from a restart, accumulator 1's current buffer holds what the body left at the point before. -/
theorem before0_4_B (c : Dev nD) (t : Fin cfg0.N) (h0 : ¬t.val % 32 = 0) (d) :
    (dats m 0 c).before 4 t d = (outsAt0 m c (t.val - 1) (Nat.lt_of_le_of_lt (Nat.sub_le _ _) t.isLt)).a4 := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dats]

/-- Away from a restart, accumulator 2's current buffer holds what the body left at the point before. -/
theorem before0_5_B (c : Dev nD) (t : Fin cfg0.N) (h0 : ¬t.val % 32 = 0) (d) :
    (dats m 0 c).before 5 t d = (outsAt0 m c (t.val - 1) (Nat.lt_of_le_of_lt (Nat.sub_le _ _) t.isLt)).a5 := by
  have hN : t.val < 64 := lt_of_lt_of_eq t.isLt (show cfg0.N = 64 from N_0)
  rw [Dat.before_out_kept _ 5 rfl t (by omega) (Bool.eq_false_iff.mpr fun h => by have := (flush0_5 _).mp h; dsimp only at this; omega)
    (fun _ => rfl) (fun _ _ => rfl)]
  dsimp only [dats]

/-- Away from a restart, accumulator 3's current buffer holds what the body left at the point before. -/
theorem before0_6_B (c : Dev nD) (t : Fin cfg0.N) (h0 : ¬t.val % 32 = 0) (d) :
    (dats m 0 c).before 6 t d = (outsAt0 m c (t.val - 1) (Nat.lt_of_le_of_lt (Nat.sub_le _ _) t.isLt)).a6 := by
  have hN : t.val < 64 := lt_of_lt_of_eq t.isLt (show cfg0.N = 64 from N_0)
  rw [Dat.before_out_kept _ 6 rfl t (by omega) (Bool.eq_false_iff.mpr fun h => by have := (flush0_6 _).mp h; dsimp only at this; omega)
    (fun _ => rfl) (fun _ _ => rfl)]
  dsimp only [dats]

/-- Away from a restart, accumulator 4's current buffer holds what the body left at the point before. -/
theorem before0_7_B (c : Dev nD) (t : Fin cfg0.N) (h0 : ¬t.val % 32 = 0) (d) :
    (dats m 0 c).before 7 t d = (outsAt0 m c (t.val - 1) (Nat.lt_of_le_of_lt (Nat.sub_le _ _) t.isLt)).a7 := by
  have hN : t.val < 64 := lt_of_lt_of_eq t.isLt (show cfg0.N = 64 from N_0)
  rw [Dat.before_out_kept _ 7 rfl t (by omega) (Bool.eq_false_iff.mpr fun h => by have := (flush0_7 _).mp h; dsimp only at this; omega)
    (fun _ => rfl) (fun _ _ => rfl)]
  dsimp only [dats]

/-- Away from a restart, accumulator 5's current buffer holds what the body left at the point before. -/
theorem before0_8_B (c : Dev nD) (t : Fin cfg0.N) (h0 : ¬t.val % 32 = 0) (d) :
    (dats m 0 c).before 8 t d = (outsAt0 m c (t.val - 1) (Nat.lt_of_le_of_lt (Nat.sub_le _ _) t.isLt)).a8 := by
  have hN : t.val < 64 := lt_of_lt_of_eq t.isLt (show cfg0.N = 64 from N_0)
  rw [Dat.before_out_kept _ 8 rfl t (by omega) (Bool.eq_false_iff.mpr fun h => by have := (flush0_8 _).mp h; dsimp only at this; omega)
    (fun _ => rfl) (fun _ _ => rfl)]
  dsimp only [dats]

/-- Away from a restart, accumulator 6's current buffer holds what the body left at the point before. -/
theorem before0_9_B (c : Dev nD) (t : Fin cfg0.N) (h0 : ¬t.val % 32 = 0) (d) :
    (dats m 0 c).before 9 t d = (outsAt0 m c (t.val - 1) (Nat.lt_of_le_of_lt (Nat.sub_le _ _) t.isLt)).a9 := by
  have hN : t.val < 64 := lt_of_lt_of_eq t.isLt (show cfg0.N = 64 from N_0)
  rw [Dat.before_out_kept _ 9 rfl t (by omega) (Bool.eq_false_iff.mpr fun h => by have := (flush0_9 _).mp h; dsimp only at this; omega)
    (fun _ => rfl) (fun _ _ => rfl)]
  dsimp only [dats]

/-- Away from a restart, accumulator 7's current buffer holds what the body left at the point before. -/
theorem before0_10_B (c : Dev nD) (t : Fin cfg0.N) (h0 : ¬t.val % 32 = 0) (d) :
    (dats m 0 c).before 10 t d = (outsAt0 m c (t.val - 1) (Nat.lt_of_le_of_lt (Nat.sub_le _ _) t.isLt)).a10 := by
  have hN : t.val < 64 := lt_of_lt_of_eq t.isLt (show cfg0.N = 64 from N_0)
  rw [Dat.before_out_kept _ 10 rfl t (by omega) (Bool.eq_false_iff.mpr fun h => by have := (flush0_10 _).mp h; dsimp only at this; omega)
    (fun _ => rfl) (fun _ _ => rfl)]
  dsimp only [dats]

/-- Away from a restart, accumulator 8's current buffer holds what the body left at the point before. -/
theorem before0_11_B (c : Dev nD) (t : Fin cfg0.N) (h0 : ¬t.val % 32 = 0) (d) :
    (dats m 0 c).before 11 t d = (outsAt0 m c (t.val - 1) (Nat.lt_of_le_of_lt (Nat.sub_le _ _) t.isLt)).a11 := by
  have hN : t.val < 64 := lt_of_lt_of_eq t.isLt (show cfg0.N = 64 from N_0)
  rw [Dat.before_out_kept _ 11 rfl t (by omega) (Bool.eq_false_iff.mpr fun h => by have := (flush0_11 _).mp h; dsimp only at this; omega)
    (fun _ => rfl) (fun _ _ => rfl)]
  dsimp only [dats]

/-- Away from a restart, accumulator 9's current buffer holds what the body left at the point before. -/
theorem before0_12_B (c : Dev nD) (t : Fin cfg0.N) (h0 : ¬t.val % 32 = 0) (d) :
    (dats m 0 c).before 12 t d = (outsAt0 m c (t.val - 1) (Nat.lt_of_le_of_lt (Nat.sub_le _ _) t.isLt)).a12 := by
  have hN : t.val < 64 := lt_of_lt_of_eq t.isLt (show cfg0.N = 64 from N_0)
  rw [Dat.before_out_kept _ 12 rfl t (by omega) (Bool.eq_false_iff.mpr fun h => by have := (flush0_12 _).mp h; dsimp only at this; omega)
    (fun _ => rfl) (fun _ _ => rfl)]
  dsimp only [dats]

/-- Away from a restart, accumulator 10's current buffer holds what the body left at the point before. -/
theorem before0_13_B (c : Dev nD) (t : Fin cfg0.N) (h0 : ¬t.val % 32 = 0) (d) :
    (dats m 0 c).before 13 t d = (outsAt0 m c (t.val - 1) (Nat.lt_of_le_of_lt (Nat.sub_le _ _) t.isLt)).a13 := by
  have hN : t.val < 64 := lt_of_lt_of_eq t.isLt (show cfg0.N = 64 from N_0)
  rw [Dat.before_out_kept _ 13 rfl t (by omega) (Bool.eq_false_iff.mpr fun h => by have := (flush0_13 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  have hN : t.val < 64 := lt_of_lt_of_eq t.isLt (show cfg0.N = 64 from N_0)
  by_cases h0 : t.val % 32 = 0
  · rw [outsAt0_A m c t h0]
    (try dsimp only)
    unfold out0_A_3 out0_A_4 out0_A_5 out0_A_6 out0_A_7 out0_A_8 out0_A_9 out0_A_10 out0_A_11 out0_A_12 out0_A_13
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((kernelRun0_A c (grid0.coords t) _ _ _ _ _ _ _ _ _ _ _ _ _ _ _ _ _ _ _ _ _ _ _ _ _ _ _ _ ((hcond0_0 t).mpr h0) (iblk m c 0 t) (iblk m c 1 t) (iblk m c 2 t)).2.2.2.2.2.2.2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iintro ⟨H0, H1, H2, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩, ⟨%e13, H13⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _ _ _ _ _ _ _ _ _ _ _ _ _ _ _ _ _ _ _ )
    isplitl [H4]
    · unfold owns; iexists _; isplitr
      swap; · iexact H4
      ipureintro; exact View.read_writes_of_cover _ _ _ _ _ (cover0_A_4 c _ _ _ _ _ _ _ _ _ _ _ _ _ _ _ _ _ _ _ _ _ _ _ _ _ _ _ _ _ _ _ _ _ )
    isplitl [H5]
    · unfold owns; iexists _; isplitr
      swap; · iexact H5
      ipureintro; exact View.read_writes_of_cover _ _ _ _ _ (cover0_A_5 c _ _ _ _ _ _ _ _ _ _ _ _ _ _ _ _ _ _ _ _ _ _ _ _ _ _ _ _ _ _ _ _ _ )
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _ _ _ _ _ _ _ _ _ _ )
    isplitl [H7]
    · unfold owns; iexists _; isplitr
      swap; · iexact H7
      ipureintro; exact View.read_writes_of_cover _ _ _ _ _ (cover0_A_7 c _ _ _ _ _ _ _ _ _ _ _ _ _ _ _ _ _ _ _ _ _ _ _ _ _ _ _ _ _ _ _ _ _ )
    isplitl [H8]
    · unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _ _ _ _ )
    isplitl [H9]
    · unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _ _ _ )
    isplitl [H10]
    · unfold owns; iexists _; isplitr
      swap; · iexact H10
      ipureintro; exact View.read_writes_of_cover _ _ _ _ _ (cover0_A_10 c _ _ _ _ _ _ _ _ _ _ _ _ _ _ _ _ _ _ _ _ _ _ _ _ _ _ _ _ _ _ _ _ _ )
    isplitl [H11]
    · unfold owns; iexists _; isplitr
      swap; · iexact H11
      ipureintro; exact View.read_writes_of_cover _ _ _ _ _ (cover0_A_11 c _ _ _ _ _ _ _ _ _ _ _ _ _ _ _ _ _ _ _ _ _ _ _ _ _ _ _ _ _ _ _ _ _ )
    isplitl [H12]
    · unfold owns; iexists _; isplitr
      swap; · iexact H12
      ipureintro; exact View.read_writes_of_cover _ _ _ _ _ (cover0_A_12 c _ _ _ _ _ _ _ _ _ _ _ _ _ _ _ _ _ _ _ _ _ _ _ _ _ _ _ _ _ _ _ _ _ )
    unfold owns; iexists _; isplitr
    swap; · iexact H13
    ipureintro; exact View.read_writes_of_cover _ _ _ _ _ (cover0_A_13 c _ _ _ _ _ _ _ _ _ _ _ _ _ _ _ _ _ _ _ _ _ _ _ _ _ _ _ _ _ _ _ _ _ )
  · rw [outsAt0_B m c t h0]
    simp only [before0_3_B m c t h0, before0_4_B m c t h0, before0_5_B m c t h0, before0_6_B m c t h0, before0_7_B m c t h0, before0_8_B m c t h0, before0_9_B m c t h0, before0_10_B m c t h0, before0_11_B m c t h0, before0_12_B m c t h0, before0_13_B m c t h0]
    (try dsimp only)
    unfold out0_B_3 out0_B_4 out0_B_5 out0_B_6 out0_B_7 out0_B_8 out0_B_9 out0_B_10 out0_B_11 out0_B_12 out0_B_13
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((kernelRun0_B c (grid0.coords t) _ _ _ _ _ _ _ _ _ _ _ _ _ _ _ _ _ _ _ _ _ _ _ _ _ _ _ _ (fun h => h0 ((hcond0_0 t).mp h)) (iblk m c 0 t) (iblk m c 1 t) (iblk m c 2 t) _ _ _ _ _ _ _ _ _ _ _ ).2.2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iintro ⟨H0, H1, H2, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩, ⟨%e13, H13⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_B_3 c _ _ _ _ _ _ _ _ _ _ _ _ _ _ _ _ _ _ _ _ _ _ _ _ _ _ _ _ _ _ _ _ _ _ _ _ _ _ _ _ _ _ _ _ )
    isplitl [H4]
    · unfold owns; iexists _; isplitr
      swap; · iexact H4
      ipureintro; exact View.read_writes_of_cover _ _ _ _ _ (cover0_B_4 c _ _ _ _ _ _ _ _ _ _ _ _ _ _ _ _ _ _ _ _ _ _ _ _ _ _ _ _ _ _ _ _ _ _ _ _ _ _ _ _ _ _ _ _ )
    isplitl [H5]
    · unfold owns; iexists _; isplitr
      swap; · iexact H5
      ipureintro; exact View.read_writes_of_cover _ _ _ _ _ (cover0_B_5 c _ _ _ _ _ _ _ _ _ _ _ _ _ _ _ _ _ _ _ _ _ _ _ _ _ _ _ _ _ _ _ _ _ _ _ _ _ _ _ _ _ _ _ _ )
    isplitl [H6]
    · unfold owns; iexists _; isplitr
      swap; · iexact H6
      ipureintro; exact View.read_writes_of_cover _ _ _ _ _ (cover0_B_6 c _ _ _ _ _ _ _ _ _ _ _ _ _ _ _ _ _ _ _ _ _ _ _ _ _ _ _ _ _ _ _ _ _ _ _ _ _ _ _ _ _ _ _ _ )
    isplitl [H7]
    · unfold owns; iexists _; isplitr
      swap; · iexact H7
      ipureintro; exact View.read_writes_of_cover _ _ _ _ _ (cover0_B_7 c _ _ _ _ _ _ _ _ _ _ _ _ _ _ _ _ _ _ _ _ _ _ _ _ _ _ _ _ _ _ _ _ _ _ _ _ _ _ _ _ _ _ _ _ )
    isplitl [H8]
    · unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _ _ _ _ _ _ _ _ _ _ _ _ _ _ _ )
    isplitl [H9]
    · unfold owns; iexists _; isplitr
      swap; · iexact H9
      ipureintro; exact View.read_writes_of_cover _ _ _ _ _ (cover0_B_9 c _ _ _ _ _ _ _ _ _ _ _ _ _ _ _ _ _ _ _ _ _ _ _ _ _ _ _ _ _ _ _ _ _ _ _ _ _ _ _ _ _ _ _ _ )
    isplitl [H10]
    · unfold owns; iexists _; isplitr
      swap; · iexact H10
      ipureintro; exact View.read_writes_of_cover _ _ _ _ _ (cover0_B_10 c _ _ _ _ _ _ _ _ _ _ _ _ _ _ _ _ _ _ _ _ _ _ _ _ _ _ _ _ _ _ _ _ _ _ _ _ _ _ _ _ _ _ _ _ )
    isplitl [H11]
    · unfold owns; iexists _; isplitr
      swap; · iexact H11
      ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _ )
    isplitl [H12]
    · unfold owns; iexists _; isplitr
      swap; · iexact H12
      ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ )
    unfold owns; iexists _; isplitr
    swap; · iexact H13
    ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ )

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every array of the pipeline ends at what the proof data give,
    every other unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Frame

end
-- ==== Proof.FrameBaseI.lean ====
/-
  The one pallas_call of this program runs on a 2 x 32 grid: point (c, b) stages block 32c + b (128 batch rows)
  of the three argument arrays and adds eleven partial sums into eleven one-entry accumulators, which are
  cleared at b = 0 and written back to entry c of eleven [2,1,1] arrays after b = 31.  This module fixes what the
  frame of that program is stated over: the buffer contents when the region is entered (nothing runs before it),
  the 78 scalar host lines that follow it (they allocate nothing and write none of the fourteen arrays), the
  blocks of the windows, the one branch condition of the body (b = 0) decided over the grid, and the staging
  memrefs the body is called with at a point.
-/
import proofs.«100404_j84018150244766_2_alg».proof.Proof.Gen.KernelIdeal.Launch
import proofs.«100404_j84018150244766_2_alg».proof.Proof.Gen.KernelIdeal.Skeleton
import proofs.«100404_j84018150244766_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384
set_option maxHeartbeats 40000000

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: as launched (no host line comes before the region). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- The host lines after the region allocate nothing. -/
theorem hostOps1_fresh : (hostOps1 : List (HloOp τ sig (Elt F))).Forall fun op => op.fresh = ∅ := by
  simp only [List.Forall]; repeat' constructor

/-- @main is the region continued by the 78 host lines. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall])
    (by simp only [List.Forall]) main_chain

/-- The later lines touch unscoped TensorCore buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  · exact Pipeline.sub_ucRefs op ((List.forall_iff_forall_mem.mp hostOps1_sub) op hop)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
/-- Each later line writes its own result buffer, which is none of the fourteen arrays of the pipeline. -/
theorem hostOps1_keeps : (hostOps1 : List (HloOp τ sig (Elt F))).Forall fun op =>
    ∀ w, Proc.devRef .tc (Pipeline.arrRef spec0 w) ∉ op.writes := by
  simp only [List.Forall, StableHlo.nullary_writes, StableHlo.binary_writes, Finset.mem_singleton]
  repeat' apply And.intro
  all_goals intro w; fin_cases w <;> exact StableHlo.devRef_ne_of_ne (by decide)
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · exact (List.forall_iff_forall_mem.mp hostOps1_keeps) op hop

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, for any proof data whose array is the
    region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, for any proof data whose array is the
    region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, for any proof data whose array is the
    region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- For any proof data whose arrays are the region-entry contents, a run to the frame post read at the three
    argument arrays (each a staged input: it ends at its entry contents) is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 0).trans (((dats 0 c).arrAt_in 0 rfl _).trans ((hA c 0).trans (V_main_arg0 m c))),
    ((h c).1 1).trans (((dats 0 c).arrAt_in 1 rfl _).trans ((hA c 1).trans (V_main_arg1 m c))),
    ((h c).1 2).trans (((dats 0 c).arrAt_in 2 rfl _).trans ((hA c 2).trans (V_main_arg2 m c)))⟩) h

/-! ## The body's branch condition -/

/-- The body clears its accumulators when the second grid coordinate is zero. -/
abbrev cond0_0 (i : grid0.Coords) : Prop := (Scalar.cmpi .ne (Scalar.extui (Scalar.cmpi .eq (BitVec.ofNat 32 (i 1).val) 0#32)) 0#32) = 1#1
/-- That is at the points 0 and 32 — decided over the grid. -/
theorem hcond0_0 : ∀ t : Fin cfg0.N, cond0_0 (grid0.coords t) ↔ t.val % 32 = 0 :=
  (by decide +kernel : ∀ t : Fin grid0.N, cond0_0 (grid0.coords t) ↔ t.val % 32 = 0)

/-- No window is ever idle. -/
theorem live0 : ∀ (w : Fin cfg0.W) (i : grid0.Coords), cfg0.idle w i = false := fun _ _ => rfl

/-! ## The staging memrefs -/
abbrev VO0_3 : View sig .tc .vmem S1x1x1 .f32 := (Memref.whole cc0_stg3_0 : Memref sig .tc .vmem S1x1x1 .f32).view
abbrev VO0_4 : View sig .tc .vmem S1x1x1 .f32 := (Memref.whole cc0_stg4_0 : Memref sig .tc .vmem S1x1x1 .f32).view
abbrev VO0_5 : View sig .tc .vmem S1x1x1 .f32 := (Memref.whole cc0_stg5_0 : Memref sig .tc .vmem S1x1x1 .f32).view
abbrev VO0_6 : View sig .tc .vmem S1x1x1 .f32 := (Memref.whole cc0_stg6_0 : Memref sig .tc .vmem S1x1x1 .f32).view
abbrev VO0_7 : View sig .tc .vmem S1x1x1 .f32 := (Memref.whole cc0_stg7_0 : Memref sig .tc .vmem S1x1x1 .f32).view
abbrev VO0_8 : View sig .tc .vmem S1x1x1 .f32 := (Memref.whole cc0_stg8_0 : Memref sig .tc .vmem S1x1x1 .f32).view
abbrev VO0_9 : View sig .tc .vmem S1x1x1 .f32 := (Memref.whole cc0_stg9_0 : Memref sig .tc .vmem S1x1x1 .f32).view
abbrev VO0_10 : View sig .tc .vmem S1x1x1 .f32 := (Memref.whole cc0_stg10_0 : Memref sig .tc .vmem S1x1x1 .f32).view
abbrev VO0_11 : View sig .tc .vmem S1x1x1 .f32 := (Memref.whole cc0_stg11_0 : Memref sig .tc .vmem S1x1x1 .f32).view
abbrev VO0_12 : View sig .tc .vmem S1x1x1 .f32 := (Memref.whole cc0_stg12_0 : Memref sig .tc .vmem S1x1x1 .f32).view
abbrev VO0_13 : View sig .tc .vmem S1x1x1 .f32 := (Memref.whole cc0_stg13_0 : Memref sig .tc .vmem S1x1x1 .f32).view
abbrev ms0_0 (t : Fin cfg0.N) : Memref sig .tc .vmem S128x7x7x30 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x7x7x30 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x7x7 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x1 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x1x1 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x1x1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x1x1 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x1x1 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x1x1 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x1x1 .f32 := win0_13.stage (cfg0.slots t 13)
abbrev hs0_13 (t : Fin cfg0.N) : (ms0_13 t).IsWhole := hstage0_13 ((cfg0.slots t 13).cast nbuf0_13)

end Cert.KernelIdeal.Frame

end
-- ==== Proof.FrameRunAI.lean ====
/-
  The kernel body run once at a grid point where the second coordinate is zero: the eleven accumulators are first cleared,
  the three input blocks are loaded, and each accumulator is stored back with its partial sum added.  The run is a
  triple over any whole staging memrefs; what each accumulator's buffer ends with is recorded as the list of its
  stores (last first), which the symbolic execution finds.
-/
import proofs.«100404_j84018150244766_2_alg».proof.Proof.FrameBaseI

set_option maxRecDepth 16384
set_option maxHeartbeats 40000000

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_A (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : cond0_0 i)
    (x0 : Vec F S128x7x7x30 .f32) (x1 : Vec F S128x7x7x30 .f32) (x2 : Vec F S128x7x7 .i32) :
    Σ' (L3 : List (View.Piece (Elt F) S1x1x1 .f32)) (L4 : List (View.Piece (Elt F) S1x1x1 .f32)) (L5 : List (View.Piece (Elt F) S1x1x1 .f32)) (L6 : List (View.Piece (Elt F) S1x1x1 .f32)) (L7 : List (View.Piece (Elt F) S1x1x1 .f32)) (L8 : List (View.Piece (Elt F) S1x1x1 .f32)) (L9 : List (View.Piece (Elt F) S1x1x1 .f32)) (L10 : List (View.Piece (Elt F) S1x1x1 .f32)) (L11 : List (View.Piece (Elt F) S1x1x1 .f32)) (L12 : List (View.Piece (Elt F) S1x1x1 .f32)), { L13 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13)) -∗ K ⟨⟩))
          ⊢ wp frame (wpE (defs₀ (F := F)) Variants.none c none) E (cc0__yolo_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, ?_, ?_, ?_, ?_, fun E K => ?run⟩
  case run =>
    simp only [cc0__yolo_kernel_eq_skeleton]; unfold cc0__yolo_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
    obtain rfl := harg2.eq_unread hf0; obtain rfl := harg3.eq_unread hf1; obtain rfl := harg4.eq_unread hf2
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13

end Cert.KernelIdeal.Frame

end
-- ==== Proof.FrameRunBI.lean ====
/-
  The kernel body run once at a grid point where the second coordinate is not zero: the eleven accumulators are read at what the point before left,
  the three input blocks are loaded, and each accumulator is stored back with its partial sum added.  The run is a
  triple over any whole staging memrefs; what each accumulator's buffer ends with is recorded as the list of its
  stores (last first), which the symbolic execution finds.
-/
import proofs.«100404_j84018150244766_2_alg».proof.Proof.FrameRunAI

set_option maxRecDepth 16384
set_option maxHeartbeats 40000000

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : ¬cond0_0 i)
    (x0 : Vec F S128x7x7x30 .f32) (x1 : Vec F S128x7x7x30 .f32) (x2 : Vec F S128x7x7 .i32) (xo3 : Vec F S1x1x1 .f32) (xo4 : Vec F S1x1x1 .f32) (xo5 : Vec F S1x1x1 .f32) (xo6 : Vec F S1x1x1 .f32) (xo7 : Vec F S1x1x1 .f32) (xo8 : Vec F S1x1x1 .f32) (xo9 : Vec F S1x1x1 .f32) (xo10 : Vec F S1x1x1 .f32) (xo11 : Vec F S1x1x1 .f32) (xo12 : Vec F S1x1x1 .f32) (xo13 : Vec F S1x1x1 .f32) :
    Σ' (L3 : List (View.Piece (Elt F) S1x1x1 .f32)) (L4 : List (View.Piece (Elt F) S1x1x1 .f32)) (L5 : List (View.Piece (Elt F) S1x1x1 .f32)) (L6 : List (View.Piece (Elt F) S1x1x1 .f32)) (L7 : List (View.Piece (Elt F) S1x1x1 .f32)) (L8 : List (View.Piece (Elt F) S1x1x1 .f32)) (L9 : List (View.Piece (Elt F) S1x1x1 .f32)) (L10 : List (View.Piece (Elt F) S1x1x1 .f32)) (L11 : List (View.Piece (Elt F) S1x1x1 .f32)) (L12 : List (View.Piece (Elt F) S1x1x1 .f32)), { L13 : List (View.Piece (Elt F) S1x1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xo3 ∗ owns (c : Thread nD τ) arg6 fullShare xo4 ∗ owns (c : Thread nD τ) arg7 fullShare xo5 ∗ owns (c : Thread nD τ) arg8 fullShare xo6 ∗ owns (c : Thread nD τ) arg9 fullShare xo7 ∗ owns (c : Thread nD τ) arg10 fullShare xo8 ∗ owns (c : Thread nD τ) arg11 fullShare xo9 ∗ owns (c : Thread nD τ) arg12 fullShare xo10 ∗ owns (c : Thread nD τ) arg13 fullShare xo11 ∗ owns (c : Thread nD τ) arg14 fullShare xo12 ∗ owns (c : Thread nD τ) arg15 fullShare xo13
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f L9) ∗ (∃ f, arg12.view.loc (c : Thread nD τ) ↦[arg12.view.set]{fullShare} arg12.view.writes (Elt F) f L10) ∗ (∃ f, arg13.view.loc (c : Thread nD τ) ↦[arg13.view.set]{fullShare} arg13.view.writes (Elt F) f L11) ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13)) -∗ K ⟨⟩))
          ⊢ wp frame (wpE (defs₀ (F := F)) Variants.none c none) E (cc0__yolo_kernel i arg2 harg2 arg3 harg3 arg4 harg4 arg5 harg5 arg6 harg6 arg7 harg7 arg8 harg8 arg9 harg9 arg10 harg10 arg11 harg11 arg12 harg12 arg13 harg13 arg14 harg14 arg15 harg15) K } := by
  refine ⟨?_, ?_, ?_, ?_, ?_, ?_, ?_, ?_, ?_, ?_, ?_, fun E K => ?run⟩
  case run =>
    simp only [cc0__yolo_kernel_eq_skeleton]; unfold cc0__yolo_kernel_skel
    simp only [k0_part1_eq_skeleton, k0_part2_eq_skeleton, k0_part3_eq_skeleton, k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
    sl_exec (disch := first | exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    iexists _; iexact H13

end Cert.KernelIdeal.Frame

end
-- ==== Proof.FrameI.lean ====
/-
  The frame of the program: what the eleven accumulators hold after each grid point (by recursion on the point:
  cleared and restarted where the second coordinate is zero, otherwise the point before's contents with this
  point's partial sums added), the proof data of the pipeline built from that, the body's obligation at every
  point from the two runs of the body, and the run of @main: the region, then the 78 scalar host lines.
-/
import proofs.«100404_j84018150244766_2_alg».proof.Proof.FrameRunBI

set_option maxRecDepth 16384
set_option maxHeartbeats 40000000

noncomputable section

namespace Cert.KernelIdeal.Frame

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each run leaves in the accumulators -/

theorem cover0_A_3 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : cond0_0 i)
    (x0 : Vec F S128x7x7x30 .f32) (x1 : Vec F S128x7x7x30 .f32) (x2 : Vec F S128x7x7 .i32) (y : S1x1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).1 S1x1x1.size (by sl_kernel_rfl) y
def out0_A_3 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : cond0_0 i)
    (x0 : Vec F S128x7x7x30 .f32) (x1 : Vec F S128x7x7x30 .f32) (x2 : Vec F S128x7x7 .i32) : Vec F S1x1x1 .f32 :=
  VO0_3.read (Elt F) (VO0_3.writes (Elt F) VO0_3.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).1)
theorem cover0_B_3 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : ¬cond0_0 i)
    (x0 : Vec F S128x7x7x30 .f32) (x1 : Vec F S128x7x7x30 .f32) (x2 : Vec F S128x7x7 .i32) (xo3 : Vec F S1x1x1 .f32) (xo4 : Vec F S1x1x1 .f32) (xo5 : Vec F S1x1x1 .f32) (xo6 : Vec F S1x1x1 .f32) (xo7 : Vec F S1x1x1 .f32) (xo8 : Vec F S1x1x1 .f32) (xo9 : Vec F S1x1x1 .f32) (xo10 : Vec F S1x1x1 .f32) (xo11 : Vec F S1x1x1 .f32) (xo12 : Vec F S1x1x1 .f32) (xo13 : Vec F S1x1x1 .f32) (y : S1x1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).1 S1x1x1.size (by sl_kernel_rfl) y
def out0_B_3 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : ¬cond0_0 i)
    (x0 : Vec F S128x7x7x30 .f32) (x1 : Vec F S128x7x7x30 .f32) (x2 : Vec F S128x7x7 .i32) (xo3 : Vec F S1x1x1 .f32) (xo4 : Vec F S1x1x1 .f32) (xo5 : Vec F S1x1x1 .f32) (xo6 : Vec F S1x1x1 .f32) (xo7 : Vec F S1x1x1 .f32) (xo8 : Vec F S1x1x1 .f32) (xo9 : Vec F S1x1x1 .f32) (xo10 : Vec F S1x1x1 .f32) (xo11 : Vec F S1x1x1 .f32) (xo12 : Vec F S1x1x1 .f32) (xo13 : Vec F S1x1x1 .f32) : Vec F S1x1x1 .f32 :=
  VO0_3.read (Elt F) (VO0_3.writes (Elt F) VO0_3.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).1)

theorem cover0_A_4 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : cond0_0 i)
    (x0 : Vec F S128x7x7x30 .f32) (x1 : Vec F S128x7x7x30 .f32) (x2 : Vec F S128x7x7 .i32) (y : S1x1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.1 S1x1x1.size (by sl_kernel_rfl) y
def out0_A_4 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : cond0_0 i)
    (x0 : Vec F S128x7x7x30 .f32) (x1 : Vec F S128x7x7x30 .f32) (x2 : Vec F S128x7x7 .i32) : Vec F S1x1x1 .f32 :=
  VO0_4.read (Elt F) (VO0_4.writes (Elt F) VO0_4.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.1)
theorem cover0_B_4 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : ¬cond0_0 i)
    (x0 : Vec F S128x7x7x30 .f32) (x1 : Vec F S128x7x7x30 .f32) (x2 : Vec F S128x7x7 .i32) (xo3 : Vec F S1x1x1 .f32) (xo4 : Vec F S1x1x1 .f32) (xo5 : Vec F S1x1x1 .f32) (xo6 : Vec F S1x1x1 .f32) (xo7 : Vec F S1x1x1 .f32) (xo8 : Vec F S1x1x1 .f32) (xo9 : Vec F S1x1x1 .f32) (xo10 : Vec F S1x1x1 .f32) (xo11 : Vec F S1x1x1 .f32) (xo12 : Vec F S1x1x1 .f32) (xo13 : Vec F S1x1x1 .f32) (y : S1x1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.1 S1x1x1.size (by sl_kernel_rfl) y
def out0_B_4 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : ¬cond0_0 i)
    (x0 : Vec F S128x7x7x30 .f32) (x1 : Vec F S128x7x7x30 .f32) (x2 : Vec F S128x7x7 .i32) (xo3 : Vec F S1x1x1 .f32) (xo4 : Vec F S1x1x1 .f32) (xo5 : Vec F S1x1x1 .f32) (xo6 : Vec F S1x1x1 .f32) (xo7 : Vec F S1x1x1 .f32) (xo8 : Vec F S1x1x1 .f32) (xo9 : Vec F S1x1x1 .f32) (xo10 : Vec F S1x1x1 .f32) (xo11 : Vec F S1x1x1 .f32) (xo12 : Vec F S1x1x1 .f32) (xo13 : Vec F S1x1x1 .f32) : Vec F S1x1x1 .f32 :=
  VO0_4.read (Elt F) (VO0_4.writes (Elt F) VO0_4.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.1)

theorem cover0_A_5 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : cond0_0 i)
    (x0 : Vec F S128x7x7x30 .f32) (x1 : Vec F S128x7x7x30 .f32) (x2 : Vec F S128x7x7 .i32) (y : S1x1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.2.1 S1x1x1.size (by sl_kernel_rfl) y
def out0_A_5 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : cond0_0 i)
    (x0 : Vec F S128x7x7x30 .f32) (x1 : Vec F S128x7x7x30 .f32) (x2 : Vec F S128x7x7 .i32) : Vec F S1x1x1 .f32 :=
  VO0_5.read (Elt F) (VO0_5.writes (Elt F) VO0_5.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.2.1)
theorem cover0_B_5 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : ¬cond0_0 i)
    (x0 : Vec F S128x7x7x30 .f32) (x1 : Vec F S128x7x7x30 .f32) (x2 : Vec F S128x7x7 .i32) (xo3 : Vec F S1x1x1 .f32) (xo4 : Vec F S1x1x1 .f32) (xo5 : Vec F S1x1x1 .f32) (xo6 : Vec F S1x1x1 .f32) (xo7 : Vec F S1x1x1 .f32) (xo8 : Vec F S1x1x1 .f32) (xo9 : Vec F S1x1x1 .f32) (xo10 : Vec F S1x1x1 .f32) (xo11 : Vec F S1x1x1 .f32) (xo12 : Vec F S1x1x1 .f32) (xo13 : Vec F S1x1x1 .f32) (y : S1x1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.2.1 S1x1x1.size (by sl_kernel_rfl) y
def out0_B_5 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : ¬cond0_0 i)
    (x0 : Vec F S128x7x7x30 .f32) (x1 : Vec F S128x7x7x30 .f32) (x2 : Vec F S128x7x7 .i32) (xo3 : Vec F S1x1x1 .f32) (xo4 : Vec F S1x1x1 .f32) (xo5 : Vec F S1x1x1 .f32) (xo6 : Vec F S1x1x1 .f32) (xo7 : Vec F S1x1x1 .f32) (xo8 : Vec F S1x1x1 .f32) (xo9 : Vec F S1x1x1 .f32) (xo10 : Vec F S1x1x1 .f32) (xo11 : Vec F S1x1x1 .f32) (xo12 : Vec F S1x1x1 .f32) (xo13 : Vec F S1x1x1 .f32) : Vec F S1x1x1 .f32 :=
  VO0_5.read (Elt F) (VO0_5.writes (Elt F) VO0_5.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.2.1)

theorem cover0_A_6 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : cond0_0 i)
    (x0 : Vec F S128x7x7x30 .f32) (x1 : Vec F S128x7x7x30 .f32) (x2 : Vec F S128x7x7 .i32) (y : S1x1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.2.2.1 S1x1x1.size (by sl_kernel_rfl) y
def out0_A_6 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : cond0_0 i)
    (x0 : Vec F S128x7x7x30 .f32) (x1 : Vec F S128x7x7x30 .f32) (x2 : Vec F S128x7x7 .i32) : Vec F S1x1x1 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.2.2.1)
theorem cover0_B_6 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : ¬cond0_0 i)
    (x0 : Vec F S128x7x7x30 .f32) (x1 : Vec F S128x7x7x30 .f32) (x2 : Vec F S128x7x7 .i32) (xo3 : Vec F S1x1x1 .f32) (xo4 : Vec F S1x1x1 .f32) (xo5 : Vec F S1x1x1 .f32) (xo6 : Vec F S1x1x1 .f32) (xo7 : Vec F S1x1x1 .f32) (xo8 : Vec F S1x1x1 .f32) (xo9 : Vec F S1x1x1 .f32) (xo10 : Vec F S1x1x1 .f32) (xo11 : Vec F S1x1x1 .f32) (xo12 : Vec F S1x1x1 .f32) (xo13 : Vec F S1x1x1 .f32) (y : S1x1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.2.2.1 S1x1x1.size (by sl_kernel_rfl) y
def out0_B_6 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : ¬cond0_0 i)
    (x0 : Vec F S128x7x7x30 .f32) (x1 : Vec F S128x7x7x30 .f32) (x2 : Vec F S128x7x7 .i32) (xo3 : Vec F S1x1x1 .f32) (xo4 : Vec F S1x1x1 .f32) (xo5 : Vec F S1x1x1 .f32) (xo6 : Vec F S1x1x1 .f32) (xo7 : Vec F S1x1x1 .f32) (xo8 : Vec F S1x1x1 .f32) (xo9 : Vec F S1x1x1 .f32) (xo10 : Vec F S1x1x1 .f32) (xo11 : Vec F S1x1x1 .f32) (xo12 : Vec F S1x1x1 .f32) (xo13 : Vec F S1x1x1 .f32) : Vec F S1x1x1 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.2.2.1)

theorem cover0_A_7 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : cond0_0 i)
    (x0 : Vec F S128x7x7x30 .f32) (x1 : Vec F S128x7x7x30 .f32) (x2 : Vec F S128x7x7 .i32) (y : S1x1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.2.2.2.1 S1x1x1.size (by sl_kernel_rfl) y
def out0_A_7 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : cond0_0 i)
    (x0 : Vec F S128x7x7x30 .f32) (x1 : Vec F S128x7x7x30 .f32) (x2 : Vec F S128x7x7 .i32) : Vec F S1x1x1 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.2.2.2.1)
theorem cover0_B_7 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : ¬cond0_0 i)
    (x0 : Vec F S128x7x7x30 .f32) (x1 : Vec F S128x7x7x30 .f32) (x2 : Vec F S128x7x7 .i32) (xo3 : Vec F S1x1x1 .f32) (xo4 : Vec F S1x1x1 .f32) (xo5 : Vec F S1x1x1 .f32) (xo6 : Vec F S1x1x1 .f32) (xo7 : Vec F S1x1x1 .f32) (xo8 : Vec F S1x1x1 .f32) (xo9 : Vec F S1x1x1 .f32) (xo10 : Vec F S1x1x1 .f32) (xo11 : Vec F S1x1x1 .f32) (xo12 : Vec F S1x1x1 .f32) (xo13 : Vec F S1x1x1 .f32) (y : S1x1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.2.2.2.1 S1x1x1.size (by sl_kernel_rfl) y
def out0_B_7 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : ¬cond0_0 i)
    (x0 : Vec F S128x7x7x30 .f32) (x1 : Vec F S128x7x7x30 .f32) (x2 : Vec F S128x7x7 .i32) (xo3 : Vec F S1x1x1 .f32) (xo4 : Vec F S1x1x1 .f32) (xo5 : Vec F S1x1x1 .f32) (xo6 : Vec F S1x1x1 .f32) (xo7 : Vec F S1x1x1 .f32) (xo8 : Vec F S1x1x1 .f32) (xo9 : Vec F S1x1x1 .f32) (xo10 : Vec F S1x1x1 .f32) (xo11 : Vec F S1x1x1 .f32) (xo12 : Vec F S1x1x1 .f32) (xo13 : Vec F S1x1x1 .f32) : Vec F S1x1x1 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.2.2.2.1)

theorem cover0_A_8 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : cond0_0 i)
    (x0 : Vec F S128x7x7x30 .f32) (x1 : Vec F S128x7x7x30 .f32) (x2 : Vec F S128x7x7 .i32) (y : S1x1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.2.2.2.2.1 S1x1x1.size (by sl_kernel_rfl) y
def out0_A_8 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : cond0_0 i)
    (x0 : Vec F S128x7x7x30 .f32) (x1 : Vec F S128x7x7x30 .f32) (x2 : Vec F S128x7x7 .i32) : Vec F S1x1x1 .f32 :=
  VO0_8.read (Elt F) (VO0_8.writes (Elt F) VO0_8.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.2.2.2.2.1)
theorem cover0_B_8 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : ¬cond0_0 i)
    (x0 : Vec F S128x7x7x30 .f32) (x1 : Vec F S128x7x7x30 .f32) (x2 : Vec F S128x7x7 .i32) (xo3 : Vec F S1x1x1 .f32) (xo4 : Vec F S1x1x1 .f32) (xo5 : Vec F S1x1x1 .f32) (xo6 : Vec F S1x1x1 .f32) (xo7 : Vec F S1x1x1 .f32) (xo8 : Vec F S1x1x1 .f32) (xo9 : Vec F S1x1x1 .f32) (xo10 : Vec F S1x1x1 .f32) (xo11 : Vec F S1x1x1 .f32) (xo12 : Vec F S1x1x1 .f32) (xo13 : Vec F S1x1x1 .f32) (y : S1x1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.2.2.2.2.1 S1x1x1.size (by sl_kernel_rfl) y
def out0_B_8 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : ¬cond0_0 i)
    (x0 : Vec F S128x7x7x30 .f32) (x1 : Vec F S128x7x7x30 .f32) (x2 : Vec F S128x7x7 .i32) (xo3 : Vec F S1x1x1 .f32) (xo4 : Vec F S1x1x1 .f32) (xo5 : Vec F S1x1x1 .f32) (xo6 : Vec F S1x1x1 .f32) (xo7 : Vec F S1x1x1 .f32) (xo8 : Vec F S1x1x1 .f32) (xo9 : Vec F S1x1x1 .f32) (xo10 : Vec F S1x1x1 .f32) (xo11 : Vec F S1x1x1 .f32) (xo12 : Vec F S1x1x1 .f32) (xo13 : Vec F S1x1x1 .f32) : Vec F S1x1x1 .f32 :=
  VO0_8.read (Elt F) (VO0_8.writes (Elt F) VO0_8.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.2.2.2.2.1)

theorem cover0_A_9 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : cond0_0 i)
    (x0 : Vec F S128x7x7x30 .f32) (x1 : Vec F S128x7x7x30 .f32) (x2 : Vec F S128x7x7 .i32) (y : S1x1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.2.2.2.2.2.1 S1x1x1.size (by sl_kernel_rfl) y
def out0_A_9 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : cond0_0 i)
    (x0 : Vec F S128x7x7x30 .f32) (x1 : Vec F S128x7x7x30 .f32) (x2 : Vec F S128x7x7 .i32) : Vec F S1x1x1 .f32 :=
  VO0_9.read (Elt F) (VO0_9.writes (Elt F) VO0_9.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.2.2.2.2.2.1)
theorem cover0_B_9 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : ¬cond0_0 i)
    (x0 : Vec F S128x7x7x30 .f32) (x1 : Vec F S128x7x7x30 .f32) (x2 : Vec F S128x7x7 .i32) (xo3 : Vec F S1x1x1 .f32) (xo4 : Vec F S1x1x1 .f32) (xo5 : Vec F S1x1x1 .f32) (xo6 : Vec F S1x1x1 .f32) (xo7 : Vec F S1x1x1 .f32) (xo8 : Vec F S1x1x1 .f32) (xo9 : Vec F S1x1x1 .f32) (xo10 : Vec F S1x1x1 .f32) (xo11 : Vec F S1x1x1 .f32) (xo12 : Vec F S1x1x1 .f32) (xo13 : Vec F S1x1x1 .f32) (y : S1x1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.2.2.2.2.2.1 S1x1x1.size (by sl_kernel_rfl) y
def out0_B_9 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : ¬cond0_0 i)
    (x0 : Vec F S128x7x7x30 .f32) (x1 : Vec F S128x7x7x30 .f32) (x2 : Vec F S128x7x7 .i32) (xo3 : Vec F S1x1x1 .f32) (xo4 : Vec F S1x1x1 .f32) (xo5 : Vec F S1x1x1 .f32) (xo6 : Vec F S1x1x1 .f32) (xo7 : Vec F S1x1x1 .f32) (xo8 : Vec F S1x1x1 .f32) (xo9 : Vec F S1x1x1 .f32) (xo10 : Vec F S1x1x1 .f32) (xo11 : Vec F S1x1x1 .f32) (xo12 : Vec F S1x1x1 .f32) (xo13 : Vec F S1x1x1 .f32) : Vec F S1x1x1 .f32 :=
  VO0_9.read (Elt F) (VO0_9.writes (Elt F) VO0_9.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.2.2.2.2.2.1)

theorem cover0_A_10 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : cond0_0 i)
    (x0 : Vec F S128x7x7x30 .f32) (x1 : Vec F S128x7x7x30 .f32) (x2 : Vec F S128x7x7 .i32) (y : S1x1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.2.2.2.2.2.2.1 S1x1x1.size (by sl_kernel_rfl) y
def out0_A_10 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : cond0_0 i)
    (x0 : Vec F S128x7x7x30 .f32) (x1 : Vec F S128x7x7x30 .f32) (x2 : Vec F S128x7x7 .i32) : Vec F S1x1x1 .f32 :=
  VO0_10.read (Elt F) (VO0_10.writes (Elt F) VO0_10.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.2.2.2.2.2.2.1)
theorem cover0_B_10 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : ¬cond0_0 i)
    (x0 : Vec F S128x7x7x30 .f32) (x1 : Vec F S128x7x7x30 .f32) (x2 : Vec F S128x7x7 .i32) (xo3 : Vec F S1x1x1 .f32) (xo4 : Vec F S1x1x1 .f32) (xo5 : Vec F S1x1x1 .f32) (xo6 : Vec F S1x1x1 .f32) (xo7 : Vec F S1x1x1 .f32) (xo8 : Vec F S1x1x1 .f32) (xo9 : Vec F S1x1x1 .f32) (xo10 : Vec F S1x1x1 .f32) (xo11 : Vec F S1x1x1 .f32) (xo12 : Vec F S1x1x1 .f32) (xo13 : Vec F S1x1x1 .f32) (y : S1x1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.2.2.2.2.2.2.1 S1x1x1.size (by sl_kernel_rfl) y
def out0_B_10 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : ¬cond0_0 i)
    (x0 : Vec F S128x7x7x30 .f32) (x1 : Vec F S128x7x7x30 .f32) (x2 : Vec F S128x7x7 .i32) (xo3 : Vec F S1x1x1 .f32) (xo4 : Vec F S1x1x1 .f32) (xo5 : Vec F S1x1x1 .f32) (xo6 : Vec F S1x1x1 .f32) (xo7 : Vec F S1x1x1 .f32) (xo8 : Vec F S1x1x1 .f32) (xo9 : Vec F S1x1x1 .f32) (xo10 : Vec F S1x1x1 .f32) (xo11 : Vec F S1x1x1 .f32) (xo12 : Vec F S1x1x1 .f32) (xo13 : Vec F S1x1x1 .f32) : Vec F S1x1x1 .f32 :=
  VO0_10.read (Elt F) (VO0_10.writes (Elt F) VO0_10.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.2.2.2.2.2.2.1)

theorem cover0_A_11 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : cond0_0 i)
    (x0 : Vec F S128x7x7x30 .f32) (x1 : Vec F S128x7x7x30 .f32) (x2 : Vec F S128x7x7 .i32) (y : S1x1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.2.2.2.2.2.2.2.1 S1x1x1.size (by sl_kernel_rfl) y
def out0_A_11 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : cond0_0 i)
    (x0 : Vec F S128x7x7x30 .f32) (x1 : Vec F S128x7x7x30 .f32) (x2 : Vec F S128x7x7 .i32) : Vec F S1x1x1 .f32 :=
  VO0_11.read (Elt F) (VO0_11.writes (Elt F) VO0_11.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.2.2.2.2.2.2.2.1)
theorem cover0_B_11 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : ¬cond0_0 i)
    (x0 : Vec F S128x7x7x30 .f32) (x1 : Vec F S128x7x7x30 .f32) (x2 : Vec F S128x7x7 .i32) (xo3 : Vec F S1x1x1 .f32) (xo4 : Vec F S1x1x1 .f32) (xo5 : Vec F S1x1x1 .f32) (xo6 : Vec F S1x1x1 .f32) (xo7 : Vec F S1x1x1 .f32) (xo8 : Vec F S1x1x1 .f32) (xo9 : Vec F S1x1x1 .f32) (xo10 : Vec F S1x1x1 .f32) (xo11 : Vec F S1x1x1 .f32) (xo12 : Vec F S1x1x1 .f32) (xo13 : Vec F S1x1x1 .f32) (y : S1x1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.2.2.2.2.2.2.2.1 S1x1x1.size (by sl_kernel_rfl) y
def out0_B_11 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : ¬cond0_0 i)
    (x0 : Vec F S128x7x7x30 .f32) (x1 : Vec F S128x7x7x30 .f32) (x2 : Vec F S128x7x7 .i32) (xo3 : Vec F S1x1x1 .f32) (xo4 : Vec F S1x1x1 .f32) (xo5 : Vec F S1x1x1 .f32) (xo6 : Vec F S1x1x1 .f32) (xo7 : Vec F S1x1x1 .f32) (xo8 : Vec F S1x1x1 .f32) (xo9 : Vec F S1x1x1 .f32) (xo10 : Vec F S1x1x1 .f32) (xo11 : Vec F S1x1x1 .f32) (xo12 : Vec F S1x1x1 .f32) (xo13 : Vec F S1x1x1 .f32) : Vec F S1x1x1 .f32 :=
  VO0_11.read (Elt F) (VO0_11.writes (Elt F) VO0_11.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.2.2.2.2.2.2.2.1)

theorem cover0_A_12 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : cond0_0 i)
    (x0 : Vec F S128x7x7x30 .f32) (x1 : Vec F S128x7x7x30 .f32) (x2 : Vec F S128x7x7 .i32) (y : S1x1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.2.2.2.2.2.2.2.2.1 S1x1x1.size (by sl_kernel_rfl) y
def out0_A_12 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : cond0_0 i)
    (x0 : Vec F S128x7x7x30 .f32) (x1 : Vec F S128x7x7x30 .f32) (x2 : Vec F S128x7x7 .i32) : Vec F S1x1x1 .f32 :=
  VO0_12.read (Elt F) (VO0_12.writes (Elt F) VO0_12.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.2.2.2.2.2.2.2.2.1)
theorem cover0_B_12 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : ¬cond0_0 i)
    (x0 : Vec F S128x7x7x30 .f32) (x1 : Vec F S128x7x7x30 .f32) (x2 : Vec F S128x7x7 .i32) (xo3 : Vec F S1x1x1 .f32) (xo4 : Vec F S1x1x1 .f32) (xo5 : Vec F S1x1x1 .f32) (xo6 : Vec F S1x1x1 .f32) (xo7 : Vec F S1x1x1 .f32) (xo8 : Vec F S1x1x1 .f32) (xo9 : Vec F S1x1x1 .f32) (xo10 : Vec F S1x1x1 .f32) (xo11 : Vec F S1x1x1 .f32) (xo12 : Vec F S1x1x1 .f32) (xo13 : Vec F S1x1x1 .f32) (y : S1x1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.2.2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.2.2.2.2.2.2.2.2.1 S1x1x1.size (by sl_kernel_rfl) y
def out0_B_12 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : ¬cond0_0 i)
    (x0 : Vec F S128x7x7x30 .f32) (x1 : Vec F S128x7x7x30 .f32) (x2 : Vec F S128x7x7 .i32) (xo3 : Vec F S1x1x1 .f32) (xo4 : Vec F S1x1x1 .f32) (xo5 : Vec F S1x1x1 .f32) (xo6 : Vec F S1x1x1 .f32) (xo7 : Vec F S1x1x1 .f32) (xo8 : Vec F S1x1x1 .f32) (xo9 : Vec F S1x1x1 .f32) (xo10 : Vec F S1x1x1 .f32) (xo11 : Vec F S1x1x1 .f32) (xo12 : Vec F S1x1x1 .f32) (xo13 : Vec F S1x1x1 .f32) : Vec F S1x1x1 .f32 :=
  VO0_12.read (Elt F) (VO0_12.writes (Elt F) VO0_12.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.2.2.2.2.2.2.2.2.1)

theorem cover0_A_13 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : cond0_0 i)
    (x0 : Vec F S128x7x7x30 .f32) (x1 : Vec F S128x7x7x30 .f32) (x2 : Vec F S128x7x7 .i32) (y : S1x1x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.2.2.2.2.2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.2.2.2.2.2.2.2.2.2.1 S1x1x1.size (by sl_kernel_rfl) y
def out0_A_13 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : cond0_0 i)
    (x0 : Vec F S128x7x7x30 .f32) (x1 : Vec F S128x7x7x30 .f32) (x2 : Vec F S128x7x7 .i32) : Vec F S1x1x1 .f32 :=
  VO0_13.read (Elt F) (VO0_13.writes (Elt F) VO0_13.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2).2.2.2.2.2.2.2.2.2.2.1)
theorem cover0_B_13 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : ¬cond0_0 i)
    (x0 : Vec F S128x7x7x30 .f32) (x1 : Vec F S128x7x7x30 .f32) (x2 : Vec F S128x7x7 .i32) (xo3 : Vec F S1x1x1 .f32) (xo4 : Vec F S1x1x1 .f32) (xo5 : Vec F S1x1x1 .f32) (xo6 : Vec F S1x1x1 .f32) (xo7 : Vec F S1x1x1 .f32) (xo8 : Vec F S1x1x1 .f32) (xo9 : Vec F S1x1x1 .f32) (xo10 : Vec F S1x1x1 .f32) (xo11 : Vec F S1x1x1 .f32) (xo12 : Vec F S1x1x1 .f32) (xo13 : Vec F S1x1x1 .f32) (y : S1x1x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.2.2.2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.2.2.2.2.2.2.2.2.2.1 S1x1x1.size (by sl_kernel_rfl) y
def out0_B_13 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : ¬cond0_0 i)
    (x0 : Vec F S128x7x7x30 .f32) (x1 : Vec F S128x7x7x30 .f32) (x2 : Vec F S128x7x7 .i32) (xo3 : Vec F S1x1x1 .f32) (xo4 : Vec F S1x1x1 .f32) (xo5 : Vec F S1x1x1 .f32) (xo6 : Vec F S1x1x1 .f32) (xo7 : Vec F S1x1x1 .f32) (xo8 : Vec F S1x1x1 .f32) (xo9 : Vec F S1x1x1 .f32) (xo10 : Vec F S1x1x1 .f32) (xo11 : Vec F S1x1x1 .f32) (xo12 : Vec F S1x1x1 .f32) (xo13 : Vec F S1x1x1 .f32) : Vec F S1x1x1 .f32 :=
  VO0_13.read (Elt F) (VO0_13.writes (Elt F) VO0_13.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13).2.2.2.2.2.2.2.2.2.2.1)

/-! ## The accumulators after each point -/

/-- The eleven accumulators' contents. -/
structure Acc (F : FTy → Type) [FloatOps F] where
  a3 : Vec F S1x1x1 .f32
  a4 : Vec F S1x1x1 .f32
  a5 : Vec F S1x1x1 .f32
  a6 : Vec F S1x1x1 .f32
  a7 : Vec F S1x1x1 .f32
  a8 : Vec F S1x1x1 .f32
  a9 : Vec F S1x1x1 .f32
  a10 : Vec F S1x1x1 .f32
  a11 : Vec F S1x1x1 .f32
  a12 : Vec F S1x1x1 .f32
  a13 : Vec F S1x1x1 .f32

/-- What the accumulators hold after the body at position `n`: restarted where `n` is a multiple of 32, otherwise
    the run over what position `n - 1` left (the buffers are not written back in between). -/
def outsAt0 (c : Dev nD) : (n : ℕ) → n < cfg0.N → Acc F
  | 0, hn => ⟨out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) ((hcond0_0 ⟨0, hn⟩).mpr (Nat.zero_mod _)) (iblk m c 0 ⟨0, hn⟩) (iblk m c 1 ⟨0, hn⟩) (iblk m c 2 ⟨0, hn⟩),
      out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) ((hcond0_0 ⟨0, hn⟩).mpr (Nat.zero_mod _)) (iblk m c 0 ⟨0, hn⟩) (iblk m c 1 ⟨0, hn⟩) (iblk m c 2 ⟨0, hn⟩),
      out0_A_5 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) ((hcond0_0 ⟨0, hn⟩).mpr (Nat.zero_mod _)) (iblk m c 0 ⟨0, hn⟩) (iblk m c 1 ⟨0, hn⟩) (iblk m c 2 ⟨0, hn⟩),
      out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) ((hcond0_0 ⟨0, hn⟩).mpr (Nat.zero_mod _)) (iblk m c 0 ⟨0, hn⟩) (iblk m c 1 ⟨0, hn⟩) (iblk m c 2 ⟨0, hn⟩),
      out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) ((hcond0_0 ⟨0, hn⟩).mpr (Nat.zero_mod _)) (iblk m c 0 ⟨0, hn⟩) (iblk m c 1 ⟨0, hn⟩) (iblk m c 2 ⟨0, hn⟩),
      out0_A_8 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) ((hcond0_0 ⟨0, hn⟩).mpr (Nat.zero_mod _)) (iblk m c 0 ⟨0, hn⟩) (iblk m c 1 ⟨0, hn⟩) (iblk m c 2 ⟨0, hn⟩),
      out0_A_9 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) ((hcond0_0 ⟨0, hn⟩).mpr (Nat.zero_mod _)) (iblk m c 0 ⟨0, hn⟩) (iblk m c 1 ⟨0, hn⟩) (iblk m c 2 ⟨0, hn⟩),
      out0_A_10 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) ((hcond0_0 ⟨0, hn⟩).mpr (Nat.zero_mod _)) (iblk m c 0 ⟨0, hn⟩) (iblk m c 1 ⟨0, hn⟩) (iblk m c 2 ⟨0, hn⟩),
      out0_A_11 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) ((hcond0_0 ⟨0, hn⟩).mpr (Nat.zero_mod _)) (iblk m c 0 ⟨0, hn⟩) (iblk m c 1 ⟨0, hn⟩) (iblk m c 2 ⟨0, hn⟩),
      out0_A_12 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) ((hcond0_0 ⟨0, hn⟩).mpr (Nat.zero_mod _)) (iblk m c 0 ⟨0, hn⟩) (iblk m c 1 ⟨0, hn⟩) (iblk m c 2 ⟨0, hn⟩),
      out0_A_13 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) (ms0_13 ⟨0, hn⟩) (hs0_13 ⟨0, hn⟩) ((hcond0_0 ⟨0, hn⟩).mpr (Nat.zero_mod _)) (iblk m c 0 ⟨0, hn⟩) (iblk m c 1 ⟨0, hn⟩) (iblk m c 2 ⟨0, hn⟩)⟩
  | n + 1, hn =>
    if h0 : (n + 1) % 32 = 0 then
      ⟨out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) ((hcond0_0 ⟨n + 1, hn⟩).mpr h0) (iblk m c 0 ⟨n + 1, hn⟩) (iblk m c 1 ⟨n + 1, hn⟩) (iblk m c 2 ⟨n + 1, hn⟩),
      out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) ((hcond0_0 ⟨n + 1, hn⟩).mpr h0) (iblk m c 0 ⟨n + 1, hn⟩) (iblk m c 1 ⟨n + 1, hn⟩) (iblk m c 2 ⟨n + 1, hn⟩),
      out0_A_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) ((hcond0_0 ⟨n + 1, hn⟩).mpr h0) (iblk m c 0 ⟨n + 1, hn⟩) (iblk m c 1 ⟨n + 1, hn⟩) (iblk m c 2 ⟨n + 1, hn⟩),
      out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) ((hcond0_0 ⟨n + 1, hn⟩).mpr h0) (iblk m c 0 ⟨n + 1, hn⟩) (iblk m c 1 ⟨n + 1, hn⟩) (iblk m c 2 ⟨n + 1, hn⟩),
      out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) ((hcond0_0 ⟨n + 1, hn⟩).mpr h0) (iblk m c 0 ⟨n + 1, hn⟩) (iblk m c 1 ⟨n + 1, hn⟩) (iblk m c 2 ⟨n + 1, hn⟩),
      out0_A_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) ((hcond0_0 ⟨n + 1, hn⟩).mpr h0) (iblk m c 0 ⟨n + 1, hn⟩) (iblk m c 1 ⟨n + 1, hn⟩) (iblk m c 2 ⟨n + 1, hn⟩),
      out0_A_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) ((hcond0_0 ⟨n + 1, hn⟩).mpr h0) (iblk m c 0 ⟨n + 1, hn⟩) (iblk m c 1 ⟨n + 1, hn⟩) (iblk m c 2 ⟨n + 1, hn⟩),
      out0_A_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) ((hcond0_0 ⟨n + 1, hn⟩).mpr h0) (iblk m c 0 ⟨n + 1, hn⟩) (iblk m c 1 ⟨n + 1, hn⟩) (iblk m c 2 ⟨n + 1, hn⟩),
      out0_A_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) ((hcond0_0 ⟨n + 1, hn⟩).mpr h0) (iblk m c 0 ⟨n + 1, hn⟩) (iblk m c 1 ⟨n + 1, hn⟩) (iblk m c 2 ⟨n + 1, hn⟩),
      out0_A_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) ((hcond0_0 ⟨n + 1, hn⟩).mpr h0) (iblk m c 0 ⟨n + 1, hn⟩) (iblk m c 1 ⟨n + 1, hn⟩) (iblk m c 2 ⟨n + 1, hn⟩),
      out0_A_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) ((hcond0_0 ⟨n + 1, hn⟩).mpr h0) (iblk m c 0 ⟨n + 1, hn⟩) (iblk m c 1 ⟨n + 1, hn⟩) (iblk m c 2 ⟨n + 1, hn⟩)⟩
    else
      ⟨out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).a3 (outsAt0 c n (Nat.lt_of_succ_lt hn)).a4 (outsAt0 c n (Nat.lt_of_succ_lt hn)).a5 (outsAt0 c n (Nat.lt_of_succ_lt hn)).a6 (outsAt0 c n (Nat.lt_of_succ_lt hn)).a7 (outsAt0 c n (Nat.lt_of_succ_lt hn)).a8 (outsAt0 c n (Nat.lt_of_succ_lt hn)).a9 (outsAt0 c n (Nat.lt_of_succ_lt hn)).a10 (outsAt0 c n (Nat.lt_of_succ_lt hn)).a11 (outsAt0 c n (Nat.lt_of_succ_lt hn)).a12 (outsAt0 c n (Nat.lt_of_succ_lt hn)).a13,
      out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).a3 (outsAt0 c n (Nat.lt_of_succ_lt hn)).a4 (outsAt0 c n (Nat.lt_of_succ_lt hn)).a5 (outsAt0 c n (Nat.lt_of_succ_lt hn)).a6 (outsAt0 c n (Nat.lt_of_succ_lt hn)).a7 (outsAt0 c n (Nat.lt_of_succ_lt hn)).a8 (outsAt0 c n (Nat.lt_of_succ_lt hn)).a9 (outsAt0 c n (Nat.lt_of_succ_lt hn)).a10 (outsAt0 c n (Nat.lt_of_succ_lt hn)).a11 (outsAt0 c n (Nat.lt_of_succ_lt hn)).a12 (outsAt0 c n (Nat.lt_of_succ_lt hn)).a13,
      out0_B_5 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).a3 (outsAt0 c n (Nat.lt_of_succ_lt hn)).a4 (outsAt0 c n (Nat.lt_of_succ_lt hn)).a5 (outsAt0 c n (Nat.lt_of_succ_lt hn)).a6 (outsAt0 c n (Nat.lt_of_succ_lt hn)).a7 (outsAt0 c n (Nat.lt_of_succ_lt hn)).a8 (outsAt0 c n (Nat.lt_of_succ_lt hn)).a9 (outsAt0 c n (Nat.lt_of_succ_lt hn)).a10 (outsAt0 c n (Nat.lt_of_succ_lt hn)).a11 (outsAt0 c n (Nat.lt_of_succ_lt hn)).a12 (outsAt0 c n (Nat.lt_of_succ_lt hn)).a13,
      out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).a3 (outsAt0 c n (Nat.lt_of_succ_lt hn)).a4 (outsAt0 c n (Nat.lt_of_succ_lt hn)).a5 (outsAt0 c n (Nat.lt_of_succ_lt hn)).a6 (outsAt0 c n (Nat.lt_of_succ_lt hn)).a7 (outsAt0 c n (Nat.lt_of_succ_lt hn)).a8 (outsAt0 c n (Nat.lt_of_succ_lt hn)).a9 (outsAt0 c n (Nat.lt_of_succ_lt hn)).a10 (outsAt0 c n (Nat.lt_of_succ_lt hn)).a11 (outsAt0 c n (Nat.lt_of_succ_lt hn)).a12 (outsAt0 c n (Nat.lt_of_succ_lt hn)).a13,
      out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).a3 (outsAt0 c n (Nat.lt_of_succ_lt hn)).a4 (outsAt0 c n (Nat.lt_of_succ_lt hn)).a5 (outsAt0 c n (Nat.lt_of_succ_lt hn)).a6 (outsAt0 c n (Nat.lt_of_succ_lt hn)).a7 (outsAt0 c n (Nat.lt_of_succ_lt hn)).a8 (outsAt0 c n (Nat.lt_of_succ_lt hn)).a9 (outsAt0 c n (Nat.lt_of_succ_lt hn)).a10 (outsAt0 c n (Nat.lt_of_succ_lt hn)).a11 (outsAt0 c n (Nat.lt_of_succ_lt hn)).a12 (outsAt0 c n (Nat.lt_of_succ_lt hn)).a13,
      out0_B_8 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).a3 (outsAt0 c n (Nat.lt_of_succ_lt hn)).a4 (outsAt0 c n (Nat.lt_of_succ_lt hn)).a5 (outsAt0 c n (Nat.lt_of_succ_lt hn)).a6 (outsAt0 c n (Nat.lt_of_succ_lt hn)).a7 (outsAt0 c n (Nat.lt_of_succ_lt hn)).a8 (outsAt0 c n (Nat.lt_of_succ_lt hn)).a9 (outsAt0 c n (Nat.lt_of_succ_lt hn)).a10 (outsAt0 c n (Nat.lt_of_succ_lt hn)).a11 (outsAt0 c n (Nat.lt_of_succ_lt hn)).a12 (outsAt0 c n (Nat.lt_of_succ_lt hn)).a13,
      out0_B_9 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).a3 (outsAt0 c n (Nat.lt_of_succ_lt hn)).a4 (outsAt0 c n (Nat.lt_of_succ_lt hn)).a5 (outsAt0 c n (Nat.lt_of_succ_lt hn)).a6 (outsAt0 c n (Nat.lt_of_succ_lt hn)).a7 (outsAt0 c n (Nat.lt_of_succ_lt hn)).a8 (outsAt0 c n (Nat.lt_of_succ_lt hn)).a9 (outsAt0 c n (Nat.lt_of_succ_lt hn)).a10 (outsAt0 c n (Nat.lt_of_succ_lt hn)).a11 (outsAt0 c n (Nat.lt_of_succ_lt hn)).a12 (outsAt0 c n (Nat.lt_of_succ_lt hn)).a13,
      out0_B_10 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).a3 (outsAt0 c n (Nat.lt_of_succ_lt hn)).a4 (outsAt0 c n (Nat.lt_of_succ_lt hn)).a5 (outsAt0 c n (Nat.lt_of_succ_lt hn)).a6 (outsAt0 c n (Nat.lt_of_succ_lt hn)).a7 (outsAt0 c n (Nat.lt_of_succ_lt hn)).a8 (outsAt0 c n (Nat.lt_of_succ_lt hn)).a9 (outsAt0 c n (Nat.lt_of_succ_lt hn)).a10 (outsAt0 c n (Nat.lt_of_succ_lt hn)).a11 (outsAt0 c n (Nat.lt_of_succ_lt hn)).a12 (outsAt0 c n (Nat.lt_of_succ_lt hn)).a13,
      out0_B_11 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).a3 (outsAt0 c n (Nat.lt_of_succ_lt hn)).a4 (outsAt0 c n (Nat.lt_of_succ_lt hn)).a5 (outsAt0 c n (Nat.lt_of_succ_lt hn)).a6 (outsAt0 c n (Nat.lt_of_succ_lt hn)).a7 (outsAt0 c n (Nat.lt_of_succ_lt hn)).a8 (outsAt0 c n (Nat.lt_of_succ_lt hn)).a9 (outsAt0 c n (Nat.lt_of_succ_lt hn)).a10 (outsAt0 c n (Nat.lt_of_succ_lt hn)).a11 (outsAt0 c n (Nat.lt_of_succ_lt hn)).a12 (outsAt0 c n (Nat.lt_of_succ_lt hn)).a13,
      out0_B_12 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).a3 (outsAt0 c n (Nat.lt_of_succ_lt hn)).a4 (outsAt0 c n (Nat.lt_of_succ_lt hn)).a5 (outsAt0 c n (Nat.lt_of_succ_lt hn)).a6 (outsAt0 c n (Nat.lt_of_succ_lt hn)).a7 (outsAt0 c n (Nat.lt_of_succ_lt hn)).a8 (outsAt0 c n (Nat.lt_of_succ_lt hn)).a9 (outsAt0 c n (Nat.lt_of_succ_lt hn)).a10 (outsAt0 c n (Nat.lt_of_succ_lt hn)).a11 (outsAt0 c n (Nat.lt_of_succ_lt hn)).a12 (outsAt0 c n (Nat.lt_of_succ_lt hn)).a13,
      out0_B_13 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) (ms0_13 ⟨n + 1, hn⟩) (hs0_13 ⟨n + 1, hn⟩) (fun h => h0 ((hcond0_0 ⟨n + 1, hn⟩).mp h)) (iblk m c 0 ⟨n + 1, hn⟩) (iblk m c 1 ⟨n + 1, hn⟩) (iblk m c 2 ⟨n + 1, hn⟩) (outsAt0 c n (Nat.lt_of_succ_lt hn)).a3 (outsAt0 c n (Nat.lt_of_succ_lt hn)).a4 (outsAt0 c n (Nat.lt_of_succ_lt hn)).a5 (outsAt0 c n (Nat.lt_of_succ_lt hn)).a6 (outsAt0 c n (Nat.lt_of_succ_lt hn)).a7 (outsAt0 c n (Nat.lt_of_succ_lt hn)).a8 (outsAt0 c n (Nat.lt_of_succ_lt hn)).a9 (outsAt0 c n (Nat.lt_of_succ_lt hn)).a10 (outsAt0 c n (Nat.lt_of_succ_lt hn)).a11 (outsAt0 c n (Nat.lt_of_succ_lt hn)).a12 (outsAt0 c n (Nat.lt_of_succ_lt hn)).a13⟩

theorem outsAt0_A (c : Dev nD) (t : Fin cfg0.N) (h0 : t.val % 32 = 0) :
    outsAt0 m c t.val t.isLt = ⟨out0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) (iblk m c 0 t) (iblk m c 1 t) (iblk m c 2 t),
      out0_A_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) (iblk m c 0 t) (iblk m c 1 t) (iblk m c 2 t),
      out0_A_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) (iblk m c 0 t) (iblk m c 1 t) (iblk m c 2 t),
      out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) (iblk m c 0 t) (iblk m c 1 t) (iblk m c 2 t),
      out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) (iblk m c 0 t) (iblk m c 1 t) (iblk m c 2 t),
      out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) (iblk m c 0 t) (iblk m c 1 t) (iblk m c 2 t),
      out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) (iblk m c 0 t) (iblk m c 1 t) (iblk m c 2 t),
      out0_A_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) (iblk m c 0 t) (iblk m c 1 t) (iblk m c 2 t),
      out0_A_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) (iblk m c 0 t) (iblk m c 1 t) (iblk m c 2 t),
      out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) (iblk m c 0 t) (iblk m c 1 t) (iblk m c 2 t),
      out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) ((hcond0_0 t).mpr h0) (iblk m c 0 t) (iblk m c 1 t) (iblk m c 2 t)⟩ := by
  obtain ⟨n, hn⟩ := t
  cases n with
  | zero => exact rfl
  | succ n => exact (dif_pos h0).trans rfl

theorem outsAt0_B (c : Dev nD) (t : Fin cfg0.N) (h0 : ¬t.val % 32 = 0) :
    outsAt0 m c t.val t.isLt = ⟨out0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) (iblk m c 0 t) (iblk m c 1 t) (iblk m c 2 t) (outsAt0 m c (t.val - 1) (Nat.lt_of_le_of_lt (Nat.sub_le _ _) t.isLt)).a3 (outsAt0 m c (t.val - 1) (Nat.lt_of_le_of_lt (Nat.sub_le _ _) t.isLt)).a4 (outsAt0 m c (t.val - 1) (Nat.lt_of_le_of_lt (Nat.sub_le _ _) t.isLt)).a5 (outsAt0 m c (t.val - 1) (Nat.lt_of_le_of_lt (Nat.sub_le _ _) t.isLt)).a6 (outsAt0 m c (t.val - 1) (Nat.lt_of_le_of_lt (Nat.sub_le _ _) t.isLt)).a7 (outsAt0 m c (t.val - 1) (Nat.lt_of_le_of_lt (Nat.sub_le _ _) t.isLt)).a8 (outsAt0 m c (t.val - 1) (Nat.lt_of_le_of_lt (Nat.sub_le _ _) t.isLt)).a9 (outsAt0 m c (t.val - 1) (Nat.lt_of_le_of_lt (Nat.sub_le _ _) t.isLt)).a10 (outsAt0 m c (t.val - 1) (Nat.lt_of_le_of_lt (Nat.sub_le _ _) t.isLt)).a11 (outsAt0 m c (t.val - 1) (Nat.lt_of_le_of_lt (Nat.sub_le _ _) t.isLt)).a12 (outsAt0 m c (t.val - 1) (Nat.lt_of_le_of_lt (Nat.sub_le _ _) t.isLt)).a13,
      out0_B_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) (iblk m c 0 t) (iblk m c 1 t) (iblk m c 2 t) (outsAt0 m c (t.val - 1) (Nat.lt_of_le_of_lt (Nat.sub_le _ _) t.isLt)).a3 (outsAt0 m c (t.val - 1) (Nat.lt_of_le_of_lt (Nat.sub_le _ _) t.isLt)).a4 (outsAt0 m c (t.val - 1) (Nat.lt_of_le_of_lt (Nat.sub_le _ _) t.isLt)).a5 (outsAt0 m c (t.val - 1) (Nat.lt_of_le_of_lt (Nat.sub_le _ _) t.isLt)).a6 (outsAt0 m c (t.val - 1) (Nat.lt_of_le_of_lt (Nat.sub_le _ _) t.isLt)).a7 (outsAt0 m c (t.val - 1) (Nat.lt_of_le_of_lt (Nat.sub_le _ _) t.isLt)).a8 (outsAt0 m c (t.val - 1) (Nat.lt_of_le_of_lt (Nat.sub_le _ _) t.isLt)).a9 (outsAt0 m c (t.val - 1) (Nat.lt_of_le_of_lt (Nat.sub_le _ _) t.isLt)).a10 (outsAt0 m c (t.val - 1) (Nat.lt_of_le_of_lt (Nat.sub_le _ _) t.isLt)).a11 (outsAt0 m c (t.val - 1) (Nat.lt_of_le_of_lt (Nat.sub_le _ _) t.isLt)).a12 (outsAt0 m c (t.val - 1) (Nat.lt_of_le_of_lt (Nat.sub_le _ _) t.isLt)).a13,
      out0_B_5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) (iblk m c 0 t) (iblk m c 1 t) (iblk m c 2 t) (outsAt0 m c (t.val - 1) (Nat.lt_of_le_of_lt (Nat.sub_le _ _) t.isLt)).a3 (outsAt0 m c (t.val - 1) (Nat.lt_of_le_of_lt (Nat.sub_le _ _) t.isLt)).a4 (outsAt0 m c (t.val - 1) (Nat.lt_of_le_of_lt (Nat.sub_le _ _) t.isLt)).a5 (outsAt0 m c (t.val - 1) (Nat.lt_of_le_of_lt (Nat.sub_le _ _) t.isLt)).a6 (outsAt0 m c (t.val - 1) (Nat.lt_of_le_of_lt (Nat.sub_le _ _) t.isLt)).a7 (outsAt0 m c (t.val - 1) (Nat.lt_of_le_of_lt (Nat.sub_le _ _) t.isLt)).a8 (outsAt0 m c (t.val - 1) (Nat.lt_of_le_of_lt (Nat.sub_le _ _) t.isLt)).a9 (outsAt0 m c (t.val - 1) (Nat.lt_of_le_of_lt (Nat.sub_le _ _) t.isLt)).a10 (outsAt0 m c (t.val - 1) (Nat.lt_of_le_of_lt (Nat.sub_le _ _) t.isLt)).a11 (outsAt0 m c (t.val - 1) (Nat.lt_of_le_of_lt (Nat.sub_le _ _) t.isLt)).a12 (outsAt0 m c (t.val - 1) (Nat.lt_of_le_of_lt (Nat.sub_le _ _) t.isLt)).a13,
      out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) (iblk m c 0 t) (iblk m c 1 t) (iblk m c 2 t) (outsAt0 m c (t.val - 1) (Nat.lt_of_le_of_lt (Nat.sub_le _ _) t.isLt)).a3 (outsAt0 m c (t.val - 1) (Nat.lt_of_le_of_lt (Nat.sub_le _ _) t.isLt)).a4 (outsAt0 m c (t.val - 1) (Nat.lt_of_le_of_lt (Nat.sub_le _ _) t.isLt)).a5 (outsAt0 m c (t.val - 1) (Nat.lt_of_le_of_lt (Nat.sub_le _ _) t.isLt)).a6 (outsAt0 m c (t.val - 1) (Nat.lt_of_le_of_lt (Nat.sub_le _ _) t.isLt)).a7 (outsAt0 m c (t.val - 1) (Nat.lt_of_le_of_lt (Nat.sub_le _ _) t.isLt)).a8 (outsAt0 m c (t.val - 1) (Nat.lt_of_le_of_lt (Nat.sub_le _ _) t.isLt)).a9 (outsAt0 m c (t.val - 1) (Nat.lt_of_le_of_lt (Nat.sub_le _ _) t.isLt)).a10 (outsAt0 m c (t.val - 1) (Nat.lt_of_le_of_lt (Nat.sub_le _ _) t.isLt)).a11 (outsAt0 m c (t.val - 1) (Nat.lt_of_le_of_lt (Nat.sub_le _ _) t.isLt)).a12 (outsAt0 m c (t.val - 1) (Nat.lt_of_le_of_lt (Nat.sub_le _ _) t.isLt)).a13,
      out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) (iblk m c 0 t) (iblk m c 1 t) (iblk m c 2 t) (outsAt0 m c (t.val - 1) (Nat.lt_of_le_of_lt (Nat.sub_le _ _) t.isLt)).a3 (outsAt0 m c (t.val - 1) (Nat.lt_of_le_of_lt (Nat.sub_le _ _) t.isLt)).a4 (outsAt0 m c (t.val - 1) (Nat.lt_of_le_of_lt (Nat.sub_le _ _) t.isLt)).a5 (outsAt0 m c (t.val - 1) (Nat.lt_of_le_of_lt (Nat.sub_le _ _) t.isLt)).a6 (outsAt0 m c (t.val - 1) (Nat.lt_of_le_of_lt (Nat.sub_le _ _) t.isLt)).a7 (outsAt0 m c (t.val - 1) (Nat.lt_of_le_of_lt (Nat.sub_le _ _) t.isLt)).a8 (outsAt0 m c (t.val - 1) (Nat.lt_of_le_of_lt (Nat.sub_le _ _) t.isLt)).a9 (outsAt0 m c (t.val - 1) (Nat.lt_of_le_of_lt (Nat.sub_le _ _) t.isLt)).a10 (outsAt0 m c (t.val - 1) (Nat.lt_of_le_of_lt (Nat.sub_le _ _) t.isLt)).a11 (outsAt0 m c (t.val - 1) (Nat.lt_of_le_of_lt (Nat.sub_le _ _) t.isLt)).a12 (outsAt0 m c (t.val - 1) (Nat.lt_of_le_of_lt (Nat.sub_le _ _) t.isLt)).a13,
      out0_B_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) (iblk m c 0 t) (iblk m c 1 t) (iblk m c 2 t) (outsAt0 m c (t.val - 1) (Nat.lt_of_le_of_lt (Nat.sub_le _ _) t.isLt)).a3 (outsAt0 m c (t.val - 1) (Nat.lt_of_le_of_lt (Nat.sub_le _ _) t.isLt)).a4 (outsAt0 m c (t.val - 1) (Nat.lt_of_le_of_lt (Nat.sub_le _ _) t.isLt)).a5 (outsAt0 m c (t.val - 1) (Nat.lt_of_le_of_lt (Nat.sub_le _ _) t.isLt)).a6 (outsAt0 m c (t.val - 1) (Nat.lt_of_le_of_lt (Nat.sub_le _ _) t.isLt)).a7 (outsAt0 m c (t.val - 1) (Nat.lt_of_le_of_lt (Nat.sub_le _ _) t.isLt)).a8 (outsAt0 m c (t.val - 1) (Nat.lt_of_le_of_lt (Nat.sub_le _ _) t.isLt)).a9 (outsAt0 m c (t.val - 1) (Nat.lt_of_le_of_lt (Nat.sub_le _ _) t.isLt)).a10 (outsAt0 m c (t.val - 1) (Nat.lt_of_le_of_lt (Nat.sub_le _ _) t.isLt)).a11 (outsAt0 m c (t.val - 1) (Nat.lt_of_le_of_lt (Nat.sub_le _ _) t.isLt)).a12 (outsAt0 m c (t.val - 1) (Nat.lt_of_le_of_lt (Nat.sub_le _ _) t.isLt)).a13,
      out0_B_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) (iblk m c 0 t) (iblk m c 1 t) (iblk m c 2 t) (outsAt0 m c (t.val - 1) (Nat.lt_of_le_of_lt (Nat.sub_le _ _) t.isLt)).a3 (outsAt0 m c (t.val - 1) (Nat.lt_of_le_of_lt (Nat.sub_le _ _) t.isLt)).a4 (outsAt0 m c (t.val - 1) (Nat.lt_of_le_of_lt (Nat.sub_le _ _) t.isLt)).a5 (outsAt0 m c (t.val - 1) (Nat.lt_of_le_of_lt (Nat.sub_le _ _) t.isLt)).a6 (outsAt0 m c (t.val - 1) (Nat.lt_of_le_of_lt (Nat.sub_le _ _) t.isLt)).a7 (outsAt0 m c (t.val - 1) (Nat.lt_of_le_of_lt (Nat.sub_le _ _) t.isLt)).a8 (outsAt0 m c (t.val - 1) (Nat.lt_of_le_of_lt (Nat.sub_le _ _) t.isLt)).a9 (outsAt0 m c (t.val - 1) (Nat.lt_of_le_of_lt (Nat.sub_le _ _) t.isLt)).a10 (outsAt0 m c (t.val - 1) (Nat.lt_of_le_of_lt (Nat.sub_le _ _) t.isLt)).a11 (outsAt0 m c (t.val - 1) (Nat.lt_of_le_of_lt (Nat.sub_le _ _) t.isLt)).a12 (outsAt0 m c (t.val - 1) (Nat.lt_of_le_of_lt (Nat.sub_le _ _) t.isLt)).a13,
      out0_B_10 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) (iblk m c 0 t) (iblk m c 1 t) (iblk m c 2 t) (outsAt0 m c (t.val - 1) (Nat.lt_of_le_of_lt (Nat.sub_le _ _) t.isLt)).a3 (outsAt0 m c (t.val - 1) (Nat.lt_of_le_of_lt (Nat.sub_le _ _) t.isLt)).a4 (outsAt0 m c (t.val - 1) (Nat.lt_of_le_of_lt (Nat.sub_le _ _) t.isLt)).a5 (outsAt0 m c (t.val - 1) (Nat.lt_of_le_of_lt (Nat.sub_le _ _) t.isLt)).a6 (outsAt0 m c (t.val - 1) (Nat.lt_of_le_of_lt (Nat.sub_le _ _) t.isLt)).a7 (outsAt0 m c (t.val - 1) (Nat.lt_of_le_of_lt (Nat.sub_le _ _) t.isLt)).a8 (outsAt0 m c (t.val - 1) (Nat.lt_of_le_of_lt (Nat.sub_le _ _) t.isLt)).a9 (outsAt0 m c (t.val - 1) (Nat.lt_of_le_of_lt (Nat.sub_le _ _) t.isLt)).a10 (outsAt0 m c (t.val - 1) (Nat.lt_of_le_of_lt (Nat.sub_le _ _) t.isLt)).a11 (outsAt0 m c (t.val - 1) (Nat.lt_of_le_of_lt (Nat.sub_le _ _) t.isLt)).a12 (outsAt0 m c (t.val - 1) (Nat.lt_of_le_of_lt (Nat.sub_le _ _) t.isLt)).a13,
      out0_B_11 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) (iblk m c 0 t) (iblk m c 1 t) (iblk m c 2 t) (outsAt0 m c (t.val - 1) (Nat.lt_of_le_of_lt (Nat.sub_le _ _) t.isLt)).a3 (outsAt0 m c (t.val - 1) (Nat.lt_of_le_of_lt (Nat.sub_le _ _) t.isLt)).a4 (outsAt0 m c (t.val - 1) (Nat.lt_of_le_of_lt (Nat.sub_le _ _) t.isLt)).a5 (outsAt0 m c (t.val - 1) (Nat.lt_of_le_of_lt (Nat.sub_le _ _) t.isLt)).a6 (outsAt0 m c (t.val - 1) (Nat.lt_of_le_of_lt (Nat.sub_le _ _) t.isLt)).a7 (outsAt0 m c (t.val - 1) (Nat.lt_of_le_of_lt (Nat.sub_le _ _) t.isLt)).a8 (outsAt0 m c (t.val - 1) (Nat.lt_of_le_of_lt (Nat.sub_le _ _) t.isLt)).a9 (outsAt0 m c (t.val - 1) (Nat.lt_of_le_of_lt (Nat.sub_le _ _) t.isLt)).a10 (outsAt0 m c (t.val - 1) (Nat.lt_of_le_of_lt (Nat.sub_le _ _) t.isLt)).a11 (outsAt0 m c (t.val - 1) (Nat.lt_of_le_of_lt (Nat.sub_le _ _) t.isLt)).a12 (outsAt0 m c (t.val - 1) (Nat.lt_of_le_of_lt (Nat.sub_le _ _) t.isLt)).a13,
      out0_B_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) (iblk m c 0 t) (iblk m c 1 t) (iblk m c 2 t) (outsAt0 m c (t.val - 1) (Nat.lt_of_le_of_lt (Nat.sub_le _ _) t.isLt)).a3 (outsAt0 m c (t.val - 1) (Nat.lt_of_le_of_lt (Nat.sub_le _ _) t.isLt)).a4 (outsAt0 m c (t.val - 1) (Nat.lt_of_le_of_lt (Nat.sub_le _ _) t.isLt)).a5 (outsAt0 m c (t.val - 1) (Nat.lt_of_le_of_lt (Nat.sub_le _ _) t.isLt)).a6 (outsAt0 m c (t.val - 1) (Nat.lt_of_le_of_lt (Nat.sub_le _ _) t.isLt)).a7 (outsAt0 m c (t.val - 1) (Nat.lt_of_le_of_lt (Nat.sub_le _ _) t.isLt)).a8 (outsAt0 m c (t.val - 1) (Nat.lt_of_le_of_lt (Nat.sub_le _ _) t.isLt)).a9 (outsAt0 m c (t.val - 1) (Nat.lt_of_le_of_lt (Nat.sub_le _ _) t.isLt)).a10 (outsAt0 m c (t.val - 1) (Nat.lt_of_le_of_lt (Nat.sub_le _ _) t.isLt)).a11 (outsAt0 m c (t.val - 1) (Nat.lt_of_le_of_lt (Nat.sub_le _ _) t.isLt)).a12 (outsAt0 m c (t.val - 1) (Nat.lt_of_le_of_lt (Nat.sub_le _ _) t.isLt)).a13,
      out0_B_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (fun h => h0 ((hcond0_0 t).mp h)) (iblk m c 0 t) (iblk m c 1 t) (iblk m c 2 t) (outsAt0 m c (t.val - 1) (Nat.lt_of_le_of_lt (Nat.sub_le _ _) t.isLt)).a3 (outsAt0 m c (t.val - 1) (Nat.lt_of_le_of_lt (Nat.sub_le _ _) t.isLt)).a4 (outsAt0 m c (t.val - 1) (Nat.lt_of_le_of_lt (Nat.sub_le _ _) t.isLt)).a5 (outsAt0 m c (t.val - 1) (Nat.lt_of_le_of_lt (Nat.sub_le _ _) t.isLt)).a6 (outsAt0 m c (t.val - 1) (Nat.lt_of_le_of_lt (Nat.sub_le _ _) t.isLt)).a7 (outsAt0 m c (t.val - 1) (Nat.lt_of_le_of_lt (Nat.sub_le _ _) t.isLt)).a8 (outsAt0 m c (t.val - 1) (Nat.lt_of_le_of_lt (Nat.sub_le _ _) t.isLt)).a9 (outsAt0 m c (t.val - 1) (Nat.lt_of_le_of_lt (Nat.sub_le _ _) t.isLt)).a10 (outsAt0 m c (t.val - 1) (Nat.lt_of_le_of_lt (Nat.sub_le _ _) t.isLt)).a11 (outsAt0 m c (t.val - 1) (Nat.lt_of_le_of_lt (Nat.sub_le _ _) t.isLt)).a12 (outsAt0 m c (t.val - 1) (Nat.lt_of_le_of_lt (Nat.sub_le _ _) t.isLt)).a13⟩ := by
  obtain ⟨n, hn⟩ := t
  cases n with
  | zero => exact (by exfalso; (try dsimp only at h0); exact absurd (Nat.zero_mod _) h0)
  | succ n => exact (dif_neg h0).trans rfl

/-! ## The pipeline's proof data -/

/-- The arrays as the region finds them; after the body each input's buffer at its block and each accumulator's at
    `outsAt0`; the class invariant; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t.val t.isLt).a3
    | ⟨4, _⟩ => (outsAt0 m c t.val t.isLt).a4
    | ⟨5, _⟩ => (outsAt0 m c t.val t.isLt).a5
    | ⟨6, _⟩ => (outsAt0 m c t.val t.isLt).a6
    | ⟨7, _⟩ => (outsAt0 m c t.val t.isLt).a7
    | ⟨8, _⟩ => (outsAt0 m c t.val t.isLt).a8
    | ⟨9, _⟩ => (outsAt0 m c t.val t.isLt).a9
    | ⟨10, _⟩ => (outsAt0 m c t.val t.isLt).a10
    | ⟨11, _⟩ => (outsAt0 m c t.val t.isLt).a11
    | ⟨12, _⟩ => (outsAt0 m c t.val t.isLt).a12
    | ⟨13, _⟩ => (outsAt0 m c t.val t.isLt).a13
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t.val t.isLt).a3 := by dsimp only [dats]
theorem after0_4 (c : Dev nD) (t : Fin cfg0.N) : (dats m 0 c).after 4 t = (outsAt0 m c t.val t.isLt).a4 := by dsimp only [dats]
theorem after0_5 (c : Dev nD) (t : Fin cfg0.N) : (dats m 0 c).after 5 t = (outsAt0 m c t.val t.isLt).a5 := by dsimp only [dats]
theorem after0_6 (c : Dev nD) (t : Fin cfg0.N) : (dats m 0 c).after 6 t = (outsAt0 m c t.val t.isLt).a6 := by dsimp only [dats]
theorem after0_7 (c : Dev nD) (t : Fin cfg0.N) : (dats m 0 c).after 7 t = (outsAt0 m c t.val t.isLt).a7 := by dsimp only [dats]
theorem after0_8 (c : Dev nD) (t : Fin cfg0.N) : (dats m 0 c).after 8 t = (outsAt0 m c t.val t.isLt).a8 := by dsimp only [dats]
theorem after0_9 (c : Dev nD) (t : Fin cfg0.N) : (dats m 0 c).after 9 t = (outsAt0 m c t.val t.isLt).a9 := by dsimp only [dats]
theorem after0_10 (c : Dev nD) (t : Fin cfg0.N) : (dats m 0 c).after 10 t = (outsAt0 m c t.val t.isLt).a10 := by dsimp only [dats]
theorem after0_11 (c : Dev nD) (t : Fin cfg0.N) : (dats m 0 c).after 11 t = (outsAt0 m c t.val t.isLt).a11 := by dsimp only [dats]
theorem after0_12 (c : Dev nD) (t : Fin cfg0.N) : (dats m 0 c).after 12 t = (outsAt0 m c t.val t.isLt).a12 := by dsimp only [dats]
theorem after0_13 (c : Dev nD) (t : Fin cfg0.N) : (dats m 0 c).after 13 t = (outsAt0 m c t.val t.isLt).a13 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- Away from a restart, accumulator 0's current buffer holds what the body left at the point before. -/
theorem before0_3_B (c : Dev nD) (t : Fin cfg0.N) (h0 : ¬t.val % 32 = 0) (d) :
    (dats m 0 c).before 3 t d = (outsAt0 m c (t.val - 1) (Nat.lt_of_le_of_lt (Nat.sub_le _ _) t.isLt)).a3 := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    (fun _ => rfl) (fun _ _ => rfl)]
  dsimp only [dats]

/-- Away from a restart, accumulator 1's current buffer holds what the body left at the point before. -/
theorem before0_4_B (c : Dev nD) (t : Fin cfg0.N) (h0 : ¬t.val % 32 = 0) (d) :
    (dats m 0 c).before 4 t d = (outsAt0 m c (t.val - 1) (Nat.lt_of_le_of_lt (Nat.sub_le _ _) t.isLt)).a4 := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
  dsimp only [dats]

/-- Away from a restart, accumulator 2's current buffer holds what the body left at the point before. -/
theorem before0_5_B (c : Dev nD) (t : Fin cfg0.N) (h0 : ¬t.val % 32 = 0) (d) :
    (dats m 0 c).before 5 t d = (outsAt0 m c (t.val - 1) (Nat.lt_of_le_of_lt (Nat.sub_le _ _) t.isLt)).a5 := by
  have hN : t.val < 64 := lt_of_lt_of_eq t.isLt (show cfg0.N = 64 from N_0)
  rw [Dat.before_out_kept _ 5 rfl t (by omega) (Bool.eq_false_iff.mpr fun h => by have := (flush0_5 _).mp h; dsimp only at this; omega)
    (fun _ => rfl) (fun _ _ => rfl)]
  dsimp only [dats]

/-- Away from a restart, accumulator 3's current buffer holds what the body left at the point before. -/
theorem before0_6_B (c : Dev nD) (t : Fin cfg0.N) (h0 : ¬t.val % 32 = 0) (d) :
    (dats m 0 c).before 6 t d = (outsAt0 m c (t.val - 1) (Nat.lt_of_le_of_lt (Nat.sub_le _ _) t.isLt)).a6 := by
  have hN : t.val < 64 := lt_of_lt_of_eq t.isLt (show cfg0.N = 64 from N_0)
  rw [Dat.before_out_kept _ 6 rfl t (by omega) (Bool.eq_false_iff.mpr fun h => by have := (flush0_6 _).mp h; dsimp only at this; omega)
    (fun _ => rfl) (fun _ _ => rfl)]
  dsimp only [dats]

/-- Away from a restart, accumulator 4's current buffer holds what the body left at the point before. -/
theorem before0_7_B (c : Dev nD) (t : Fin cfg0.N) (h0 : ¬t.val % 32 = 0) (d) :
    (dats m 0 c).before 7 t d = (outsAt0 m c (t.val - 1) (Nat.lt_of_le_of_lt (Nat.sub_le _ _) t.isLt)).a7 := by
  have hN : t.val < 64 := lt_of_lt_of_eq t.isLt (show cfg0.N = 64 from N_0)
  rw [Dat.before_out_kept _ 7 rfl t (by omega) (Bool.eq_false_iff.mpr fun h => by have := (flush0_7 _).mp h; dsimp only at this; omega)
    (fun _ => rfl) (fun _ _ => rfl)]
  dsimp only [dats]

/-- Away from a restart, accumulator 5's current buffer holds what the body left at the point before. -/
theorem before0_8_B (c : Dev nD) (t : Fin cfg0.N) (h0 : ¬t.val % 32 = 0) (d) :
    (dats m 0 c).before 8 t d = (outsAt0 m c (t.val - 1) (Nat.lt_of_le_of_lt (Nat.sub_le _ _) t.isLt)).a8 := by
  have hN : t.val < 64 := lt_of_lt_of_eq t.isLt (show cfg0.N = 64 from N_0)
  rw [Dat.before_out_kept _ 8 rfl t (by omega) (Bool.eq_false_iff.mpr fun h => by have := (flush0_8 _).mp h; dsimp only at this; omega)
    (fun _ => rfl) (fun _ _ => rfl)]
  dsimp only [dats]

/-- Away from a restart, accumulator 6's current buffer holds what the body left at the point before. -/
theorem before0_9_B (c : Dev nD) (t : Fin cfg0.N) (h0 : ¬t.val % 32 = 0) (d) :
    (dats m 0 c).before 9 t d = (outsAt0 m c (t.val - 1) (Nat.lt_of_le_of_lt (Nat.sub_le _ _) t.isLt)).a9 := by
  have hN : t.val < 64 := lt_of_lt_of_eq t.isLt (show cfg0.N = 64 from N_0)
  rw [Dat.before_out_kept _ 9 rfl t (by omega) (Bool.eq_false_iff.mpr fun h => by have := (flush0_9 _).mp h; dsimp only at this; omega)
    (fun _ => rfl) (fun _ _ => rfl)]
  dsimp only [dats]

/-- Away from a restart, accumulator 7's current buffer holds what the body left at the point before. -/
theorem before0_10_B (c : Dev nD) (t : Fin cfg0.N) (h0 : ¬t.val % 32 = 0) (d) :
    (dats m 0 c).before 10 t d = (outsAt0 m c (t.val - 1) (Nat.lt_of_le_of_lt (Nat.sub_le _ _) t.isLt)).a10 := by
  have hN : t.val < 64 := lt_of_lt_of_eq t.isLt (show cfg0.N = 64 from N_0)
  rw [Dat.before_out_kept _ 10 rfl t (by omega) (Bool.eq_false_iff.mpr fun h => by have := (flush0_10 _).mp h; dsimp only at this; omega)
    (fun _ => rfl) (fun _ _ => rfl)]
  dsimp only [dats]

/-- Away from a restart, accumulator 8's current buffer holds what the body left at the point before. -/
theorem before0_11_B (c : Dev nD) (t : Fin cfg0.N) (h0 : ¬t.val % 32 = 0) (d) :
    (dats m 0 c).before 11 t d = (outsAt0 m c (t.val - 1) (Nat.lt_of_le_of_lt (Nat.sub_le _ _) t.isLt)).a11 := by
  have hN : t.val < 64 := lt_of_lt_of_eq t.isLt (show cfg0.N = 64 from N_0)
  rw [Dat.before_out_kept _ 11 rfl t (by omega) (Bool.eq_false_iff.mpr fun h => by have := (flush0_11 _).mp h; dsimp only at this; omega)
    (fun _ => rfl) (fun _ _ => rfl)]
  dsimp only [dats]

/-- Away from a restart, accumulator 9's current buffer holds what the body left at the point before. -/
theorem before0_12_B (c : Dev nD) (t : Fin cfg0.N) (h0 : ¬t.val % 32 = 0) (d) :
    (dats m 0 c).before 12 t d = (outsAt0 m c (t.val - 1) (Nat.lt_of_le_of_lt (Nat.sub_le _ _) t.isLt)).a12 := by
  have hN : t.val < 64 := lt_of_lt_of_eq t.isLt (show cfg0.N = 64 from N_0)
  rw [Dat.before_out_kept _ 12 rfl t (by omega) (Bool.eq_false_iff.mpr fun h => by have := (flush0_12 _).mp h; dsimp only at this; omega)
    (fun _ => rfl) (fun _ _ => rfl)]
  dsimp only [dats]

/-- Away from a restart, accumulator 10's current buffer holds what the body left at the point before. -/
theorem before0_13_B (c : Dev nD) (t : Fin cfg0.N) (h0 : ¬t.val % 32 = 0) (d) :
    (dats m 0 c).before 13 t d = (outsAt0 m c (t.val - 1) (Nat.lt_of_le_of_lt (Nat.sub_le _ _) t.isLt)).a13 := by
  have hN : t.val < 64 := lt_of_lt_of_eq t.isLt (show cfg0.N = 64 from N_0)
  rw [Dat.before_out_kept _ 13 rfl t (by omega) (Bool.eq_false_iff.mpr fun h => by have := (flush0_13 _).mp h; dsimp only at this; omega)
    (fun _ => rfl) (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t))

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  have hN : t.val < 64 := lt_of_lt_of_eq t.isLt (show cfg0.N = 64 from N_0)
  by_cases h0 : t.val % 32 = 0
  · rw [outsAt0_A m c t h0]
    (try dsimp only)
    unfold out0_A_3 out0_A_4 out0_A_5 out0_A_6 out0_A_7 out0_A_8 out0_A_9 out0_A_10 out0_A_11 out0_A_12 out0_A_13
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((kernelRun0_A c (grid0.coords t) _ _ _ _ _ _ _ _ _ _ _ _ _ _ _ _ _ _ _ _ _ _ _ _ _ _ _ _ ((hcond0_0 t).mpr h0) (iblk m c 0 t) (iblk m c 1 t) (iblk m c 2 t)).2.2.2.2.2.2.2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    iintro ⟨H0, H1, H2, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩, ⟨%e13, H13⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_A_3 c _ _ _ _ _ _ _ _ _ _ _ _ _ _ _ _ _ _ _ _ _ _ _ _ _ _ _ _ _ _ _ _ _ )
    isplitl [H4]
    · unfold owns; iexists _; isplitr
      swap; · iexact H4
      ipureintro; exact View.read_writes_of_cover _ _ _ _ _ (cover0_A_4 c _ _ _ _ _ _ _ _ _ _ _ _ _ _ _ _ _ _ _ _ _ _ _ _ _ _ _ _ _ _ _ _ _ )
    isplitl [H5]
    · unfold owns; iexists _; isplitr
      swap; · iexact H5
      ipureintro; exact View.read_writes_of_cover _ _ _ _ _ (cover0_A_5 c _ _ _ _ _ _ _ _ _ _ _ _ _ _ _ _ _ _ _ _ _ _ _ _ _ _ _ _ _ _ _ _ _ )
    isplitl [H6]
    · unfold owns; iexists _; isplitr
      swap; · iexact H6
      ipureintro; exact View.read_writes_of_cover _ _ _ _ _ (cover0_A_6 c _ _ _ _ _ _ _ _ _ _ _ _ _ _ _ _ _ _ _ _ _ _ _ _ _ _ _ _ _ _ _ _ _ )
    isplitl [H7]
    · unfold owns; iexists _; isplitr
      swap; · iexact H7
      ipureintro; exact View.read_writes_of_cover _ _ _ _ _ (cover0_A_7 c _ _ _ _ _ _ _ _ _ _ _ _ _ _ _ _ _ _ _ _ _ _ _ _ _ _ _ _ _ _ _ _ _ )
    isplitl [H8]
    · unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _ _ _ _ )
    isplitl [H9]
    · unfold owns; iexists _; isplitr
      swap; · iexact H9
      ipureintro; exact View.read_writes_of_cover _ _ _ _ _ (cover0_A_9 c _ _ _ _ _ _ _ _ _ _ _ _ _ _ _ _ _ _ _ _ _ _ _ _ _ _ _ _ _ _ _ _ _ )
    isplitl [H10]
    · unfold owns; iexists _; isplitr
      swap; · iexact H10
      ipureintro; exact View.read_writes_of_cover _ _ _ _ _ (cover0_A_10 c _ _ _ _ _ _ _ _ _ _ _ _ _ _ _ _ _ _ _ _ _ _ _ _ _ _ _ _ _ _ _ _ _ )
    isplitl [H11]
    · unfold owns; iexists _; isplitr
      swap; · iexact H11
      ipureintro; exact View.read_writes_of_cover _ _ _ _ _ (cover0_A_11 c _ _ _ _ _ _ _ _ _ _ _ _ _ _ _ _ _ _ _ _ _ _ _ _ _ _ _ _ _ _ _ _ _ )
    isplitl [H12]
    · unfold owns; iexists _; isplitr
      swap; · iexact H12
      ipureintro; exact View.read_writes_of_cover _ _ _ _ _ (cover0_A_12 c _ _ _ _ _ _ _ _ _ _ _ _ _ _ _ _ _ _ _ _ _ _ _ _ _ _ _ _ _ _ _ _ _ )
    unfold owns; iexists _; isplitr
    swap; · iexact H13
    ipureintro; exact View.read_writes_of_cover _ _ _ _ _ (cover0_A_13 c _ _ _ _ _ _ _ _ _ _ _ _ _ _ _ _ _ _ _ _ _ _ _ _ _ _ _ _ _ _ _ _ _ )
  · rw [outsAt0_B m c t h0]
    simp only [before0_3_B m c t h0, before0_4_B m c t h0, before0_5_B m c t h0, before0_6_B m c t h0, before0_7_B m c t h0, before0_8_B m c t h0, before0_9_B m c t h0, before0_10_B m c t h0, before0_11_B m c t h0, before0_12_B m c t h0, before0_13_B m c t h0]
    (try dsimp only)
    unfold out0_B_3 out0_B_4 out0_B_5 out0_B_6 out0_B_7 out0_B_8 out0_B_9 out0_B_10 out0_B_11 out0_B_12 out0_B_13
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
    iapply ((kernelRun0_B c (grid0.coords t) _ _ _ _ _ _ _ _ _ _ _ _ _ _ _ _ _ _ _ _ _ _ _ _ _ _ _ _ (fun h => h0 ((hcond0_0 t).mp h)) (iblk m c 0 t) (iblk m c 1 t) (iblk m c 2 t) _ _ _ _ _ _ _ _ _ _ _ ).2.2.2.2.2.2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    iintro ⟨H0, H1, H2, ⟨%e3, H3⟩, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩, ⟨%e13, H13⟩⟩
    isplitl [HΦ]; · iexact HΦ
    isplitl [Ho]; · iexact Ho
    isplitl [H0]; · iexact H0
    isplitl [H1]; · iexact H1
    isplitl [H2]; · iexact H2
    isplitl [H3]
    · unfold owns; iexists _; isplitr
      swap; · iexact H3
      ipureintro; exact View.read_writes_of_cover _ _ _ _ _ (cover0_B_3 c _ _ _ _ _ _ _ _ _ _ _ _ _ _ _ _ _ _ _ _ _ _ _ _ _ _ _ _ _ _ _ _ _ _ _ _ _ _ _ _ _ _ _ _ )
    isplitl [H4]
    · unfold owns; iexists _; isplitr
      swap; · iexact H4
      ipureintro; exact View.read_writes_of_cover _ _ _ _ _ (cover0_B_4 c _ _ _ _ _ _ _ _ _ _ _ _ _ _ _ _ _ _ _ _ _ _ _ _ _ _ _ _ _ _ _ _ _ _ _ _ _ _ _ _ _ _ _ _ )
    isplitl [H5]
    · unfold owns; iexists _; isplitr
      swap; · iexact H5
      ipureintro; exact View.read_writes_of_cover _ _ _ _ _ (cover0_B_5 c _ _ _ _ _ _ _ _ _ _ _ _ _ _ _ _ _ _ _ _ _ _ _ _ _ _ _ _ _ _ _ _ _ _ _ _ _ _ _ _ _ _ _ _ )
    isplitl [H6]
    · unfold owns; iexists _; isplitr
      swap; · iexact H6
      ipureintro; exact View.read_writes_of_cover _ _ _ _ _ (cover0_B_6 c _ _ _ _ _ _ _ _ _ _ _ _ _ _ _ _ _ _ _ _ _ _ _ _ _ _ _ _ _ _ _ _ _ _ _ _ _ _ _ _ _ _ _ _ )
    isplitl [H7]
    · unfold owns; iexists _; isplitr
      swap; · iexact H7
      ipureintro; exact View.read_writes_of_cover _ _ _ _ _ (cover0_B_7 c _ _ _ _ _ _ _ _ _ _ _ _ _ _ _ _ _ _ _ _ _ _ _ _ _ _ _ _ _ _ _ _ _ _ _ _ _ _ _ _ _ _ _ _ )
    isplitl [H8]
    · unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _ _ _ _ _ _ _ _ _ _ _ _ _ _ _ )
    isplitl [H9]
    · unfold owns; iexists _; isplitr
      swap; · iexact H9
      ipureintro; exact View.read_writes_of_cover _ _ _ _ _ (cover0_B_9 c _ _ _ _ _ _ _ _ _ _ _ _ _ _ _ _ _ _ _ _ _ _ _ _ _ _ _ _ _ _ _ _ _ _ _ _ _ _ _ _ _ _ _ _ )
    isplitl [H10]
    · unfold owns; iexists _; isplitr
      swap; · iexact H10
      ipureintro; exact View.read_writes_of_cover _ _ _ _ _ (cover0_B_10 c _ _ _ _ _ _ _ _ _ _ _ _ _ _ _ _ _ _ _ _ _ _ _ _ _ _ _ _ _ _ _ _ _ _ _ _ _ _ _ _ _ _ _ _ )
    isplitl [H11]
    · unfold owns; iexists _; isplitr
      swap; · iexact H11
      ipureintro; exact View.read_writes_of_cover _ _ _ _ _ (cover0_B_11 c _ _ _ _ _ _ _ _ _ _ _ _ _ _ _ _ _ _ _ _ _ _ _ _ _ _ _ _ _ _ _ _ _ _ _ _ _ _ _ _ _ _ _ _ )
    isplitl [H12]
    · unfold owns; iexists _; isplitr
      swap; · iexact H12
      ipureintro; exact View.read_writes_of_cover _ _ _ _ _ (cover0_B_12 c _ _ _ _ _ _ _ _ _ _ _ _ _ _ _ _ _ _ _ _ _ _ _ _ _ _ _ _ _ _ _ _ _ _ _ _ _ _ _ _ _ _ _ _ )
    unfold owns; iexists _; isplitr
    swap; · iexact H13
    ipureintro; exact View.read_writes_of_cover _ _ _ _ _ (cover0_B_13 c _ _ _ _ _ _ _ _ _ _ _ _ _ _ _ _ _ _ _ _ _ _ _ _ _ _ _ _ _ _ _ _ _ _ _ _ _ _ _ _ _ _ _ _ )

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; every array of the pipeline ends at what the proof data give,
    every other unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame claim at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Frame

end
-- ==== Proof.KOut.lean ====
/-
  What one run of the kernel body leaves in each of its eleven accumulators, for any float values.

  The body loads the three input blocks whole, computes the eleven partial sums of the point, and for each
  accumulator loads its one entry, adds the partial sum and stores it back; at a point whose second grid
  coordinate is zero it first stores the zero block in every accumulator.  The symbolic run of the body records,
  per accumulator, the list of its stores; this module reads each list back as a value: at a continuing point
  the one covering store's payload over what the buffer held, at a restarting point the same payload over the
  zero block (the read-back of the clearing store).  Nothing here depends on the float instance.
-/
import proofs.«100404_j84018150244766_2_alg».proof.Proof.FrameI
import Idealize.ShloMosaic.Lib.Pipeline.Value

set_option maxRecDepth 16384
set_option maxHeartbeats 40000000

noncomputable section

namespace Cert.KernelIdeal.KV

open Cert.KernelIdeal Cert.KernelIdeal.Gen Cert.KernelIdeal.Frame
open Idealize.ShloMosaic Idealize.ShloMosaic.TcCoe Idealize.ShloMosaic.Tactic
open Idealize.SL Idealize.SL.Sem
open Idealize.ShloMosaic.Pipeline (Dat Cfg Window)

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- Accumulator 0 (the coordinate error of box 1) at a continuing point: what it held, with this point's partial sum added. -/
theorem out_B_3 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : ¬cond0_0 i) (x0 : Vec F S128x7x7x30 .f32) (x1 : Vec F S128x7x7x30 .f32) (x2 : Vec F S128x7x7 .i32) (xo3 : Vec F S1x1x1 .f32) (xo4 : Vec F S1x1x1 .f32) (xo5 : Vec F S1x1x1 .f32) (xo6 : Vec F S1x1x1 .f32) (xo7 : Vec F S1x1x1 .f32) (xo8 : Vec F S1x1x1 .f32) (xo9 : Vec F S1x1x1 .f32) (xo10 : Vec F S1x1x1 .f32) (xo11 : Vec F S1x1x1 .f32) (xo12 : Vec F S1x1x1 .f32) (xo13 : Vec F S1x1x1 .f32) :
    out0_B_3 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13
      = k0_pay27 (k0_pay14 x0 x1 (k0_pay7 x1 x2)) xo3 := by
  unfold out0_B_3
  rw [View.read_writes_eq_canon _ _ _ (cover0_B_3 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13)]
  unfold kernelRun0_B
  dsimp only
  sl_unfold_words
  rw [View.canon_unit_zero hz3]
  simp only [View.readAt_eq_ld, harg2.read_unread, harg3.read_unread, harg4.read_unread, harg5.read_unread,
    View.ld_unit_zero (S := S1x1x1) hz3, View.ld_unit_zero (S := S128x7x7x30) hz4, View.ld_unit_zero (S := S128x7x7) hz3]

/-- Accumulator 0 at a restarting point: the zero block, with this point's partial sum added. -/
theorem out_A_3 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : cond0_0 i) (x0 : Vec F S128x7x7x30 .f32) (x1 : Vec F S128x7x7x30 .f32) (x2 : Vec F S128x7x7 .i32) :
    out0_A_3 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2
      = k0_pay27 (k0_pay14 x0 x1 (k0_pay7 x1 x2)) k0_pay1 := by
  unfold out0_A_3
  rw [View.read_writes_eq_canon _ _ _ (cover0_A_3 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread, harg4.read_unread,
    View.ld_unit_zero (S := S1x1x1) hz3, View.ld_unit_zero (S := S128x7x7x30) hz4, View.ld_unit_zero (S := S128x7x7) hz3]

/-- Accumulator 1 (the coordinate error of box 2) at a continuing point: what it held, with this point's partial sum added. -/
theorem out_B_4 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : ¬cond0_0 i) (x0 : Vec F S128x7x7x30 .f32) (x1 : Vec F S128x7x7x30 .f32) (x2 : Vec F S128x7x7 .i32) (xo3 : Vec F S1x1x1 .f32) (xo4 : Vec F S1x1x1 .f32) (xo5 : Vec F S1x1x1 .f32) (xo6 : Vec F S1x1x1 .f32) (xo7 : Vec F S1x1x1 .f32) (xo8 : Vec F S1x1x1 .f32) (xo9 : Vec F S1x1x1 .f32) (xo10 : Vec F S1x1x1 .f32) (xo11 : Vec F S1x1x1 .f32) (xo12 : Vec F S1x1x1 .f32) (xo13 : Vec F S1x1x1 .f32) :
    out0_B_4 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13
      = k0_pay28 (k0_pay15 x0 x1 (k0_pay8 x1 x2)) xo4 := by
  unfold out0_B_4
  rw [View.read_writes_eq_canon _ _ _ (cover0_B_4 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13)]
  unfold kernelRun0_B
  dsimp only
  sl_unfold_words
  rw [View.canon_unit_zero hz3]
  simp only [View.readAt_eq_ld, harg2.read_unread, harg3.read_unread, harg4.read_unread, harg6.read_unread,
    View.ld_unit_zero (S := S1x1x1) hz3, View.ld_unit_zero (S := S128x7x7x30) hz4, View.ld_unit_zero (S := S128x7x7) hz3]

/-- Accumulator 1 at a restarting point: the zero block, with this point's partial sum added. -/
theorem out_A_4 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : cond0_0 i) (x0 : Vec F S128x7x7x30 .f32) (x1 : Vec F S128x7x7x30 .f32) (x2 : Vec F S128x7x7 .i32) :
    out0_A_4 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2
      = k0_pay28 (k0_pay15 x0 x1 (k0_pay8 x1 x2)) k0_pay1 := by
  unfold out0_A_4
  rw [View.read_writes_eq_canon _ _ _ (cover0_A_4 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread, harg4.read_unread,
    View.ld_unit_zero (S := S1x1x1) hz3, View.ld_unit_zero (S := S128x7x7x30) hz4, View.ld_unit_zero (S := S128x7x7) hz3]

/-- Accumulator 2 (the confidence error of box 1) at a continuing point: what it held, with this point's partial sum added. -/
theorem out_B_5 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : ¬cond0_0 i) (x0 : Vec F S128x7x7x30 .f32) (x1 : Vec F S128x7x7x30 .f32) (x2 : Vec F S128x7x7 .i32) (xo3 : Vec F S1x1x1 .f32) (xo4 : Vec F S1x1x1 .f32) (xo5 : Vec F S1x1x1 .f32) (xo6 : Vec F S1x1x1 .f32) (xo7 : Vec F S1x1x1 .f32) (xo8 : Vec F S1x1x1 .f32) (xo9 : Vec F S1x1x1 .f32) (xo10 : Vec F S1x1x1 .f32) (xo11 : Vec F S1x1x1 .f32) (xo12 : Vec F S1x1x1 .f32) (xo13 : Vec F S1x1x1 .f32) :
    out0_B_5 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13
      = k0_pay29 (k0_pay16 x0 (k0_pay5 x1 x2) (k0_pay7 x1 x2)) xo5 := by
  unfold out0_B_5
  rw [View.read_writes_eq_canon _ _ _ (cover0_B_5 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13)]
  unfold kernelRun0_B
  dsimp only
  sl_unfold_words
  rw [View.canon_unit_zero hz3]
  simp only [View.readAt_eq_ld, harg2.read_unread, harg3.read_unread, harg4.read_unread, harg7.read_unread,
    View.ld_unit_zero (S := S1x1x1) hz3, View.ld_unit_zero (S := S128x7x7x30) hz4, View.ld_unit_zero (S := S128x7x7) hz3]

/-- Accumulator 2 at a restarting point: the zero block, with this point's partial sum added. -/
theorem out_A_5 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : cond0_0 i) (x0 : Vec F S128x7x7x30 .f32) (x1 : Vec F S128x7x7x30 .f32) (x2 : Vec F S128x7x7 .i32) :
    out0_A_5 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2
      = k0_pay29 (k0_pay16 x0 (k0_pay5 x1 x2) (k0_pay7 x1 x2)) k0_pay1 := by
  unfold out0_A_5
  rw [View.read_writes_eq_canon _ _ _ (cover0_A_5 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread, harg4.read_unread,
    View.ld_unit_zero (S := S1x1x1) hz3, View.ld_unit_zero (S := S128x7x7x30) hz4, View.ld_unit_zero (S := S128x7x7) hz3]

/-- Accumulator 3 (the confidence error of box 2) at a continuing point: what it held, with this point's partial sum added. -/
theorem out_B_6 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : ¬cond0_0 i) (x0 : Vec F S128x7x7x30 .f32) (x1 : Vec F S128x7x7x30 .f32) (x2 : Vec F S128x7x7 .i32) (xo3 : Vec F S1x1x1 .f32) (xo4 : Vec F S1x1x1 .f32) (xo5 : Vec F S1x1x1 .f32) (xo6 : Vec F S1x1x1 .f32) (xo7 : Vec F S1x1x1 .f32) (xo8 : Vec F S1x1x1 .f32) (xo9 : Vec F S1x1x1 .f32) (xo10 : Vec F S1x1x1 .f32) (xo11 : Vec F S1x1x1 .f32) (xo12 : Vec F S1x1x1 .f32) (xo13 : Vec F S1x1x1 .f32) :
    out0_B_6 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13
      = k0_pay30 (k0_pay18 (k0_pay17 x0 (k0_pay6 x1 x2) (k0_pay8 x1 x2))) xo6 := by
  unfold out0_B_6
  rw [View.read_writes_eq_canon _ _ _ (cover0_B_6 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13)]
  unfold kernelRun0_B
  dsimp only
  sl_unfold_words
  rw [View.canon_unit_zero hz3]
  simp only [View.readAt_eq_ld, harg2.read_unread, harg3.read_unread, harg4.read_unread, harg8.read_unread,
    View.ld_unit_zero (S := S1x1x1) hz3, View.ld_unit_zero (S := S128x7x7x30) hz4, View.ld_unit_zero (S := S128x7x7) hz3]

/-- Accumulator 3 at a restarting point: the zero block, with this point's partial sum added. -/
theorem out_A_6 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : cond0_0 i) (x0 : Vec F S128x7x7x30 .f32) (x1 : Vec F S128x7x7x30 .f32) (x2 : Vec F S128x7x7 .i32) :
    out0_A_6 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2
      = k0_pay30 (k0_pay18 (k0_pay17 x0 (k0_pay6 x1 x2) (k0_pay8 x1 x2))) k0_pay1 := by
  unfold out0_A_6
  rw [View.read_writes_eq_canon _ _ _ (cover0_A_6 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread, harg4.read_unread,
    View.ld_unit_zero (S := S1x1x1) hz3, View.ld_unit_zero (S := S128x7x7x30) hz4, View.ld_unit_zero (S := S128x7x7) hz3]

/-- Accumulator 4 (the class error under box 1) at a continuing point: what it held, with this point's partial sum added. -/
theorem out_B_7 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : ¬cond0_0 i) (x0 : Vec F S128x7x7x30 .f32) (x1 : Vec F S128x7x7x30 .f32) (x2 : Vec F S128x7x7 .i32) (xo3 : Vec F S1x1x1 .f32) (xo4 : Vec F S1x1x1 .f32) (xo5 : Vec F S1x1x1 .f32) (xo6 : Vec F S1x1x1 .f32) (xo7 : Vec F S1x1x1 .f32) (xo8 : Vec F S1x1x1 .f32) (xo9 : Vec F S1x1x1 .f32) (xo10 : Vec F S1x1x1 .f32) (xo11 : Vec F S1x1x1 .f32) (xo12 : Vec F S1x1x1 .f32) (xo13 : Vec F S1x1x1 .f32) :
    out0_B_7 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13
      = k0_pay31 (k0_pay19 (k0_pay7 x1 x2) (k0_pay13 x0 x1)) xo7 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13)]
  unfold kernelRun0_B
  dsimp only
  sl_unfold_words
  rw [View.canon_unit_zero hz3]
  simp only [View.readAt_eq_ld, harg2.read_unread, harg3.read_unread, harg4.read_unread, harg9.read_unread,
    View.ld_unit_zero (S := S1x1x1) hz3, View.ld_unit_zero (S := S128x7x7x30) hz4, View.ld_unit_zero (S := S128x7x7) hz3]

/-- Accumulator 4 at a restarting point: the zero block, with this point's partial sum added. -/
theorem out_A_7 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : cond0_0 i) (x0 : Vec F S128x7x7x30 .f32) (x1 : Vec F S128x7x7x30 .f32) (x2 : Vec F S128x7x7 .i32) :
    out0_A_7 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2
      = k0_pay31 (k0_pay19 (k0_pay7 x1 x2) (k0_pay13 x0 x1)) k0_pay1 := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread, harg4.read_unread,
    View.ld_unit_zero (S := S1x1x1) hz3, View.ld_unit_zero (S := S128x7x7x30) hz4, View.ld_unit_zero (S := S128x7x7) hz3]

/-- Accumulator 5 (the class error under box 2) at a continuing point: what it held, with this point's partial sum added. -/
theorem out_B_8 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : ¬cond0_0 i) (x0 : Vec F S128x7x7x30 .f32) (x1 : Vec F S128x7x7x30 .f32) (x2 : Vec F S128x7x7 .i32) (xo3 : Vec F S1x1x1 .f32) (xo4 : Vec F S1x1x1 .f32) (xo5 : Vec F S1x1x1 .f32) (xo6 : Vec F S1x1x1 .f32) (xo7 : Vec F S1x1x1 .f32) (xo8 : Vec F S1x1x1 .f32) (xo9 : Vec F S1x1x1 .f32) (xo10 : Vec F S1x1x1 .f32) (xo11 : Vec F S1x1x1 .f32) (xo12 : Vec F S1x1x1 .f32) (xo13 : Vec F S1x1x1 .f32) :
    out0_B_8 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13
      = k0_pay32 (k0_pay20 (k0_pay8 x1 x2) (k0_pay13 x0 x1)) xo8 := by
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13)]
  unfold kernelRun0_B
  dsimp only
  sl_unfold_words
  rw [View.canon_unit_zero hz3]
  simp only [View.readAt_eq_ld, harg2.read_unread, harg3.read_unread, harg4.read_unread, harg10.read_unread,
    View.ld_unit_zero (S := S1x1x1) hz3, View.ld_unit_zero (S := S128x7x7x30) hz4, View.ld_unit_zero (S := S128x7x7) hz3]

/-- Accumulator 5 at a restarting point: the zero block, with this point's partial sum added. -/
theorem out_A_8 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : cond0_0 i) (x0 : Vec F S128x7x7x30 .f32) (x1 : Vec F S128x7x7x30 .f32) (x2 : Vec F S128x7x7 .i32) :
    out0_A_8 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2
      = k0_pay32 (k0_pay20 (k0_pay8 x1 x2) (k0_pay13 x0 x1)) k0_pay1 := by
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread, harg4.read_unread,
    View.ld_unit_zero (S := S1x1x1) hz3, View.ld_unit_zero (S := S128x7x7x30) hz4, View.ld_unit_zero (S := S128x7x7) hz3]

/-- Accumulator 6 (the no-object confidence error of box 1) at a continuing point: what it held, with this point's partial sum added. -/
theorem out_B_9 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : ¬cond0_0 i) (x0 : Vec F S128x7x7x30 .f32) (x1 : Vec F S128x7x7x30 .f32) (x2 : Vec F S128x7x7 .i32) (xo3 : Vec F S1x1x1 .f32) (xo4 : Vec F S1x1x1 .f32) (xo5 : Vec F S1x1x1 .f32) (xo6 : Vec F S1x1x1 .f32) (xo7 : Vec F S1x1x1 .f32) (xo8 : Vec F S1x1x1 .f32) (xo9 : Vec F S1x1x1 .f32) (xo10 : Vec F S1x1x1 .f32) (xo11 : Vec F S1x1x1 .f32) (xo12 : Vec F S1x1x1 .f32) (xo13 : Vec F S1x1x1 .f32) :
    out0_B_9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13
      = k0_pay33 (k0_pay21 (k0_pay10 (k0_pay9 x1 x2)) (k0_pay11 x0 (k0_pay5 x1 x2))) xo9 := by
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13)]
  unfold kernelRun0_B
  dsimp only
  sl_unfold_words
  rw [View.canon_unit_zero hz3]
  simp only [View.readAt_eq_ld, harg2.read_unread, harg3.read_unread, harg4.read_unread, harg11.read_unread,
    View.ld_unit_zero (S := S1x1x1) hz3, View.ld_unit_zero (S := S128x7x7x30) hz4, View.ld_unit_zero (S := S128x7x7) hz3]

/-- Accumulator 6 at a restarting point: the zero block, with this point's partial sum added. -/
theorem out_A_9 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : cond0_0 i) (x0 : Vec F S128x7x7x30 .f32) (x1 : Vec F S128x7x7x30 .f32) (x2 : Vec F S128x7x7 .i32) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2
      = k0_pay33 (k0_pay21 (k0_pay10 (k0_pay9 x1 x2)) (k0_pay11 x0 (k0_pay5 x1 x2))) k0_pay1 := by
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread, harg4.read_unread,
    View.ld_unit_zero (S := S1x1x1) hz3, View.ld_unit_zero (S := S128x7x7x30) hz4, View.ld_unit_zero (S := S128x7x7) hz3]

/-- Accumulator 7 (the no-object confidence error of box 2) at a continuing point: what it held, with this point's partial sum added. -/
theorem out_B_10 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : ¬cond0_0 i) (x0 : Vec F S128x7x7x30 .f32) (x1 : Vec F S128x7x7x30 .f32) (x2 : Vec F S128x7x7 .i32) (xo3 : Vec F S1x1x1 .f32) (xo4 : Vec F S1x1x1 .f32) (xo5 : Vec F S1x1x1 .f32) (xo6 : Vec F S1x1x1 .f32) (xo7 : Vec F S1x1x1 .f32) (xo8 : Vec F S1x1x1 .f32) (xo9 : Vec F S1x1x1 .f32) (xo10 : Vec F S1x1x1 .f32) (xo11 : Vec F S1x1x1 .f32) (xo12 : Vec F S1x1x1 .f32) (xo13 : Vec F S1x1x1 .f32) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13
      = k0_pay34 (k0_pay22 (k0_pay10 (k0_pay9 x1 x2)) (k0_pay12 x0 (k0_pay6 x1 x2))) xo10 := by
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13)]
  unfold kernelRun0_B
  dsimp only
  sl_unfold_words
  rw [View.canon_unit_zero hz3]
  simp only [View.readAt_eq_ld, harg2.read_unread, harg3.read_unread, harg4.read_unread, harg12.read_unread,
    View.ld_unit_zero (S := S1x1x1) hz3, View.ld_unit_zero (S := S128x7x7x30) hz4, View.ld_unit_zero (S := S128x7x7) hz3]

/-- Accumulator 7 at a restarting point: the zero block, with this point's partial sum added. -/
theorem out_A_10 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : cond0_0 i) (x0 : Vec F S128x7x7x30 .f32) (x1 : Vec F S128x7x7x30 .f32) (x2 : Vec F S128x7x7 .i32) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2
      = k0_pay34 (k0_pay22 (k0_pay10 (k0_pay9 x1 x2)) (k0_pay12 x0 (k0_pay6 x1 x2))) k0_pay1 := by
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread, harg4.read_unread,
    View.ld_unit_zero (S := S1x1x1) hz3, View.ld_unit_zero (S := S128x7x7x30) hz4, View.ld_unit_zero (S := S128x7x7) hz3]

/-- Accumulator 8 (the count of box 1) at a continuing point: what it held, with this point's partial sum added. -/
theorem out_B_11 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : ¬cond0_0 i) (x0 : Vec F S128x7x7x30 .f32) (x1 : Vec F S128x7x7x30 .f32) (x2 : Vec F S128x7x7 .i32) (xo3 : Vec F S1x1x1 .f32) (xo4 : Vec F S1x1x1 .f32) (xo5 : Vec F S1x1x1 .f32) (xo6 : Vec F S1x1x1 .f32) (xo7 : Vec F S1x1x1 .f32) (xo8 : Vec F S1x1x1 .f32) (xo9 : Vec F S1x1x1 .f32) (xo10 : Vec F S1x1x1 .f32) (xo11 : Vec F S1x1x1 .f32) (xo12 : Vec F S1x1x1 .f32) (xo13 : Vec F S1x1x1 .f32) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13
      = k0_pay35 (k0_pay23 (k0_pay7 x1 x2)) xo11 := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13)]
  unfold kernelRun0_B
  dsimp only
  sl_unfold_words
  rw [View.canon_unit_zero hz3]
  simp only [View.readAt_eq_ld, harg2.read_unread, harg3.read_unread, harg4.read_unread, harg13.read_unread,
    View.ld_unit_zero (S := S1x1x1) hz3, View.ld_unit_zero (S := S128x7x7x30) hz4, View.ld_unit_zero (S := S128x7x7) hz3]

/-- Accumulator 8 at a restarting point: the zero block, with this point's partial sum added. -/
theorem out_A_11 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : cond0_0 i) (x0 : Vec F S128x7x7x30 .f32) (x1 : Vec F S128x7x7x30 .f32) (x2 : Vec F S128x7x7 .i32) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2
      = k0_pay35 (k0_pay23 (k0_pay7 x1 x2)) k0_pay1 := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread, harg4.read_unread,
    View.ld_unit_zero (S := S1x1x1) hz3, View.ld_unit_zero (S := S128x7x7x30) hz4, View.ld_unit_zero (S := S128x7x7) hz3]

/-- Accumulator 9 (the count of box 2) at a continuing point: what it held, with this point's partial sum added. -/
theorem out_B_12 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : ¬cond0_0 i) (x0 : Vec F S128x7x7x30 .f32) (x1 : Vec F S128x7x7x30 .f32) (x2 : Vec F S128x7x7 .i32) (xo3 : Vec F S1x1x1 .f32) (xo4 : Vec F S1x1x1 .f32) (xo5 : Vec F S1x1x1 .f32) (xo6 : Vec F S1x1x1 .f32) (xo7 : Vec F S1x1x1 .f32) (xo8 : Vec F S1x1x1 .f32) (xo9 : Vec F S1x1x1 .f32) (xo10 : Vec F S1x1x1 .f32) (xo11 : Vec F S1x1x1 .f32) (xo12 : Vec F S1x1x1 .f32) (xo13 : Vec F S1x1x1 .f32) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13
      = k0_pay36 (k0_pay24 (k0_pay8 x1 x2)) xo12 := by
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13)]
  unfold kernelRun0_B
  dsimp only
  sl_unfold_words
  rw [View.canon_unit_zero hz3]
  simp only [View.readAt_eq_ld, harg2.read_unread, harg3.read_unread, harg4.read_unread, harg14.read_unread,
    View.ld_unit_zero (S := S1x1x1) hz3, View.ld_unit_zero (S := S128x7x7x30) hz4, View.ld_unit_zero (S := S128x7x7) hz3]

/-- Accumulator 9 at a restarting point: the zero block, with this point's partial sum added. -/
theorem out_A_12 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : cond0_0 i) (x0 : Vec F S128x7x7x30 .f32) (x1 : Vec F S128x7x7x30 .f32) (x2 : Vec F S128x7x7 .i32) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2
      = k0_pay36 (k0_pay24 (k0_pay8 x1 x2)) k0_pay1 := by
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread, harg4.read_unread,
    View.ld_unit_zero (S := S1x1x1) hz3, View.ld_unit_zero (S := S128x7x7x30) hz4, View.ld_unit_zero (S := S128x7x7) hz3]

/-- Accumulator 10 (the count of cells without an object) at a continuing point: what it held, with this point's partial sum added. -/
theorem out_B_13 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : ¬cond0_0 i) (x0 : Vec F S128x7x7x30 .f32) (x1 : Vec F S128x7x7x30 .f32) (x2 : Vec F S128x7x7 .i32) (xo3 : Vec F S1x1x1 .f32) (xo4 : Vec F S1x1x1 .f32) (xo5 : Vec F S1x1x1 .f32) (xo6 : Vec F S1x1x1 .f32) (xo7 : Vec F S1x1x1 .f32) (xo8 : Vec F S1x1x1 .f32) (xo9 : Vec F S1x1x1 .f32) (xo10 : Vec F S1x1x1 .f32) (xo11 : Vec F S1x1x1 .f32) (xo12 : Vec F S1x1x1 .f32) (xo13 : Vec F S1x1x1 .f32) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13
      = k0_pay37 (k0_pay26 (k0_pay25 (k0_pay10 (k0_pay9 x1 x2)))) xo13 := by
  unfold out0_B_13
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 xo3 xo4 xo5 xo6 xo7 xo8 xo9 xo10 xo11 xo12 xo13)]
  unfold kernelRun0_B
  dsimp only
  sl_unfold_words
  rw [View.canon_unit_zero hz3]
  simp only [View.readAt_eq_ld, harg2.read_unread, harg3.read_unread, harg4.read_unread, harg15.read_unread,
    View.ld_unit_zero (S := S1x1x1) hz3, View.ld_unit_zero (S := S128x7x7x30) hz4, View.ld_unit_zero (S := S128x7x7) hz3]

/-- Accumulator 10 at a restarting point: the zero block, with this point's partial sum added. -/
theorem out_A_13 (c : Dev nD) (i : grid0.Coords) (arg2 : Memref sig .tc .vmem S128x7x7x30 .f32) (harg2 : arg2.IsWhole) (arg3 : Memref sig .tc .vmem S128x7x7x30 .f32) (harg3 : arg3.IsWhole) (arg4 : Memref sig .tc .vmem S128x7x7 .i32) (harg4 : arg4.IsWhole) (arg5 : Memref sig .tc .vmem S1x1x1 .f32) (harg5 : arg5.IsWhole) (arg6 : Memref sig .tc .vmem S1x1x1 .f32) (harg6 : arg6.IsWhole) (arg7 : Memref sig .tc .vmem S1x1x1 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (arg14 : Memref sig .tc .vmem S1x1x1 .f32) (harg14 : arg14.IsWhole) (arg15 : Memref sig .tc .vmem S1x1x1 .f32) (harg15 : arg15.IsWhole) (hc0 : cond0_0 i) (x0 : Vec F S128x7x7x30 .f32) (x1 : Vec F S128x7x7x30 .f32) (x2 : Vec F S128x7x7 .i32) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2
      = k0_pay37 (k0_pay26 (k0_pay25 (k0_pay10 (k0_pay9 x1 x2)))) k0_pay1 := by
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 hc0 x0 x1 x2)]
  unfold kernelRun0_A
  dsimp only
  sl_unfold_words
  rw [View.canon_cons_unit_zero (S := S1x1x1) hz3, View.readCov_unit_zero (S := S1x1x1) _ hz3]
  simp only [View.readAt_eq_ld, harg2.read_unread, harg3.read_unread, harg4.read_unread,
    View.ld_unit_zero (S := S1x1x1) hz3, View.ld_unit_zero (S := S128x7x7x30) hz4, View.ld_unit_zero (S := S128x7x7) hz3]

end Cert.KernelIdeal.KV

end
-- ==== Proof.Spec.lean ====
/-
  The YOLO-style loss both programs compute, written once over the extended reals.

  A cell is one grid position (b, i, j) of a batch element: thirty predicted numbers `p`, thirty target
  numbers `t` and one integer coin `c`.  The two box confidences of the target sit in channels 4 and 9.
  Where the cell holds an object (t 4 > 0) the coin decides which of the two confidences is cleared:
  `t4n` / `t9n` are the confidences after that.  Three masks follow: `m1` (box 1 responsible),
  `m2` (box 2 responsible) and `mno` (no object: both cleared confidences are zero).
  Eleven per-cell terms `term w` are summed over every cell (`total w`): the squared coordinate,
  confidence and class errors under their masks, and the three masks themselves (the counts).
  The four results are quotients of those totals (`out`).
-/
import Idealize.ShloMosaic.PureOps.Ideal
import Idealize.ShloMosaic.Lib.ValueIdx

noncomputable section

namespace Cert.Yolo

open Idealize.ShloMosaic Idealize.ShloMosaic.ValueIdx

/-- The float word of zero, read as an extended real. -/
abbrev z : EReal := Ideal.ofBits .f32 0x00000000#32

/-- `x > 0` and `x = 0` as one-bit words (ordered comparisons). -/
def gt0 (x : EReal) : BitVec 1 := FloatOps.cmpf (F := Ideal) (φ := .f32) .ogt x z
def eq0 (x : EReal) : BitVec 1 := FloatOps.cmpf (F := Ideal) (φ := .f32) .oeq x z
/-- The coin is positive (signed comparison). -/
def coinB (c : BitVec 32) : BitVec 1 := IntOp.cmpi .sgt c 0#32
/-- A one-bit word as the number 0 or 1. -/
def bitR (b : BitVec 1) : EReal := FloatOps.uitofp (F := Ideal) .f32 b

/-- Channel 4 of the target after the coin flip: cleared where the cell has an object and the coin is not positive. -/
def t4n (t4 : EReal) (c : BitVec 32) : EReal :=
  Scalar.select (IntOp.andi (gt0 t4) (IntOp.xori (coinB c) 1#1)) z t4
/-- Channel 9 of the target after the coin flip: cleared where the cell has an object and the coin is positive. -/
def t9n (t4 t9 : EReal) (c : BitVec 32) : EReal :=
  Scalar.select (IntOp.andi (gt0 t4) (coinB c)) z t9

def m1 (t4 : EReal) (c : BitVec 32) : EReal := bitR (gt0 (t4n t4 c))
def m2 (t4 t9 : EReal) (c : BitVec 32) : EReal := bitR (gt0 (t9n t4 t9 c))
def mno (t4 t9 : EReal) (c : BitVec 32) : EReal := bitR (IntOp.andi (eq0 (t4n t4 c)) (eq0 (t9n t4 t9 c)))

/-- A squared difference. -/
def sqd (a b : EReal) : EReal := (a - b) * (a - b)

/-- Channel `o + k` of a cell, for the four box coordinates starting at `o`. -/
def ch4 (o : Nat) (h : o + 4 ≤ 30) (k : Fin 4) : Fin 30 := ⟨o + k.val, by have := k.isLt; omega⟩
/-- Channel `10 + k`: the twenty class scores. -/
def ch20 (k : Fin 20) : Fin 30 := ⟨10 + k.val, by have := k.isLt; omega⟩

/-- The squared coordinate error of the box whose coordinates start at channel `o`. -/
def loc (o : Nat) (h : o + 4 ≤ 30) (p t : Fin 30 → EReal) : EReal := ∑ k : Fin 4, sqd (p (ch4 o h k)) (t (ch4 o h k))
/-- The squared class error. -/
def cls (p t : Fin 30 → EReal) : EReal := ∑ k : Fin 20, sqd (p (ch20 k)) (t (ch20 k))

/-- The eleven per-cell terms, in the order the kernel keeps its eleven accumulators. -/
def term (w : Fin 11) (p t : Fin 30 → EReal) (c : BitVec 32) : EReal :=
  match w with
  | ⟨0, _⟩ => loc 0 (by omega) p t * m1 (t 4) c
  | ⟨1, _⟩ => loc 5 (by omega) p t * m2 (t 4) (t 9) c
  | ⟨2, _⟩ => sqd (p 4) (t4n (t 4) c) * m1 (t 4) c
  | ⟨3, _⟩ => sqd (p 9) (t9n (t 4) (t 9) c) * m2 (t 4) (t 9) c
  | ⟨4, _⟩ => cls p t * m1 (t 4) c
  | ⟨5, _⟩ => cls p t * m2 (t 4) (t 9) c
  | ⟨6, _⟩ => sqd (p 4) (t4n (t 4) c) * mno (t 4) (t 9) c
  | ⟨7, _⟩ => sqd (p 9) (t9n (t 4) (t 9) c) * mno (t 4) (t 9) c
  | ⟨8, _⟩ => m1 (t 4) c
  | ⟨9, _⟩ => m2 (t 4) (t 9) c
  | ⟨10, _⟩ => mno (t 4) (t 9) c
  | ⟨_ + 11, h⟩ => absurd h (by omega)

/-- Term `w` summed over every cell of the batch, from the zero word. -/
def total (w : Fin 11) (P T : (⟨4, ![8192, 7, 7, 30]⟩ : Shape).Idx → EReal) (C : (⟨3, ![8192, 7, 7]⟩ : Shape).Idx → BitVec 32) : EReal :=
  z + ∑ b : Fin 8192, ∑ i : Fin 7, ∑ j : Fin 7,
    term w (fun k => P (ix4 b i j k)) (fun k => T (ix4 b i j k)) (C (ix3 b i j))

/-- A masked mean: the total `s` over `max count 1` times the width word `wd`. -/
def mean (s cnt wd : EReal) : EReal := Ideal.div s (max cnt (Ideal.ofBits .f32 0x3F800000#32) * wd)

/-- The four results from the eleven totals: coordinate, class, confidence and no-object losses. -/
def out (k : Fin 4) (S : Fin 11 → EReal) : EReal :=
  match k with
  | ⟨0, _⟩ => Ideal.div (Ideal.ofBits .f32 0x40A00000#32 * (mean (S 0) (S 8) (Ideal.ofBits .f32 0x40800000#32) + mean (S 1) (S 9) (Ideal.ofBits .f32 0x40800000#32))) (Ideal.ofBits .f32 0x46000000#32)
  | ⟨1, _⟩ => Ideal.div (mean (S 4) (S 8) (Ideal.ofBits .f32 0x41A00000#32) + mean (S 5) (S 9) (Ideal.ofBits .f32 0x41A00000#32)) (Ideal.ofBits .f32 0x46000000#32)
  | ⟨2, _⟩ => Ideal.div (mean (S 2) (S 8) (Ideal.ofBits .f32 0x3F800000#32) + mean (S 3) (S 9) (Ideal.ofBits .f32 0x3F800000#32)) (Ideal.ofBits .f32 0x46000000#32)
  | ⟨3, _⟩ => Ideal.div (Ideal.ofBits .f32 0x3F000000#32 * (mean (S 6) (S 10) (Ideal.ofBits .f32 0x3F800000#32) + mean (S 7) (S 10) (Ideal.ofBits .f32 0x3F800000#32))) (Ideal.ofBits .f32 0x46000000#32)
  | ⟨_ + 4, h⟩ => absurd h (by omega)

/-- Result `k` of the loss as a function of the three argument arrays. -/
def result (k : Fin 4) (P T : (⟨4, ![8192, 7, 7, 30]⟩ : Shape).Idx → EReal) (C : (⟨3, ![8192, 7, 7]⟩ : Shape).Idx → BitVec 32) : EReal :=
  out k (fun w => total w P T C)

end Cert.Yolo

end
-- ==== Proof.KTail.lean ====
/-
  The 78 scalar host lines that follow the region, read on the extended reals.

  The region leaves eleven [2, 1, 1] arrays; the host lines sum each over all its entries from the zero word
  (eleven totals), clamp the three counts from below by one, scale them by the widths 4, 1, 20, divide, add and
  scale again.  Whatever the eleven arrays hold, the four results are the four quotients of the loss taken of the
  eleven totals: both sides are the same expression tree of the same constants, once the host's sum over every
  axis is written as the initial value plus the finite sum.
-/
import proofs.«100404_j84018150244766_2_alg».proof.Proof.Gen.KernelIdeal.Launch
import proofs.«100404_j84018150244766_2_alg».proof.Proof.Spec
import Idealize.ShloMosaic.PureOps.Ideal.Laws
import Idealize.ShloMosaic.Lib.StableHlo.Run
import Idealize.ShloMosaic.Lib.Tactic

set_option maxRecDepth 16384
set_option maxHeartbeats 40000000

noncomputable section

namespace Cert.KernelIdeal.KV

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)

/-! ## The scalar host lines after the region -/

/-- The total of a [2, 1, 1] array from the zero word, as the host's reduction takes it. -/
def tot (A : S2x1x1.Idx → EReal) : EReal := Cert.Yolo.z + ∑ i : S2x1x1.Idx, A i

/-- The eleven totals of the eleven result arrays of the region, in a valuation. -/
def sums (W : Valuation τ sig (Elt Ideal)) : Fin 11 → EReal := fun w => match w with
  | ⟨0, _⟩ => tot (W (Proc.devRef .tc main_v0_0))
  | ⟨1, _⟩ => tot (W (Proc.devRef .tc main_v0_1))
  | ⟨2, _⟩ => tot (W (Proc.devRef .tc main_v0_2))
  | ⟨3, _⟩ => tot (W (Proc.devRef .tc main_v0_3))
  | ⟨4, _⟩ => tot (W (Proc.devRef .tc main_v0_4))
  | ⟨5, _⟩ => tot (W (Proc.devRef .tc main_v0_5))
  | ⟨6, _⟩ => tot (W (Proc.devRef .tc main_v0_6))
  | ⟨7, _⟩ => tot (W (Proc.devRef .tc main_v0_7))
  | ⟨8, _⟩ => tot (W (Proc.devRef .tc main_v0_8))
  | ⟨9, _⟩ => tot (W (Proc.devRef .tc main_v0_9))
  | ⟨10, _⟩ => tot (W (Proc.devRef .tc main_v0_10))
  | ⟨_ + 11, h⟩ => absurd h (by omega)

/-- The host's sum of a [2, 1, 1] array over all its axes from the zero word is the total. -/
theorem hostSum (x : (⟨S2x1x1, .f32⟩ : BufTy).Contents (Elt Ideal)) :
    Host.reduceAdd x (constant (F := Ideal) S_ .f32 0x00000000#32) reducesTo_S2x1x1_S_d0_1_2 h_S_ = fun _ => tot x := by
  funext i
  simp only [Host.reduceAdd, Ideal.hostReduceAdd_def]
  exact Ideal.hostReduceAdd_total reducesTo_S2x1x1_S_d0_1_2 (fun b => b.elim0) x _ i

/-- The first result of the host lines: the coordinate loss of the eleven totals. -/
theorem tail41 (W : Valuation τ sig (Elt Ideal)) :
    StableHlo.after (hostOps1 (F := Ideal)) W (Proc.devRef .tc main_v41) = fun _ => Cert.Yolo.out 0 (sums W) := by
  after_results_simp
  simp only [hostSum]
  rfl

/-- The second result: the class loss. -/
theorem tail42 (W : Valuation τ sig (Elt Ideal)) :
    StableHlo.after (hostOps1 (F := Ideal)) W (Proc.devRef .tc main_v42) = fun _ => Cert.Yolo.out 1 (sums W) := by
  after_results_simp
  simp only [hostSum]
  rfl

/-- The third result: the confidence loss. -/
theorem tail43 (W : Valuation τ sig (Elt Ideal)) :
    StableHlo.after (hostOps1 (F := Ideal)) W (Proc.devRef .tc main_v43) = fun _ => Cert.Yolo.out 2 (sums W) := by
  after_results_simp
  simp only [hostSum]
  rfl

/-- The fourth result: the no-object loss. -/
theorem tail45 (W : Valuation τ sig (Elt Ideal)) :
    StableHlo.after (hostOps1 (F := Ideal)) W (Proc.devRef .tc main_v45) = fun _ => Cert.Yolo.out 3 (sums W) := by
  after_results_simp
  simp only [hostSum]
  rfl

end Cert.KernelIdeal.KV

end
-- ==== Proof.LibBitFloat.lean ====
/-
  A single bit as a float, on the extended reals.

  A one-bit word holds 0 or 1. Widened to a 32-bit word by zero-extension it is still 0 or 1, so reading that word
  as a SIGNED integer gives the bit's own value (the sign bit of the wide word is clear); reading the bit directly
  as an UNSIGNED integer gives the same value. Hence the two ways a comparison's result becomes the float 0.0 or
  1.0 — widen then convert signed, or convert unsigned — are one function of the bit. Depends on no program.
-/
import Idealize.ShloMosaic.PureOps.Ideal

noncomputable section

namespace Cert.BitFloat

open Idealize.ShloMosaic

/-- A one-bit word is the zero word or the one word. -/
theorem bit_cases (b : BitVec 1) : b = 0#1 ∨ b = 1#1 := by
  have h : b.toNat < 2 := b.isLt
  rcases Nat.lt_or_ge b.toNat 1 with h0 | h1
  · exact Or.inl (BitVec.eq_of_toNat_eq (by simp; omega))
  · exact Or.inr (BitVec.eq_of_toNat_eq (by simp; omega))

/-- Zero-extended to 32 bits and read signed, a bit is its own unsigned value. -/
theorem toInt_setWidth_bit (b : BitVec 1) : (b.setWidth 32).toInt = (b.toNat : Int) := by
  rcases bit_cases b with rfl | rfl <;> decide

/-- THE TWO ROUTES AGREE: the signed conversion of the 32-bit zero-extension of a bit is the unsigned conversion of
    the bit, as extended reals. -/
theorem sitofp_setWidth_eq_uitofp (b : BitVec 1) :
    FloatOps.sitofp (F := Ideal) .f32 (b.setWidth 32) = FloatOps.uitofp (F := Ideal) .f32 b := by
  show ((((b.setWidth 32).toInt : ℝ)) : EReal) = (((b.toNat : ℝ)) : EReal)
  rw [toInt_setWidth_bit]
  norm_num

end Cert.BitFloat

end
-- ==== Proof.PayLib.lean ====
/-
  One block of a batch, free of the program: how a channel, a window of channels, a sum along the last axis
  and the sum of a whole [a, 7, 7] array read at an index.

  A block is an [a, 7, 7, n] array: a batch rows, a 7 x 7 grid of cells, n numbers per cell.  Channel o of
  it (the unit-width slice at offset o on the last axis, the unit axis dropped) reads at (r, i, j) the entry
  (r, i, j, o); a window of m channels from o reads at (r, i, j, k) the entry (r, i, j, o + k); a sum along
  the last axis from zero reads at (r, i, j) the finite sum over the last coordinate.  An [a, 7, 7] array is
  summed in two stages: flattened row-major to [a, 49] (cell (i, j) of row r at position 7 i + j) and summed
  along each row, then the a row sums are stood up as a column [a, 1] and summed into one number, which is
  finally reshaped to [1, 1, 1].  Position s of a row is the cell (s / 7, s % 7).  Each operation's own proof
  arguments are variables here, so that a printed chain meets the lemmas whatever proofs it carries.
-/
import Idealize.ShloMosaic.Lib.ValueIdx
import Idealize.ShloMosaic.Lib.Pipeline.Value
import Idealize.ShloMosaic.PureOps.Ideal.Laws

noncomputable section

namespace Cert.Yolo.PayLib

open Idealize.ShloMosaic Idealize.ShloMosaic.ValueIdx

variable {α : Type}

/-- Channel `o` of a block: the unit-width slice at offset `o` of the last axis, cast to rank 3, read at (r, i, j). -/
theorem channel_apply {n0 n1 n2 n : ℕ} (o : ℕ) (x : (⟨4, ![n0, n1, n2, n]⟩ : Shape).Idx → α)
    (hs : (⟨4, ![n0, n1, n2, n]⟩ : Shape).Slices ![0, 0, 0, o] ⟨4, ![n0, n1, n2, 1]⟩)
    (hc : (⟨4, ![n0, n1, n2, 1]⟩ : Shape).ShapeCasts ⟨3, ![n0, n1, n2]⟩)
    (r : Fin n0) (i : Fin n1) (j : Fin n2) (ho : o < n) :
    shapeCast ⟨3, ![n0, n1, n2]⟩ (extractStridedSlice ⟨4, ![n0, n1, n2, 1]⟩ ![0, 0, 0, o] x hs) hc (ix3 r i j)
      = x (ix4 r i j ⟨o, ho⟩) := by
  refine (shapeCast_apply _ hc (ix3 r i j) (ix4 r i j (0 : Fin 1)) ?_).trans ?_
  · rw [Shape.rowMajor_val_four, Shape.rowMajor_val_three]
    show ((r.val * n1 + i.val) * n2 + j.val) * 1 + 0 = (r.val * n1 + i.val) * n2 + j.val
    rw [Nat.mul_one, Nat.add_zero]
  · refine extractStridedSlice_apply _ x hs _ _ fun a => ?_
    match a with
    | ⟨0, _⟩ => exact (Nat.zero_add _).symm
    | ⟨1, _⟩ => exact (Nat.zero_add _).symm
    | ⟨2, _⟩ => exact (Nat.zero_add _).symm
    | ⟨3, _⟩ => rfl

/-- A window of `m` channels starting at channel `o`, read at (r, i, j, k): the entry (r, i, j, o + k). -/
theorem window_apply {n0 n1 n2 n m : ℕ} (o : ℕ) (x : (⟨4, ![n0, n1, n2, n]⟩ : Shape).Idx → α)
    (hs : (⟨4, ![n0, n1, n2, n]⟩ : Shape).Slices ![0, 0, 0, o] ⟨4, ![n0, n1, n2, m]⟩)
    (r : Fin n0) (i : Fin n1) (j : Fin n2) (k : Fin m) (ho : o + k.val < n) :
    extractStridedSlice ⟨4, ![n0, n1, n2, m]⟩ ![0, 0, 0, o] x hs (ix4 r i j k) = x (ix4 r i j ⟨o + k.val, ho⟩) := by
  refine extractStridedSlice_apply _ x hs _ _ fun a => ?_
  match a with
  | ⟨0, _⟩ => exact (Nat.zero_add _).symm
  | ⟨1, _⟩ => exact (Nat.zero_add _).symm
  | ⟨2, _⟩ => exact (Nat.zero_add _).symm
  | ⟨3, _⟩ => rfl

/-- The sum along the last axis of a rank-4 array, from a zero initial value, read at (r, i, j). -/
theorem lastAxis_sum {n0 n1 n2 n : ℕ} (v : FVec Ideal ⟨4, ![n0, n1, n2, n]⟩ .f32)
    (h : (⟨4, ![n0, n1, n2, n]⟩ : Shape).Reduces [3] ⟨3, ![n0, n1, n2]⟩)
    (hφ : FKind.Formats .f32) (hacc : (0x00000000#32 : BitVec (FTy.f32).bits) = FKind.add.neutral .f32 hφ)
    (r : Fin n0) (i : Fin n1) (j : Fin n2) :
    multiReduction .add [3] ⟨3, ![n0, n1, n2]⟩ v 0x00000000#32 h hφ hacc (ix3 r i j) = ∑ k : Fin n, v (ix4 r i j k) :=
  (Ideal.multiReduction_add_single v 0x00000000#32 h hφ hacc (ix3 r i j)).trans
    (Finset.sum_congr rfl fun k _ => congrArg v (funext fun c => Fin.ext (by
      match c with
      | ⟨0, _⟩ => rfl
      | ⟨1, _⟩ => rfl
      | ⟨2, _⟩ => rfl
      | ⟨3, _⟩ => rfl)))

/-- An [a, 7, 7] array flattened to [a, 49], read at (r, s): the cell (s / 7, s % 7) of row r. -/
theorem merge_apply {a : ℕ} (v : (⟨3, ![a, 7, 7]⟩ : Shape).Idx → α) (h : (⟨3, ![a, 7, 7]⟩ : Shape).ShapeCasts ⟨2, ![a, 49]⟩)
    (r : Fin a) (s : Fin 49) :
    shapeCast ⟨2, ![a, 49]⟩ v h (ix2 r s)
      = v (ix3 r ⟨s.val / 7, by have := s.isLt; omega⟩ ⟨s.val % 7, by have := s.isLt; omega⟩) := by
  refine shapeCast_apply v h _ _ ?_
  rw [Shape.rowMajor_val_three, Shape.rowMajor_val_two]
  show (r.val * 7 + s.val / 7) * 7 + s.val % 7 = r.val * 49 + s.val
  omega

/-- FIRST STAGE: the flattened array summed along each row, the row sums stood up as a column; at (r, u) it
    holds the sum over the 49 cells of row r. -/
theorem rows_apply {a : ℕ} (v : FVec Ideal ⟨3, ![a, 7, 7]⟩ .f32)
    (c1 : (⟨3, ![a, 7, 7]⟩ : Shape).ShapeCasts ⟨2, ![a, 49]⟩)
    (r1 : (⟨2, ![a, 49]⟩ : Shape).Reduces [1] ⟨1, ![a]⟩)
    (c2 : (⟨1, ![a]⟩ : Shape).ShapeCasts ⟨2, ![a, 1]⟩)
    (hφ : FKind.Formats .f32) (hacc : (0x00000000#32 : BitVec (FTy.f32).bits) = FKind.add.neutral .f32 hφ)
    (r : Fin a) (u : Fin 1) :
    shapeCast ⟨2, ![a, 1]⟩
        (multiReduction .add [1] ⟨1, ![a]⟩ (shapeCast (⟨2, ![a, 49]⟩ : Shape) v c1 : FVec Ideal ⟨2, ![a, 49]⟩ .f32)
          0x00000000#32 r1 hφ hacc) c2 (ix2 r u)
      = ∑ s : Fin 49, v (ix3 r ⟨s.val / 7, by have := s.isLt; omega⟩ ⟨s.val % 7, by have := s.isLt; omega⟩) := by
  refine (shapeCast_apply _ c2 (ix2 r u) (ix1 r) ?_).trans ?_
  · have hu : u.val = 0 := by omega
    rw [Shape.rowMajor_val_two, Shape.rowMajor_val_one]
    show r.val = r.val * 1 + u.val
    rw [hu, Nat.mul_one, Nat.add_zero]
  · refine (Ideal.multiReduction_add_single _ 0x00000000#32 r1 hφ hacc (ix1 r)).trans ?_
    refine Finset.sum_congr rfl fun s _ => ?_
    refine Eq.trans (congrArg _ (funext fun c => Fin.ext ?_)) (merge_apply v c1 r s)
    match c with
    | ⟨0, _⟩ => rfl
    | ⟨1, _⟩ => rfl

/-- SECOND STAGE: a column [a, 1] summed down its rows into one number, reshaped to [1, 1, 1]; its one entry
    is the sum of the column. -/
theorem total_apply {a : ℕ} (w : FVec Ideal ⟨2, ![a, 1]⟩ .f32)
    (r2 : (⟨2, ![a, 1]⟩ : Shape).Reduces [0] ⟨1, ![1]⟩)
    (c3 : (⟨1, ![1]⟩ : Shape).ShapeCasts ⟨2, ![1, 1]⟩)
    (c4 : (⟨2, ![1, 1]⟩ : Shape).ShapeCasts ⟨3, ![1, 1, 1]⟩)
    (hφ : FKind.Formats .f32) (hacc : (0x00000000#32 : BitVec (FTy.f32).bits) = FKind.add.neutral .f32 hφ)
    (y : (⟨3, ![1, 1, 1]⟩ : Shape).Idx) :
    shapeCast ⟨3, ![1, 1, 1]⟩ (shapeCast ⟨2, ![1, 1]⟩ (multiReduction .add [0] ⟨1, ![1]⟩ w 0x00000000#32 r2 hφ hacc) c3) c4 y
      = ∑ r : Fin a, w (ix2 r (0 : Fin 1)) := by
  refine (shapeCast_apply _ c4 y (ix2 (0 : Fin 1) (0 : Fin 1)) ?_).trans ?_
  · have h0 : (y 0).val < 1 := (y 0).isLt
    have h1 : (y 1).val < 1 := (y 1).isLt
    have h2 : (y 2).val < 1 := (y 2).isLt
    rw [Shape.rowMajor_val_two, Shape.rowMajor_val_three]
    show 0 * 1 + 0 = ((y 0).val * 1 + (y 1).val) * 1 + (y 2).val
    omega
  · refine (shapeCast_apply _ c3 (ix2 (0 : Fin 1) (0 : Fin 1)) (ix1 (0 : Fin 1)) ?_).trans ?_
    · rw [Shape.rowMajor_val_one, Shape.rowMajor_val_two]
      rfl
    · refine (Ideal.multiReduction_add_single w 0x00000000#32 r2 hφ hacc (ix1 (0 : Fin 1))).trans ?_
      refine Finset.sum_congr rfl fun k _ => congrArg w (funext fun c => Fin.ext ?_)
      match c with
      | ⟨0, _⟩ => rfl
      | ⟨1, _⟩ => rfl

/-- BOTH STAGES: the one entry of the result is the sum over the rows and, in each row, over its 49 cells. -/
theorem block_apply {a : ℕ} (v : FVec Ideal ⟨3, ![a, 7, 7]⟩ .f32)
    (c1 : (⟨3, ![a, 7, 7]⟩ : Shape).ShapeCasts ⟨2, ![a, 49]⟩)
    (r1 : (⟨2, ![a, 49]⟩ : Shape).Reduces [1] ⟨1, ![a]⟩)
    (c2 : (⟨1, ![a]⟩ : Shape).ShapeCasts ⟨2, ![a, 1]⟩)
    (r2 : (⟨2, ![a, 1]⟩ : Shape).Reduces [0] ⟨1, ![1]⟩)
    (c3 : (⟨1, ![1]⟩ : Shape).ShapeCasts ⟨2, ![1, 1]⟩)
    (c4 : (⟨2, ![1, 1]⟩ : Shape).ShapeCasts ⟨3, ![1, 1, 1]⟩)
    (hφ : FKind.Formats .f32) (hacc : (0x00000000#32 : BitVec (FTy.f32).bits) = FKind.add.neutral .f32 hφ)
    (y : (⟨3, ![1, 1, 1]⟩ : Shape).Idx) :
    shapeCast ⟨3, ![1, 1, 1]⟩ (shapeCast ⟨2, ![1, 1]⟩ (multiReduction .add [0] ⟨1, ![1]⟩
        (shapeCast ⟨2, ![a, 1]⟩
          (multiReduction .add [1] ⟨1, ![a]⟩ (shapeCast (⟨2, ![a, 49]⟩ : Shape) v c1 : FVec Ideal ⟨2, ![a, 49]⟩ .f32)
            0x00000000#32 r1 hφ hacc) c2 : FVec Ideal ⟨2, ![a, 1]⟩ .f32)
        0x00000000#32 r2 hφ hacc) c3) c4 y
      = ∑ r : Fin a, ∑ s : Fin 49,
          v (ix3 r ⟨s.val / 7, by have := s.isLt; omega⟩ ⟨s.val % 7, by have := s.isLt; omega⟩) :=
  (total_apply _ r2 c3 c4 hφ hacc y).trans
    (Finset.sum_congr rfl fun r _ => rows_apply v c1 r1 c2 hφ hacc r (0 : Fin 1))

end Cert.Yolo.PayLib

end
-- ==== Proof.PayIsSpec.lean ====
/-
  The eleven partial sums one grid point of the kernel adds into its accumulators, against the loss's terms.

  At a grid point the kernel holds three blocks: 128 batch rows of the predictions and of the targets (a 7 x 7
  grid of cells, thirty numbers per cell) and of the coins (one integer per cell).  From them it computes,
  cell by cell, the two confidences after the coin flip, the three masks, the squared errors, and multiplies
  each error by its mask; each of the eleven products (or bare masks) is an [128, 7, 7] array which it then
  sums to one number in two stages.  Read on the extended reals, where addition is exact and a finite sum
  does not depend on how it is staged, every one of the eleven numbers is the sum over the 128 rows and the
  49 cells of a row of the corresponding term of the loss at that cell.  The proof reads each operation at an
  index: a unit-width slice is a channel, the sum along the last axis is the sum over the box coordinates or
  the class scores, a comparison widened and converted to a float is the bit as the number 0 or 1, and the
  two-stage sum is the double sum with position s of a flattened row naming the cell (s / 7, s % 7).
-/
import proofs.«100404_j84018150244766_2_alg».proof.Proof.Gen.KernelIdeal.Skeleton
import proofs.«100404_j84018150244766_2_alg».proof.Proof.Spec
import proofs.«100404_j84018150244766_2_alg».proof.Proof.LibBitFloat
import proofs.«100404_j84018150244766_2_alg».proof.Proof.PayLib

noncomputable section

namespace Cert.Yolo.Pay

open Cert.KernelIdeal Cert.KernelIdeal.Gen Idealize.ShloMosaic Idealize.ShloMosaic.ValueIdx

/-! ## The statement's vocabulary -/

/-- The cell (r, s / 7, s % 7) of a block, its channels as a function. -/
def cellP (x : Vec Ideal S128x7x7x30 .f32) (r : Fin 128) (s : Fin 49) : Fin 30 → EReal :=
  fun k => x (ix4 r ⟨s.val / 7, by have := s.isLt; omega⟩ ⟨s.val % 7, by have := s.isLt; omega⟩ k)

/-- The coin of the cell (r, s / 7, s % 7). -/
def cellC (x2 : Vec Ideal S128x7x7 .i32) (r : Fin 128) (s : Fin 49) : BitVec 32 :=
  x2 (ix3 r ⟨s.val / 7, by have := s.isLt; omega⟩ ⟨s.val % 7, by have := s.isLt; omega⟩)

/-- The partial sum number `w` of one grid point, as the kernel computes it from the point's three blocks. -/
def part (w : Fin 11) (x0 x1 : Vec Ideal S128x7x7x30 .f32) (x2 : Vec Ideal S128x7x7 .i32) : FVec Ideal S1x1x1 .f32 :=
  match w with
  | ⟨0, _⟩ => k0_pay14 x0 x1 (k0_pay7 x1 x2)
  | ⟨1, _⟩ => k0_pay15 x0 x1 (k0_pay8 x1 x2)
  | ⟨2, _⟩ => k0_pay16 x0 (k0_pay5 x1 x2) (k0_pay7 x1 x2)
  | ⟨3, _⟩ => k0_pay18 (k0_pay17 x0 (k0_pay6 x1 x2) (k0_pay8 x1 x2))
  | ⟨4, _⟩ => k0_pay19 (k0_pay7 x1 x2) (k0_pay13 x0 x1)
  | ⟨5, _⟩ => k0_pay20 (k0_pay8 x1 x2) (k0_pay13 x0 x1)
  | ⟨6, _⟩ => k0_pay21 (k0_pay10 (k0_pay9 x1 x2)) (k0_pay11 x0 (k0_pay5 x1 x2))
  | ⟨7, _⟩ => k0_pay22 (k0_pay10 (k0_pay9 x1 x2)) (k0_pay12 x0 (k0_pay6 x1 x2))
  | ⟨8, _⟩ => k0_pay23 (k0_pay7 x1 x2)
  | ⟨9, _⟩ => k0_pay24 (k0_pay8 x1 x2)
  | ⟨10, _⟩ => k0_pay26 (k0_pay25 (k0_pay10 (k0_pay9 x1 x2)))
  | ⟨_ + 11, h⟩ => absurd h (by omega)

/-! ## The masks and the squared errors at one cell (r, i, j) -/

section Cell

variable (x0 x1 : Vec Ideal S128x7x7x30 .f32) (x2 : Vec Ideal S128x7x7 .i32) (r : Fin 128) (i j : Fin 7)

/-- Channel 4 of the target. -/
theorem pay2_apply : k0_pay2 x1 (ix3 r i j) = x1 (ix4 r i j 4) :=
  PayLib.channel_apply 4 x1 _ _ r i j (by omega)

/-- The target's second confidence, channel 9, as the kernel slices it. -/
theorem chan9_apply (x : Vec Ideal S128x7x7x30 .f32) :
    shapeCast S128x7x7 (extractStridedSlice S128x7x7x1 ![0, 0, 0, 9] x slices_S128x7x7x30_o0_0_0_9_S128x7x7x1)
      shapeCasts_S128x7x7x1_S128x7x7 (ix3 r i j) = x (ix4 r i j 9) :=
  PayLib.channel_apply 9 x _ _ r i j (by omega)

theorem chan4_apply (x : Vec Ideal S128x7x7x30 .f32) :
    shapeCast S128x7x7 (extractStridedSlice S128x7x7x1 ![0, 0, 0, 4] x slices_S128x7x7x30_o0_0_0_4_S128x7x7x1)
      shapeCasts_S128x7x7x1_S128x7x7 (ix3 r i j) = x (ix4 r i j 4) :=
  PayLib.channel_apply 4 x _ _ r i j (by omega)

/-- The cell holds an object. -/
theorem pay3_apply : k0_pay3 x1 (ix3 r i j) = gt0 (x1 (ix4 r i j 4)) :=
  congrArg gt0 (pay2_apply x1 r i j)

/-- The coin is positive. -/
theorem pay4_apply : k0_pay4 (F := Ideal) x2 (ix3 r i j) = coinB (x2 (ix3 r i j)) := rfl

/-- The first confidence after the coin flip. -/
theorem pay5_apply : k0_pay5 x1 x2 (ix3 r i j) = t4n (x1 (ix4 r i j 4)) (x2 (ix3 r i j)) :=
  congrArg (fun t => t4n t (x2 (ix3 r i j))) (pay2_apply x1 r i j)

/-- The second confidence after the coin flip. -/
theorem pay6_apply : k0_pay6 x1 x2 (ix3 r i j) = t9n (x1 (ix4 r i j 4)) (x1 (ix4 r i j 9)) (x2 (ix3 r i j)) :=
  (congrArg (fun t => t9n t _ (x2 (ix3 r i j))) (pay2_apply x1 r i j)).trans
    (congrArg (fun t => t9n (x1 (ix4 r i j 4)) t (x2 (ix3 r i j))) (chan9_apply r i j x1))

/-- Box 1 is responsible. -/
theorem pay7_apply : k0_pay7 x1 x2 (ix3 r i j) = m1 (x1 (ix4 r i j 4)) (x2 (ix3 r i j)) :=
  (Cert.BitFloat.sitofp_setWidth_eq_uitofp _).trans
    (congrArg (fun t => bitR (gt0 t)) (pay5_apply x1 x2 r i j))

/-- Box 2 is responsible. -/
theorem pay8_apply : k0_pay8 x1 x2 (ix3 r i j) = m2 (x1 (ix4 r i j 4)) (x1 (ix4 r i j 9)) (x2 (ix3 r i j)) :=
  (Cert.BitFloat.sitofp_setWidth_eq_uitofp _).trans
    (congrArg (fun t => bitR (gt0 t)) (pay6_apply x1 x2 r i j))

/-- No object. -/
theorem pay10_apply : k0_pay10 (F := Ideal) (k0_pay9 x1 x2) (ix3 r i j)
    = mno (x1 (ix4 r i j 4)) (x1 (ix4 r i j 9)) (x2 (ix3 r i j)) :=
  (Cert.BitFloat.sitofp_setWidth_eq_uitofp _).trans
    ((congrArg (fun t => bitR (IntOp.andi (eq0 t) (eq0 (k0_pay6 x1 x2 (ix3 r i j))))) (pay5_apply x1 x2 r i j)).trans
      (congrArg (fun t => bitR (IntOp.andi (eq0 (t4n (x1 (ix4 r i j 4)) (x2 (ix3 r i j)))) (eq0 t))) (pay6_apply x1 x2 r i j)))

/-- The squared error of the first confidence against a given cleared confidence. -/
theorem pay11_apply (v17 : FVec Ideal S128x7x7 .f32) :
    k0_pay11 x0 v17 (ix3 r i j) = sqd (x0 (ix4 r i j 4)) (v17 (ix3 r i j)) :=
  congrArg (fun t => sqd t (v17 (ix3 r i j))) (chan4_apply r i j x0)

theorem pay12_apply (v20 : FVec Ideal S128x7x7 .f32) :
    k0_pay12 x0 v20 (ix3 r i j) = sqd (x0 (ix4 r i j 9)) (v20 (ix3 r i j)) :=
  congrArg (fun t => sqd t (v20 (ix3 r i j))) (chan9_apply r i j x0)

end Cell

/-! ## The summed squared errors at one cell -/

section CellSums

variable (x0 x1 : Vec Ideal S128x7x7x30 .f32) (r : Fin 128) (i j : Fin 7)

/-- The squared error summed over the four box coordinates that start at channel `o`. -/
theorem loc_apply (o : ℕ) (h : o + 4 ≤ 30) (hs : S128x7x7x30.Slices ![0, 0, 0, o] S128x7x7x4)
    (hr : S128x7x7x4.Reduces [3] S128x7x7) (hφ : FKind.Formats .f32)
    (hacc : (0x00000000#32 : BitVec (FTy.f32).bits) = FKind.add.neutral .f32 hφ) :
    multiReduction (F := Ideal) .add [3] S128x7x7
        (mulf (subf (extractStridedSlice S128x7x7x4 ![0, 0, 0, o] x0 hs) (extractStridedSlice S128x7x7x4 ![0, 0, 0, o] x1 hs))
          (subf (extractStridedSlice S128x7x7x4 ![0, 0, 0, o] x0 hs) (extractStridedSlice S128x7x7x4 ![0, 0, 0, o] x1 hs)))
        0x00000000#32 hr hφ hacc (ix3 r i j)
      = loc o h (fun k => x0 (ix4 r i j k)) (fun k => x1 (ix4 r i j k)) := by
  refine (PayLib.lastAxis_sum _ hr hφ hacc r i j).trans ?_
  refine Finset.sum_congr rfl fun k _ => ?_
  have hk := k.isLt
  have e0 := PayLib.window_apply o x0 hs r i j k (by omega)
  have e1 := PayLib.window_apply o x1 hs r i j k (by omega)
  show (extractStridedSlice S128x7x7x4 ![0, 0, 0, o] x0 hs (ix4 r i j k) - extractStridedSlice S128x7x7x4 ![0, 0, 0, o] x1 hs (ix4 r i j k))
      * (extractStridedSlice S128x7x7x4 ![0, 0, 0, o] x0 hs (ix4 r i j k) - extractStridedSlice S128x7x7x4 ![0, 0, 0, o] x1 hs (ix4 r i j k)) = _
  rw [e0, e1]
  rfl

/-- The squared error summed over the twenty class scores. -/
theorem pay13_apply : k0_pay13 x0 x1 (ix3 r i j) = cls (fun k => x0 (ix4 r i j k)) (fun k => x1 (ix4 r i j k)) := by
  refine (PayLib.lastAxis_sum _ reduces_S128x7x7x20_S128x7x7 (.inl rfl) rfl r i j).trans ?_
  refine Finset.sum_congr rfl fun k _ => ?_
  have hk := k.isLt
  have e0 := PayLib.window_apply 10 x0 slices_S128x7x7x30_o0_0_0_10_S128x7x7x20 r i j k (by omega)
  have e1 := PayLib.window_apply 10 x1 slices_S128x7x7x30_o0_0_0_10_S128x7x7x20 r i j k (by omega)
  show (extractStridedSlice S128x7x7x20 ![0, 0, 0, 10] x0 slices_S128x7x7x30_o0_0_0_10_S128x7x7x20 (ix4 r i j k)
        - extractStridedSlice S128x7x7x20 ![0, 0, 0, 10] x1 slices_S128x7x7x30_o0_0_0_10_S128x7x7x20 (ix4 r i j k))
      * (extractStridedSlice S128x7x7x20 ![0, 0, 0, 10] x0 slices_S128x7x7x30_o0_0_0_10_S128x7x7x20 (ix4 r i j k)
        - extractStridedSlice S128x7x7x20 ![0, 0, 0, 10] x1 slices_S128x7x7x30_o0_0_0_10_S128x7x7x20 (ix4 r i j k)) = _
  rw [e0, e1]
  rfl

end CellSums

/-! ## The sum of a whole [128, 7, 7] array, as every partial sum takes it -/

/-- The two-stage sum of an [128, 7, 7] array with the kernel's own shape facts: the one entry of the [1, 1, 1]
    result is the sum over the 128 rows and the 49 cells of each. -/
theorem sum_apply (v : FVec Ideal S128x7x7 .f32) (y : S1x1x1.Idx) :
    shapeCast S1x1x1 (shapeCast S1x1 (multiReduction (F := Ideal) .add [0] S1
        (shapeCast S128x1
          (multiReduction (F := Ideal) .add [1] S128 (shapeCast S128x49 v shapeCasts_S128x7x7_S128x49)
            0x00000000#32 reduces_S128x49_S128 (.inl rfl) rfl) shapeCasts_S128_S128x1)
        0x00000000#32 reduces_S128x1_S1 (.inl rfl) rfl) shapeCasts_S1_S1x1) shapeCasts_S1x1_S1x1x1 y
      = ∑ r : Fin 128, ∑ s : Fin 49,
          v (ix3 r ⟨s.val / 7, by have := s.isLt; omega⟩ ⟨s.val % 7, by have := s.isLt; omega⟩) :=
  PayLib.block_apply v shapeCasts_S128x7x7_S128x49 reduces_S128x49_S128 shapeCasts_S128_S128x1 reduces_S128x1_S1
    shapeCasts_S1_S1x1 shapeCasts_S1x1_S1x1x1 (.inl rfl) rfl y

/-! ## The eleven partial sums -/

section Parts

variable (x0 x1 : Vec Ideal S128x7x7x30 .f32) (x2 : Vec Ideal S128x7x7 .i32) (y : S1x1x1.Idx)

/-- The coordinate error of box 1 under its mask. -/
theorem part0 : k0_pay14 x0 x1 (k0_pay7 x1 x2) y
    = ∑ r : Fin 128, ∑ s : Fin 49, term 0 (cellP x0 r s) (cellP x1 r s) (cellC x2 r s) := by
  refine (sum_apply _ y).trans ?_
  refine Finset.sum_congr rfl fun r _ => Finset.sum_congr rfl fun s _ => ?_
  exact congrArg₂ (fun a b : EReal => a * b)
    (loc_apply x0 x1 r _ _ 0 (by omega) slices_S128x7x7x30_o0_0_0_0_S128x7x7x4 reduces_S128x7x7x4_S128x7x7 (.inl rfl) rfl)
    (pay7_apply x1 x2 r _ _)

/-- The coordinate error of box 2 under its mask. -/
theorem part1 : k0_pay15 x0 x1 (k0_pay8 x1 x2) y
    = ∑ r : Fin 128, ∑ s : Fin 49, term 1 (cellP x0 r s) (cellP x1 r s) (cellC x2 r s) := by
  refine (sum_apply _ y).trans ?_
  refine Finset.sum_congr rfl fun r _ => Finset.sum_congr rfl fun s _ => ?_
  exact congrArg₂ (fun a b : EReal => a * b)
    (loc_apply x0 x1 r _ _ 5 (by omega) slices_S128x7x7x30_o0_0_0_5_S128x7x7x4 reduces_S128x7x7x4_S128x7x7 (.inl rfl) rfl)
    (pay8_apply x1 x2 r _ _)

/-- The confidence error of box 1 under its mask. -/
theorem part2 : k0_pay16 x0 (k0_pay5 x1 x2) (k0_pay7 x1 x2) y
    = ∑ r : Fin 128, ∑ s : Fin 49, term 2 (cellP x0 r s) (cellP x1 r s) (cellC x2 r s) := by
  refine (sum_apply _ y).trans ?_
  refine Finset.sum_congr rfl fun r _ => Finset.sum_congr rfl fun s _ => ?_
  exact congrArg₂ (fun a b : EReal => a * b)
    ((pay11_apply x0 r _ _ (k0_pay5 x1 x2)).trans (congrArg (sqd _) (pay5_apply x1 x2 r _ _)))
    (pay7_apply x1 x2 r _ _)

/-- The confidence error of box 2 under its mask. -/
theorem part3 : k0_pay18 (k0_pay17 x0 (k0_pay6 x1 x2) (k0_pay8 x1 x2)) y
    = ∑ r : Fin 128, ∑ s : Fin 49, term 3 (cellP x0 r s) (cellP x1 r s) (cellC x2 r s) := by
  refine (sum_apply _ y).trans ?_
  refine Finset.sum_congr rfl fun r _ => Finset.sum_congr rfl fun s _ => ?_
  exact congrArg₂ (fun a b : EReal => a * b)
    ((pay12_apply x0 r _ _ (k0_pay6 x1 x2)).trans (congrArg (sqd _) (pay6_apply x1 x2 r _ _)))
    (pay8_apply x1 x2 r _ _)

/-- The class error under the mask of box 1. -/
theorem part4 : k0_pay19 (k0_pay7 x1 x2) (k0_pay13 x0 x1) y
    = ∑ r : Fin 128, ∑ s : Fin 49, term 4 (cellP x0 r s) (cellP x1 r s) (cellC x2 r s) := by
  refine (sum_apply _ y).trans ?_
  refine Finset.sum_congr rfl fun r _ => Finset.sum_congr rfl fun s _ => ?_
  exact congrArg₂ (fun a b : EReal => a * b) (pay13_apply x0 x1 r _ _) (pay7_apply x1 x2 r _ _)

/-- The class error under the mask of box 2. -/
theorem part5 : k0_pay20 (k0_pay8 x1 x2) (k0_pay13 x0 x1) y
    = ∑ r : Fin 128, ∑ s : Fin 49, term 5 (cellP x0 r s) (cellP x1 r s) (cellC x2 r s) := by
  refine (sum_apply _ y).trans ?_
  refine Finset.sum_congr rfl fun r _ => Finset.sum_congr rfl fun s _ => ?_
  exact congrArg₂ (fun a b : EReal => a * b) (pay13_apply x0 x1 r _ _) (pay8_apply x1 x2 r _ _)

/-- The confidence error of box 1 where there is no object. -/
theorem part6 : k0_pay21 (k0_pay10 (k0_pay9 x1 x2)) (k0_pay11 x0 (k0_pay5 x1 x2)) y
    = ∑ r : Fin 128, ∑ s : Fin 49, term 6 (cellP x0 r s) (cellP x1 r s) (cellC x2 r s) := by
  refine (sum_apply _ y).trans ?_
  refine Finset.sum_congr rfl fun r _ => Finset.sum_congr rfl fun s _ => ?_
  exact congrArg₂ (fun a b : EReal => a * b)
    ((pay11_apply x0 r _ _ (k0_pay5 x1 x2)).trans (congrArg (sqd _) (pay5_apply x1 x2 r _ _)))
    (pay10_apply x1 x2 r _ _)

/-- The confidence error of box 2 where there is no object. -/
theorem part7 : k0_pay22 (k0_pay10 (k0_pay9 x1 x2)) (k0_pay12 x0 (k0_pay6 x1 x2)) y
    = ∑ r : Fin 128, ∑ s : Fin 49, term 7 (cellP x0 r s) (cellP x1 r s) (cellC x2 r s) := by
  refine (sum_apply _ y).trans ?_
  refine Finset.sum_congr rfl fun r _ => Finset.sum_congr rfl fun s _ => ?_
  exact congrArg₂ (fun a b : EReal => a * b)
    ((pay12_apply x0 r _ _ (k0_pay6 x1 x2)).trans (congrArg (sqd _) (pay6_apply x1 x2 r _ _)))
    (pay10_apply x1 x2 r _ _)

/-- The number of cells box 1 is responsible for. -/
theorem part8 : k0_pay23 (k0_pay7 x1 x2) y
    = ∑ r : Fin 128, ∑ s : Fin 49, term 8 (cellP x0 r s) (cellP x1 r s) (cellC x2 r s) := by
  refine (sum_apply _ y).trans ?_
  exact Finset.sum_congr rfl fun r _ => Finset.sum_congr rfl fun s _ => pay7_apply x1 x2 r _ _

/-- The number of cells box 2 is responsible for. -/
theorem part9 : k0_pay24 (k0_pay8 x1 x2) y
    = ∑ r : Fin 128, ∑ s : Fin 49, term 9 (cellP x0 r s) (cellP x1 r s) (cellC x2 r s) := by
  refine (sum_apply _ y).trans ?_
  exact Finset.sum_congr rfl fun r _ => Finset.sum_congr rfl fun s _ => pay8_apply x1 x2 r _ _

/-- The number of cells without an object. -/
theorem part10 : k0_pay26 (F := Ideal) (k0_pay25 (k0_pay10 (k0_pay9 x1 x2))) y
    = ∑ r : Fin 128, ∑ s : Fin 49, term 10 (cellP x0 r s) (cellP x1 r s) (cellC x2 r s) := by
  refine (sum_apply _ y).trans ?_
  exact Finset.sum_congr rfl fun r _ => Finset.sum_congr rfl fun s _ => pay10_apply x1 x2 r _ _

/-- EVERY PARTIAL SUM of a grid point is the sum, over the 128 rows of its blocks and the 49 cells of each, of the
    loss's term of that number at the cell. -/
theorem part_eq (w : Fin 11) (x0 x1 : Vec Ideal S128x7x7x30 .f32) (x2 : Vec Ideal S128x7x7 .i32) (y : S1x1x1.Idx) :
    part w x0 x1 x2 y = ∑ r : Fin 128, ∑ s : Fin 49, Cert.Yolo.term w (cellP x0 r s) (cellP x1 r s) (cellC x2 r s) :=
  match w with
  | ⟨0, _⟩ => part0 x0 x1 x2 y
  | ⟨1, _⟩ => part1 x0 x1 x2 y
  | ⟨2, _⟩ => part2 x0 x1 x2 y
  | ⟨3, _⟩ => part3 x0 x1 x2 y
  | ⟨4, _⟩ => part4 x0 x1 x2 y
  | ⟨5, _⟩ => part5 x0 x1 x2 y
  | ⟨6, _⟩ => part6 x0 x1 x2 y
  | ⟨7, _⟩ => part7 x0 x1 x2 y
  | ⟨8, _⟩ => part8 x0 x1 x2 y
  | ⟨9, _⟩ => part9 x0 x1 x2 y
  | ⟨10, _⟩ => part10 x0 x1 x2 y
  | ⟨_ + 11, h⟩ => absurd h (by omega)

end Parts

end Cert.Yolo.Pay

end
-- ==== Proof.GridSum.lean ====
/-
  Two facts about finite sums in an additive commutative monoid, as a kernel that walks a batch in blocks uses them.

  RUNNING SUMS.  A sequence p 0, p 1, ... is added up into a running sum that is restarted from a fixed value z at
  every step whose number is a multiple of 32.  At the last step of the c-th run of 32 steps the running sum is z
  plus the 32 terms of that run.

  THE GRID.  8192 batch rows are walked as 2 x 32 grid points of 128 rows each, and the 7 x 7 cells of a row as
  one flattened axis of length 49, cell (i, j) at position 7 i + j.  Summing a function of (row, cell) over the
  grid points, the rows of a point and the flattened positions is summing it over all rows and all cells: a sum
  over T B indices is the sum over T blocks of B consecutive indices, used three times (49 = 7 · 7,
  8192 = 64 · 128, 64 = 2 · 32).  Only commutativity and associativity of the addition are used.
-/
import Mathlib.Algebra.BigOperators.Fin
import Mathlib.Algebra.BigOperators.Intervals
import Mathlib.Logic.Equiv.Fin.Basic
import Idealize.ShloMosaic.PureOps.Ideal.Laws

namespace Cert.Yolo.Grid

open Idealize.ShloMosaic

/-! ## Running sums restarted every 32 steps -/

/-- Running sums restarted every 32 steps. -/
def run {M : Type*} [AddCommMonoid M] (z : M) (p : ℕ → M) : ℕ → M
  | 0 => z + p 0
  | n + 1 => if (n + 1) % 32 = 0 then z + p (n + 1) else run z p n + p (n + 1)

/-- At a multiple of 32 the running sum restarts. -/
theorem run_restart {M : Type*} [AddCommMonoid M] (z : M) (p : ℕ → M) (n : ℕ) (h : n % 32 = 0) :
    run z p n = z + p n := by
  cases n with
  | zero => rfl
  | succ n => show (if (n + 1) % 32 = 0 then z + p (n + 1) else run z p n + p (n + 1)) = _; rw [if_pos h]

/-- Elsewhere it adds the next term. -/
theorem run_step {M : Type*} [AddCommMonoid M] (z : M) (p : ℕ → M) (n : ℕ) (h : (n + 1) % 32 ≠ 0) :
    run z p (n + 1) = run z p n + p (n + 1) := by
  show (if (n + 1) % 32 = 0 then z + p (n + 1) else run z p n + p (n + 1)) = _; rw [if_neg h]

/-- Inside the c-th run: after k further steps the running sum is z plus the first k + 1 terms of the run. -/
theorem run_within {M : Type*} [AddCommMonoid M] (z : M) (p : ℕ → M) (c k : ℕ) (hk : k < 32) :
    run z p (32 * c + k) = z + ∑ j ∈ Finset.range (k + 1), p (32 * c + j) := by
  induction k with
  | zero =>
    rw [Finset.sum_range_one]
    exact run_restart z p (32 * c + 0) (by omega)
  | succ k ih =>
    rw [show 32 * c + (k + 1) = (32 * c + k) + 1 from rfl, run_step z p (32 * c + k) (by omega), ih (by omega),
      Finset.sum_range_succ _ (k + 1), add_assoc]
    rfl

theorem run_last {M : Type*} [AddCommMonoid M] (z : M) (p : ℕ → M) (c : ℕ) :
    run z p (32 * c + 31) = z + ∑ j : Fin 32, p (32 * c + j.val) := by
  rw [run_within z p c 31 (by omega), Fin.sum_univ_eq_sum_range (fun j => p (32 * c + j)) 32]

/-! ## Sums by blocks -/

/-- Position b of block a lies among the T B positions. -/
theorem lt_blocks {T B a b : ℕ} (ha : a < T) (hb : b < B) : a * B + b < T * B :=
  calc a * B + b < a * B + B := by omega
    _ = (a + 1) * B := (Nat.succ_mul a B).symm
    _ ≤ T * B := Nat.mul_le_mul_right B ha

/-- A sum over N = T B indices is the sum over the T blocks of B consecutive indices. -/
theorem sum_blocks {M : Type*} [AddCommMonoid M] (T B N : ℕ) (hN : N = T * B) (g : Fin N → M) :
    ∑ n : Fin N, g n = ∑ a : Fin T, ∑ b : Fin B, g ⟨a.val * B + b.val, hN ▸ lt_blocks a.isLt b.isLt⟩ := by
  subst hN
  rw [← Equiv.sum_comp finProdFinEquiv g, Fintype.sum_prod_type]
  refine Finset.sum_congr rfl fun a _ => Finset.sum_congr rfl fun b _ => congrArg g (Fin.ext ?_)
  show b.val + B * a.val = a.val * B + b.val
  rw [Nat.mul_comm, Nat.add_comm]

/-! ## The grid -/

theorem grid_sum {M : Type*} [AddCommMonoid M] (f : Fin 8192 → Fin 7 → Fin 7 → M) :
    (∑ c : Fin 2, ∑ b : Fin 32, ∑ r : Fin 128, ∑ s : Fin 49,
        f ⟨(32 * c.val + b.val) * 128 + r.val, by have := c.isLt; have := b.isLt; have := r.isLt; omega⟩ ⟨s.val / 7, by have := s.isLt; omega⟩ ⟨s.val % 7, by have := s.isLt; omega⟩)
      = ∑ n : Fin 8192, ∑ i : Fin 7, ∑ j : Fin 7, f n i j := by
  -- the cells of one row, flattened
  have hcell : ∀ n : Fin 8192, (∑ s : Fin 49, f n ⟨s.val / 7, by have := s.isLt; omega⟩ ⟨s.val % 7, by have := s.isLt; omega⟩)
      = ∑ i : Fin 7, ∑ j : Fin 7, f n i j := by
    intro n
    rw [sum_blocks 7 7 49 rfl]
    refine Finset.sum_congr rfl fun i _ => Finset.sum_congr rfl fun j _ => ?_
    have hi := i.isLt
    have hj := j.isLt
    exact congrArg₂ (f n) (Fin.ext (show (i.val * 7 + j.val) / 7 = i.val by omega))
      (Fin.ext (show (i.val * 7 + j.val) % 7 = j.val by omega))
  symm
  rw [sum_blocks 64 128 8192 rfl, sum_blocks 2 32 64 rfl]
  refine Finset.sum_congr rfl fun c _ => Finset.sum_congr rfl fun b _ => Finset.sum_congr rfl fun r _ => ?_
  refine (hcell _).symm.trans ?_
  have e : (⟨(c.val * 32 + b.val) * 128 + r.val, by have := c.isLt; have := b.isLt; have := r.isLt; omega⟩ : Fin 8192)
      = ⟨(32 * c.val + b.val) * 128 + r.val, by have := c.isLt; have := b.isLt; have := r.isLt; omega⟩ :=
    Fin.ext (by show (c.val * 32 + b.val) * 128 + r.val = (32 * c.val + b.val) * 128 + r.val; omega)
  exact Finset.sum_congr rfl fun s _ => congrArg (fun n => f n _ _) e

/-! ## The zero word -/

/-- The float word of zero is the number zero. -/
theorem z_zero : (Ideal.ofBits .f32 0x00000000#32 : EReal) = 0 := Ideal.ofBits_zero_f32

end Cert.Yolo.Grid
-- ==== Proof.RefLib.lean ====
/-
  General lemmas for reading a program of array operations cell by cell: an overwriting scatter along the last axis,
  slices / reshapes / broadcasts of a [8192,7,7,·] array read at a cell, sums over an index set as iterated sums over
  the coordinates, and one-bit words as the numbers 0 and 1.
-/
import Idealize.ShloMosaic.PureOps.Ideal
import Idealize.ShloMosaic.PureOps.Ideal.Laws
import Idealize.ShloMosaic.Lib.ValueIdx
import Idealize.ShloMosaic.Lib.Pipeline.Value
import proofs.«100404_j84018150244766_2_alg».proof.Proof.Spec

open scoped BigOperators
open Idealize.ShloMosaic Idealize.ShloMosaic.ValueIdx

namespace Cert.Yolo.Ref

abbrev T4 : Shape := ⟨4, ![8192, 7, 7, 30]⟩
abbrev T3 : Shape := ⟨3, ![8192, 7, 7]⟩
abbrev T1 : Shape := ⟨1, ![1]⟩
abbrev T41 : Shape := ⟨4, ![8192, 7, 7, 1]⟩
abbrev T4W (W : Nat) : Shape := ⟨4, ![8192, 7, 7, W]⟩

/-! ## An overwriting scatter along the last axis -/

section fold
variable {ι κ α : Type} [DecidableEq κ]

/-- One step of an overwriting scatter: position `h n` receives `v n`. -/
def putStep (h : ι → κ) (v : ι → α) (r : κ → α) (n : ι) : κ → α := fun i' => if i' = h n then v n else r i'

theorem foldl_put_of_not_mem (h : ι → κ) (v : ι → α) (l : List ι) (x : κ → α) (i' : κ) (hn : ∀ n ∈ l, h n ≠ i') :
    l.foldl (putStep h v) x i' = x i' := by
  induction l generalizing x with
  | nil => rfl
  | cons a l ih =>
    rw [List.foldl_cons, ih _ (fun n hn' => hn n (List.mem_cons_of_mem _ hn'))]
    unfold putStep
    rw [if_neg (fun e => hn a (List.mem_cons_self ..) e.symm)]

theorem foldl_put_of_mem (h : ι → κ) (v : ι → α) (l : List ι) (x : κ → α) (n0 : ι) (hm : n0 ∈ l) (hnd : (l.map h).Nodup) :
    l.foldl (putStep h v) x (h n0) = v n0 := by
  induction l generalizing x with
  | nil => cases hm
  | cons a l ih =>
    rw [List.map_cons, List.nodup_cons] at hnd
    rw [List.foldl_cons]
    rcases List.mem_cons.1 hm with rfl | hm'
    · rw [foldl_put_of_not_mem h v l _ _ (fun n hn e => hnd.1 (by rw [← e]; exact List.mem_map_of_mem hn))]
      unfold putStep; rw [if_pos rfl]
    · exact ih _ hm' hnd.2
theorem foldl_step_congr (step : (κ → α) → ι → κ → α) (h : ι → κ) (v : ι → α)
    (hstep : ∀ r n, step r n = putStep h v r n) (l : List ι) (x : κ → α) :
    l.foldl step x = l.foldl (putStep h v) x := by
  have : step = putStep h v := funext fun r => funext fun n => hstep r n
  rw [this]
end fold

theorem resultIdx_chan (d : ScatterDims T4 T1 T3) (h1 : d.updateWindowDims = [0, 1, 2]) (h2 : d.insertedWindowDims = [3])
    (h3 : d.scatterDimsToOperandDims = [3]) (cn : Fin 30) (idx : IVec T1 32) (hidx : ∀ k, (idx k).toInt = cn.val)
    (j : T3.Idx) : d.resultIdx? j idx = some (ix4 (j 0) (j 1) (j 2) cn) := by
  obtain ⟨uw, iw, sd, iv, wf⟩ := d
  simp only at h1 h2 h3
  subst h1 h2 h3
  have hs : ∀ a : Fin 4, ScatterDims.start ⟨[0, 1, 2], [3], [3], iv, wf⟩ j idx a = if a = 3 then (cn.val : Int) else 0 := by
    intro a
    unfold ScatterDims.start
    by_cases ha : a = 3
    · subst ha; rw [dif_pos (show (3 : Fin 4) ∈ ([3] : List (Fin 4)) by decide), hidx, if_pos rfl]
    · rw [dif_neg (show a ∉ ([3] : List (Fin 4)) by revert a; decide), if_neg ha]
  have hw0 : ScatterDims.window ⟨[0, 1, 2], [3], [3], iv, wf⟩ j 0 = (j 0).val := by
    unfold ScatterDims.window
    rw [dif_pos (show (0 : Fin 4) ∈ T4.kept [3] by decide)]
    rfl
  have hw1 : ScatterDims.window ⟨[0, 1, 2], [3], [3], iv, wf⟩ j 1 = (j 1).val := by
    unfold ScatterDims.window
    rw [dif_pos (show (1 : Fin 4) ∈ T4.kept [3] by decide)]
    rfl
  have hw2 : ScatterDims.window ⟨[0, 1, 2], [3], [3], iv, wf⟩ j 2 = (j 2).val := by
    unfold ScatterDims.window
    rw [dif_pos (show (2 : Fin 4) ∈ T4.kept [3] by decide)]
    rfl
  have hw3 : ScatterDims.window ⟨[0, 1, 2], [3], [3], iv, wf⟩ j 3 = 0 := by
    unfold ScatterDims.window
    rw [dif_neg (show (3 : Fin 4) ∉ T4.kept [3] by decide)]
  have key : ∀ a : Fin 4, ScatterDims.start ⟨[0, 1, 2], [3], [3], iv, wf⟩ j idx a
      + (ScatterDims.window ⟨[0, 1, 2], [3], [3], iv, wf⟩ j a : Int) = (((ix4 (j 0) (j 1) (j 2) cn : T4.Idx) a).val : Int) := by
    intro a
    have h4 : a = 0 ∨ a = 1 ∨ a = 2 ∨ a = 3 := by revert a; decide
    rcases h4 with rfl | rfl | rfl | rfl
    · rw [hs, if_neg (by decide), hw0]; simp
    · rw [hs, if_neg (by decide), hw1]; simp
    · rw [hs, if_neg (by decide), hw2]; simp
    · rw [hs, if_pos rfl, hw3]; simp
  unfold ScatterDims.resultIdx?
  rw [dif_pos (fun a => by
    rw [key a]
    exact ⟨Int.natCast_nonneg _, by exact_mod_cast ((ix4 (j 0) (j 1) (j 2) cn : T4.Idx) a).isLt⟩)]
  congr 1
  funext a
  apply Fin.ext
  simp only [key a]
  simp

theorem scatter_chan {α : Type} (d : ScatterDims T4 T1 T3) (h1 : d.updateWindowDims = [0, 1, 2]) (h2 : d.insertedWindowDims = [3])
    (h3 : d.scatterDimsToOperandDims = [3]) (cn : Fin 30) (x : T4.Idx → α) (idx : IVec T1 32)
    (hidx : ∀ k, (idx k).toInt = cn.val) (upd : T3.Idx → α) (b : Fin 8192) (i j : Fin 7) (k : Fin 30) :
    Host.scatter d (fun _ b => b) x idx upd (ix4 b i j k) = if k = cn then upd (ix3 b i j) else x (ix4 b i j k) := by
  unfold Host.scatter
  rw [foldl_step_congr _
    (fun n : Fin T3.numel => (ix4 ((T3.rowMajor.symm n) 0) ((T3.rowMajor.symm n) 1) ((T3.rowMajor.symm n) 2) cn : T4.Idx))
    (fun n => upd (T3.rowMajor.symm n))
    (fun r n => by rw [resultIdx_chan d h1 h2 h3 cn idx hidx]; rfl)]
  by_cases hk : k = cn
  · subst hk
    rw [if_pos rfl]
    have hinj : Function.Injective (fun n : Fin T3.numel =>
        (ix4 ((T3.rowMajor.symm n) 0) ((T3.rowMajor.symm n) 1) ((T3.rowMajor.symm n) 2) k : T4.Idx)) := by
      intro n m e
      apply T3.rowMajor.symm.injective
      have e0 : (T3.rowMajor.symm n) 0 = (T3.rowMajor.symm m) 0 := congrFun e 0
      have e1 : (T3.rowMajor.symm n) 1 = (T3.rowMajor.symm m) 1 := congrFun e 1
      have e2 : (T3.rowMajor.symm n) 2 = (T3.rowMajor.symm m) 2 := congrFun e 2
      rw [eq_ix3 (T3.rowMajor.symm n), eq_ix3 (T3.rowMajor.symm m), e0, e1, e2]
    have := foldl_put_of_mem
      (fun n : Fin T3.numel => (ix4 ((T3.rowMajor.symm n) 0) ((T3.rowMajor.symm n) 1) ((T3.rowMajor.symm n) 2) k : T4.Idx))
      (fun n => upd (T3.rowMajor.symm n)) (List.finRange T3.numel) x (T3.rowMajor (ix3 b i j)) (List.mem_finRange _)
      ((List.nodup_finRange _).map hinj)
    simpa using this
  · rw [if_neg hk]
    exact foldl_put_of_not_mem _ _ _ _ _ (fun n _ e => hk (congrFun e 3).symm)

/-! ## Layout operations read at a cell -/

theorem fin4_cases (a : Fin 4) : a = 0 ∨ a = 1 ∨ a = 2 ∨ a = 3 := by revert a; decide
theorem fin3_cases (a : Fin 3) : a = 0 ∨ a = 1 ∨ a = 2 := by revert a; decide

/-- Channel `c` of an array, sliced out and reshaped to the grid, read at a cell. -/
theorem slice1_cast_apply {α : Type} (c : Nat) (hc : c < 30) (y : T4.Idx → α) (hs : T4.Slices ![0, 0, 0, c] T41)
    (hcast : T41.ShapeCasts T3) (b : Fin 8192) (i j : Fin 7) :
    shapeCast T3 (extractStridedSlice T41 ![0, 0, 0, c] y hs) hcast (ix3 b i j) = y (ix4 b i j ⟨c, hc⟩) := by
  refine (shapeCast_apply _ hcast (ix3 b i j) (ix4 b i j 0) ?_).trans ?_
  · rw [Shape.rowMajor_val_four, Shape.rowMajor_val_three]; simp
  · refine extractStridedSlice_apply _ y hs (ix4 b i j 0) (ix4 b i j ⟨c, hc⟩) (fun a => ?_)
    rcases fin4_cases a with rfl | rfl | rfl | rfl <;> simp

/-- Channels `o … o + W - 1` of an array, sliced out, read at a cell and channel. -/
theorem sliceW_apply {α : Type} (W o : Nat) (ho : o + W ≤ 30) (y : T4.Idx → α) (hs : T4.Slices ![0, 0, 0, o] (T4W W))
    (b : Fin 8192) (i j : Fin 7) (k : Fin W) :
    extractStridedSlice (T4W W) ![0, 0, 0, o] y hs (ix4 b i j k) = y (ix4 b i j ⟨o + k.val, by have := k.isLt; omega⟩) := by
  refine extractStridedSlice_apply _ y hs (ix4 b i j k) _ (fun a => ?_)
  rcases fin4_cases a with rfl | rfl | rfl | rfl <;> simp

/-- A grid array broadcast along a new last axis of extent one, read at a cell. -/
theorem bcast1_apply {α : Type} (m : T3.Idx → α) (h1 : T3.BroadcastsInDim T41 ![0, 1, 2])
    (b : Fin 8192) (i j : Fin 7) (k : Fin 1) :
    broadcastInDim T41 ![0, 1, 2] h1 m (ix4 b i j k) = m (ix3 b i j) := by
  refine broadcastInDim_apply _ h1 m (ix4 b i j k) (ix3 b i j) (fun a => ?_)
  rcases fin3_cases a with rfl | rfl | rfl <;> simp

/-- … and then along that axis to extent `W`. -/
theorem bcastW_apply {α : Type} (W : Nat) (m : T3.Idx → α) (h1 : T3.BroadcastsInDim T41 ![0, 1, 2])
    (h2 : T41.BroadcastsInDim (T4W W) ![0, 1, 2, 3]) (b : Fin 8192) (i j : Fin 7) (k : Fin W) :
    broadcastInDim (T4W W) ![0, 1, 2, 3] h2 (broadcastInDim T41 ![0, 1, 2] h1 m) (ix4 b i j k) = m (ix3 b i j) := by
  refine (broadcastInDim_apply _ h2 _ (ix4 b i j k) (ix4 b i j 0) (fun a => ?_)).trans (bcast1_apply m h1 b i j 0)
  rcases fin4_cases a with rfl | rfl | rfl | rfl <;> simp <;> rfl

/-! ## Sums over index sets as iterated sums over the coordinates -/

def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

def idxEquiv4 {n0 n1 n2 n3 : Nat} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

theorem sum_idx4 {M : Type*} [AddCommMonoid M] {n0 n1 n2 n3 : Nat} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  refine Finset.sum_congr rfl fun a _ => ?_
  rw [Fintype.sum_prod_type]
  refine Finset.sum_congr rfl fun b _ => ?_
  rw [Fintype.sum_prod_type]
  rfl

/-! ## One-bit words -/

theorem not_eq_xor_one (b : BitVec 1) : ~~~b = IntOp.xori b 1#1 := by
  unfold IntOp.xori; revert b; decide

theorem bit_cases (b : BitVec 1) : b = 0#1 ∨ b = 1#1 := by revert b; decide

theorem bitR_zero : Cert.Yolo.bitR 0#1 = 0 := by
  simp [Cert.Yolo.bitR, FloatOps.uitofp]
theorem bitR_one : Cert.Yolo.bitR 1#1 = 1 := by
  simp [Cert.Yolo.bitR, FloatOps.uitofp]

/-- A 0/1 factor moves out of a finite sum of extended reals. -/
theorem sum_mul_bitR {ι : Type} [Fintype ι] (a : ι → EReal) (b : BitVec 1) :
    ∑ k, a k * Cert.Yolo.bitR b = (∑ k, a k) * Cert.Yolo.bitR b := by
  rcases bit_cases b with rfl | rfl
  · simp [bitR_zero]
  · simp [bitR_one]

/-! ## A masked sum of squared differences -/

/-- The sum over a `[8192,7,7,W]` array whose entry at cell `(b,i,j)`, channel `k`, is the squared difference of channel
    `o + k` of `p` and `t` times a 0/1 mask of the cell: per cell, the mask times the sum over the channels. -/
theorem masked_sum {W : Nat} (o : Nat) (ho : o + W ≤ 30) (A : (T4W W).Idx → EReal) (p t : T4.Idx → EReal) (m : T3.Idx → EReal)
    (hA : ∀ (b : Fin 8192) (i j : Fin 7) (k : Fin W), A (ix4 b i j k)
      = (p (ix4 b i j ⟨o + k.val, by have := k.isLt; omega⟩) - t (ix4 b i j ⟨o + k.val, by have := k.isLt; omega⟩))
        * (p (ix4 b i j ⟨o + k.val, by have := k.isLt; omega⟩) - t (ix4 b i j ⟨o + k.val, by have := k.isLt; omega⟩))
        * m (ix3 b i j))
    (hm : ∀ (b : Fin 8192) (i j : Fin 7), ∃ bit : BitVec 1, m (ix3 b i j) = Cert.Yolo.bitR bit) :
    ∑ q, A q = ∑ b : Fin 8192, ∑ i : Fin 7, ∑ j : Fin 7,
      (∑ k : Fin W, Cert.Yolo.sqd (p (ix4 b i j ⟨o + k.val, by have := k.isLt; omega⟩))
        (t (ix4 b i j ⟨o + k.val, by have := k.isLt; omega⟩))) * m (ix3 b i j) := by
  rw [sum_idx4]
  refine Finset.sum_congr rfl fun b _ => Finset.sum_congr rfl fun i _ => Finset.sum_congr rfl fun j _ => ?_
  obtain ⟨bit, hb⟩ := hm b i j
  rw [hb, ← sum_mul_bitR]
  refine Finset.sum_congr rfl fun k _ => ?_
  rw [hA, hb]
  rfl

end Cert.Yolo.Ref
-- ==== Proof.KBlocks.lean ====
/-
  The kernel's grid, re-indexed. Point t of the 2 x 32 grid stages batch rows 128 t … 128 t + 127 of the three
  argument arrays, so a cell (r, s / 7, s % 7) of a point's blocks is the cell (128 t + r, s / 7, s % 7) of the
  arguments; summing a point's partial sum over the 64 points, 128 rows and 49 cells is then summing the loss's
  term over all 8192 x 7 x 7 cells: the specification's total.
-/
import proofs.«100404_j84018150244766_2_alg».proof.Proof.FrameBaseI
import proofs.«100404_j84018150244766_2_alg».proof.Proof.PayIsSpec
import proofs.«100404_j84018150244766_2_alg».proof.Proof.GridSum
import proofs.«100404_j84018150244766_2_alg».proof.Proof.Spec
import proofs.«100404_j84018150244766_2_alg».proof.Proof.RefLib

set_option maxRecDepth 16384

noncomputable section

open scoped BigOperators

namespace Cert.KernelIdeal.KV

open Cert.KernelIdeal Cert.KernelIdeal.Gen Cert.KernelIdeal.Frame Idealize.ShloMosaic Idealize.ShloMosaic.ValueIdx
open Idealize.ShloMosaic.TcCoe

variable (m : (ℓ : Loc nD τ sig) → Buf (Elt Ideal) ℓ)

theorem t_lt (t : Fin cfg0.N) : t.val < 64 := lt_of_lt_of_eq t.isLt N_0

/-- Window 0's block at point `t` is rows `128 t … 128 t + 127` of the first argument. -/
theorem iblk0_apply (c : Dev nD) (t : Fin cfg0.N) (r : Fin 128) (i j : Fin 7) (k : Fin 30) :
    iblk m c 0 t (ix4 r i j k)
      = m ((c.tc : Thread nD τ).loc main_arg0) (ix4 ⟨t.val * 128 + r.val, by have := t_lt t; have := r.isLt; omega⟩ i j k) := by
  have hi : win0_0.index t 0 = t.val ∧ win0_0.index t 1 = 0 ∧ win0_0.index t 2 = 0 ∧ win0_0.index t 3 = 0 :=
    (by decide +kernel : ∀ t : Fin grid0.N, win0_0.index t 0 = t.val ∧ win0_0.index t 1 = 0 ∧ win0_0.index t 2 = 0 ∧ win0_0.index t 3 = 0) t
  unfold iblk
  rw [View.read_apply]
  show V m c main_arg0 _ = m (c.tc.loc main_arg0) _
  unfold V
  congr 1
  funext a
  apply Fin.ext
  rcases Cert.Yolo.Ref.fin4_cases a with rfl | rfl | rfl | rfl
  · show win0_0.index t 0 * 128 + 1 * r.val = t.val * 128 + r.val; rw [hi.1]; omega
  · show win0_0.index t 1 * 7 + 1 * i.val = i.val; rw [hi.2.1]; omega
  · show win0_0.index t 2 * 7 + 1 * j.val = j.val; rw [hi.2.2.1]; omega
  · show win0_0.index t 3 * 30 + 1 * k.val = k.val; rw [hi.2.2.2]; omega

/-- Window 1's block at point `t` is rows `128 t … 128 t + 127` of the second argument. -/
theorem iblk1_apply (c : Dev nD) (t : Fin cfg0.N) (r : Fin 128) (i j : Fin 7) (k : Fin 30) :
    iblk m c 1 t (ix4 r i j k)
      = m ((c.tc : Thread nD τ).loc main_arg1) (ix4 ⟨t.val * 128 + r.val, by have := t_lt t; have := r.isLt; omega⟩ i j k) := by
  have hi : win0_1.index t 0 = t.val ∧ win0_1.index t 1 = 0 ∧ win0_1.index t 2 = 0 ∧ win0_1.index t 3 = 0 :=
    (by decide +kernel : ∀ t : Fin grid0.N, win0_1.index t 0 = t.val ∧ win0_1.index t 1 = 0 ∧ win0_1.index t 2 = 0 ∧ win0_1.index t 3 = 0) t
  unfold iblk
  rw [View.read_apply]
  show V m c main_arg1 _ = m (c.tc.loc main_arg1) _
  unfold V
  congr 1
  funext a
  apply Fin.ext
  rcases Cert.Yolo.Ref.fin4_cases a with rfl | rfl | rfl | rfl
  · show win0_1.index t 0 * 128 + 1 * r.val = t.val * 128 + r.val; rw [hi.1]; omega
  · show win0_1.index t 1 * 7 + 1 * i.val = i.val; rw [hi.2.1]; omega
  · show win0_1.index t 2 * 7 + 1 * j.val = j.val; rw [hi.2.2.1]; omega
  · show win0_1.index t 3 * 30 + 1 * k.val = k.val; rw [hi.2.2.2]; omega

/-- Window 2's block at point `t` is rows `128 t … 128 t + 127` of the third argument. -/
theorem iblk2_apply (c : Dev nD) (t : Fin cfg0.N) (r : Fin 128) (i j : Fin 7) :
    iblk m c 2 t (ix3 r i j)
      = m ((c.tc : Thread nD τ).loc main_arg2) (ix3 ⟨t.val * 128 + r.val, by have := t_lt t; have := r.isLt; omega⟩ i j) := by
  have hi : win0_2.index t 0 = t.val ∧ win0_2.index t 1 = 0 ∧ win0_2.index t 2 = 0 :=
    (by decide +kernel : ∀ t : Fin grid0.N, win0_2.index t 0 = t.val ∧ win0_2.index t 1 = 0 ∧ win0_2.index t 2 = 0) t
  unfold iblk
  rw [View.read_apply]
  show V m c main_arg2 _ = m (c.tc.loc main_arg2) _
  unfold V
  congr 1
  funext a
  apply Fin.ext
  rcases Cert.Yolo.Ref.fin3_cases a with rfl | rfl | rfl
  · show win0_2.index t 0 * 128 + 1 * r.val = t.val * 128 + r.val; rw [hi.1]; omega
  · show win0_2.index t 1 * 7 + 1 * i.val = i.val; rw [hi.2.1]; omega
  · show win0_2.index t 2 * 7 + 1 * j.val = j.val; rw [hi.2.2]; omega

/-! ## The cells of a point's blocks are cells of the arguments -/

theorem cell0 (c : Dev nD) (t : Fin cfg0.N) (r : Fin 128) (s : Fin 49) :
    Cert.Yolo.Pay.cellP (iblk m c 0 t) r s = fun k => m ((c.tc : Thread nD τ).loc main_arg0)
      (ix4 ⟨t.val * 128 + r.val, by have := t_lt t; have := r.isLt; omega⟩ ⟨s.val / 7, by have := s.isLt; omega⟩
        ⟨s.val % 7, by have := s.isLt; omega⟩ k) :=
  funext fun k => iblk0_apply m c t r _ _ k

theorem cell1 (c : Dev nD) (t : Fin cfg0.N) (r : Fin 128) (s : Fin 49) :
    Cert.Yolo.Pay.cellP (iblk m c 1 t) r s = fun k => m ((c.tc : Thread nD τ).loc main_arg1)
      (ix4 ⟨t.val * 128 + r.val, by have := t_lt t; have := r.isLt; omega⟩ ⟨s.val / 7, by have := s.isLt; omega⟩
        ⟨s.val % 7, by have := s.isLt; omega⟩ k) :=
  funext fun k => iblk1_apply m c t r _ _ k

theorem cell2 (c : Dev nD) (t : Fin cfg0.N) (r : Fin 128) (s : Fin 49) :
    Cert.Yolo.Pay.cellC (iblk m c 2 t) r s = m ((c.tc : Thread nD τ).loc main_arg2)
      (ix3 ⟨t.val * 128 + r.val, by have := t_lt t; have := r.isLt; omega⟩ ⟨s.val / 7, by have := s.isLt; omega⟩
        ⟨s.val % 7, by have := s.isLt; omega⟩) :=
  iblk2_apply m c t r _ _

/-! ## The points' partial sums add up to the total -/

/-- Partial sum `w` of grid point `n` (zero past the grid). -/
def pv (c : Dev nD) (w : Fin 11) (n : ℕ) : EReal :=
  if h : n < cfg0.N then Cert.Yolo.Pay.part w (iblk m c 0 ⟨n, h⟩) (iblk m c 1 ⟨n, h⟩) (iblk m c 2 ⟨n, h⟩) (ix3 0 0 0) else 0

theorem total_of_points (c : Dev nD) (w : Fin 11) :
    Cert.Yolo.z + ∑ i : S2x1x1.Idx, (Cert.Yolo.z + ∑ j : Fin 32, pv m c w (32 * (i 0).val + j.val))
      = Cert.Yolo.total w (m ((c.tc : Thread nD τ).loc main_arg0)) (m ((c.tc : Thread nD τ).loc main_arg1))
          (m ((c.tc : Thread nD τ).loc main_arg2)) := by
  have hz : Cert.Yolo.z = 0 := Cert.Yolo.Grid.z_zero
  rw [Cert.Yolo.Ref.sum_idx3]
  simp only [Fin.sum_univ_one]
  unfold Cert.Yolo.total
  rw [hz]
  simp only [zero_add]
  rw [← Cert.Yolo.Grid.grid_sum]
  refine Finset.sum_congr rfl fun a _ => Finset.sum_congr rfl fun b _ => ?_
  have hn : 32 * a.val + b.val < cfg0.N := by
    have := a.isLt; have := b.isLt; rw [show cfg0.N = 64 from N_0]; omega
  show pv m c w (32 * a.val + b.val) = _
  unfold pv
  rw [dif_pos hn, Cert.Yolo.Pay.part_eq]
  refine Finset.sum_congr rfl fun r _ => Finset.sum_congr rfl fun s _ => ?_
  rw [cell0, cell1, cell2]

end Cert.KernelIdeal.KV
-- ==== Proof.KValue.lean ====
/-
  The kernel's run read as values, on the extended reals.

  Each of the eleven accumulators is a running sum over the grid points in order, restarted from the zero word at
  every point whose second grid coordinate is zero (the positions divisible by 32): after the point at position
  n it holds the running sum of the points' partial sums, by induction on n over the two cases of the body.  A
  result array is written back after the positions 31 and 63, into the entries 0 and 1 of its leading axis; its
  two blocks cover it, so entry g ends holding the zero word plus the 32 partial sums of the points 32 g, ...,
  32 g + 31.  The host lines then sum each array (its total is the loss's total over all cells, by the block
  reads of the three arguments) and combine the eleven totals into the four results; the three argument arrays
  are staged inputs and end as they were launched.
-/
import proofs.«100404_j84018150244766_2_alg».proof.Proof.KOut
import proofs.«100404_j84018150244766_2_alg».proof.Proof.KTail
import proofs.«100404_j84018150244766_2_alg».proof.Proof.KBlocks
import proofs.«100404_j84018150244766_2_alg».proof.Proof.GridSum
import proofs.«100404_j84018150244766_2_alg».proof.Proof.PayIsSpec
import Idealize.ShloMosaic.Lib.Pipeline.Value
import Idealize.ShloMosaic.Lib.ValueIdx

set_option maxRecDepth 16384
set_option maxHeartbeats 40000000

noncomputable section

namespace Cert.KernelIdeal.KV

open Cert.KernelIdeal Cert.KernelIdeal.Gen Cert.KernelIdeal.Frame
open Idealize.ShloMosaic Idealize.ShloMosaic.TcCoe Idealize.ShloMosaic.Tactic
open Idealize.SL Idealize.SL.Sem
open Idealize.ShloMosaic.Pipeline (Dat Cfg Window)
open Idealize.ShloMosaic.ValueIdx

variable (m : (ℓ : Loc nD τ sig) → Buf (Elt Ideal) ℓ) (ρ : Dev nD → PrngReg)

theorem pv_pos (c : Dev nD) (w : Fin 11) (n : ℕ) (h : n < cfg0.N) :
    pv m c w n = Cert.Yolo.Pay.part w (iblk m c 0 ⟨n, h⟩) (iblk m c 1 ⟨n, h⟩) (iblk m c 2 ⟨n, h⟩) (ix3 0 0 0) := dif_pos h

/-- What result array `w` ends holding: at entry `g` of its leading axis, the zero word plus the 32 partial sums
    of the grid points 32 g, …, 32 g + 31. -/
def G (c : Dev nD) (w : Fin 11) : S2x1x1.Idx → EReal :=
  fun idx => Cert.Yolo.z + ∑ k : Fin 32, pv m c w (32 * (idx 0).val + k.val)

/-! ## One accumulator, read at its one entry -/

/-- The one index of a [1, 1, 1] array. -/
theorem idx_unit (y : S1x1x1.Idx) : y = ix3 (0 : Fin 1) (0 : Fin 1) (0 : Fin 1) := by
  funext a
  apply Fin.ext
  have h := (y a).isLt
  match a with
  | ⟨0, _⟩ => have h' : (y 0).val < 1 := h; show (y 0).val = 0; omega
  | ⟨1, _⟩ => have h' : (y 1).val < 1 := h; show (y 1).val = 0; omega
  | ⟨2, _⟩ => have h' : (y 2).val < 1 := h; show (y 2).val = 0; omega

/-- Each of the eleven accumulating payloads adds the partial sum to what the accumulator held. -/
theorem acc27 (p a : FVec Ideal S1x1x1 .f32) (y : S1x1x1.Idx) : k0_pay27 p a y = a y + p y := by
  unfold k0_pay27; simp only [shapeCast_self]; rfl
theorem acc28 (p a : FVec Ideal S1x1x1 .f32) (y : S1x1x1.Idx) : k0_pay28 p a y = a y + p y := by
  unfold k0_pay28; simp only [shapeCast_self]; rfl
theorem acc29 (p a : FVec Ideal S1x1x1 .f32) (y : S1x1x1.Idx) : k0_pay29 p a y = a y + p y := by
  unfold k0_pay29; simp only [shapeCast_self]; rfl
theorem acc30 (p a : FVec Ideal S1x1x1 .f32) (y : S1x1x1.Idx) : k0_pay30 p a y = a y + p y := by
  unfold k0_pay30; simp only [shapeCast_self]; rfl
theorem acc31 (p a : FVec Ideal S1x1x1 .f32) (y : S1x1x1.Idx) : k0_pay31 p a y = a y + p y := by
  unfold k0_pay31; simp only [shapeCast_self]; rfl
theorem acc32 (p a : FVec Ideal S1x1x1 .f32) (y : S1x1x1.Idx) : k0_pay32 p a y = a y + p y := by
  unfold k0_pay32; simp only [shapeCast_self]; rfl
theorem acc33 (p a : FVec Ideal S1x1x1 .f32) (y : S1x1x1.Idx) : k0_pay33 p a y = a y + p y := by
  unfold k0_pay33; simp only [shapeCast_self]; rfl
theorem acc34 (p a : FVec Ideal S1x1x1 .f32) (y : S1x1x1.Idx) : k0_pay34 p a y = a y + p y := by
  unfold k0_pay34; simp only [shapeCast_self]; rfl
theorem acc35 (p a : FVec Ideal S1x1x1 .f32) (y : S1x1x1.Idx) : k0_pay35 p a y = a y + p y := by
  unfold k0_pay35; simp only [shapeCast_self]; rfl
theorem acc36 (p a : FVec Ideal S1x1x1 .f32) (y : S1x1x1.Idx) : k0_pay36 p a y = a y + p y := by
  unfold k0_pay36; simp only [shapeCast_self]; rfl
theorem acc37 (p a : FVec Ideal S1x1x1 .f32) (y : S1x1x1.Idx) : k0_pay37 p a y = a y + p y := by
  unfold k0_pay37; simp only [shapeCast_self]; rfl

/-- The zero block holds the zero word. -/
theorem zero_apply (y : S1x1x1.Idx) : (k0_pay1 (F := Ideal)) y = Cert.Yolo.z := rfl

/-- A quantity that restarts from `z` at the multiples of 32 and otherwise adds the next term is the running sum. -/
theorem run_of_steps {N : ℕ} (z : EReal) (p : ℕ → EReal) (a : (n : ℕ) → n < N → EReal)
    (hA : ∀ n (h : n < N), n % 32 = 0 → a n h = z + p n)
    (hB : ∀ n (h : n + 1 < N), ¬(n + 1) % 32 = 0 → a (n + 1) h = a n (Nat.lt_of_succ_lt h) + p (n + 1)) :
    ∀ n (h : n < N), a n h = Cert.Yolo.Grid.run z p n
  | 0, h => (hA 0 h rfl).trans (Cert.Yolo.Grid.run_restart z p 0 rfl).symm
  | n + 1, h => by
    by_cases h0 : (n + 1) % 32 = 0
    · exact (hA (n + 1) h h0).trans (Cert.Yolo.Grid.run_restart z p (n + 1) h0).symm
    · rw [hB n h h0, run_of_steps z p a hA hB n (Nat.lt_of_succ_lt h), Cert.Yolo.Grid.run_step z p n h0]

/-! ## The accumulators after each point -/

/-- Accumulator 0 after the point at position `n` is the running sum of the partial sums number 0. -/
theorem accAt_3 (c : Dev nD) (y : S1x1x1.Idx) : ∀ n (h : n < cfg0.N), (outsAt0 m c n h).a3 y = Cert.Yolo.Grid.run Cert.Yolo.z (pv m c 0) n := by
  rw [idx_unit y]
  refine run_of_steps Cert.Yolo.z (pv m c 0) (fun n h => (outsAt0 m c n h).a3 (ix3 0 0 0)) (fun n h h0 => ?_) (fun n h h0 => ?_)
  · refine (congrFun (congrArg Acc.a3 (outsAt0_A m c ⟨n, h⟩ h0)) (ix3 0 0 0)).trans ?_
    refine (congrFun (out_A_3 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) (ms0_8 ⟨n, h⟩) (hs0_8 ⟨n, h⟩) (ms0_9 ⟨n, h⟩) (hs0_9 ⟨n, h⟩) (ms0_10 ⟨n, h⟩) (hs0_10 ⟨n, h⟩) (ms0_11 ⟨n, h⟩) (hs0_11 ⟨n, h⟩) (ms0_12 ⟨n, h⟩) (hs0_12 ⟨n, h⟩) (ms0_13 ⟨n, h⟩) (hs0_13 ⟨n, h⟩) ((hcond0_0 ⟨n, h⟩).mpr h0) (iblk m c 0 ⟨n, h⟩) (iblk m c 1 ⟨n, h⟩) (iblk m c 2 ⟨n, h⟩)) (ix3 0 0 0)).trans ?_
    refine (acc27 _ _ (ix3 0 0 0)).trans ?_
    exact congrArg (fun x => Cert.Yolo.z + x) (pv_pos m c 0 n h).symm
  · refine (congrFun (congrArg Acc.a3 (outsAt0_B m c ⟨n + 1, h⟩ h0)) (ix3 0 0 0)).trans ?_
    refine (congrFun (out_B_3 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) (ms0_11 ⟨n + 1, h⟩) (hs0_11 ⟨n + 1, h⟩) (ms0_12 ⟨n + 1, h⟩) (hs0_12 ⟨n + 1, h⟩) (ms0_13 ⟨n + 1, h⟩) (hs0_13 ⟨n + 1, h⟩) (fun hh => h0 ((hcond0_0 ⟨n + 1, h⟩).mp hh)) (iblk m c 0 ⟨n + 1, h⟩) (iblk m c 1 ⟨n + 1, h⟩) (iblk m c 2 ⟨n + 1, h⟩) (outsAt0 m c n (Nat.lt_of_succ_lt h)).a3 (outsAt0 m c n (Nat.lt_of_succ_lt h)).a4 (outsAt0 m c n (Nat.lt_of_succ_lt h)).a5 (outsAt0 m c n (Nat.lt_of_succ_lt h)).a6 (outsAt0 m c n (Nat.lt_of_succ_lt h)).a7 (outsAt0 m c n (Nat.lt_of_succ_lt h)).a8 (outsAt0 m c n (Nat.lt_of_succ_lt h)).a9 (outsAt0 m c n (Nat.lt_of_succ_lt h)).a10 (outsAt0 m c n (Nat.lt_of_succ_lt h)).a11 (outsAt0 m c n (Nat.lt_of_succ_lt h)).a12 (outsAt0 m c n (Nat.lt_of_succ_lt h)).a13) (ix3 0 0 0)).trans ?_
    refine (acc27 _ _ (ix3 0 0 0)).trans ?_
    exact congrArg (fun x => (outsAt0 m c n (Nat.lt_of_succ_lt h)).a3 (ix3 0 0 0) + x) (pv_pos m c 0 (n + 1) h).symm

/-- Accumulator 1 after the point at position `n` is the running sum of the partial sums number 1. -/
theorem accAt_4 (c : Dev nD) (y : S1x1x1.Idx) : ∀ n (h : n < cfg0.N), (outsAt0 m c n h).a4 y = Cert.Yolo.Grid.run Cert.Yolo.z (pv m c 1) n := by
  rw [idx_unit y]
  refine run_of_steps Cert.Yolo.z (pv m c 1) (fun n h => (outsAt0 m c n h).a4 (ix3 0 0 0)) (fun n h h0 => ?_) (fun n h h0 => ?_)
  · refine (congrFun (congrArg Acc.a4 (outsAt0_A m c ⟨n, h⟩ h0)) (ix3 0 0 0)).trans ?_
    refine (congrFun (out_A_4 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) (ms0_8 ⟨n, h⟩) (hs0_8 ⟨n, h⟩) (ms0_9 ⟨n, h⟩) (hs0_9 ⟨n, h⟩) (ms0_10 ⟨n, h⟩) (hs0_10 ⟨n, h⟩) (ms0_11 ⟨n, h⟩) (hs0_11 ⟨n, h⟩) (ms0_12 ⟨n, h⟩) (hs0_12 ⟨n, h⟩) (ms0_13 ⟨n, h⟩) (hs0_13 ⟨n, h⟩) ((hcond0_0 ⟨n, h⟩).mpr h0) (iblk m c 0 ⟨n, h⟩) (iblk m c 1 ⟨n, h⟩) (iblk m c 2 ⟨n, h⟩)) (ix3 0 0 0)).trans ?_
    refine (acc28 _ _ (ix3 0 0 0)).trans ?_
    exact congrArg (fun x => Cert.Yolo.z + x) (pv_pos m c 1 n h).symm
  · refine (congrFun (congrArg Acc.a4 (outsAt0_B m c ⟨n + 1, h⟩ h0)) (ix3 0 0 0)).trans ?_
    refine (congrFun (out_B_4 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) (ms0_11 ⟨n + 1, h⟩) (hs0_11 ⟨n + 1, h⟩) (ms0_12 ⟨n + 1, h⟩) (hs0_12 ⟨n + 1, h⟩) (ms0_13 ⟨n + 1, h⟩) (hs0_13 ⟨n + 1, h⟩) (fun hh => h0 ((hcond0_0 ⟨n + 1, h⟩).mp hh)) (iblk m c 0 ⟨n + 1, h⟩) (iblk m c 1 ⟨n + 1, h⟩) (iblk m c 2 ⟨n + 1, h⟩) (outsAt0 m c n (Nat.lt_of_succ_lt h)).a3 (outsAt0 m c n (Nat.lt_of_succ_lt h)).a4 (outsAt0 m c n (Nat.lt_of_succ_lt h)).a5 (outsAt0 m c n (Nat.lt_of_succ_lt h)).a6 (outsAt0 m c n (Nat.lt_of_succ_lt h)).a7 (outsAt0 m c n (Nat.lt_of_succ_lt h)).a8 (outsAt0 m c n (Nat.lt_of_succ_lt h)).a9 (outsAt0 m c n (Nat.lt_of_succ_lt h)).a10 (outsAt0 m c n (Nat.lt_of_succ_lt h)).a11 (outsAt0 m c n (Nat.lt_of_succ_lt h)).a12 (outsAt0 m c n (Nat.lt_of_succ_lt h)).a13) (ix3 0 0 0)).trans ?_
    refine (acc28 _ _ (ix3 0 0 0)).trans ?_
    exact congrArg (fun x => (outsAt0 m c n (Nat.lt_of_succ_lt h)).a4 (ix3 0 0 0) + x) (pv_pos m c 1 (n + 1) h).symm

/-- Accumulator 2 after the point at position `n` is the running sum of the partial sums number 2. -/
theorem accAt_5 (c : Dev nD) (y : S1x1x1.Idx) : ∀ n (h : n < cfg0.N), (outsAt0 m c n h).a5 y = Cert.Yolo.Grid.run Cert.Yolo.z (pv m c 2) n := by
  rw [idx_unit y]
  refine run_of_steps Cert.Yolo.z (pv m c 2) (fun n h => (outsAt0 m c n h).a5 (ix3 0 0 0)) (fun n h h0 => ?_) (fun n h h0 => ?_)
  · refine (congrFun (congrArg Acc.a5 (outsAt0_A m c ⟨n, h⟩ h0)) (ix3 0 0 0)).trans ?_
    refine (congrFun (out_A_5 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) (ms0_8 ⟨n, h⟩) (hs0_8 ⟨n, h⟩) (ms0_9 ⟨n, h⟩) (hs0_9 ⟨n, h⟩) (ms0_10 ⟨n, h⟩) (hs0_10 ⟨n, h⟩) (ms0_11 ⟨n, h⟩) (hs0_11 ⟨n, h⟩) (ms0_12 ⟨n, h⟩) (hs0_12 ⟨n, h⟩) (ms0_13 ⟨n, h⟩) (hs0_13 ⟨n, h⟩) ((hcond0_0 ⟨n, h⟩).mpr h0) (iblk m c 0 ⟨n, h⟩) (iblk m c 1 ⟨n, h⟩) (iblk m c 2 ⟨n, h⟩)) (ix3 0 0 0)).trans ?_
    refine (acc29 _ _ (ix3 0 0 0)).trans ?_
    exact congrArg (fun x => Cert.Yolo.z + x) (pv_pos m c 2 n h).symm
  · refine (congrFun (congrArg Acc.a5 (outsAt0_B m c ⟨n + 1, h⟩ h0)) (ix3 0 0 0)).trans ?_
    refine (congrFun (out_B_5 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) (ms0_11 ⟨n + 1, h⟩) (hs0_11 ⟨n + 1, h⟩) (ms0_12 ⟨n + 1, h⟩) (hs0_12 ⟨n + 1, h⟩) (ms0_13 ⟨n + 1, h⟩) (hs0_13 ⟨n + 1, h⟩) (fun hh => h0 ((hcond0_0 ⟨n + 1, h⟩).mp hh)) (iblk m c 0 ⟨n + 1, h⟩) (iblk m c 1 ⟨n + 1, h⟩) (iblk m c 2 ⟨n + 1, h⟩) (outsAt0 m c n (Nat.lt_of_succ_lt h)).a3 (outsAt0 m c n (Nat.lt_of_succ_lt h)).a4 (outsAt0 m c n (Nat.lt_of_succ_lt h)).a5 (outsAt0 m c n (Nat.lt_of_succ_lt h)).a6 (outsAt0 m c n (Nat.lt_of_succ_lt h)).a7 (outsAt0 m c n (Nat.lt_of_succ_lt h)).a8 (outsAt0 m c n (Nat.lt_of_succ_lt h)).a9 (outsAt0 m c n (Nat.lt_of_succ_lt h)).a10 (outsAt0 m c n (Nat.lt_of_succ_lt h)).a11 (outsAt0 m c n (Nat.lt_of_succ_lt h)).a12 (outsAt0 m c n (Nat.lt_of_succ_lt h)).a13) (ix3 0 0 0)).trans ?_
    refine (acc29 _ _ (ix3 0 0 0)).trans ?_
    exact congrArg (fun x => (outsAt0 m c n (Nat.lt_of_succ_lt h)).a5 (ix3 0 0 0) + x) (pv_pos m c 2 (n + 1) h).symm

/-- Accumulator 3 after the point at position `n` is the running sum of the partial sums number 3. -/
theorem accAt_6 (c : Dev nD) (y : S1x1x1.Idx) : ∀ n (h : n < cfg0.N), (outsAt0 m c n h).a6 y = Cert.Yolo.Grid.run Cert.Yolo.z (pv m c 3) n := by
  rw [idx_unit y]
  refine run_of_steps Cert.Yolo.z (pv m c 3) (fun n h => (outsAt0 m c n h).a6 (ix3 0 0 0)) (fun n h h0 => ?_) (fun n h h0 => ?_)
  · refine (congrFun (congrArg Acc.a6 (outsAt0_A m c ⟨n, h⟩ h0)) (ix3 0 0 0)).trans ?_
    refine (congrFun (out_A_6 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) (ms0_8 ⟨n, h⟩) (hs0_8 ⟨n, h⟩) (ms0_9 ⟨n, h⟩) (hs0_9 ⟨n, h⟩) (ms0_10 ⟨n, h⟩) (hs0_10 ⟨n, h⟩) (ms0_11 ⟨n, h⟩) (hs0_11 ⟨n, h⟩) (ms0_12 ⟨n, h⟩) (hs0_12 ⟨n, h⟩) (ms0_13 ⟨n, h⟩) (hs0_13 ⟨n, h⟩) ((hcond0_0 ⟨n, h⟩).mpr h0) (iblk m c 0 ⟨n, h⟩) (iblk m c 1 ⟨n, h⟩) (iblk m c 2 ⟨n, h⟩)) (ix3 0 0 0)).trans ?_
    refine (acc30 _ _ (ix3 0 0 0)).trans ?_
    exact congrArg (fun x => Cert.Yolo.z + x) (pv_pos m c 3 n h).symm
  · refine (congrFun (congrArg Acc.a6 (outsAt0_B m c ⟨n + 1, h⟩ h0)) (ix3 0 0 0)).trans ?_
    refine (congrFun (out_B_6 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) (ms0_11 ⟨n + 1, h⟩) (hs0_11 ⟨n + 1, h⟩) (ms0_12 ⟨n + 1, h⟩) (hs0_12 ⟨n + 1, h⟩) (ms0_13 ⟨n + 1, h⟩) (hs0_13 ⟨n + 1, h⟩) (fun hh => h0 ((hcond0_0 ⟨n + 1, h⟩).mp hh)) (iblk m c 0 ⟨n + 1, h⟩) (iblk m c 1 ⟨n + 1, h⟩) (iblk m c 2 ⟨n + 1, h⟩) (outsAt0 m c n (Nat.lt_of_succ_lt h)).a3 (outsAt0 m c n (Nat.lt_of_succ_lt h)).a4 (outsAt0 m c n (Nat.lt_of_succ_lt h)).a5 (outsAt0 m c n (Nat.lt_of_succ_lt h)).a6 (outsAt0 m c n (Nat.lt_of_succ_lt h)).a7 (outsAt0 m c n (Nat.lt_of_succ_lt h)).a8 (outsAt0 m c n (Nat.lt_of_succ_lt h)).a9 (outsAt0 m c n (Nat.lt_of_succ_lt h)).a10 (outsAt0 m c n (Nat.lt_of_succ_lt h)).a11 (outsAt0 m c n (Nat.lt_of_succ_lt h)).a12 (outsAt0 m c n (Nat.lt_of_succ_lt h)).a13) (ix3 0 0 0)).trans ?_
    refine (acc30 _ _ (ix3 0 0 0)).trans ?_
    exact congrArg (fun x => (outsAt0 m c n (Nat.lt_of_succ_lt h)).a6 (ix3 0 0 0) + x) (pv_pos m c 3 (n + 1) h).symm

/-- Accumulator 4 after the point at position `n` is the running sum of the partial sums number 4. -/
theorem accAt_7 (c : Dev nD) (y : S1x1x1.Idx) : ∀ n (h : n < cfg0.N), (outsAt0 m c n h).a7 y = Cert.Yolo.Grid.run Cert.Yolo.z (pv m c 4) n := by
  rw [idx_unit y]
  refine run_of_steps Cert.Yolo.z (pv m c 4) (fun n h => (outsAt0 m c n h).a7 (ix3 0 0 0)) (fun n h h0 => ?_) (fun n h h0 => ?_)
  · refine (congrFun (congrArg Acc.a7 (outsAt0_A m c ⟨n, h⟩ h0)) (ix3 0 0 0)).trans ?_
    refine (congrFun (out_A_7 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) (ms0_8 ⟨n, h⟩) (hs0_8 ⟨n, h⟩) (ms0_9 ⟨n, h⟩) (hs0_9 ⟨n, h⟩) (ms0_10 ⟨n, h⟩) (hs0_10 ⟨n, h⟩) (ms0_11 ⟨n, h⟩) (hs0_11 ⟨n, h⟩) (ms0_12 ⟨n, h⟩) (hs0_12 ⟨n, h⟩) (ms0_13 ⟨n, h⟩) (hs0_13 ⟨n, h⟩) ((hcond0_0 ⟨n, h⟩).mpr h0) (iblk m c 0 ⟨n, h⟩) (iblk m c 1 ⟨n, h⟩) (iblk m c 2 ⟨n, h⟩)) (ix3 0 0 0)).trans ?_
    refine (acc31 _ _ (ix3 0 0 0)).trans ?_
    exact congrArg (fun x => Cert.Yolo.z + x) (pv_pos m c 4 n h).symm
  · refine (congrFun (congrArg Acc.a7 (outsAt0_B m c ⟨n + 1, h⟩ h0)) (ix3 0 0 0)).trans ?_
    refine (congrFun (out_B_7 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) (ms0_11 ⟨n + 1, h⟩) (hs0_11 ⟨n + 1, h⟩) (ms0_12 ⟨n + 1, h⟩) (hs0_12 ⟨n + 1, h⟩) (ms0_13 ⟨n + 1, h⟩) (hs0_13 ⟨n + 1, h⟩) (fun hh => h0 ((hcond0_0 ⟨n + 1, h⟩).mp hh)) (iblk m c 0 ⟨n + 1, h⟩) (iblk m c 1 ⟨n + 1, h⟩) (iblk m c 2 ⟨n + 1, h⟩) (outsAt0 m c n (Nat.lt_of_succ_lt h)).a3 (outsAt0 m c n (Nat.lt_of_succ_lt h)).a4 (outsAt0 m c n (Nat.lt_of_succ_lt h)).a5 (outsAt0 m c n (Nat.lt_of_succ_lt h)).a6 (outsAt0 m c n (Nat.lt_of_succ_lt h)).a7 (outsAt0 m c n (Nat.lt_of_succ_lt h)).a8 (outsAt0 m c n (Nat.lt_of_succ_lt h)).a9 (outsAt0 m c n (Nat.lt_of_succ_lt h)).a10 (outsAt0 m c n (Nat.lt_of_succ_lt h)).a11 (outsAt0 m c n (Nat.lt_of_succ_lt h)).a12 (outsAt0 m c n (Nat.lt_of_succ_lt h)).a13) (ix3 0 0 0)).trans ?_
    refine (acc31 _ _ (ix3 0 0 0)).trans ?_
    exact congrArg (fun x => (outsAt0 m c n (Nat.lt_of_succ_lt h)).a7 (ix3 0 0 0) + x) (pv_pos m c 4 (n + 1) h).symm

/-- Accumulator 5 after the point at position `n` is the running sum of the partial sums number 5. -/
theorem accAt_8 (c : Dev nD) (y : S1x1x1.Idx) : ∀ n (h : n < cfg0.N), (outsAt0 m c n h).a8 y = Cert.Yolo.Grid.run Cert.Yolo.z (pv m c 5) n := by
  rw [idx_unit y]
  refine run_of_steps Cert.Yolo.z (pv m c 5) (fun n h => (outsAt0 m c n h).a8 (ix3 0 0 0)) (fun n h h0 => ?_) (fun n h h0 => ?_)
  · refine (congrFun (congrArg Acc.a8 (outsAt0_A m c ⟨n, h⟩ h0)) (ix3 0 0 0)).trans ?_
    refine (congrFun (out_A_8 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) (ms0_8 ⟨n, h⟩) (hs0_8 ⟨n, h⟩) (ms0_9 ⟨n, h⟩) (hs0_9 ⟨n, h⟩) (ms0_10 ⟨n, h⟩) (hs0_10 ⟨n, h⟩) (ms0_11 ⟨n, h⟩) (hs0_11 ⟨n, h⟩) (ms0_12 ⟨n, h⟩) (hs0_12 ⟨n, h⟩) (ms0_13 ⟨n, h⟩) (hs0_13 ⟨n, h⟩) ((hcond0_0 ⟨n, h⟩).mpr h0) (iblk m c 0 ⟨n, h⟩) (iblk m c 1 ⟨n, h⟩) (iblk m c 2 ⟨n, h⟩)) (ix3 0 0 0)).trans ?_
    refine (acc32 _ _ (ix3 0 0 0)).trans ?_
    exact congrArg (fun x => Cert.Yolo.z + x) (pv_pos m c 5 n h).symm
  · refine (congrFun (congrArg Acc.a8 (outsAt0_B m c ⟨n + 1, h⟩ h0)) (ix3 0 0 0)).trans ?_
    refine (congrFun (out_B_8 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) (ms0_11 ⟨n + 1, h⟩) (hs0_11 ⟨n + 1, h⟩) (ms0_12 ⟨n + 1, h⟩) (hs0_12 ⟨n + 1, h⟩) (ms0_13 ⟨n + 1, h⟩) (hs0_13 ⟨n + 1, h⟩) (fun hh => h0 ((hcond0_0 ⟨n + 1, h⟩).mp hh)) (iblk m c 0 ⟨n + 1, h⟩) (iblk m c 1 ⟨n + 1, h⟩) (iblk m c 2 ⟨n + 1, h⟩) (outsAt0 m c n (Nat.lt_of_succ_lt h)).a3 (outsAt0 m c n (Nat.lt_of_succ_lt h)).a4 (outsAt0 m c n (Nat.lt_of_succ_lt h)).a5 (outsAt0 m c n (Nat.lt_of_succ_lt h)).a6 (outsAt0 m c n (Nat.lt_of_succ_lt h)).a7 (outsAt0 m c n (Nat.lt_of_succ_lt h)).a8 (outsAt0 m c n (Nat.lt_of_succ_lt h)).a9 (outsAt0 m c n (Nat.lt_of_succ_lt h)).a10 (outsAt0 m c n (Nat.lt_of_succ_lt h)).a11 (outsAt0 m c n (Nat.lt_of_succ_lt h)).a12 (outsAt0 m c n (Nat.lt_of_succ_lt h)).a13) (ix3 0 0 0)).trans ?_
    refine (acc32 _ _ (ix3 0 0 0)).trans ?_
    exact congrArg (fun x => (outsAt0 m c n (Nat.lt_of_succ_lt h)).a8 (ix3 0 0 0) + x) (pv_pos m c 5 (n + 1) h).symm

/-- Accumulator 6 after the point at position `n` is the running sum of the partial sums number 6. -/
theorem accAt_9 (c : Dev nD) (y : S1x1x1.Idx) : ∀ n (h : n < cfg0.N), (outsAt0 m c n h).a9 y = Cert.Yolo.Grid.run Cert.Yolo.z (pv m c 6) n := by
  rw [idx_unit y]
  refine run_of_steps Cert.Yolo.z (pv m c 6) (fun n h => (outsAt0 m c n h).a9 (ix3 0 0 0)) (fun n h h0 => ?_) (fun n h h0 => ?_)
  · refine (congrFun (congrArg Acc.a9 (outsAt0_A m c ⟨n, h⟩ h0)) (ix3 0 0 0)).trans ?_
    refine (congrFun (out_A_9 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) (ms0_8 ⟨n, h⟩) (hs0_8 ⟨n, h⟩) (ms0_9 ⟨n, h⟩) (hs0_9 ⟨n, h⟩) (ms0_10 ⟨n, h⟩) (hs0_10 ⟨n, h⟩) (ms0_11 ⟨n, h⟩) (hs0_11 ⟨n, h⟩) (ms0_12 ⟨n, h⟩) (hs0_12 ⟨n, h⟩) (ms0_13 ⟨n, h⟩) (hs0_13 ⟨n, h⟩) ((hcond0_0 ⟨n, h⟩).mpr h0) (iblk m c 0 ⟨n, h⟩) (iblk m c 1 ⟨n, h⟩) (iblk m c 2 ⟨n, h⟩)) (ix3 0 0 0)).trans ?_
    refine (acc33 _ _ (ix3 0 0 0)).trans ?_
    exact congrArg (fun x => Cert.Yolo.z + x) (pv_pos m c 6 n h).symm
  · refine (congrFun (congrArg Acc.a9 (outsAt0_B m c ⟨n + 1, h⟩ h0)) (ix3 0 0 0)).trans ?_
    refine (congrFun (out_B_9 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) (ms0_11 ⟨n + 1, h⟩) (hs0_11 ⟨n + 1, h⟩) (ms0_12 ⟨n + 1, h⟩) (hs0_12 ⟨n + 1, h⟩) (ms0_13 ⟨n + 1, h⟩) (hs0_13 ⟨n + 1, h⟩) (fun hh => h0 ((hcond0_0 ⟨n + 1, h⟩).mp hh)) (iblk m c 0 ⟨n + 1, h⟩) (iblk m c 1 ⟨n + 1, h⟩) (iblk m c 2 ⟨n + 1, h⟩) (outsAt0 m c n (Nat.lt_of_succ_lt h)).a3 (outsAt0 m c n (Nat.lt_of_succ_lt h)).a4 (outsAt0 m c n (Nat.lt_of_succ_lt h)).a5 (outsAt0 m c n (Nat.lt_of_succ_lt h)).a6 (outsAt0 m c n (Nat.lt_of_succ_lt h)).a7 (outsAt0 m c n (Nat.lt_of_succ_lt h)).a8 (outsAt0 m c n (Nat.lt_of_succ_lt h)).a9 (outsAt0 m c n (Nat.lt_of_succ_lt h)).a10 (outsAt0 m c n (Nat.lt_of_succ_lt h)).a11 (outsAt0 m c n (Nat.lt_of_succ_lt h)).a12 (outsAt0 m c n (Nat.lt_of_succ_lt h)).a13) (ix3 0 0 0)).trans ?_
    refine (acc33 _ _ (ix3 0 0 0)).trans ?_
    exact congrArg (fun x => (outsAt0 m c n (Nat.lt_of_succ_lt h)).a9 (ix3 0 0 0) + x) (pv_pos m c 6 (n + 1) h).symm

/-- Accumulator 7 after the point at position `n` is the running sum of the partial sums number 7. -/
theorem accAt_10 (c : Dev nD) (y : S1x1x1.Idx) : ∀ n (h : n < cfg0.N), (outsAt0 m c n h).a10 y = Cert.Yolo.Grid.run Cert.Yolo.z (pv m c 7) n := by
  rw [idx_unit y]
  refine run_of_steps Cert.Yolo.z (pv m c 7) (fun n h => (outsAt0 m c n h).a10 (ix3 0 0 0)) (fun n h h0 => ?_) (fun n h h0 => ?_)
  · refine (congrFun (congrArg Acc.a10 (outsAt0_A m c ⟨n, h⟩ h0)) (ix3 0 0 0)).trans ?_
    refine (congrFun (out_A_10 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) (ms0_8 ⟨n, h⟩) (hs0_8 ⟨n, h⟩) (ms0_9 ⟨n, h⟩) (hs0_9 ⟨n, h⟩) (ms0_10 ⟨n, h⟩) (hs0_10 ⟨n, h⟩) (ms0_11 ⟨n, h⟩) (hs0_11 ⟨n, h⟩) (ms0_12 ⟨n, h⟩) (hs0_12 ⟨n, h⟩) (ms0_13 ⟨n, h⟩) (hs0_13 ⟨n, h⟩) ((hcond0_0 ⟨n, h⟩).mpr h0) (iblk m c 0 ⟨n, h⟩) (iblk m c 1 ⟨n, h⟩) (iblk m c 2 ⟨n, h⟩)) (ix3 0 0 0)).trans ?_
    refine (acc34 _ _ (ix3 0 0 0)).trans ?_
    exact congrArg (fun x => Cert.Yolo.z + x) (pv_pos m c 7 n h).symm
  · refine (congrFun (congrArg Acc.a10 (outsAt0_B m c ⟨n + 1, h⟩ h0)) (ix3 0 0 0)).trans ?_
    refine (congrFun (out_B_10 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) (ms0_11 ⟨n + 1, h⟩) (hs0_11 ⟨n + 1, h⟩) (ms0_12 ⟨n + 1, h⟩) (hs0_12 ⟨n + 1, h⟩) (ms0_13 ⟨n + 1, h⟩) (hs0_13 ⟨n + 1, h⟩) (fun hh => h0 ((hcond0_0 ⟨n + 1, h⟩).mp hh)) (iblk m c 0 ⟨n + 1, h⟩) (iblk m c 1 ⟨n + 1, h⟩) (iblk m c 2 ⟨n + 1, h⟩) (outsAt0 m c n (Nat.lt_of_succ_lt h)).a3 (outsAt0 m c n (Nat.lt_of_succ_lt h)).a4 (outsAt0 m c n (Nat.lt_of_succ_lt h)).a5 (outsAt0 m c n (Nat.lt_of_succ_lt h)).a6 (outsAt0 m c n (Nat.lt_of_succ_lt h)).a7 (outsAt0 m c n (Nat.lt_of_succ_lt h)).a8 (outsAt0 m c n (Nat.lt_of_succ_lt h)).a9 (outsAt0 m c n (Nat.lt_of_succ_lt h)).a10 (outsAt0 m c n (Nat.lt_of_succ_lt h)).a11 (outsAt0 m c n (Nat.lt_of_succ_lt h)).a12 (outsAt0 m c n (Nat.lt_of_succ_lt h)).a13) (ix3 0 0 0)).trans ?_
    refine (acc34 _ _ (ix3 0 0 0)).trans ?_
    exact congrArg (fun x => (outsAt0 m c n (Nat.lt_of_succ_lt h)).a10 (ix3 0 0 0) + x) (pv_pos m c 7 (n + 1) h).symm

/-- Accumulator 8 after the point at position `n` is the running sum of the partial sums number 8. -/
theorem accAt_11 (c : Dev nD) (y : S1x1x1.Idx) : ∀ n (h : n < cfg0.N), (outsAt0 m c n h).a11 y = Cert.Yolo.Grid.run Cert.Yolo.z (pv m c 8) n := by
  rw [idx_unit y]
  refine run_of_steps Cert.Yolo.z (pv m c 8) (fun n h => (outsAt0 m c n h).a11 (ix3 0 0 0)) (fun n h h0 => ?_) (fun n h h0 => ?_)
  · refine (congrFun (congrArg Acc.a11 (outsAt0_A m c ⟨n, h⟩ h0)) (ix3 0 0 0)).trans ?_
    refine (congrFun (out_A_11 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) (ms0_8 ⟨n, h⟩) (hs0_8 ⟨n, h⟩) (ms0_9 ⟨n, h⟩) (hs0_9 ⟨n, h⟩) (ms0_10 ⟨n, h⟩) (hs0_10 ⟨n, h⟩) (ms0_11 ⟨n, h⟩) (hs0_11 ⟨n, h⟩) (ms0_12 ⟨n, h⟩) (hs0_12 ⟨n, h⟩) (ms0_13 ⟨n, h⟩) (hs0_13 ⟨n, h⟩) ((hcond0_0 ⟨n, h⟩).mpr h0) (iblk m c 0 ⟨n, h⟩) (iblk m c 1 ⟨n, h⟩) (iblk m c 2 ⟨n, h⟩)) (ix3 0 0 0)).trans ?_
    refine (acc35 _ _ (ix3 0 0 0)).trans ?_
    exact congrArg (fun x => Cert.Yolo.z + x) (pv_pos m c 8 n h).symm
  · refine (congrFun (congrArg Acc.a11 (outsAt0_B m c ⟨n + 1, h⟩ h0)) (ix3 0 0 0)).trans ?_
    refine (congrFun (out_B_11 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) (ms0_11 ⟨n + 1, h⟩) (hs0_11 ⟨n + 1, h⟩) (ms0_12 ⟨n + 1, h⟩) (hs0_12 ⟨n + 1, h⟩) (ms0_13 ⟨n + 1, h⟩) (hs0_13 ⟨n + 1, h⟩) (fun hh => h0 ((hcond0_0 ⟨n + 1, h⟩).mp hh)) (iblk m c 0 ⟨n + 1, h⟩) (iblk m c 1 ⟨n + 1, h⟩) (iblk m c 2 ⟨n + 1, h⟩) (outsAt0 m c n (Nat.lt_of_succ_lt h)).a3 (outsAt0 m c n (Nat.lt_of_succ_lt h)).a4 (outsAt0 m c n (Nat.lt_of_succ_lt h)).a5 (outsAt0 m c n (Nat.lt_of_succ_lt h)).a6 (outsAt0 m c n (Nat.lt_of_succ_lt h)).a7 (outsAt0 m c n (Nat.lt_of_succ_lt h)).a8 (outsAt0 m c n (Nat.lt_of_succ_lt h)).a9 (outsAt0 m c n (Nat.lt_of_succ_lt h)).a10 (outsAt0 m c n (Nat.lt_of_succ_lt h)).a11 (outsAt0 m c n (Nat.lt_of_succ_lt h)).a12 (outsAt0 m c n (Nat.lt_of_succ_lt h)).a13) (ix3 0 0 0)).trans ?_
    refine (acc35 _ _ (ix3 0 0 0)).trans ?_
    exact congrArg (fun x => (outsAt0 m c n (Nat.lt_of_succ_lt h)).a11 (ix3 0 0 0) + x) (pv_pos m c 8 (n + 1) h).symm

/-- Accumulator 9 after the point at position `n` is the running sum of the partial sums number 9. -/
theorem accAt_12 (c : Dev nD) (y : S1x1x1.Idx) : ∀ n (h : n < cfg0.N), (outsAt0 m c n h).a12 y = Cert.Yolo.Grid.run Cert.Yolo.z (pv m c 9) n := by
  rw [idx_unit y]
  refine run_of_steps Cert.Yolo.z (pv m c 9) (fun n h => (outsAt0 m c n h).a12 (ix3 0 0 0)) (fun n h h0 => ?_) (fun n h h0 => ?_)
  · refine (congrFun (congrArg Acc.a12 (outsAt0_A m c ⟨n, h⟩ h0)) (ix3 0 0 0)).trans ?_
    refine (congrFun (out_A_12 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) (ms0_8 ⟨n, h⟩) (hs0_8 ⟨n, h⟩) (ms0_9 ⟨n, h⟩) (hs0_9 ⟨n, h⟩) (ms0_10 ⟨n, h⟩) (hs0_10 ⟨n, h⟩) (ms0_11 ⟨n, h⟩) (hs0_11 ⟨n, h⟩) (ms0_12 ⟨n, h⟩) (hs0_12 ⟨n, h⟩) (ms0_13 ⟨n, h⟩) (hs0_13 ⟨n, h⟩) ((hcond0_0 ⟨n, h⟩).mpr h0) (iblk m c 0 ⟨n, h⟩) (iblk m c 1 ⟨n, h⟩) (iblk m c 2 ⟨n, h⟩)) (ix3 0 0 0)).trans ?_
    refine (acc36 _ _ (ix3 0 0 0)).trans ?_
    exact congrArg (fun x => Cert.Yolo.z + x) (pv_pos m c 9 n h).symm
  · refine (congrFun (congrArg Acc.a12 (outsAt0_B m c ⟨n + 1, h⟩ h0)) (ix3 0 0 0)).trans ?_
    refine (congrFun (out_B_12 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) (ms0_11 ⟨n + 1, h⟩) (hs0_11 ⟨n + 1, h⟩) (ms0_12 ⟨n + 1, h⟩) (hs0_12 ⟨n + 1, h⟩) (ms0_13 ⟨n + 1, h⟩) (hs0_13 ⟨n + 1, h⟩) (fun hh => h0 ((hcond0_0 ⟨n + 1, h⟩).mp hh)) (iblk m c 0 ⟨n + 1, h⟩) (iblk m c 1 ⟨n + 1, h⟩) (iblk m c 2 ⟨n + 1, h⟩) (outsAt0 m c n (Nat.lt_of_succ_lt h)).a3 (outsAt0 m c n (Nat.lt_of_succ_lt h)).a4 (outsAt0 m c n (Nat.lt_of_succ_lt h)).a5 (outsAt0 m c n (Nat.lt_of_succ_lt h)).a6 (outsAt0 m c n (Nat.lt_of_succ_lt h)).a7 (outsAt0 m c n (Nat.lt_of_succ_lt h)).a8 (outsAt0 m c n (Nat.lt_of_succ_lt h)).a9 (outsAt0 m c n (Nat.lt_of_succ_lt h)).a10 (outsAt0 m c n (Nat.lt_of_succ_lt h)).a11 (outsAt0 m c n (Nat.lt_of_succ_lt h)).a12 (outsAt0 m c n (Nat.lt_of_succ_lt h)).a13) (ix3 0 0 0)).trans ?_
    refine (acc36 _ _ (ix3 0 0 0)).trans ?_
    exact congrArg (fun x => (outsAt0 m c n (Nat.lt_of_succ_lt h)).a12 (ix3 0 0 0) + x) (pv_pos m c 9 (n + 1) h).symm

/-- Accumulator 10 after the point at position `n` is the running sum of the partial sums number 10. -/
theorem accAt_13 (c : Dev nD) (y : S1x1x1.Idx) : ∀ n (h : n < cfg0.N), (outsAt0 m c n h).a13 y = Cert.Yolo.Grid.run Cert.Yolo.z (pv m c 10) n := by
  rw [idx_unit y]
  refine run_of_steps Cert.Yolo.z (pv m c 10) (fun n h => (outsAt0 m c n h).a13 (ix3 0 0 0)) (fun n h h0 => ?_) (fun n h h0 => ?_)
  · refine (congrFun (congrArg Acc.a13 (outsAt0_A m c ⟨n, h⟩ h0)) (ix3 0 0 0)).trans ?_
    refine (congrFun (out_A_13 (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) (ms0_7 ⟨n, h⟩) (hs0_7 ⟨n, h⟩) (ms0_8 ⟨n, h⟩) (hs0_8 ⟨n, h⟩) (ms0_9 ⟨n, h⟩) (hs0_9 ⟨n, h⟩) (ms0_10 ⟨n, h⟩) (hs0_10 ⟨n, h⟩) (ms0_11 ⟨n, h⟩) (hs0_11 ⟨n, h⟩) (ms0_12 ⟨n, h⟩) (hs0_12 ⟨n, h⟩) (ms0_13 ⟨n, h⟩) (hs0_13 ⟨n, h⟩) ((hcond0_0 ⟨n, h⟩).mpr h0) (iblk m c 0 ⟨n, h⟩) (iblk m c 1 ⟨n, h⟩) (iblk m c 2 ⟨n, h⟩)) (ix3 0 0 0)).trans ?_
    refine (acc37 _ _ (ix3 0 0 0)).trans ?_
    exact congrArg (fun x => Cert.Yolo.z + x) (pv_pos m c 10 n h).symm
  · refine (congrFun (congrArg Acc.a13 (outsAt0_B m c ⟨n + 1, h⟩ h0)) (ix3 0 0 0)).trans ?_
    refine (congrFun (out_B_13 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) (ms0_7 ⟨n + 1, h⟩) (hs0_7 ⟨n + 1, h⟩) (ms0_8 ⟨n + 1, h⟩) (hs0_8 ⟨n + 1, h⟩) (ms0_9 ⟨n + 1, h⟩) (hs0_9 ⟨n + 1, h⟩) (ms0_10 ⟨n + 1, h⟩) (hs0_10 ⟨n + 1, h⟩) (ms0_11 ⟨n + 1, h⟩) (hs0_11 ⟨n + 1, h⟩) (ms0_12 ⟨n + 1, h⟩) (hs0_12 ⟨n + 1, h⟩) (ms0_13 ⟨n + 1, h⟩) (hs0_13 ⟨n + 1, h⟩) (fun hh => h0 ((hcond0_0 ⟨n + 1, h⟩).mp hh)) (iblk m c 0 ⟨n + 1, h⟩) (iblk m c 1 ⟨n + 1, h⟩) (iblk m c 2 ⟨n + 1, h⟩) (outsAt0 m c n (Nat.lt_of_succ_lt h)).a3 (outsAt0 m c n (Nat.lt_of_succ_lt h)).a4 (outsAt0 m c n (Nat.lt_of_succ_lt h)).a5 (outsAt0 m c n (Nat.lt_of_succ_lt h)).a6 (outsAt0 m c n (Nat.lt_of_succ_lt h)).a7 (outsAt0 m c n (Nat.lt_of_succ_lt h)).a8 (outsAt0 m c n (Nat.lt_of_succ_lt h)).a9 (outsAt0 m c n (Nat.lt_of_succ_lt h)).a10 (outsAt0 m c n (Nat.lt_of_succ_lt h)).a11 (outsAt0 m c n (Nat.lt_of_succ_lt h)).a12 (outsAt0 m c n (Nat.lt_of_succ_lt h)).a13) (ix3 0 0 0)).trans ?_
    refine (acc37 _ _ (ix3 0 0 0)).trans ?_
    exact congrArg (fun x => (outsAt0 m c n (Nat.lt_of_succ_lt h)).a13 (ix3 0 0 0) + x) (pv_pos m c 10 (n + 1) h).symm

/-! ## The result arrays after the region -/

/-! ### Result array 0 -/

/-- Window 3's block index at a point: the first grid coordinate. -/
theorem idxf3 : ∀ t : Fin cfg0.N, win0_3.index t 0 = t.val / 32 ∧ win0_3.index t 1 = 0 ∧ win0_3.index t 2 = 0 :=
  (by decide +kernel : ∀ t : Fin grid0.N, win0_3.index t 0 = t.val / 32 ∧ win0_3.index t 1 = 0 ∧ win0_3.index t 2 = 0)

/-- What a writing-back point writes to result array 0 is its block of `G`. -/
theorem flushed_3 (c : Dev nD) (t : Fin cfg0.N) (hf : (cfg0.win 3).flush t = true) :
    (dats m 0 c).flushed 3 t = ((cfg0.win 3).blk t).view.read (Elt Ideal) (G m c 0) := by
  have h31 : t.val % 32 = 31 := (flush0_3 t).mp hf
  show (cfg0.win 3).cut (grid0.coords t) ((dats m 0 c).after 3 t) = _
  rw [after0_3]
  funext y
  show (outsAt0 m c t.val t.isLt).a3 y = G m c 0 (((cfg0.win 3).blk t).view.emb y)
  have hy : (y 0).val < 1 := (y 0).isLt
  obtain ⟨e0, -, -⟩ := idxf3 t
  have e : ((((cfg0.win 3).blk t).view.emb y) 0).val = t.val / 32 := by
    show win0_3.index t 0 * 1 + 1 * (y 0).val = t.val / 32
    omega
  refine (accAt_3 m c y t.val t.isLt).trans ?_
  show _ = Cert.Yolo.z + ∑ k : Fin 32, pv m c 0 (32 * ((((cfg0.win 3).blk t).view.emb y) 0).val + k.val)
  rw [e, ← Cert.Yolo.Grid.run_last]
  congr 1
  omega

/-- An index of result array 0 lies in point `t`'s block iff its leading coordinate is the point's first grid coordinate. -/
theorem mem_blk3 (t : Fin cfg0.N) (i : S2x1x1.Idx) :
    i ∈ ((cfg0.win 3).blk t).view.set ↔ (i 0).val = t.val / 32 := by
  show i ∈ ((View.whole main_v0_0).slice (win0_3.rect t)).set ↔ _
  rw [View.set_slice_whole, Rect.mem_set_unit]
  have hi1 : (i 1).val < 1 := (i 1).isLt
  have hi2 : (i 2).val < 1 := (i 2).isLt
  obtain ⟨e0, e1, e2⟩ := idxf3 t
  refine ⟨fun h => ?_, fun h a => ?_⟩
  · have h0 : win0_3.index t 0 * 1 ≤ (i 0).val ∧ (i 0).val < win0_3.index t 0 * 1 + 1 := h 0
    omega
  · match a with
    | ⟨0, _⟩ => show win0_3.index t 0 * 1 ≤ (i 0).val ∧ (i 0).val < win0_3.index t 0 * 1 + 1; omega
    | ⟨1, _⟩ => show win0_3.index t 1 * 1 ≤ (i 1).val ∧ (i 1).val < win0_3.index t 1 * 1 + 1; omega
    | ⟨2, _⟩ => show win0_3.index t 2 * 1 ≤ (i 2).val ∧ (i 2).val < win0_3.index t 2 * 1 + 1; omega

/-- The two writing-back points' blocks cover result array 0. -/
theorem cover_3 (i : S2x1x1.Idx) : ∃ t : Fin cfg0.N, (cfg0.win 3).flush t = true ∧ i ∈ ((cfg0.win 3).blk t).view.set := by
  have hN : cfg0.N = 64 := N_0
  have hi : (i 0).val < 2 := (i 0).isLt
  refine ⟨⟨32 * (i 0).val + 31, by omega⟩, (flush0_3 _).mpr (by show (32 * (i 0).val + 31) % 32 = 31; omega), ?_⟩
  rw [mem_blk3]
  show (i 0).val = (32 * (i 0).val + 31) / 32
  omega

/-- So result array 0 ends holding `G`. -/
theorem final_3 (c : Dev nD) : (dats m 0 c).arrAt 3 cfg0.N = G m c 0 :=
  (dats m 0 c).arrAt_eq_of_cover 3 (G m c 0) (flushed_3 m c) cover_3

/-! ### Result array 1 -/

/-- Window 4's block index at a point: the first grid coordinate. -/
theorem idxf4 : ∀ t : Fin cfg0.N, win0_4.index t 0 = t.val / 32 ∧ win0_4.index t 1 = 0 ∧ win0_4.index t 2 = 0 :=
  (by decide +kernel : ∀ t : Fin grid0.N, win0_4.index t 0 = t.val / 32 ∧ win0_4.index t 1 = 0 ∧ win0_4.index t 2 = 0)

/-- What a writing-back point writes to result array 1 is its block of `G`. -/
theorem flushed_4 (c : Dev nD) (t : Fin cfg0.N) (hf : (cfg0.win 4).flush t = true) :
    (dats m 0 c).flushed 4 t = ((cfg0.win 4).blk t).view.read (Elt Ideal) (G m c 1) := by
  have h31 : t.val % 32 = 31 := (flush0_4 t).mp hf
  show (cfg0.win 4).cut (grid0.coords t) ((dats m 0 c).after 4 t) = _
  rw [after0_4]
  funext y
  show (outsAt0 m c t.val t.isLt).a4 y = G m c 1 (((cfg0.win 4).blk t).view.emb y)
  have hy : (y 0).val < 1 := (y 0).isLt
  obtain ⟨e0, -, -⟩ := idxf4 t
  have e : ((((cfg0.win 4).blk t).view.emb y) 0).val = t.val / 32 := by
    show win0_4.index t 0 * 1 + 1 * (y 0).val = t.val / 32
    omega
  refine (accAt_4 m c y t.val t.isLt).trans ?_
  show _ = Cert.Yolo.z + ∑ k : Fin 32, pv m c 1 (32 * ((((cfg0.win 4).blk t).view.emb y) 0).val + k.val)
  rw [e, ← Cert.Yolo.Grid.run_last]
  congr 1
  omega

/-- An index of result array 1 lies in point `t`'s block iff its leading coordinate is the point's first grid coordinate. -/
theorem mem_blk4 (t : Fin cfg0.N) (i : S2x1x1.Idx) :
    i ∈ ((cfg0.win 4).blk t).view.set ↔ (i 0).val = t.val / 32 := by
  show i ∈ ((View.whole main_v0_1).slice (win0_4.rect t)).set ↔ _
  rw [View.set_slice_whole, Rect.mem_set_unit]
  have hi1 : (i 1).val < 1 := (i 1).isLt
  have hi2 : (i 2).val < 1 := (i 2).isLt
  obtain ⟨e0, e1, e2⟩ := idxf4 t
  refine ⟨fun h => ?_, fun h a => ?_⟩
  · have h0 : win0_4.index t 0 * 1 ≤ (i 0).val ∧ (i 0).val < win0_4.index t 0 * 1 + 1 := h 0
    omega
  · match a with
    | ⟨0, _⟩ => show win0_4.index t 0 * 1 ≤ (i 0).val ∧ (i 0).val < win0_4.index t 0 * 1 + 1; omega
    | ⟨1, _⟩ => show win0_4.index t 1 * 1 ≤ (i 1).val ∧ (i 1).val < win0_4.index t 1 * 1 + 1; omega
    | ⟨2, _⟩ => show win0_4.index t 2 * 1 ≤ (i 2).val ∧ (i 2).val < win0_4.index t 2 * 1 + 1; omega

/-- The two writing-back points' blocks cover result array 1. -/
theorem cover_4 (i : S2x1x1.Idx) : ∃ t : Fin cfg0.N, (cfg0.win 4).flush t = true ∧ i ∈ ((cfg0.win 4).blk t).view.set := by
  have hN : cfg0.N = 64 := N_0
  have hi : (i 0).val < 2 := (i 0).isLt
  refine ⟨⟨32 * (i 0).val + 31, by omega⟩, (flush0_4 _).mpr (by show (32 * (i 0).val + 31) % 32 = 31; omega), ?_⟩
  rw [mem_blk4]
  show (i 0).val = (32 * (i 0).val + 31) / 32
  omega

/-- So result array 1 ends holding `G`. -/
theorem final_4 (c : Dev nD) : (dats m 0 c).arrAt 4 cfg0.N = G m c 1 :=
  (dats m 0 c).arrAt_eq_of_cover 4 (G m c 1) (flushed_4 m c) cover_4

/-! ### Result array 2 -/

/-- Window 5's block index at a point: the first grid coordinate. -/
theorem idxf5 : ∀ t : Fin cfg0.N, win0_5.index t 0 = t.val / 32 ∧ win0_5.index t 1 = 0 ∧ win0_5.index t 2 = 0 :=
  (by decide +kernel : ∀ t : Fin grid0.N, win0_5.index t 0 = t.val / 32 ∧ win0_5.index t 1 = 0 ∧ win0_5.index t 2 = 0)

/-- What a writing-back point writes to result array 2 is its block of `G`. -/
theorem flushed_5 (c : Dev nD) (t : Fin cfg0.N) (hf : (cfg0.win 5).flush t = true) :
    (dats m 0 c).flushed 5 t = ((cfg0.win 5).blk t).view.read (Elt Ideal) (G m c 2) := by
  have h31 : t.val % 32 = 31 := (flush0_5 t).mp hf
  show (cfg0.win 5).cut (grid0.coords t) ((dats m 0 c).after 5 t) = _
  rw [after0_5]
  funext y
  show (outsAt0 m c t.val t.isLt).a5 y = G m c 2 (((cfg0.win 5).blk t).view.emb y)
  have hy : (y 0).val < 1 := (y 0).isLt
  obtain ⟨e0, -, -⟩ := idxf5 t
  have e : ((((cfg0.win 5).blk t).view.emb y) 0).val = t.val / 32 := by
    show win0_5.index t 0 * 1 + 1 * (y 0).val = t.val / 32
    omega
  refine (accAt_5 m c y t.val t.isLt).trans ?_
  show _ = Cert.Yolo.z + ∑ k : Fin 32, pv m c 2 (32 * ((((cfg0.win 5).blk t).view.emb y) 0).val + k.val)
  rw [e, ← Cert.Yolo.Grid.run_last]
  congr 1
  omega

/-- An index of result array 2 lies in point `t`'s block iff its leading coordinate is the point's first grid coordinate. -/
theorem mem_blk5 (t : Fin cfg0.N) (i : S2x1x1.Idx) :
    i ∈ ((cfg0.win 5).blk t).view.set ↔ (i 0).val = t.val / 32 := by
  show i ∈ ((View.whole main_v0_2).slice (win0_5.rect t)).set ↔ _
  rw [View.set_slice_whole, Rect.mem_set_unit]
  have hi1 : (i 1).val < 1 := (i 1).isLt
  have hi2 : (i 2).val < 1 := (i 2).isLt
  obtain ⟨e0, e1, e2⟩ := idxf5 t
  refine ⟨fun h => ?_, fun h a => ?_⟩
  · have h0 : win0_5.index t 0 * 1 ≤ (i 0).val ∧ (i 0).val < win0_5.index t 0 * 1 + 1 := h 0
    omega
  · match a with
    | ⟨0, _⟩ => show win0_5.index t 0 * 1 ≤ (i 0).val ∧ (i 0).val < win0_5.index t 0 * 1 + 1; omega
    | ⟨1, _⟩ => show win0_5.index t 1 * 1 ≤ (i 1).val ∧ (i 1).val < win0_5.index t 1 * 1 + 1; omega
    | ⟨2, _⟩ => show win0_5.index t 2 * 1 ≤ (i 2).val ∧ (i 2).val < win0_5.index t 2 * 1 + 1; omega

/-- The two writing-back points' blocks cover result array 2. -/
theorem cover_5 (i : S2x1x1.Idx) : ∃ t : Fin cfg0.N, (cfg0.win 5).flush t = true ∧ i ∈ ((cfg0.win 5).blk t).view.set := by
  have hN : cfg0.N = 64 := N_0
  have hi : (i 0).val < 2 := (i 0).isLt
  refine ⟨⟨32 * (i 0).val + 31, by omega⟩, (flush0_5 _).mpr (by show (32 * (i 0).val + 31) % 32 = 31; omega), ?_⟩
  rw [mem_blk5]
  show (i 0).val = (32 * (i 0).val + 31) / 32
  omega

/-- So result array 2 ends holding `G`. -/
theorem final_5 (c : Dev nD) : (dats m 0 c).arrAt 5 cfg0.N = G m c 2 :=
  (dats m 0 c).arrAt_eq_of_cover 5 (G m c 2) (flushed_5 m c) cover_5

/-! ### Result array 3 -/

/-- Window 6's block index at a point: the first grid coordinate. -/
theorem idxf6 : ∀ t : Fin cfg0.N, win0_6.index t 0 = t.val / 32 ∧ win0_6.index t 1 = 0 ∧ win0_6.index t 2 = 0 :=
  (by decide +kernel : ∀ t : Fin grid0.N, win0_6.index t 0 = t.val / 32 ∧ win0_6.index t 1 = 0 ∧ win0_6.index t 2 = 0)

/-- What a writing-back point writes to result array 3 is its block of `G`. -/
theorem flushed_6 (c : Dev nD) (t : Fin cfg0.N) (hf : (cfg0.win 6).flush t = true) :
    (dats m 0 c).flushed 6 t = ((cfg0.win 6).blk t).view.read (Elt Ideal) (G m c 3) := by
  have h31 : t.val % 32 = 31 := (flush0_6 t).mp hf
  show (cfg0.win 6).cut (grid0.coords t) ((dats m 0 c).after 6 t) = _
  rw [after0_6]
  funext y
  show (outsAt0 m c t.val t.isLt).a6 y = G m c 3 (((cfg0.win 6).blk t).view.emb y)
  have hy : (y 0).val < 1 := (y 0).isLt
  obtain ⟨e0, -, -⟩ := idxf6 t
  have e : ((((cfg0.win 6).blk t).view.emb y) 0).val = t.val / 32 := by
    show win0_6.index t 0 * 1 + 1 * (y 0).val = t.val / 32
    omega
  refine (accAt_6 m c y t.val t.isLt).trans ?_
  show _ = Cert.Yolo.z + ∑ k : Fin 32, pv m c 3 (32 * ((((cfg0.win 6).blk t).view.emb y) 0).val + k.val)
  rw [e, ← Cert.Yolo.Grid.run_last]
  congr 1
  omega

/-- An index of result array 3 lies in point `t`'s block iff its leading coordinate is the point's first grid coordinate. -/
theorem mem_blk6 (t : Fin cfg0.N) (i : S2x1x1.Idx) :
    i ∈ ((cfg0.win 6).blk t).view.set ↔ (i 0).val = t.val / 32 := by
  show i ∈ ((View.whole main_v0_3).slice (win0_6.rect t)).set ↔ _
  rw [View.set_slice_whole, Rect.mem_set_unit]
  have hi1 : (i 1).val < 1 := (i 1).isLt
  have hi2 : (i 2).val < 1 := (i 2).isLt
  obtain ⟨e0, e1, e2⟩ := idxf6 t
  refine ⟨fun h => ?_, fun h a => ?_⟩
  · have h0 : win0_6.index t 0 * 1 ≤ (i 0).val ∧ (i 0).val < win0_6.index t 0 * 1 + 1 := h 0
    omega
  · match a with
    | ⟨0, _⟩ => show win0_6.index t 0 * 1 ≤ (i 0).val ∧ (i 0).val < win0_6.index t 0 * 1 + 1; omega
    | ⟨1, _⟩ => show win0_6.index t 1 * 1 ≤ (i 1).val ∧ (i 1).val < win0_6.index t 1 * 1 + 1; omega
    | ⟨2, _⟩ => show win0_6.index t 2 * 1 ≤ (i 2).val ∧ (i 2).val < win0_6.index t 2 * 1 + 1; omega

/-- The two writing-back points' blocks cover result array 3. -/
theorem cover_6 (i : S2x1x1.Idx) : ∃ t : Fin cfg0.N, (cfg0.win 6).flush t = true ∧ i ∈ ((cfg0.win 6).blk t).view.set := by
  have hN : cfg0.N = 64 := N_0
  have hi : (i 0).val < 2 := (i 0).isLt
  refine ⟨⟨32 * (i 0).val + 31, by omega⟩, (flush0_6 _).mpr (by show (32 * (i 0).val + 31) % 32 = 31; omega), ?_⟩
  rw [mem_blk6]
  show (i 0).val = (32 * (i 0).val + 31) / 32
  omega

/-- So result array 3 ends holding `G`. -/
theorem final_6 (c : Dev nD) : (dats m 0 c).arrAt 6 cfg0.N = G m c 3 :=
  (dats m 0 c).arrAt_eq_of_cover 6 (G m c 3) (flushed_6 m c) cover_6

/-! ### Result array 4 -/

/-- Window 7's block index at a point: the first grid coordinate. -/
theorem idxf7 : ∀ t : Fin cfg0.N, win0_7.index t 0 = t.val / 32 ∧ win0_7.index t 1 = 0 ∧ win0_7.index t 2 = 0 :=
  (by decide +kernel : ∀ t : Fin grid0.N, win0_7.index t 0 = t.val / 32 ∧ win0_7.index t 1 = 0 ∧ win0_7.index t 2 = 0)

/-- What a writing-back point writes to result array 4 is its block of `G`. -/
theorem flushed_7 (c : Dev nD) (t : Fin cfg0.N) (hf : (cfg0.win 7).flush t = true) :
    (dats m 0 c).flushed 7 t = ((cfg0.win 7).blk t).view.read (Elt Ideal) (G m c 4) := by
  have h31 : t.val % 32 = 31 := (flush0_7 t).mp hf
  show (cfg0.win 7).cut (grid0.coords t) ((dats m 0 c).after 7 t) = _
  rw [after0_7]
  funext y
  show (outsAt0 m c t.val t.isLt).a7 y = G m c 4 (((cfg0.win 7).blk t).view.emb y)
  have hy : (y 0).val < 1 := (y 0).isLt
  obtain ⟨e0, -, -⟩ := idxf7 t
  have e : ((((cfg0.win 7).blk t).view.emb y) 0).val = t.val / 32 := by
    show win0_7.index t 0 * 1 + 1 * (y 0).val = t.val / 32
    omega
  refine (accAt_7 m c y t.val t.isLt).trans ?_
  show _ = Cert.Yolo.z + ∑ k : Fin 32, pv m c 4 (32 * ((((cfg0.win 7).blk t).view.emb y) 0).val + k.val)
  rw [e, ← Cert.Yolo.Grid.run_last]
  congr 1
  omega

/-- An index of result array 4 lies in point `t`'s block iff its leading coordinate is the point's first grid coordinate. -/
theorem mem_blk7 (t : Fin cfg0.N) (i : S2x1x1.Idx) :
    i ∈ ((cfg0.win 7).blk t).view.set ↔ (i 0).val = t.val / 32 := by
  show i ∈ ((View.whole main_v0_4).slice (win0_7.rect t)).set ↔ _
  rw [View.set_slice_whole, Rect.mem_set_unit]
  have hi1 : (i 1).val < 1 := (i 1).isLt
  have hi2 : (i 2).val < 1 := (i 2).isLt
  obtain ⟨e0, e1, e2⟩ := idxf7 t
  refine ⟨fun h => ?_, fun h a => ?_⟩
  · have h0 : win0_7.index t 0 * 1 ≤ (i 0).val ∧ (i 0).val < win0_7.index t 0 * 1 + 1 := h 0
    omega
  · match a with
    | ⟨0, _⟩ => show win0_7.index t 0 * 1 ≤ (i 0).val ∧ (i 0).val < win0_7.index t 0 * 1 + 1; omega
    | ⟨1, _⟩ => show win0_7.index t 1 * 1 ≤ (i 1).val ∧ (i 1).val < win0_7.index t 1 * 1 + 1; omega
    | ⟨2, _⟩ => show win0_7.index t 2 * 1 ≤ (i 2).val ∧ (i 2).val < win0_7.index t 2 * 1 + 1; omega

/-- The two writing-back points' blocks cover result array 4. -/
theorem cover_7 (i : S2x1x1.Idx) : ∃ t : Fin cfg0.N, (cfg0.win 7).flush t = true ∧ i ∈ ((cfg0.win 7).blk t).view.set := by
  have hN : cfg0.N = 64 := N_0
  have hi : (i 0).val < 2 := (i 0).isLt
  refine ⟨⟨32 * (i 0).val + 31, by omega⟩, (flush0_7 _).mpr (by show (32 * (i 0).val + 31) % 32 = 31; omega), ?_⟩
  rw [mem_blk7]
  show (i 0).val = (32 * (i 0).val + 31) / 32
  omega

/-- So result array 4 ends holding `G`. -/
theorem final_7 (c : Dev nD) : (dats m 0 c).arrAt 7 cfg0.N = G m c 4 :=
  (dats m 0 c).arrAt_eq_of_cover 7 (G m c 4) (flushed_7 m c) cover_7

/-! ### Result array 5 -/

/-- Window 8's block index at a point: the first grid coordinate. -/
theorem idxf8 : ∀ t : Fin cfg0.N, win0_8.index t 0 = t.val / 32 ∧ win0_8.index t 1 = 0 ∧ win0_8.index t 2 = 0 :=
  (by decide +kernel : ∀ t : Fin grid0.N, win0_8.index t 0 = t.val / 32 ∧ win0_8.index t 1 = 0 ∧ win0_8.index t 2 = 0)

/-- What a writing-back point writes to result array 5 is its block of `G`. -/
theorem flushed_8 (c : Dev nD) (t : Fin cfg0.N) (hf : (cfg0.win 8).flush t = true) :
    (dats m 0 c).flushed 8 t = ((cfg0.win 8).blk t).view.read (Elt Ideal) (G m c 5) := by
  have h31 : t.val % 32 = 31 := (flush0_8 t).mp hf
  show (cfg0.win 8).cut (grid0.coords t) ((dats m 0 c).after 8 t) = _
  rw [after0_8]
  funext y
  show (outsAt0 m c t.val t.isLt).a8 y = G m c 5 (((cfg0.win 8).blk t).view.emb y)
  have hy : (y 0).val < 1 := (y 0).isLt
  obtain ⟨e0, -, -⟩ := idxf8 t
  have e : ((((cfg0.win 8).blk t).view.emb y) 0).val = t.val / 32 := by
    show win0_8.index t 0 * 1 + 1 * (y 0).val = t.val / 32
    omega
  refine (accAt_8 m c y t.val t.isLt).trans ?_
  show _ = Cert.Yolo.z + ∑ k : Fin 32, pv m c 5 (32 * ((((cfg0.win 8).blk t).view.emb y) 0).val + k.val)
  rw [e, ← Cert.Yolo.Grid.run_last]
  congr 1
  omega

/-- An index of result array 5 lies in point `t`'s block iff its leading coordinate is the point's first grid coordinate. -/
theorem mem_blk8 (t : Fin cfg0.N) (i : S2x1x1.Idx) :
    i ∈ ((cfg0.win 8).blk t).view.set ↔ (i 0).val = t.val / 32 := by
  show i ∈ ((View.whole main_v0_5).slice (win0_8.rect t)).set ↔ _
  rw [View.set_slice_whole, Rect.mem_set_unit]
  have hi1 : (i 1).val < 1 := (i 1).isLt
  have hi2 : (i 2).val < 1 := (i 2).isLt
  obtain ⟨e0, e1, e2⟩ := idxf8 t
  refine ⟨fun h => ?_, fun h a => ?_⟩
  · have h0 : win0_8.index t 0 * 1 ≤ (i 0).val ∧ (i 0).val < win0_8.index t 0 * 1 + 1 := h 0
    omega
  · match a with
    | ⟨0, _⟩ => show win0_8.index t 0 * 1 ≤ (i 0).val ∧ (i 0).val < win0_8.index t 0 * 1 + 1; omega
    | ⟨1, _⟩ => show win0_8.index t 1 * 1 ≤ (i 1).val ∧ (i 1).val < win0_8.index t 1 * 1 + 1; omega
    | ⟨2, _⟩ => show win0_8.index t 2 * 1 ≤ (i 2).val ∧ (i 2).val < win0_8.index t 2 * 1 + 1; omega

/-- The two writing-back points' blocks cover result array 5. -/
theorem cover_8 (i : S2x1x1.Idx) : ∃ t : Fin cfg0.N, (cfg0.win 8).flush t = true ∧ i ∈ ((cfg0.win 8).blk t).view.set := by
  have hN : cfg0.N = 64 := N_0
  have hi : (i 0).val < 2 := (i 0).isLt
  refine ⟨⟨32 * (i 0).val + 31, by omega⟩, (flush0_8 _).mpr (by show (32 * (i 0).val + 31) % 32 = 31; omega), ?_⟩
  rw [mem_blk8]
  show (i 0).val = (32 * (i 0).val + 31) / 32
  omega

/-- So result array 5 ends holding `G`. -/
theorem final_8 (c : Dev nD) : (dats m 0 c).arrAt 8 cfg0.N = G m c 5 :=
  (dats m 0 c).arrAt_eq_of_cover 8 (G m c 5) (flushed_8 m c) cover_8

/-! ### Result array 6 -/

/-- Window 9's block index at a point: the first grid coordinate. -/
theorem idxf9 : ∀ t : Fin cfg0.N, win0_9.index t 0 = t.val / 32 ∧ win0_9.index t 1 = 0 ∧ win0_9.index t 2 = 0 :=
  (by decide +kernel : ∀ t : Fin grid0.N, win0_9.index t 0 = t.val / 32 ∧ win0_9.index t 1 = 0 ∧ win0_9.index t 2 = 0)

/-- What a writing-back point writes to result array 6 is its block of `G`. -/
theorem flushed_9 (c : Dev nD) (t : Fin cfg0.N) (hf : (cfg0.win 9).flush t = true) :
    (dats m 0 c).flushed 9 t = ((cfg0.win 9).blk t).view.read (Elt Ideal) (G m c 6) := by
  have h31 : t.val % 32 = 31 := (flush0_9 t).mp hf
  show (cfg0.win 9).cut (grid0.coords t) ((dats m 0 c).after 9 t) = _
  rw [after0_9]
  funext y
  show (outsAt0 m c t.val t.isLt).a9 y = G m c 6 (((cfg0.win 9).blk t).view.emb y)
  have hy : (y 0).val < 1 := (y 0).isLt
  obtain ⟨e0, -, -⟩ := idxf9 t
  have e : ((((cfg0.win 9).blk t).view.emb y) 0).val = t.val / 32 := by
    show win0_9.index t 0 * 1 + 1 * (y 0).val = t.val / 32
    omega
  refine (accAt_9 m c y t.val t.isLt).trans ?_
  show _ = Cert.Yolo.z + ∑ k : Fin 32, pv m c 6 (32 * ((((cfg0.win 9).blk t).view.emb y) 0).val + k.val)
  rw [e, ← Cert.Yolo.Grid.run_last]
  congr 1
  omega

/-- An index of result array 6 lies in point `t`'s block iff its leading coordinate is the point's first grid coordinate. -/
theorem mem_blk9 (t : Fin cfg0.N) (i : S2x1x1.Idx) :
    i ∈ ((cfg0.win 9).blk t).view.set ↔ (i 0).val = t.val / 32 := by
  show i ∈ ((View.whole main_v0_6).slice (win0_9.rect t)).set ↔ _
  rw [View.set_slice_whole, Rect.mem_set_unit]
  have hi1 : (i 1).val < 1 := (i 1).isLt
  have hi2 : (i 2).val < 1 := (i 2).isLt
  obtain ⟨e0, e1, e2⟩ := idxf9 t
  refine ⟨fun h => ?_, fun h a => ?_⟩
  · have h0 : win0_9.index t 0 * 1 ≤ (i 0).val ∧ (i 0).val < win0_9.index t 0 * 1 + 1 := h 0
    omega
  · match a with
    | ⟨0, _⟩ => show win0_9.index t 0 * 1 ≤ (i 0).val ∧ (i 0).val < win0_9.index t 0 * 1 + 1; omega
    | ⟨1, _⟩ => show win0_9.index t 1 * 1 ≤ (i 1).val ∧ (i 1).val < win0_9.index t 1 * 1 + 1; omega
    | ⟨2, _⟩ => show win0_9.index t 2 * 1 ≤ (i 2).val ∧ (i 2).val < win0_9.index t 2 * 1 + 1; omega

/-- The two writing-back points' blocks cover result array 6. -/
theorem cover_9 (i : S2x1x1.Idx) : ∃ t : Fin cfg0.N, (cfg0.win 9).flush t = true ∧ i ∈ ((cfg0.win 9).blk t).view.set := by
  have hN : cfg0.N = 64 := N_0
  have hi : (i 0).val < 2 := (i 0).isLt
  refine ⟨⟨32 * (i 0).val + 31, by omega⟩, (flush0_9 _).mpr (by show (32 * (i 0).val + 31) % 32 = 31; omega), ?_⟩
  rw [mem_blk9]
  show (i 0).val = (32 * (i 0).val + 31) / 32
  omega

/-- So result array 6 ends holding `G`. -/
theorem final_9 (c : Dev nD) : (dats m 0 c).arrAt 9 cfg0.N = G m c 6 :=
  (dats m 0 c).arrAt_eq_of_cover 9 (G m c 6) (flushed_9 m c) cover_9

/-! ### Result array 7 -/

/-- Window 10's block index at a point: the first grid coordinate. -/
theorem idxf10 : ∀ t : Fin cfg0.N, win0_10.index t 0 = t.val / 32 ∧ win0_10.index t 1 = 0 ∧ win0_10.index t 2 = 0 :=
  (by decide +kernel : ∀ t : Fin grid0.N, win0_10.index t 0 = t.val / 32 ∧ win0_10.index t 1 = 0 ∧ win0_10.index t 2 = 0)

/-- What a writing-back point writes to result array 7 is its block of `G`. -/
theorem flushed_10 (c : Dev nD) (t : Fin cfg0.N) (hf : (cfg0.win 10).flush t = true) :
    (dats m 0 c).flushed 10 t = ((cfg0.win 10).blk t).view.read (Elt Ideal) (G m c 7) := by
  have h31 : t.val % 32 = 31 := (flush0_10 t).mp hf
  show (cfg0.win 10).cut (grid0.coords t) ((dats m 0 c).after 10 t) = _
  rw [after0_10]
  funext y
  show (outsAt0 m c t.val t.isLt).a10 y = G m c 7 (((cfg0.win 10).blk t).view.emb y)
  have hy : (y 0).val < 1 := (y 0).isLt
  obtain ⟨e0, -, -⟩ := idxf10 t
  have e : ((((cfg0.win 10).blk t).view.emb y) 0).val = t.val / 32 := by
    show win0_10.index t 0 * 1 + 1 * (y 0).val = t.val / 32
    omega
  refine (accAt_10 m c y t.val t.isLt).trans ?_
  show _ = Cert.Yolo.z + ∑ k : Fin 32, pv m c 7 (32 * ((((cfg0.win 10).blk t).view.emb y) 0).val + k.val)
  rw [e, ← Cert.Yolo.Grid.run_last]
  congr 1
  omega

/-- An index of result array 7 lies in point `t`'s block iff its leading coordinate is the point's first grid coordinate. -/
theorem mem_blk10 (t : Fin cfg0.N) (i : S2x1x1.Idx) :
    i ∈ ((cfg0.win 10).blk t).view.set ↔ (i 0).val = t.val / 32 := by
  show i ∈ ((View.whole main_v0_7).slice (win0_10.rect t)).set ↔ _
  rw [View.set_slice_whole, Rect.mem_set_unit]
  have hi1 : (i 1).val < 1 := (i 1).isLt
  have hi2 : (i 2).val < 1 := (i 2).isLt
  obtain ⟨e0, e1, e2⟩ := idxf10 t
  refine ⟨fun h => ?_, fun h a => ?_⟩
  · have h0 : win0_10.index t 0 * 1 ≤ (i 0).val ∧ (i 0).val < win0_10.index t 0 * 1 + 1 := h 0
    omega
  · match a with
    | ⟨0, _⟩ => show win0_10.index t 0 * 1 ≤ (i 0).val ∧ (i 0).val < win0_10.index t 0 * 1 + 1; omega
    | ⟨1, _⟩ => show win0_10.index t 1 * 1 ≤ (i 1).val ∧ (i 1).val < win0_10.index t 1 * 1 + 1; omega
    | ⟨2, _⟩ => show win0_10.index t 2 * 1 ≤ (i 2).val ∧ (i 2).val < win0_10.index t 2 * 1 + 1; omega

/-- The two writing-back points' blocks cover result array 7. -/
theorem cover_10 (i : S2x1x1.Idx) : ∃ t : Fin cfg0.N, (cfg0.win 10).flush t = true ∧ i ∈ ((cfg0.win 10).blk t).view.set := by
  have hN : cfg0.N = 64 := N_0
  have hi : (i 0).val < 2 := (i 0).isLt
  refine ⟨⟨32 * (i 0).val + 31, by omega⟩, (flush0_10 _).mpr (by show (32 * (i 0).val + 31) % 32 = 31; omega), ?_⟩
  rw [mem_blk10]
  show (i 0).val = (32 * (i 0).val + 31) / 32
  omega

/-- So result array 7 ends holding `G`. -/
theorem final_10 (c : Dev nD) : (dats m 0 c).arrAt 10 cfg0.N = G m c 7 :=
  (dats m 0 c).arrAt_eq_of_cover 10 (G m c 7) (flushed_10 m c) cover_10

/-! ### Result array 8 -/

/-- Window 11's block index at a point: the first grid coordinate. -/
theorem idxf11 : ∀ t : Fin cfg0.N, win0_11.index t 0 = t.val / 32 ∧ win0_11.index t 1 = 0 ∧ win0_11.index t 2 = 0 :=
  (by decide +kernel : ∀ t : Fin grid0.N, win0_11.index t 0 = t.val / 32 ∧ win0_11.index t 1 = 0 ∧ win0_11.index t 2 = 0)

/-- What a writing-back point writes to result array 8 is its block of `G`. -/
theorem flushed_11 (c : Dev nD) (t : Fin cfg0.N) (hf : (cfg0.win 11).flush t = true) :
    (dats m 0 c).flushed 11 t = ((cfg0.win 11).blk t).view.read (Elt Ideal) (G m c 8) := by
  have h31 : t.val % 32 = 31 := (flush0_11 t).mp hf
  show (cfg0.win 11).cut (grid0.coords t) ((dats m 0 c).after 11 t) = _
  rw [after0_11]
  funext y
  show (outsAt0 m c t.val t.isLt).a11 y = G m c 8 (((cfg0.win 11).blk t).view.emb y)
  have hy : (y 0).val < 1 := (y 0).isLt
  obtain ⟨e0, -, -⟩ := idxf11 t
  have e : ((((cfg0.win 11).blk t).view.emb y) 0).val = t.val / 32 := by
    show win0_11.index t 0 * 1 + 1 * (y 0).val = t.val / 32
    omega
  refine (accAt_11 m c y t.val t.isLt).trans ?_
  show _ = Cert.Yolo.z + ∑ k : Fin 32, pv m c 8 (32 * ((((cfg0.win 11).blk t).view.emb y) 0).val + k.val)
  rw [e, ← Cert.Yolo.Grid.run_last]
  congr 1
  omega

/-- An index of result array 8 lies in point `t`'s block iff its leading coordinate is the point's first grid coordinate. -/
theorem mem_blk11 (t : Fin cfg0.N) (i : S2x1x1.Idx) :
    i ∈ ((cfg0.win 11).blk t).view.set ↔ (i 0).val = t.val / 32 := by
  show i ∈ ((View.whole main_v0_8).slice (win0_11.rect t)).set ↔ _
  rw [View.set_slice_whole, Rect.mem_set_unit]
  have hi1 : (i 1).val < 1 := (i 1).isLt
  have hi2 : (i 2).val < 1 := (i 2).isLt
  obtain ⟨e0, e1, e2⟩ := idxf11 t
  refine ⟨fun h => ?_, fun h a => ?_⟩
  · have h0 : win0_11.index t 0 * 1 ≤ (i 0).val ∧ (i 0).val < win0_11.index t 0 * 1 + 1 := h 0
    omega
  · match a with
    | ⟨0, _⟩ => show win0_11.index t 0 * 1 ≤ (i 0).val ∧ (i 0).val < win0_11.index t 0 * 1 + 1; omega
    | ⟨1, _⟩ => show win0_11.index t 1 * 1 ≤ (i 1).val ∧ (i 1).val < win0_11.index t 1 * 1 + 1; omega
    | ⟨2, _⟩ => show win0_11.index t 2 * 1 ≤ (i 2).val ∧ (i 2).val < win0_11.index t 2 * 1 + 1; omega

/-- The two writing-back points' blocks cover result array 8. -/
theorem cover_11 (i : S2x1x1.Idx) : ∃ t : Fin cfg0.N, (cfg0.win 11).flush t = true ∧ i ∈ ((cfg0.win 11).blk t).view.set := by
  have hN : cfg0.N = 64 := N_0
  have hi : (i 0).val < 2 := (i 0).isLt
  refine ⟨⟨32 * (i 0).val + 31, by omega⟩, (flush0_11 _).mpr (by show (32 * (i 0).val + 31) % 32 = 31; omega), ?_⟩
  rw [mem_blk11]
  show (i 0).val = (32 * (i 0).val + 31) / 32
  omega

/-- So result array 8 ends holding `G`. -/
theorem final_11 (c : Dev nD) : (dats m 0 c).arrAt 11 cfg0.N = G m c 8 :=
  (dats m 0 c).arrAt_eq_of_cover 11 (G m c 8) (flushed_11 m c) cover_11

/-! ### Result array 9 -/

/-- Window 12's block index at a point: the first grid coordinate. -/
theorem idxf12 : ∀ t : Fin cfg0.N, win0_12.index t 0 = t.val / 32 ∧ win0_12.index t 1 = 0 ∧ win0_12.index t 2 = 0 :=
  (by decide +kernel : ∀ t : Fin grid0.N, win0_12.index t 0 = t.val / 32 ∧ win0_12.index t 1 = 0 ∧ win0_12.index t 2 = 0)

/-- What a writing-back point writes to result array 9 is its block of `G`. -/
theorem flushed_12 (c : Dev nD) (t : Fin cfg0.N) (hf : (cfg0.win 12).flush t = true) :
    (dats m 0 c).flushed 12 t = ((cfg0.win 12).blk t).view.read (Elt Ideal) (G m c 9) := by
  have h31 : t.val % 32 = 31 := (flush0_12 t).mp hf
  show (cfg0.win 12).cut (grid0.coords t) ((dats m 0 c).after 12 t) = _
  rw [after0_12]
  funext y
  show (outsAt0 m c t.val t.isLt).a12 y = G m c 9 (((cfg0.win 12).blk t).view.emb y)
  have hy : (y 0).val < 1 := (y 0).isLt
  obtain ⟨e0, -, -⟩ := idxf12 t
  have e : ((((cfg0.win 12).blk t).view.emb y) 0).val = t.val / 32 := by
    show win0_12.index t 0 * 1 + 1 * (y 0).val = t.val / 32
    omega
  refine (accAt_12 m c y t.val t.isLt).trans ?_
  show _ = Cert.Yolo.z + ∑ k : Fin 32, pv m c 9 (32 * ((((cfg0.win 12).blk t).view.emb y) 0).val + k.val)
  rw [e, ← Cert.Yolo.Grid.run_last]
  congr 1
  omega

/-- An index of result array 9 lies in point `t`'s block iff its leading coordinate is the point's first grid coordinate. -/
theorem mem_blk12 (t : Fin cfg0.N) (i : S2x1x1.Idx) :
    i ∈ ((cfg0.win 12).blk t).view.set ↔ (i 0).val = t.val / 32 := by
  show i ∈ ((View.whole main_v0_9).slice (win0_12.rect t)).set ↔ _
  rw [View.set_slice_whole, Rect.mem_set_unit]
  have hi1 : (i 1).val < 1 := (i 1).isLt
  have hi2 : (i 2).val < 1 := (i 2).isLt
  obtain ⟨e0, e1, e2⟩ := idxf12 t
  refine ⟨fun h => ?_, fun h a => ?_⟩
  · have h0 : win0_12.index t 0 * 1 ≤ (i 0).val ∧ (i 0).val < win0_12.index t 0 * 1 + 1 := h 0
    omega
  · match a with
    | ⟨0, _⟩ => show win0_12.index t 0 * 1 ≤ (i 0).val ∧ (i 0).val < win0_12.index t 0 * 1 + 1; omega
    | ⟨1, _⟩ => show win0_12.index t 1 * 1 ≤ (i 1).val ∧ (i 1).val < win0_12.index t 1 * 1 + 1; omega
    | ⟨2, _⟩ => show win0_12.index t 2 * 1 ≤ (i 2).val ∧ (i 2).val < win0_12.index t 2 * 1 + 1; omega

/-- The two writing-back points' blocks cover result array 9. -/
theorem cover_12 (i : S2x1x1.Idx) : ∃ t : Fin cfg0.N, (cfg0.win 12).flush t = true ∧ i ∈ ((cfg0.win 12).blk t).view.set := by
  have hN : cfg0.N = 64 := N_0
  have hi : (i 0).val < 2 := (i 0).isLt
  refine ⟨⟨32 * (i 0).val + 31, by omega⟩, (flush0_12 _).mpr (by show (32 * (i 0).val + 31) % 32 = 31; omega), ?_⟩
  rw [mem_blk12]
  show (i 0).val = (32 * (i 0).val + 31) / 32
  omega

/-- So result array 9 ends holding `G`. -/
theorem final_12 (c : Dev nD) : (dats m 0 c).arrAt 12 cfg0.N = G m c 9 :=
  (dats m 0 c).arrAt_eq_of_cover 12 (G m c 9) (flushed_12 m c) cover_12

/-! ### Result array 10 -/

/-- Window 13's block index at a point: the first grid coordinate. -/
theorem idxf13 : ∀ t : Fin cfg0.N, win0_13.index t 0 = t.val / 32 ∧ win0_13.index t 1 = 0 ∧ win0_13.index t 2 = 0 :=
  (by decide +kernel : ∀ t : Fin grid0.N, win0_13.index t 0 = t.val / 32 ∧ win0_13.index t 1 = 0 ∧ win0_13.index t 2 = 0)

/-- What a writing-back point writes to result array 10 is its block of `G`. -/
theorem flushed_13 (c : Dev nD) (t : Fin cfg0.N) (hf : (cfg0.win 13).flush t = true) :
    (dats m 0 c).flushed 13 t = ((cfg0.win 13).blk t).view.read (Elt Ideal) (G m c 10) := by
  have h31 : t.val % 32 = 31 := (flush0_13 t).mp hf
  show (cfg0.win 13).cut (grid0.coords t) ((dats m 0 c).after 13 t) = _
  rw [after0_13]
  funext y
  show (outsAt0 m c t.val t.isLt).a13 y = G m c 10 (((cfg0.win 13).blk t).view.emb y)
  have hy : (y 0).val < 1 := (y 0).isLt
  obtain ⟨e0, -, -⟩ := idxf13 t
  have e : ((((cfg0.win 13).blk t).view.emb y) 0).val = t.val / 32 := by
    show win0_13.index t 0 * 1 + 1 * (y 0).val = t.val / 32
    omega
  refine (accAt_13 m c y t.val t.isLt).trans ?_
  show _ = Cert.Yolo.z + ∑ k : Fin 32, pv m c 10 (32 * ((((cfg0.win 13).blk t).view.emb y) 0).val + k.val)
  rw [e, ← Cert.Yolo.Grid.run_last]
  congr 1
  omega

/-- An index of result array 10 lies in point `t`'s block iff its leading coordinate is the point's first grid coordinate. -/
theorem mem_blk13 (t : Fin cfg0.N) (i : S2x1x1.Idx) :
    i ∈ ((cfg0.win 13).blk t).view.set ↔ (i 0).val = t.val / 32 := by
  show i ∈ ((View.whole main_v0_10).slice (win0_13.rect t)).set ↔ _
  rw [View.set_slice_whole, Rect.mem_set_unit]
  have hi1 : (i 1).val < 1 := (i 1).isLt
  have hi2 : (i 2).val < 1 := (i 2).isLt
  obtain ⟨e0, e1, e2⟩ := idxf13 t
  refine ⟨fun h => ?_, fun h a => ?_⟩
  · have h0 : win0_13.index t 0 * 1 ≤ (i 0).val ∧ (i 0).val < win0_13.index t 0 * 1 + 1 := h 0
    omega
  · match a with
    | ⟨0, _⟩ => show win0_13.index t 0 * 1 ≤ (i 0).val ∧ (i 0).val < win0_13.index t 0 * 1 + 1; omega
    | ⟨1, _⟩ => show win0_13.index t 1 * 1 ≤ (i 1).val ∧ (i 1).val < win0_13.index t 1 * 1 + 1; omega
    | ⟨2, _⟩ => show win0_13.index t 2 * 1 ≤ (i 2).val ∧ (i 2).val < win0_13.index t 2 * 1 + 1; omega

/-- The two writing-back points' blocks cover result array 10. -/
theorem cover_13 (i : S2x1x1.Idx) : ∃ t : Fin cfg0.N, (cfg0.win 13).flush t = true ∧ i ∈ ((cfg0.win 13).blk t).view.set := by
  have hN : cfg0.N = 64 := N_0
  have hi : (i 0).val < 2 := (i 0).isLt
  refine ⟨⟨32 * (i 0).val + 31, by omega⟩, (flush0_13 _).mpr (by show (32 * (i 0).val + 31) % 32 = 31; omega), ?_⟩
  rw [mem_blk13]
  show (i 0).val = (32 * (i 0).val + 31) / 32
  omega

/-- So result array 10 ends holding `G`. -/
theorem final_13 (c : Dev nD) : (dats m 0 c).arrAt 13 cfg0.N = G m c 10 :=
  (dats m 0 c).arrAt_eq_of_cover 13 (G m c 10) (flushed_13 m c) cover_13

/-! ## The eleven totals the host lines take -/

/-- The eleven totals of the result arrays after the region are the eleven totals of the loss. -/
theorem sums_eq (c : Dev nD) :
    sums (Pipeline.withArrays spec0 c (V0 m c) (fun w => (dats m 0 c).arrAt w cfg0.N))
      = fun w => Cert.Yolo.total w (m (c.tc.loc main_arg0)) (m (c.tc.loc main_arg1)) (m (c.tc.loc main_arg2)) := by
  funext w
  match w with
  | ⟨0, _⟩ =>
    show tot (Pipeline.withArrays spec0 c (V0 m c) (fun w => (dats m 0 c).arrAt w cfg0.N) (Proc.devRef .tc (Pipeline.arrRef spec0 (3 : Fin 14)))) = _
    rw [Pipeline.withArrays_arr spec0 launch0.win.arr_inj c _ _ (3 : Fin 14), final_3 m c]
    exact total_of_points m c 0
  | ⟨1, _⟩ =>
    show tot (Pipeline.withArrays spec0 c (V0 m c) (fun w => (dats m 0 c).arrAt w cfg0.N) (Proc.devRef .tc (Pipeline.arrRef spec0 (4 : Fin 14)))) = _
    rw [Pipeline.withArrays_arr spec0 launch0.win.arr_inj c _ _ (4 : Fin 14), final_4 m c]
    exact total_of_points m c 1
  | ⟨2, _⟩ =>
    show tot (Pipeline.withArrays spec0 c (V0 m c) (fun w => (dats m 0 c).arrAt w cfg0.N) (Proc.devRef .tc (Pipeline.arrRef spec0 (5 : Fin 14)))) = _
    rw [Pipeline.withArrays_arr spec0 launch0.win.arr_inj c _ _ (5 : Fin 14), final_5 m c]
    exact total_of_points m c 2
  | ⟨3, _⟩ =>
    show tot (Pipeline.withArrays spec0 c (V0 m c) (fun w => (dats m 0 c).arrAt w cfg0.N) (Proc.devRef .tc (Pipeline.arrRef spec0 (6 : Fin 14)))) = _
    rw [Pipeline.withArrays_arr spec0 launch0.win.arr_inj c _ _ (6 : Fin 14), final_6 m c]
    exact total_of_points m c 3
  | ⟨4, _⟩ =>
    show tot (Pipeline.withArrays spec0 c (V0 m c) (fun w => (dats m 0 c).arrAt w cfg0.N) (Proc.devRef .tc (Pipeline.arrRef spec0 (7 : Fin 14)))) = _
    rw [Pipeline.withArrays_arr spec0 launch0.win.arr_inj c _ _ (7 : Fin 14), final_7 m c]
    exact total_of_points m c 4
  | ⟨5, _⟩ =>
    show tot (Pipeline.withArrays spec0 c (V0 m c) (fun w => (dats m 0 c).arrAt w cfg0.N) (Proc.devRef .tc (Pipeline.arrRef spec0 (8 : Fin 14)))) = _
    rw [Pipeline.withArrays_arr spec0 launch0.win.arr_inj c _ _ (8 : Fin 14), final_8 m c]
    exact total_of_points m c 5
  | ⟨6, _⟩ =>
    show tot (Pipeline.withArrays spec0 c (V0 m c) (fun w => (dats m 0 c).arrAt w cfg0.N) (Proc.devRef .tc (Pipeline.arrRef spec0 (9 : Fin 14)))) = _
    rw [Pipeline.withArrays_arr spec0 launch0.win.arr_inj c _ _ (9 : Fin 14), final_9 m c]
    exact total_of_points m c 6
  | ⟨7, _⟩ =>
    show tot (Pipeline.withArrays spec0 c (V0 m c) (fun w => (dats m 0 c).arrAt w cfg0.N) (Proc.devRef .tc (Pipeline.arrRef spec0 (10 : Fin 14)))) = _
    rw [Pipeline.withArrays_arr spec0 launch0.win.arr_inj c _ _ (10 : Fin 14), final_10 m c]
    exact total_of_points m c 7
  | ⟨8, _⟩ =>
    show tot (Pipeline.withArrays spec0 c (V0 m c) (fun w => (dats m 0 c).arrAt w cfg0.N) (Proc.devRef .tc (Pipeline.arrRef spec0 (11 : Fin 14)))) = _
    rw [Pipeline.withArrays_arr spec0 launch0.win.arr_inj c _ _ (11 : Fin 14), final_11 m c]
    exact total_of_points m c 8
  | ⟨9, _⟩ =>
    show tot (Pipeline.withArrays spec0 c (V0 m c) (fun w => (dats m 0 c).arrAt w cfg0.N) (Proc.devRef .tc (Pipeline.arrRef spec0 (12 : Fin 14)))) = _
    rw [Pipeline.withArrays_arr spec0 launch0.win.arr_inj c _ _ (12 : Fin 14), final_12 m c]
    exact total_of_points m c 9
  | ⟨10, _⟩ =>
    show tot (Pipeline.withArrays spec0 c (V0 m c) (fun w => (dats m 0 c).arrAt w cfg0.N) (Proc.devRef .tc (Pipeline.arrRef spec0 (13 : Fin 14)))) = _
    rw [Pipeline.withArrays_arr spec0 launch0.win.arr_inj c _ _ (13 : Fin 14), final_13 m c]
    exact total_of_points m c 10
  | ⟨_ + 11, h⟩ => exact absurd h (by omega)

/-! ## The run -/

/-- Result 0 of the program after the run. -/
theorem res41 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread Cert.KernelIdeal.nD Cert.KernelIdeal.τ).loc Cert.KernelIdeal.main_v41)
      = (fun _ => Cert.Yolo.result 0 (m (c.tc.loc main_arg0)) (m (c.tc.loc main_arg1)) (m (c.tc.loc main_arg2))) := by
  refine ((h c).2 main_v41 (Pipeline.mem_restRefs_of main_v41 (by decide) (by decide))).trans ?_
  unfold Pipeline.afterTail₀
  show StableHlo.after hostOps1 _ (Proc.devRef .tc main_v41) = _
  rw [tail41, sums_eq m c]
  rfl

/-- Result 1 of the program after the run. -/
theorem res42 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread Cert.KernelIdeal.nD Cert.KernelIdeal.τ).loc Cert.KernelIdeal.main_v42)
      = (fun _ => Cert.Yolo.result 1 (m (c.tc.loc main_arg0)) (m (c.tc.loc main_arg1)) (m (c.tc.loc main_arg2))) := by
  refine ((h c).2 main_v42 (Pipeline.mem_restRefs_of main_v42 (by decide) (by decide))).trans ?_
  unfold Pipeline.afterTail₀
  show StableHlo.after hostOps1 _ (Proc.devRef .tc main_v42) = _
  rw [tail42, sums_eq m c]
  rfl

/-- Result 2 of the program after the run. -/
theorem res43 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread Cert.KernelIdeal.nD Cert.KernelIdeal.τ).loc Cert.KernelIdeal.main_v43)
      = (fun _ => Cert.Yolo.result 2 (m (c.tc.loc main_arg0)) (m (c.tc.loc main_arg1)) (m (c.tc.loc main_arg2))) := by
  refine ((h c).2 main_v43 (Pipeline.mem_restRefs_of main_v43 (by decide) (by decide))).trans ?_
  unfold Pipeline.afterTail₀
  show StableHlo.after hostOps1 _ (Proc.devRef .tc main_v43) = _
  rw [tail43, sums_eq m c]
  rfl

/-- Result 3 of the program after the run. -/
theorem res45 (r : PUnit × MemSt nD τ sig (Elt Ideal))
    (h : Pipeline.FramePost cfgs (dats m) 0 (Pipeline.afterTail₀ cfgs (dats m) 0 (V0 m) [hostOps1]) r) (c : Dev nD) :
    r.2.mem ((c.tc : Thread Cert.KernelIdeal.nD Cert.KernelIdeal.τ).loc Cert.KernelIdeal.main_v45)
      = (fun _ => Cert.Yolo.result 3 (m (c.tc.loc main_arg0)) (m (c.tc.loc main_arg1)) (m (c.tc.loc main_arg2))) := by
  refine ((h c).2 main_v45 (Pipeline.mem_restRefs_of main_v45 (by decide) (by decide))).trans ?_
  unfold Pipeline.afterTail₀
  show StableHlo.after hostOps1 _ (Proc.devRef .tc main_v45) = _
  rw [tail45, sums_eq m c]
  rfl

/-- THE KERNEL'S RUN, READ: every weakly fair execution of @main from any memory with zero counters terminates
    with the four results at the four quotients of the loss of the three argument arrays, and the arguments
    unchanged. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
        r.2.mem ((c.tc : Thread Cert.KernelIdeal.nD Cert.KernelIdeal.τ).loc Cert.KernelIdeal.main_v41) = (fun _ => Cert.Yolo.result 0 (m (c.tc.loc main_arg0)) (m (c.tc.loc main_arg1)) (m (c.tc.loc main_arg2)))
      ∧ r.2.mem ((c.tc : Thread Cert.KernelIdeal.nD Cert.KernelIdeal.τ).loc Cert.KernelIdeal.main_v42) = (fun _ => Cert.Yolo.result 1 (m (c.tc.loc main_arg0)) (m (c.tc.loc main_arg1)) (m (c.tc.loc main_arg2)))
      ∧ r.2.mem ((c.tc : Thread Cert.KernelIdeal.nD Cert.KernelIdeal.τ).loc Cert.KernelIdeal.main_v43) = (fun _ => Cert.Yolo.result 2 (m (c.tc.loc main_arg0)) (m (c.tc.loc main_arg1)) (m (c.tc.loc main_arg2)))
      ∧ r.2.mem ((c.tc : Thread Cert.KernelIdeal.nD Cert.KernelIdeal.τ).loc Cert.KernelIdeal.main_v45) = (fun _ => Cert.Yolo.result 3 (m (c.tc.loc main_arg0)) (m (c.tc.loc main_arg1)) (m (c.tc.loc main_arg2)))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run defs _ _).mono (fun r h c => ⟨res41 m r h c, res42 m r h c, res43 m r h c, res45 m r h c,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.KernelIdeal.KV

end
-- ==== Proof.RefCells.lean ====
import proofs.«100404_j84018150244766_2_alg».proof.Proof.Gen.ReferenceIdeal.Read
import proofs.«100404_j84018150244766_2_alg».proof.Proof.Spec
import proofs.«100404_j84018150244766_2_alg».proof.Proof.RefLib

open scoped BigOperators
open Cert.ReferenceIdeal Cert.ReferenceIdeal.Read Idealize.ShloMosaic Idealize.ShloMosaic.ValueIdx

namespace Cert.Yolo.Ref

variable (x0 x1 : (⟨S8192x7x7x30, .f32⟩ : BufTy).Contents (Elt Ideal)) (x2 : (⟨S8192x7x7, .i32⟩ : BufTy).Contents (Elt Ideal))

/-! ## The coin-flipped confidences, cell by cell -/

theorem v1_cell (b : Fin 8192) (i j : Fin 7) : val_main_v1 (F := Ideal) x1 (ix3 b i j) = x1 (ix4 b i j 4) := by
  unfold val_main_v1 val_main_v0
  exact slice1_cast_apply 4 (by decide) x1 _ _ b i j

theorem v9_cell (b : Fin 8192) (i j : Fin 7) : val_main_v9 (F := Ideal) x1 (ix3 b i j) = x1 (ix4 b i j 4) := by
  unfold val_main_v9 val_main_v8
  exact slice1_cast_apply 4 (by decide) x1 _ _ b i j

theorem v13_cell (b : Fin 8192) (i j : Fin 7) : val_main_v13 (F := Ideal) x1 (ix3 b i j) = x1 (ix4 b i j 9) := by
  unfold val_main_v13 val_main_v12
  exact slice1_cast_apply 9 (by decide) x1 _ _ b i j

theorem v3_cell (b : Fin 8192) (i j : Fin 7) : val_main_v3 (F := Ideal) x1 (ix3 b i j) = gt0 (x1 (ix4 b i j 4)) := by
  rw [val_main_v3_apply, v1_cell, val_main_v2_apply, val_main_cst_apply]
  rfl

theorem v5_cell (q : S8192x7x7.Idx) : val_main_v5 (F := Ideal) x2 q = coinB (x2 q) := by
  rw [val_main_v5_apply, val_main_v4_apply, val_main_c_apply]
  rfl

theorem v10_cell (b : Fin 8192) (i j : Fin 7) :
    val_main_v10 (F := Ideal) x1 x2 (ix3 b i j) = t4n (x1 (ix4 b i j 4)) (x2 (ix3 b i j)) := by
  rw [val_main_v10_apply, val_main_v7_apply, val_main_v6_apply, v3_cell, v5_cell, val_main_call0_v1_apply,
    val_main_call0_v0_apply, val_main_cst_0_apply, v9_cell, not_eq_xor_one]
  rfl

theorem v14_cell (b : Fin 8192) (i j : Fin 7) :
    val_main_v14 (F := Ideal) x1 x2 (ix3 b i j) = t9n (x1 (ix4 b i j 4)) (x1 (ix4 b i j 9)) (x2 (ix3 b i j)) := by
  rw [val_main_v14_apply, val_main_v11_apply, v3_cell, v5_cell, val_main_call1_v1_apply,
    val_main_call1_v0_apply, val_main_cst_1_apply, v13_cell]
  rfl

/-- The target after the two confidences are written back. -/
theorem v18_cell (b : Fin 8192) (i j : Fin 7) (k : Fin 30) :
    val_main_v18 (F := Ideal) x1 x2 (ix4 b i j k)
      = if k = 9 then t9n (x1 (ix4 b i j 4)) (x1 (ix4 b i j 9)) (x2 (ix3 b i j))
        else if k = 4 then t4n (x1 (ix4 b i j 4)) (x2 (ix3 b i j)) else x1 (ix4 b i j k) := by
  have h15 : ∀ q, ((val_main_v15 (F := Ideal)) q).toInt = ((4 : Fin 30).val : Int) := by
    intro q; rw [val_main_v15_apply, val_main_c_2_apply]; decide
  have h17 : ∀ q, ((val_main_v17 (F := Ideal)) q).toInt = ((9 : Fin 30).val : Int) := by
    intro q; rw [val_main_v17_apply, val_main_c_3_apply]; decide
  unfold val_main_v18
  rw [scatter_chan _ rfl rfl rfl 9 _ _ h17 _ b i j k]
  unfold val_main_v16
  rw [scatter_chan _ rfl rfl rfl 4 _ _ h15 _ b i j k, v10_cell, v14_cell]

theorem v18_four (b : Fin 8192) (i j : Fin 7) (k : Fin 30) (hk : k.val = 4) :
    val_main_v18 (F := Ideal) x1 x2 (ix4 b i j k) = t4n (x1 (ix4 b i j 4)) (x2 (ix3 b i j)) := by
  obtain rfl : k = 4 := Fin.ext hk
  rw [v18_cell, if_neg (by decide), if_pos rfl]

theorem v18_nine (b : Fin 8192) (i j : Fin 7) (k : Fin 30) (hk : k.val = 9) :
    val_main_v18 (F := Ideal) x1 x2 (ix4 b i j k) = t9n (x1 (ix4 b i j 4)) (x1 (ix4 b i j 9)) (x2 (ix3 b i j)) := by
  obtain rfl : k = 9 := Fin.ext hk
  rw [v18_cell, if_pos rfl]

theorem v18_other (b : Fin 8192) (i j : Fin 7) (k : Fin 30) (h4 : k.val ≠ 4) (h9 : k.val ≠ 9) :
    val_main_v18 (F := Ideal) x1 x2 (ix4 b i j k) = x1 (ix4 b i j k) := by
  rw [v18_cell, if_neg (fun e => h9 (by rw [e]; rfl)), if_neg (fun e => h4 (by rw [e]; rfl))]

/-! ## The three masks, cell by cell -/

theorem v20_cell (b : Fin 8192) (i j : Fin 7) :
    val_main_v20 (F := Ideal) x1 x2 (ix3 b i j) = t4n (x1 (ix4 b i j 4)) (x2 (ix3 b i j)) := by
  unfold val_main_v20 val_main_v19
  rw [slice1_cast_apply 4 (by decide) (val_main_v18 (F := Ideal) x1 x2) _ _ b i j, v18_four x1 x2 b i j _ rfl]

theorem v25_cell (b : Fin 8192) (i j : Fin 7) :
    val_main_v25 (F := Ideal) x1 x2 (ix3 b i j) = t9n (x1 (ix4 b i j 4)) (x1 (ix4 b i j 9)) (x2 (ix3 b i j)) := by
  unfold val_main_v25 val_main_v24
  rw [slice1_cast_apply 9 (by decide) (val_main_v18 (F := Ideal) x1 x2) _ _ b i j, v18_nine x1 x2 b i j _ rfl]

theorem v30_cell (b : Fin 8192) (i j : Fin 7) :
    val_main_v30 (F := Ideal) x1 x2 (ix3 b i j) = t4n (x1 (ix4 b i j 4)) (x2 (ix3 b i j)) := by
  unfold val_main_v30 val_main_v29
  rw [slice1_cast_apply 4 (by decide) (val_main_v18 (F := Ideal) x1 x2) _ _ b i j, v18_four x1 x2 b i j _ rfl]

theorem v34_cell (b : Fin 8192) (i j : Fin 7) :
    val_main_v34 (F := Ideal) x1 x2 (ix3 b i j) = t9n (x1 (ix4 b i j 4)) (x1 (ix4 b i j 9)) (x2 (ix3 b i j)) := by
  unfold val_main_v34 val_main_v33
  rw [slice1_cast_apply 9 (by decide) (val_main_v18 (F := Ideal) x1 x2) _ _ b i j, v18_nine x1 x2 b i j _ rfl]

theorem v23_cell (b : Fin 8192) (i j : Fin 7) :
    val_main_v23 (F := Ideal) x1 x2 (ix3 b i j) = m1 (x1 (ix4 b i j 4)) (x2 (ix3 b i j)) := by
  rw [val_main_v23_apply, val_main_v22_apply, v20_cell, val_main_v21_apply, val_main_cst_4_apply]
  rfl

theorem v28_cell (b : Fin 8192) (i j : Fin 7) :
    val_main_v28 (F := Ideal) x1 x2 (ix3 b i j) = m2 (x1 (ix4 b i j 4)) (x1 (ix4 b i j 9)) (x2 (ix3 b i j)) := by
  rw [val_main_v28_apply, val_main_v27_apply, v25_cell, val_main_v26_apply, val_main_cst_5_apply]
  rfl

theorem v38_cell (b : Fin 8192) (i j : Fin 7) :
    val_main_v38 (F := Ideal) x1 x2 (ix3 b i j) = mno (x1 (ix4 b i j 4)) (x1 (ix4 b i j 9)) (x2 (ix3 b i j)) := by
  rw [val_main_v38_apply, val_main_v37_apply, val_main_v32_apply, val_main_v36_apply, v30_cell, v34_cell,
    val_main_v31_apply, val_main_cst_6_apply, val_main_v35_apply, val_main_cst_7_apply]
  rfl

theorem v23_bit (b : Fin 8192) (i j : Fin 7) : ∃ bit : BitVec 1, val_main_v23 (F := Ideal) x1 x2 (ix3 b i j) = bitR bit :=
  ⟨_, v23_cell x1 x2 b i j⟩
theorem v28_bit (b : Fin 8192) (i j : Fin 7) : ∃ bit : BitVec 1, val_main_v28 (F := Ideal) x1 x2 (ix3 b i j) = bitR bit :=
  ⟨_, v28_cell x1 x2 b i j⟩
theorem v38_bit (b : Fin 8192) (i j : Fin 7) : ∃ bit : BitVec 1, val_main_v38 (F := Ideal) x1 x2 (ix3 b i j) = bitR bit :=
  ⟨_, v38_cell x1 x2 b i j⟩

end Cert.Yolo.Ref
-- ==== Proof.RefTotals.lean ====
import proofs.«100404_j84018150244766_2_alg».proof.Proof.Gen.ReferenceIdeal.Read
import proofs.«100404_j84018150244766_2_alg».proof.Proof.Spec
import proofs.«100404_j84018150244766_2_alg».proof.Proof.RefLib
import proofs.«100404_j84018150244766_2_alg».proof.Proof.RefCells

open scoped BigOperators
open Cert.ReferenceIdeal Cert.ReferenceIdeal.Read Idealize.ShloMosaic Idealize.ShloMosaic.ValueIdx

namespace Cert.Yolo.Ref

variable (x0 x1 : (⟨S8192x7x7x30, .f32⟩ : BufTy).Contents (Elt Ideal)) (x2 : (⟨S8192x7x7, .i32⟩ : BufTy).Contents (Elt Ideal))

/-! ## The eight masked totals -/

theorem total0 (i : S_.Idx) : val_main_v49 (F := Ideal) x0 x1 x2 i = total 0 x0 x1 x2 := by
  rw [val_main_v49_apply,
    masked_sum (W := 4) 0 (by decide) (val_main_v48 (F := Ideal) x0 x1 x2) x0 (val_main_v18 (F := Ideal) x1 x2)
      (val_main_v23 (F := Ideal) x1 x2)
      (fun b i j k => by
        rw [val_main_v48_apply, val_main_v45_apply, val_main_v44_apply]
        unfold val_main_v39 val_main_v40 val_main_v47 val_main_v46
        rw [sliceW_apply 4 0 (by decide) x0 _ b i j k,
          sliceW_apply 4 0 (by decide) (val_main_v18 (F := Ideal) x1 x2) _ b i j k,
          bcastW_apply 4 (val_main_v23 (F := Ideal) x1 x2) _ _ b i j k]
        rfl)
      (v23_bit x1 x2)]
  unfold total
  refine congrArg (z + ·) (Finset.sum_congr rfl fun b _ => Finset.sum_congr rfl fun i _ => Finset.sum_congr rfl fun j _ => ?_)
  rw [v23_cell]
  show _ = (∑ k : Fin 4, sqd _ _) * m1 _ _
  refine congrArg (· * _) (Finset.sum_congr rfl fun k _ => ?_)
  rw [v18_other x1 x2 b i j _ (by show 0 + k.val ≠ 4; have := k.isLt; omega) (by show 0 + k.val ≠ 9; have := k.isLt; omega)]
  rfl

theorem total1 (i : S_.Idx) : val_main_v61 (F := Ideal) x0 x1 x2 i = total 1 x0 x1 x2 := by
  rw [val_main_v61_apply,
    masked_sum (W := 4) 5 (by decide) (val_main_v60 (F := Ideal) x0 x1 x2) x0 (val_main_v18 (F := Ideal) x1 x2)
      (val_main_v28 (F := Ideal) x1 x2)
      (fun b i j k => by
        rw [val_main_v60_apply, val_main_v57_apply, val_main_v56_apply]
        unfold val_main_v51 val_main_v52 val_main_v59 val_main_v58
        rw [sliceW_apply 4 5 (by decide) x0 _ b i j k,
          sliceW_apply 4 5 (by decide) (val_main_v18 (F := Ideal) x1 x2) _ b i j k,
          bcastW_apply 4 (val_main_v28 (F := Ideal) x1 x2) _ _ b i j k]
        rfl)
      (v28_bit x1 x2)]
  unfold total
  refine congrArg (z + ·) (Finset.sum_congr rfl fun b _ => Finset.sum_congr rfl fun i _ => Finset.sum_congr rfl fun j _ => ?_)
  rw [v28_cell]
  show _ = (∑ k : Fin 4, sqd _ _) * m2 _ _ _
  refine congrArg (· * _) (Finset.sum_congr rfl fun k _ => ?_)
  rw [v18_other x1 x2 b i j _ (by show 5 + k.val ≠ 4; have := k.isLt; omega) (by show 5 + k.val ≠ 9; have := k.isLt; omega)]
  rfl

theorem total2 (i : S_.Idx) : val_main_v73 (F := Ideal) x0 x1 x2 i = total 2 x0 x1 x2 := by
  rw [val_main_v73_apply,
    masked_sum (W := 1) 4 (by decide) (val_main_v72 (F := Ideal) x0 x1 x2) x0 (val_main_v18 (F := Ideal) x1 x2)
      (val_main_v23 (F := Ideal) x1 x2)
      (fun b i j k => by
        rw [val_main_v72_apply, val_main_v70_apply, val_main_v69_apply]
        unfold val_main_v64 val_main_v65 val_main_v71
        rw [sliceW_apply 1 4 (by decide) x0 _ b i j k,
          sliceW_apply 1 4 (by decide) (val_main_v18 (F := Ideal) x1 x2) _ b i j k,
          bcast1_apply (val_main_v23 (F := Ideal) x1 x2) _ b i j k]
        rfl)
      (v23_bit x1 x2)]
  unfold total
  refine congrArg (z + ·) (Finset.sum_congr rfl fun b _ => Finset.sum_congr rfl fun i _ => Finset.sum_congr rfl fun j _ => ?_)
  rw [v23_cell, Fin.sum_univ_one, v18_four x1 x2 b i j _ rfl]
  rfl

theorem total3 (i : S_.Idx) : val_main_v84 (F := Ideal) x0 x1 x2 i = total 3 x0 x1 x2 := by
  rw [val_main_v84_apply,
    masked_sum (W := 1) 9 (by decide) (val_main_v83 (F := Ideal) x0 x1 x2) x0 (val_main_v18 (F := Ideal) x1 x2)
      (val_main_v28 (F := Ideal) x1 x2)
      (fun b i j k => by
        rw [val_main_v83_apply, val_main_v81_apply, val_main_v80_apply]
        unfold val_main_v75 val_main_v76 val_main_v82
        rw [sliceW_apply 1 9 (by decide) x0 _ b i j k,
          sliceW_apply 1 9 (by decide) (val_main_v18 (F := Ideal) x1 x2) _ b i j k,
          bcast1_apply (val_main_v28 (F := Ideal) x1 x2) _ b i j k]
        rfl)
      (v28_bit x1 x2)]
  unfold total
  refine congrArg (z + ·) (Finset.sum_congr rfl fun b _ => Finset.sum_congr rfl fun i _ => Finset.sum_congr rfl fun j _ => ?_)
  rw [v28_cell, Fin.sum_univ_one, v18_nine x1 x2 b i j _ rfl]
  rfl

theorem total4 (i : S_.Idx) : val_main_v97 (F := Ideal) x0 x1 x2 i = total 4 x0 x1 x2 := by
  rw [val_main_v97_apply,
    masked_sum (W := 20) 10 (by decide) (val_main_v96 (F := Ideal) x0 x1 x2) x0 (val_main_v18 (F := Ideal) x1 x2)
      (val_main_v23 (F := Ideal) x1 x2)
      (fun b i j k => by
        rw [val_main_v96_apply, val_main_v93_apply, val_main_v92_apply]
        unfold val_main_v87 val_main_v88 val_main_v95 val_main_v94
        rw [sliceW_apply 20 10 (by decide) x0 _ b i j k,
          sliceW_apply 20 10 (by decide) (val_main_v18 (F := Ideal) x1 x2) _ b i j k,
          bcastW_apply 20 (val_main_v23 (F := Ideal) x1 x2) _ _ b i j k]
        rfl)
      (v23_bit x1 x2)]
  unfold total
  refine congrArg (z + ·) (Finset.sum_congr rfl fun b _ => Finset.sum_congr rfl fun i _ => Finset.sum_congr rfl fun j _ => ?_)
  rw [v23_cell]
  show _ = (∑ k : Fin 20, sqd _ _) * m1 _ _
  refine congrArg (· * _) (Finset.sum_congr rfl fun k _ => ?_)
  rw [v18_other x1 x2 b i j _ (by show 10 + k.val ≠ 4; have := k.isLt; omega) (by show 10 + k.val ≠ 9; have := k.isLt; omega)]
  rfl

theorem total5 (i : S_.Idx) : val_main_v109 (F := Ideal) x0 x1 x2 i = total 5 x0 x1 x2 := by
  rw [val_main_v109_apply,
    masked_sum (W := 20) 10 (by decide) (val_main_v108 (F := Ideal) x0 x1 x2) x0 (val_main_v18 (F := Ideal) x1 x2)
      (val_main_v28 (F := Ideal) x1 x2)
      (fun b i j k => by
        rw [val_main_v108_apply, val_main_v105_apply, val_main_v104_apply]
        unfold val_main_v99 val_main_v100 val_main_v107 val_main_v106
        rw [sliceW_apply 20 10 (by decide) x0 _ b i j k,
          sliceW_apply 20 10 (by decide) (val_main_v18 (F := Ideal) x1 x2) _ b i j k,
          bcastW_apply 20 (val_main_v28 (F := Ideal) x1 x2) _ _ b i j k]
        rfl)
      (v28_bit x1 x2)]
  unfold total
  refine congrArg (z + ·) (Finset.sum_congr rfl fun b _ => Finset.sum_congr rfl fun i _ => Finset.sum_congr rfl fun j _ => ?_)
  rw [v28_cell]
  show _ = (∑ k : Fin 20, sqd _ _) * m2 _ _ _
  refine congrArg (· * _) (Finset.sum_congr rfl fun k _ => ?_)
  rw [v18_other x1 x2 b i j _ (by show 10 + k.val ≠ 4; have := k.isLt; omega) (by show 10 + k.val ≠ 9; have := k.isLt; omega)]
  rfl

theorem total6 (i : S_.Idx) : val_main_v121 (F := Ideal) x0 x1 x2 i = total 6 x0 x1 x2 := by
  rw [val_main_v121_apply,
    masked_sum (W := 1) 4 (by decide) (val_main_v120 (F := Ideal) x0 x1 x2) x0 (val_main_v18 (F := Ideal) x1 x2)
      (val_main_v38 (F := Ideal) x1 x2)
      (fun b i j k => by
        rw [val_main_v120_apply, val_main_v118_apply, val_main_v117_apply]
        unfold val_main_v112 val_main_v113 val_main_v119
        rw [sliceW_apply 1 4 (by decide) x0 _ b i j k,
          sliceW_apply 1 4 (by decide) (val_main_v18 (F := Ideal) x1 x2) _ b i j k,
          bcast1_apply (val_main_v38 (F := Ideal) x1 x2) _ b i j k]
        rfl)
      (v38_bit x1 x2)]
  unfold total
  refine congrArg (z + ·) (Finset.sum_congr rfl fun b _ => Finset.sum_congr rfl fun i _ => Finset.sum_congr rfl fun j _ => ?_)
  rw [v38_cell, Fin.sum_univ_one, v18_four x1 x2 b i j _ rfl]
  rfl

theorem total7 (i : S_.Idx) : val_main_v132 (F := Ideal) x0 x1 x2 i = total 7 x0 x1 x2 := by
  rw [val_main_v132_apply,
    masked_sum (W := 1) 9 (by decide) (val_main_v131 (F := Ideal) x0 x1 x2) x0 (val_main_v18 (F := Ideal) x1 x2)
      (val_main_v38 (F := Ideal) x1 x2)
      (fun b i j k => by
        rw [val_main_v131_apply, val_main_v129_apply, val_main_v128_apply]
        unfold val_main_v123 val_main_v124 val_main_v130
        rw [sliceW_apply 1 9 (by decide) x0 _ b i j k,
          sliceW_apply 1 9 (by decide) (val_main_v18 (F := Ideal) x1 x2) _ b i j k,
          bcast1_apply (val_main_v38 (F := Ideal) x1 x2) _ b i j k]
        rfl)
      (v38_bit x1 x2)]
  unfold total
  refine congrArg (z + ·) (Finset.sum_congr rfl fun b _ => Finset.sum_congr rfl fun i _ => Finset.sum_congr rfl fun j _ => ?_)
  rw [v38_cell, Fin.sum_univ_one, v18_nine x1 x2 b i j _ rfl]
  rfl

/-! ## The mask counts (the reference recomputes them for every mean) -/

theorem count41 (i : S_.Idx) : val_main_v41 (F := Ideal) x1 x2 i = total 8 x0 x1 x2 := by
  rw [val_main_v41_apply, sum_idx3]
  unfold total
  refine congrArg (z + ·) (Finset.sum_congr rfl fun b _ => Finset.sum_congr rfl fun i _ => Finset.sum_congr rfl fun j _ => ?_)
  rw [v23_cell]
  rfl

theorem count66 (i : S_.Idx) : val_main_v66 (F := Ideal) x1 x2 i = total 8 x0 x1 x2 := by
  rw [val_main_v66_apply, sum_idx3]
  unfold total
  refine congrArg (z + ·) (Finset.sum_congr rfl fun b _ => Finset.sum_congr rfl fun i _ => Finset.sum_congr rfl fun j _ => ?_)
  rw [v23_cell]
  rfl

theorem count89 (i : S_.Idx) : val_main_v89 (F := Ideal) x1 x2 i = total 8 x0 x1 x2 := by
  rw [val_main_v89_apply, sum_idx3]
  unfold total
  refine congrArg (z + ·) (Finset.sum_congr rfl fun b _ => Finset.sum_congr rfl fun i _ => Finset.sum_congr rfl fun j _ => ?_)
  rw [v23_cell]
  rfl

theorem count53 (i : S_.Idx) : val_main_v53 (F := Ideal) x1 x2 i = total 9 x0 x1 x2 := by
  rw [val_main_v53_apply, sum_idx3]
  unfold total
  refine congrArg (z + ·) (Finset.sum_congr rfl fun b _ => Finset.sum_congr rfl fun i _ => Finset.sum_congr rfl fun j _ => ?_)
  rw [v28_cell]
  rfl

theorem count77 (i : S_.Idx) : val_main_v77 (F := Ideal) x1 x2 i = total 9 x0 x1 x2 := by
  rw [val_main_v77_apply, sum_idx3]
  unfold total
  refine congrArg (z + ·) (Finset.sum_congr rfl fun b _ => Finset.sum_congr rfl fun i _ => Finset.sum_congr rfl fun j _ => ?_)
  rw [v28_cell]
  rfl

theorem count101 (i : S_.Idx) : val_main_v101 (F := Ideal) x1 x2 i = total 9 x0 x1 x2 := by
  rw [val_main_v101_apply, sum_idx3]
  unfold total
  refine congrArg (z + ·) (Finset.sum_congr rfl fun b _ => Finset.sum_congr rfl fun i _ => Finset.sum_congr rfl fun j _ => ?_)
  rw [v28_cell]
  rfl

theorem count114 (i : S_.Idx) : val_main_v114 (F := Ideal) x1 x2 i = total 10 x0 x1 x2 := by
  rw [val_main_v114_apply, sum_idx3]
  unfold total
  refine congrArg (z + ·) (Finset.sum_congr rfl fun b _ => Finset.sum_congr rfl fun i _ => Finset.sum_congr rfl fun j _ => ?_)
  rw [v38_cell]
  rfl

theorem count125 (i : S_.Idx) : val_main_v125 (F := Ideal) x1 x2 i = total 10 x0 x1 x2 := by
  rw [val_main_v125_apply, sum_idx3]
  unfold total
  refine congrArg (z + ·) (Finset.sum_congr rfl fun b _ => Finset.sum_congr rfl fun i _ => Finset.sum_congr rfl fun j _ => ?_)
  rw [v38_cell]
  rfl

end Cert.Yolo.Ref
-- ==== Proof.RefIsSpec.lean ====
/-
  The reference program computes the specified loss: each of its four results, read at the exact-real instance, is the
  corresponding quotient of the eleven cell totals. Every total was identified with the specification's in the module of
  the totals; what is left is the scalar tail: a maximum with one, a product with the channel count, a quotient, a sum
  of two means, a scale factor and the division by the batch size.
-/
import proofs.«100404_j84018150244766_2_alg».proof.Proof.Gen.ReferenceIdeal.Read
import proofs.«100404_j84018150244766_2_alg».proof.Proof.Spec
import proofs.«100404_j84018150244766_2_alg».proof.Proof.RefLib
import proofs.«100404_j84018150244766_2_alg».proof.Proof.RefCells
import proofs.«100404_j84018150244766_2_alg».proof.Proof.RefTotals

open scoped BigOperators
open Cert.ReferenceIdeal Cert.ReferenceIdeal.Read Idealize.ShloMosaic Idealize.ShloMosaic.ValueIdx

namespace Cert.Yolo.Ref

/-! ## The four results -/

theorem ref_result0 (x0 x1 : (⟨S8192x7x7x30, .f32⟩ : BufTy).Contents (Elt Ideal)) (x2 : (⟨S8192x7x7, .i32⟩ : BufTy).Contents (Elt Ideal)) (i : S_.Idx) :
    val_main_v136 (F := Ideal) x0 x1 x2 i = Cert.Yolo.result 0 x0 x1 x2 := by
  rw [val_main_v136_apply, val_main_v135_apply, val_main_v63_apply, val_main_v50_apply, val_main_v43_apply, val_main_v42_apply, val_main_v62_apply, val_main_v55_apply, val_main_v54_apply,
    total0, count41 x0, total1, count53 x0]
  rfl

theorem ref_result1 (x0 x1 : (⟨S8192x7x7x30, .f32⟩ : BufTy).Contents (Elt Ideal)) (x2 : (⟨S8192x7x7, .i32⟩ : BufTy).Contents (Elt Ideal)) (i : S_.Idx) :
    val_main_v137 (F := Ideal) x0 x1 x2 i = Cert.Yolo.result 1 x0 x1 x2 := by
  rw [val_main_v137_apply, val_main_v111_apply, val_main_v98_apply, val_main_v91_apply, val_main_v90_apply, val_main_v110_apply, val_main_v103_apply, val_main_v102_apply,
    total4, count89 x0, total5, count101 x0]
  rfl

theorem ref_result2 (x0 x1 : (⟨S8192x7x7x30, .f32⟩ : BufTy).Contents (Elt Ideal)) (x2 : (⟨S8192x7x7, .i32⟩ : BufTy).Contents (Elt Ideal)) (i : S_.Idx) :
    val_main_v138 (F := Ideal) x0 x1 x2 i = Cert.Yolo.result 2 x0 x1 x2 := by
  rw [val_main_v138_apply, val_main_v86_apply, val_main_v74_apply, val_main_v68_apply, val_main_v67_apply, val_main_v85_apply, val_main_v79_apply, val_main_v78_apply,
    total2, count66 x0, total3, count77 x0]
  rfl

theorem ref_result3 (x0 x1 : (⟨S8192x7x7x30, .f32⟩ : BufTy).Contents (Elt Ideal)) (x2 : (⟨S8192x7x7, .i32⟩ : BufTy).Contents (Elt Ideal)) (i : S_.Idx) :
    val_main_v140 (F := Ideal) x0 x1 x2 i = Cert.Yolo.result 3 x0 x1 x2 := by
  rw [val_main_v140_apply, val_main_v139_apply, val_main_v134_apply, val_main_v122_apply, val_main_v116_apply, val_main_v115_apply, val_main_v133_apply, val_main_v127_apply, val_main_v126_apply,
    total6, count114 x0, total7, count125 x0]
  rfl

end Cert.Yolo.Ref
-- ==== Proof.lean ====
/-
  The certificate of a YOLO-style detection loss computed two ways.

  The kernel walks the batch in 64 blocks of 128 rows on a 2 x 32 grid.  At each block it clears, per cell, one of the
  two box confidences of the target by a coin, forms three 0/1 masks from the cleared confidences, and adds eleven
  masked partial sums (squared coordinate, confidence and class errors, and the three mask counts) into eleven
  one-entry accumulators, restarted at the first block of each half of the grid and written back after its last; the
  host then adds the two halves and forms four quotients.  The reference clears the confidences on the whole arrays,
  and takes each masked mean as one sum over every index divided by max(count, 1) times the width.

  Both are the same function of the three argument arrays over the extended reals (Spec.lean: `Cert.Yolo.result`):
  a sum over all cells may be taken block by block, row by row and cell by cell in any grouping (addition of
  extended reals is commutative and associative), and a 0/1 mask may be multiplied into a finite sum term by term.
  Neither step needs the inputs to be finite, so the precondition is never opened.

  The frames of the two kernel programs are proved from the body's two runs (restart / continue), the accumulators'
  contents by recursion on the grid point, and the launch rule for a region followed by host lines; the reference's
  frame is its generated run.  The idealization rewrote nothing, so `preserves` is `True`.
-/
import proofs.«100404_j84018150244766_2_alg».proof.Defs
import proofs.«100404_j84018150244766_2_alg».proof.Proof.Gen.Kernel
import proofs.«100404_j84018150244766_2_alg».proof.Proof.Gen.KernelIdeal
import proofs.«100404_j84018150244766_2_alg».proof.Proof.Gen.ReferenceIdeal
import proofs.«100404_j84018150244766_2_alg».proof.Proof.Gen.Pre_finite_inputs
import proofs.«100404_j84018150244766_2_alg».proof.Proof.Gen.ReferenceIdeal.Run
import proofs.«100404_j84018150244766_2_alg».proof.Proof.Gen.ReferenceIdeal.Read
import proofs.«100404_j84018150244766_2_alg».proof.Proof.FrameB
import proofs.«100404_j84018150244766_2_alg».proof.Proof.FrameI
import proofs.«100404_j84018150244766_2_alg».proof.Proof.KValue
import proofs.«100404_j84018150244766_2_alg».proof.Proof.RefIsSpec
import Idealize.ShloMosaic.Adequacy
import Idealize.ShloMosaic.Init

noncomputable section

namespace Cert.Proof

open Idealize.ShloMosaic Idealize.SL.Sem

/-- The word-level kernel runs to the end and leaves its three arguments as they were. -/
theorem frame_k : Cert.frame_Kernel :=
  fun m ρ _ => Cert.Kernel.Frame.frame (F := Bits) m ρ

/-- So does the kernel read over the extended reals. -/
theorem frame_ki : Cert.frame_KernelIdeal :=
  fun m ρ _ => Cert.KernelIdeal.Frame.frame (F := Ideal) m ρ

/-- The reference's frame is its run with the results dropped. -/
theorem frame_ri : Cert.frame_ReferenceIdeal := fun m ρ _ =>
  (θ_run Cert.ReferenceIdeal.defs _ _).mono (fun _ h c => ⟨(h c).2.2.2.2.1, (h c).2.2.2.2.2.1, (h c).2.2.2.2.2.2⟩)
    (Cert.ReferenceIdeal.Value.run (F := Ideal) m ρ)

/-- Over the extended reals both programs end with the four results of `Cert.Yolo.result` of the argument arrays. -/
theorem algebraic :
    Cert.algebraic_KernelIdeal_ReferenceIdeal := by
  intro m ρ m' ρ' _ hagree
  refine ⟨_, _, _, _, Cert.KernelIdeal.KV.kernel_run m ρ, ?_⟩
  refine (θ_run Cert.ReferenceIdeal.defs _ _).mono (fun _ h c => ?_) (Cert.ReferenceIdeal.Value.run (F := Ideal) m' ρ')
  obtain ⟨h0, h1, h2, h3, ha0, ha1, ha2⟩ := h c
  refine ⟨h0.trans ?_, h1.trans ?_, h2.trans ?_, h3.trans ?_, ha0, ha1, ha2⟩
  · rw [Cert.ReferenceIdeal.Read.val_main_v136_eq, (hagree c).1, (hagree c).2.1, (hagree c).2.2]
    exact funext fun i => Cert.Yolo.Ref.ref_result0 _ _ _ i
  · rw [Cert.ReferenceIdeal.Read.val_main_v137_eq, (hagree c).1, (hagree c).2.1, (hagree c).2.2]
    exact funext fun i => Cert.Yolo.Ref.ref_result1 _ _ _ i
  · rw [Cert.ReferenceIdeal.Read.val_main_v138_eq, (hagree c).1, (hagree c).2.1, (hagree c).2.2]
    exact funext fun i => Cert.Yolo.Ref.ref_result2 _ _ _ i
  · rw [Cert.ReferenceIdeal.Read.val_main_v140_eq, (hagree c).1, (hagree c).2.1, (hagree c).2.2]
    exact funext fun i => Cert.Yolo.Ref.ref_result3 _ _ _ i

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
